-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x96 : Shape := ⟨3, ![4096, 16, 96]⟩
abbrev S4096x64x66 : Shape := ⟨3, ![4096, 64, 66]⟩
abbrev S_ : Shape := ⟨0, ![]⟩

class Facts : Prop where
  bcast_S_S4096x16x96 : S_.BroadcastsInDim S4096x16x96 (![] : Fin 0 → Fin S4096x16x96.rank)
  reducesTo_S4096x16x96_S_d0_1_2 : S4096x16x96.ReducesTo [0, 1, 2] S_
  h_S_ : 0 < S_.numel
  bcast_S_S4096x64x66 : S_.BroadcastsInDim S4096x64x66 (![] : Fin 0 → Fin S4096x64x66.rank)
  reducesTo_S4096x64x66_S_d0_1_2 : S4096x64x66.ReducesTo [0, 1, 2] S_

variable [Facts]

def fn {F : FTy → Type} [FloatOps F] (main_arg0 : FVec F S4096x16x96 .f32) (main_arg1 : FVec F S4096x64x66 .f32) : IVec S_ 1 :=
  let main_v0 : FVec F S4096x16x96 .f32 := Host.absf main_arg0
  let main_cst : FVec F S_ .f32 := constant S_ .f32 0x7F800000#32
  let main_v1 : FVec F S4096x16x96 .f32 := broadcastInDim S4096x16x96 ![] bcast_S_S4096x16x96 main_cst
  let main_v2 : IVec S4096x16x96 1 := cmpf .olt main_v0 main_v1
  let main_c : IVec S_ 1 := constantI S_ 1 1#1
  let main_v3 : IVec S_ 1 := (fun x v => Host.reduce IntOp.andi x v reducesTo_S4096x16x96_S_d0_1_2 h_S_) main_v2 main_c
  let main_v4 : FVec F S4096x64x66 .f32 := Host.absf main_arg1
  let main_cst_0 : FVec F S_ .f32 := constant S_ .f32 0x7F800000#32
  let main_v5 : FVec F S4096x64x66 .f32 := broadcastInDim S4096x64x66 ![] bcast_S_S4096x64x66 main_cst_0
  let main_v6 : IVec S4096x64x66 1 := cmpf .olt main_v4 main_v5
  let main_c_1 : IVec S_ 1 := constantI S_ 1 1#1
  let main_v7 : IVec S_ 1 := (fun x v => Host.reduce IntOp.andi x v reducesTo_S4096x64x66_S_d0_1_2 h_S_) main_v6 main_c_1
  let main_v8 : IVec S_ 1 := andi main_v3 main_v7
  main_v8
-- ==== Kernel.lean ====
abbrev S4096x16x96 : Shape := ⟨3, ![4096, 16, 96]⟩
abbrev S4096x64x66 : Shape := ⟨3, ![4096, 64, 66]⟩
abbrev S4 : Shape := ⟨1, ![4]⟩
abbrev S4096x1x96 : Shape := ⟨3, ![4096, 1, 96]⟩
abbrev S4096x96 : Shape := ⟨2, ![4096, 96]⟩
abbrev S4096x32x3 : Shape := ⟨3, ![4096, 32, 3]⟩
abbrev S_ : Shape := ⟨0, ![]⟩
abbrev S4x1 : Shape := ⟨2, ![4, 1]⟩
abbrev S4096x4x3 : Shape := ⟨3, ![4096, 4, 3]⟩
abbrev S4096x64x96 : Shape := ⟨3, ![4096, 64, 96]⟩
abbrev S64x64x66 : Shape := ⟨3, ![64, 64, 66]⟩
abbrev S64x4x3 : Shape := ⟨3, ![64, 4, 3]⟩
abbrev S64x64x96 : Shape := ⟨3, ![64, 64, 96]⟩
abbrev S64x1x3 : Shape := ⟨3, ![64, 1, 3]⟩
abbrev S64x64x3 : Shape := ⟨3, ![64, 64, 3]⟩
abbrev S64x64x1 : Shape := ⟨3, ![64, 64, 1]⟩
abbrev S64x64 : Shape := ⟨2, ![64, 64]⟩

abbrev nBuf : Space → Nat
  | .hbm => 14
  | .vmem => 6
  | .smem => 0
  | _ => 0

abbrev bufTy : (tb : Table) → Fin (tcTables nBuf tb) → BufTy
  | .hbm, ⟨0, _⟩ => ⟨S4096x16x96, .f32⟩
  | .hbm, ⟨1, _⟩ => ⟨S4096x64x66, .f32⟩
  | .hbm, ⟨2, _⟩ => ⟨S4, .i32⟩
  | .hbm, ⟨3, _⟩ => ⟨S4, .i1⟩
  | .hbm, ⟨4, _⟩ => ⟨S4096x1x96, .f32⟩
  | .hbm, ⟨5, _⟩ => ⟨S4096x96, .f32⟩
  | .hbm, ⟨6, _⟩ => ⟨S4096x32x3, .f32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S4x1, .i32⟩
  | .hbm, ⟨12, _⟩ => ⟨S4096x4x3, .f32⟩
  | .hbm, ⟨13, _⟩ => ⟨S4096x64x96, .f32⟩
  | .local _ .vmem, ⟨0, _⟩ => ⟨S64x64x66, .f32⟩
  | .local _ .vmem, ⟨1, _⟩ => ⟨S64x64x66, .f32⟩
  | .local _ .vmem, ⟨2, _⟩ => ⟨S64x4x3, .f32⟩
  | .local _ .vmem, ⟨3, _⟩ => ⟨S64x4x3, .f32⟩
  | .local _ .vmem, ⟨4, _⟩ => ⟨S64x64x96, .f32⟩
  | .local _ .vmem, ⟨5, _⟩ => ⟨S64x64x96, .f32⟩
  | _, _ => ⟨S4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x66 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S4096x16x96_S4096x1x96_0_15_0 : S4096x16x96.Slices ![0, 15, 0] S4096x1x96
  shapeCasts_S4096x1x96_S4096x96 : S4096x1x96.ShapeCasts S4096x96
  shapeCasts_S4096x96_S4096x32x3 : S4096x96.ShapeCasts S4096x32x3
  bcast_S_S4 : S_.BroadcastsInDim S4 (![] : Fin 0 → Fin S4.rank)
  bcast_S4_S4x1_0 : S4.BroadcastsInDim S4x1 (![0] : Fin 1 → Fin S4x1.rank)
  inb_S64x4x3_S64x1x3_0_0_0 : ∀ a, (![0, 0, 0] : Fin 3 → Nat) a + S64x1x3.size a ≤ S64x4x3.size a
  h_S64x1x3 : 0 < S64x1x3.numel
  shapeCasts_S64x1x3_S64x1x3 : S64x1x3.ShapeCasts S64x1x3
  broadcasts_S64x1x3_S64x64x3 : S64x1x3.Broadcasts S64x64x3
  inb_S64x64x96_S64x64x3_0_0_0 : ∀ a, (![0, 0, 0] : Fin 3 → Nat) a + S64x64x3.size a ≤ S64x64x96.size a
  h_S64x64x3 : 0 < S64x64x3.numel
  inb_S64x4x3_S64x1x3_0_1_0 : ∀ a, (![0, 1, 0] : Fin 3 → Nat) a + S64x1x3.size a ≤ S64x4x3.size a
  inb_S64x64x96_S64x64x3_0_0_3 : ∀ a, (![0, 0, 3] : Fin 3 → Nat) a + S64x64x3.size a ≤ S64x64x96.size a
  inb_S64x4x3_S64x1x3_0_2_0 : ∀ a, (![0, 2, 0] : Fin 3 → Nat) a + S64x1x3.size a ≤ S64x4x3.size a
  inb_S64x64x96_S64x64x3_0_0_18 : ∀ a, (![0, 0, 18] : Fin 3 → Nat) a + S64x64x3.size a ≤ S64x64x96.size a
  inb_S64x4x3_S64x1x3_0_3_0 : ∀ a, (![0, 3, 0] : Fin 3 → Nat) a + S64x1x3.size a ≤ S64x4x3.size a
  inb_S64x64x96_S64x64x3_0_0_33 : ∀ a, (![0, 0, 33] : Fin 3 → Nat) a + S64x64x3.size a ≤ S64x64x96.size a
  inb_S64x64x66_S64x64x3_0_0_0 : ∀ a, (![0, 0, 0] : Fin 3 → Nat) a + S64x64x3.size a ≤ S64x64x66.size a
  slices_S64x64x3_o0_0_0_S64x64x1 : S64x64x3.Slices ![0, 0, 0] S64x64x1
  shapeCasts_S64x64x1_S64x64 : S64x64x1.ShapeCasts S64x64
  slices_S64x64x3_o0_0_1_S64x64x1 : S64x64x3.Slices ![0, 0, 1] S64x64x1
  slices_S64x64x3_o0_0_2_S64x64x1 : S64x64x3.Slices ![0, 0, 2] S64x64x1
  shapeCasts_S64x64_S64x64x1 : S64x64.ShapeCasts S64x64x1
  concatenates_S64x64x1_S64x64x1_S64x64x1_S64x64x3_d2 : Shape.Concatenates [S64x64x1, S64x64x1, S64x64x1] S64x64x3 2
  inb_S64x64x96_S64x64x3_0_0_36 : ∀ a, (![0, 0, 36] : Fin 3 → Nat) a + S64x64x3.size a ≤ S64x64x96.size a
  inb_S64x64x66_S64x64x3_0_0_3 : ∀ a, (![0, 0, 3] : Fin 3 → Nat) a + S64x64x3.size a ≤ S64x64x66.size a
  inb_S64x64x96_S64x64x3_0_0_39 : ∀ a, (![0, 0, 39] : Fin 3 → Nat) a + S64x64x3.size a ≤ S64x64x96.size a
  inb_S64x64x66_S64x64x3_0_0_6 : ∀ a, (![0, 0, 6] : Fin 3 → Nat) a + S64x64x3.size a ≤ S64x64x66.size a
  inb_S64x64x96_S64x64x3_0_0_42 : ∀ a, (![0, 0, 42] : Fin 3 → Nat) a + S64x64x3.size a ≤ S64x64x96.size a
  inb_S64x64x66_S64x64x3_0_0_9 : ∀ a, (![0, 0, 9] : Fin 3 → Nat) a + S64x64x3.size a ≤ S64x64x66.size a
  inb_S64x64x96_S64x64x3_0_0_45 : ∀ a, (![0, 0, 45] : Fin 3 → Nat) a + S64x64x3.size a ≤ S64x64x96.size a
  inb_S64x64x66_S64x64x3_0_0_12 : ∀ a, (![0, 0, 12] : Fin 3 → Nat) a + S64x64x3.size a ≤ S64x64x66.size a
  inb_S64x64x96_S64x64x3_0_0_75 : ∀ a, (![0, 0, 75] : Fin 3 → Nat) a + S64x64x3.size a ≤ S64x64x96.size a
  inb_S64x64x66_S64x64x3_0_0_15 : ∀ a, (![0, 0, 15] : Fin 3 → Nat) a + S64x64x3.size a ≤ S64x64x66.size a
  inb_S64x64x96_S64x64x3_0_0_78 : ∀ a, (![0, 0, 78] : Fin 3 → Nat) a + S64x64x3.size a ≤ S64x64x96.size a
  inb_S64x64x66_S64x64x3_0_0_18 : ∀ a, (![0, 0, 18] : Fin 3 → Nat) a + S64x64x3.size a ≤ S64x64x66.size a
  inb_S64x64x96_S64x64x3_0_0_81 : ∀ a, (![0, 0, 81] : Fin 3 → Nat) a + S64x64x3.size a ≤ S64x64x96.size a
  inb_S64x64x66_S64x64x3_0_0_21 : ∀ a, (![0, 0, 21] : Fin 3 → Nat) a + S64x64x3.size a ≤ S64x64x66.size a
  inb_S64x64x96_S64x64x3_0_0_87 : ∀ a, (![0, 0, 87] : Fin 3 → Nat) a + S64x64x3.size a ≤ S64x64x96.size a
  inb_S64x64x66_S64x64x3_0_0_24 : ∀ a, (![0, 0, 24] : Fin 3 → Nat) a + S64x64x3.size a ≤ S64x64x66.size a
  inb_S64x64x96_S64x64x3_0_0_90 : ∀ a, (![0, 0, 90] : Fin 3 → Nat) a + S64x64x3.size a ≤ S64x64x96.size a
  inb_S64x64x66_S64x64x3_0_0_27 : ∀ a, (![0, 0, 27] : Fin 3 → Nat) a + S64x64x3.size a ≤ S64x64x66.size a
  inb_S64x64x96_S64x64x3_0_0_51 : ∀ a, (![0, 0, 51] : Fin 3 → Nat) a + S64x64x3.size a ≤ S64x64x96.size a
  inb_S64x64x66_S64x64x3_0_0_30 : ∀ a, (![0, 0, 30] : Fin 3 → Nat) a + S64x64x3.size a ≤ S64x64x66.size a
  inb_S64x64x96_S64x64x3_0_0_54 : ∀ a, (![0, 0, 54] : Fin 3 → Nat) a + S64x64x3.size a ≤ S64x64x96.size a
  inb_S64x64x66_S64x64x3_0_0_33 : ∀ a, (![0, 0, 33] : Fin 3 → Nat) a + S64x64x3.size a ≤ S64x64x66.size a
  inb_S64x64x96_S64x64x3_0_0_57 : ∀ a, (![0, 0, 57] : Fin 3 → Nat) a + S64x64x3.size a ≤ S64x64x96.size a
  inb_S64x64x66_S64x64x3_0_0_36 : ∀ a, (![0, 0, 36] : Fin 3 → Nat) a + S64x64x3.size a ≤ S64x64x66.size a
  inb_S64x64x96_S64x64x3_0_0_63 : ∀ a, (![0, 0, 63] : Fin 3 → Nat) a + S64x64x3.size a ≤ S64x64x96.size a
  inb_S64x64x66_S64x64x3_0_0_39 : ∀ a, (![0, 0, 39] : Fin 3 → Nat) a + S64x64x3.size a ≤ S64x64x66.size a
  inb_S64x64x96_S64x64x3_0_0_66 : ∀ a, (![0, 0, 66] : Fin 3 → Nat) a + S64x64x3.size a ≤ S64x64x96.size a
  inb_S64x64x66_S64x64x3_0_0_42 : ∀ a, (![0, 0, 42] : Fin 3 → Nat) a + S64x64x3.size a ≤ S64x64x66.size a
  inb_S64x64x96_S64x64x3_0_0_6 : ∀ a, (![0, 0, 6] : Fin 3 → Nat) a + S64x64x3.size a ≤ S64x64x96.size a
  inb_S64x64x66_S64x64x3_0_0_45 : ∀ a, (![0, 0, 45] : Fin 3 → Nat) a + S64x64x3.size a ≤ S64x64x66.size a
  inb_S64x64x96_S64x64x3_0_0_9 : ∀ a, (![0, 0, 9] : Fin 3 → Nat) a + S64x64x3.size a ≤ S64x64x96.size a
  inb_S64x64x66_S64x64x3_0_0_48 : ∀ a, (![0, 0, 48] : Fin 3 → Nat) a + S64x64x3.size a ≤ S64x64x66.size a
  inb_S64x64x96_S64x64x3_0_0_12 : ∀ a, (![0, 0, 12] : Fin 3 → Nat) a + S64x64x3.size a ≤ S64x64x96.size a
  inb_S64x64x66_S64x64x3_0_0_51 : ∀ a, (![0, 0, 51] : Fin 3 → Nat) a + S64x64x3.size a ≤ S64x64x66.size a
  inb_S64x64x96_S64x64x3_0_0_15 : ∀ a, (![0, 0, 15] : Fin 3 → Nat) a + S64x64x3.size a ≤ S64x64x96.size a
  inb_S64x64x66_S64x64x3_0_0_54 : ∀ a, (![0, 0, 54] : Fin 3 → Nat) a + S64x64x3.size a ≤ S64x64x66.size a
  inb_S64x64x96_S64x64x3_0_0_21 : ∀ a, (![0, 0, 21] : Fin 3 → Nat) a + S64x64x3.size a ≤ S64x64x96.size a
  inb_S64x64x66_S64x64x3_0_0_57 : ∀ a, (![0, 0, 57] : Fin 3 → Nat) a + S64x64x3.size a ≤ S64x64x66.size a
  inb_S64x64x96_S64x64x3_0_0_24 : ∀ a, (![0, 0, 24] : Fin 3 → Nat) a + S64x64x3.size a ≤ S64x64x96.size a
  inb_S64x64x66_S64x64x3_0_0_60 : ∀ a, (![0, 0, 60] : Fin 3 → Nat) a + S64x64x3.size a ≤ S64x64x66.size a
  inb_S64x64x96_S64x64x3_0_0_27 : ∀ a, (![0, 0, 27] : Fin 3 → Nat) a + S64x64x3.size a ≤ S64x64x96.size a
  inb_S64x64x66_S64x64x3_0_0_63 : ∀ a, (![0, 0, 63] : Fin 3 → Nat) a + S64x64x3.size a ≤ S64x64x66.size a
  inb_S64x64x96_S64x64x3_0_0_30 : ∀ a, (![0, 0, 30] : Fin 3 → Nat) a + S64x64x3.size a ≤ S64x64x96.size a
  shapeCasts_S64x64x3_S64x64x3 : S64x64x3.ShapeCasts S64x64x3
  inb_S64x64x96_S64x64x3_0_0_48 : ∀ a, (![0, 0, 48] : Fin 3 → Nat) a + S64x64x3.size a ≤ S64x64x96.size a
  inb_S64x64x96_S64x64x3_0_0_60 : ∀ a, (![0, 0, 60] : Fin 3 → Nat) a + S64x64x3.size a ≤ S64x64x96.size a
  inb_S64x64x96_S64x64x3_0_0_69 : ∀ a, (![0, 0, 69] : Fin 3 → Nat) a + S64x64x3.size a ≤ S64x64x96.size a
  inb_S64x64x96_S64x64x3_0_0_72 : ∀ a, (![0, 0, 72] : Fin 3 → Nat) a + S64x64x3.size a ≤ S64x64x96.size a
  inb_S64x64x96_S64x64x3_0_0_84 : ∀ a, (![0, 0, 84] : Fin 3 → Nat) a + S64x64x3.size a ≤ S64x64x96.size a
  inb_S64x64x96_S64x64x3_0_0_93 : ∀ a, (![0, 0, 93] : Fin 3 → Nat) a + S64x64x3.size a ≤ S64x64x96.size a
  gather_S4096x32x3_S4x1_S4096x4x3_02_1_n_n_1_1_409613_wf : GatherDims.WF S4096x32x3 S4x1 S4096x4x3 [0, 2] [1] [] [1] [] 1 ![4096, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x66.size a ≤ S4096x64x66.size a
  hwx0_0 : ∀ i : grid0.Coords, EltTy.bits .f32 = 32 ∨ (Rect.block (s := S4096x64x66) S64x64x66.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4x3.size a ≤ S4096x4x3.size a
  hwx0_1 : ∀ i : grid0.Coords, EltTy.bits .f32 = 32 ∨ (Rect.block (s := S4096x4x3) S64x4x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x96.size a ≤ S4096x64x96.size a
  hwx0_2 : ∀ i : grid0.Coords, EltTy.bits .f32 = 32 ∨ (Rect.block (s := S4096x64x96) S64x64x96.size (cc0_transform_2 i) (hinb0_2 i)).WholeWords (EltTy.packing .f32)

variable [Facts₀]

def gather_S4096x32x3_S4x1_S4096x4x3_02_1_n_n_1_1_409613 : GatherDims S4096x32x3 S4x1 S4096x4x3 where
  offsetDims := [0, 2]
  collapsedSliceDims := [1]
  operandBatchingDims := []
  startIndicesBatchingDims := []
  startIndexMap := [1]
  indexVectorDim := 1
  sliceSizes := ![4096, 1, 3]
  wf := gather_S4096x32x3_S4x1_S4096x4x3_02_1_n_n_1_1_409613_wf

abbrev win0_0 : Pipeline.Window sig grid0 :=
  Pipeline.Window.ofSpec (Memref.whole main_arg1) S64x64x66.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x4x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x64x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x16x96 : Shape := ⟨3, ![4096, 16, 96]⟩
abbrev S4096x64x66 : Shape := ⟨3, ![4096, 64, 66]⟩
abbrev S4 : Shape := ⟨1, ![4]⟩
abbrev S22 : Shape := ⟨1, ![22]⟩
abbrev S6 : Shape := ⟨1, ![6]⟩
abbrev S4096x16x32x3 : Shape := ⟨4, ![4096, 16, 32, 3]⟩
abbrev S4096x64x22x3 : Shape := ⟨4, ![4096, 64, 22, 3]⟩
abbrev S4096x64x22x1 : Shape := ⟨4, ![4096, 64, 22, 1]⟩
abbrev S4096x64x22 : Shape := ⟨3, ![4096, 64, 22]⟩
abbrev S_ : Shape := ⟨0, ![]⟩
abbrev S4096x64x32x3 : Shape := ⟨4, ![4096, 64, 32, 3]⟩
abbrev S4x1 : Shape := ⟨2, ![4, 1]⟩
abbrev S4x2 : Shape := ⟨2, ![4, 2]⟩
abbrev S4096x1x4x3 : Shape := ⟨4, ![4096, 1, 4, 3]⟩
abbrev S4096x64x4x3 : Shape := ⟨4, ![4096, 64, 4, 3]⟩
abbrev S22x1 : Shape := ⟨2, ![22, 1]⟩
abbrev S4096x64x1x3 : Shape := ⟨4, ![4096, 64, 1, 3]⟩
abbrev S4096x64x3 : Shape := ⟨3, ![4096, 64, 3]⟩
abbrev S1 : Shape := ⟨1, ![1]⟩
abbrev S6x1 : Shape := ⟨2, ![6, 1]⟩
abbrev S4096x64x6x3 : Shape := ⟨4, ![4096, 64, 6, 3]⟩
abbrev S4096x64x96 : Shape := ⟨3, ![4096, 64, 96]⟩

abbrev nBuf : Space → Nat
  | .hbm => 179
  | .vmem => 0
  | .smem => 0
  | _ => 0

abbrev hbmTy0_0 (i : Nat) : BufTy := match i % 128 with
  | 0 => ⟨S4096x16x96, .f32⟩
  | 1 => ⟨S4096x64x66, .f32⟩
  | 2 => ⟨S4, .i32⟩
  | 3 => ⟨S4, .i1⟩
  | 4 => ⟨S4, .i1⟩
  | 5 => ⟨S22, .i32⟩
  | 6 => ⟨S22, .i1⟩
  | 7 => ⟨S6, .i32⟩
  | 8 => ⟨S6, .i1⟩
  | 9 => ⟨S6, .i32⟩
  | 10 => ⟨S6, .i1⟩
  | 11 => ⟨S4096x16x32x3, .f32⟩
  | 12 => ⟨S4096x64x22x3, .f32⟩
  | 13 => ⟨S4096x64x22x1, .f32⟩
  | 14 => ⟨S4096x64x22, .f32⟩
  | 15 => ⟨S4096x64x22x1, .f32⟩
  | 16 => ⟨S4096x64x22, .f32⟩
  | 17 => ⟨S4096x64x22x1, .f32⟩
  | 18 => ⟨S4096x64x22, .f32⟩
  | 19 => ⟨S4096x64x22, .f32⟩
  | 20 => ⟨S4096x64x22, .f32⟩
  | 21 => ⟨S4096x64x22, .f32⟩
  | 22 => ⟨S4096x64x22, .f32⟩
  | 23 => ⟨S4096x64x22, .f32⟩
  | 24 => ⟨S4096x64x22, .f32⟩
  | 25 => ⟨S4096x64x22, .f32⟩
  | 26 => ⟨S4096x64x22, .f32⟩
  | 27 => ⟨S4096x64x22, .f32⟩
  | 28 => ⟨S4096x64x22x1, .f32⟩
  | 29 => ⟨S4096x64x22x1, .f32⟩
  | 30 => ⟨S4096x64x22x1, .f32⟩
  | 31 => ⟨S4096x64x22x3, .f32⟩
  | 32 => ⟨S_, .f32⟩
  | 33 => ⟨S4096x64x32x3, .f32⟩
  | 34 => ⟨S_, .i32⟩
  | 35 => ⟨S4, .i32⟩
  | 36 => ⟨S4, .i32⟩
  | 37 => ⟨S4, .i32⟩
  | 38 => ⟨S_, .i32⟩
  | 39 => ⟨S4x1, .i32⟩
  | 40 => ⟨S4x1, .i32⟩
  | 41 => ⟨S4x2, .i32⟩
  | 42 => ⟨S4096x1x4x3, .f32⟩
  | 43 => ⟨S4096x64x4x3, .f32⟩
  | 44 => ⟨S_, .i32⟩
  | 45 => ⟨S4, .i32⟩
  | 46 => ⟨S4, .i32⟩
  | 47 => ⟨S4, .i32⟩
  | 48 => ⟨S4x1, .i32⟩
  | 49 => ⟨S4096x64x32x3, .f32⟩
  | 50 => ⟨S_, .i32⟩
  | 51 => ⟨S22, .i32⟩
  | 52 => ⟨S22, .i32⟩
  | 53 => ⟨S22, .i32⟩
  | 54 => ⟨S22x1, .i32⟩
  | 55 => ⟨S4096x64x32x3, .f32⟩
  | 56 => ⟨S4096x64x1x3, .f32⟩
  | 57 => ⟨S4096x64x3, .f32⟩
  | 58 => ⟨S_, .i32⟩
  | 59 => ⟨S1, .i32⟩
  | 60 => ⟨S4096x64x32x3, .f32⟩
  | 61 => ⟨S4096x64x1x3, .f32⟩
  | 62 => ⟨S4096x64x3, .f32⟩
  | 63 => ⟨S_, .i32⟩
  | 64 => ⟨S1, .i32⟩
  | 65 => ⟨S4096x64x32x3, .f32⟩
  | 66 => ⟨S4096x64x1x3, .f32⟩
  | 67 => ⟨S4096x64x3, .f32⟩
  | 68 => ⟨S_, .i32⟩
  | 69 => ⟨S1, .i32⟩
  | 70 => ⟨S4096x64x32x3, .f32⟩
  | 71 => ⟨S4096x64x1x3, .f32⟩
  | 72 => ⟨S4096x64x3, .f32⟩
  | 73 => ⟨S_, .i32⟩
  | 74 => ⟨S1, .i32⟩
  | 75 => ⟨S4096x64x32x3, .f32⟩
  | 76 => ⟨S4096x64x1x3, .f32⟩
  | 77 => ⟨S4096x64x3, .f32⟩
  | 78 => ⟨S_, .i32⟩
  | 79 => ⟨S1, .i32⟩
  | 80 => ⟨S4096x64x32x3, .f32⟩
  | 81 => ⟨S4096x64x1x3, .f32⟩
  | 82 => ⟨S4096x64x3, .f32⟩
  | 83 => ⟨S_, .i32⟩
  | 84 => ⟨S1, .i32⟩
  | 85 => ⟨S4096x64x32x3, .f32⟩
  | 86 => ⟨S4096x64x1x3, .f32⟩
  | 87 => ⟨S4096x64x3, .f32⟩
  | 88 => ⟨S_, .i32⟩
  | 89 => ⟨S1, .i32⟩
  | 90 => ⟨S4096x64x32x3, .f32⟩
  | 91 => ⟨S4096x64x1x3, .f32⟩
  | 92 => ⟨S4096x64x3, .f32⟩
  | 93 => ⟨S_, .i32⟩
  | 94 => ⟨S1, .i32⟩
  | 95 => ⟨S4096x64x32x3, .f32⟩
  | 96 => ⟨S4096x64x1x3, .f32⟩
  | 97 => ⟨S4096x64x3, .f32⟩
  | 98 => ⟨S_, .i32⟩
  | 99 => ⟨S1, .i32⟩
  | 100 => ⟨S4096x64x32x3, .f32⟩
  | 101 => ⟨S4096x64x1x3, .f32⟩
  | 102 => ⟨S4096x64x3, .f32⟩
  | 103 => ⟨S_, .i32⟩
  | 104 => ⟨S1, .i32⟩
  | 105 => ⟨S4096x64x32x3, .f32⟩
  | 106 => ⟨S4096x64x1x3, .f32⟩
  | 107 => ⟨S4096x64x3, .f32⟩
  | 108 => ⟨S_, .i32⟩
  | 109 => ⟨S1, .i32⟩
  | 110 => ⟨S4096x64x32x3, .f32⟩
  | 111 => ⟨S4096x64x1x3, .f32⟩
  | 112 => ⟨S4096x64x3, .f32⟩
  | 113 => ⟨S_, .i32⟩
  | 114 => ⟨S1, .i32⟩
  | 115 => ⟨S4096x64x32x3, .f32⟩
  | 116 => ⟨S4096x64x1x3, .f32⟩
  | 117 => ⟨S4096x64x3, .f32⟩
  | 118 => ⟨S_, .i32⟩
  | 119 => ⟨S1, .i32⟩
  | 120 => ⟨S4096x64x32x3, .f32⟩
  | 121 => ⟨S4096x64x1x3, .f32⟩
  | 122 => ⟨S4096x64x3, .f32⟩
  | 123 => ⟨S_, .i32⟩
  | 124 => ⟨S1, .i32⟩
  | 125 => ⟨S4096x64x32x3, .f32⟩
  | 126 => ⟨S4096x64x1x3, .f32⟩
  | 127 => ⟨S4096x64x3, .f32⟩
  | _ => ⟨S4096x16x96, .f32⟩

abbrev hbmTy0_1 (i : Nat) : BufTy := match i % 128 with
  | 0 => ⟨S_, .i32⟩
  | 1 => ⟨S1, .i32⟩
  | 2 => ⟨S4096x64x32x3, .f32⟩
  | 3 => ⟨S4096x64x1x3, .f32⟩
  | 4 => ⟨S4096x64x3, .f32⟩
  | 5 => ⟨S_, .i32⟩
  | 6 => ⟨S1, .i32⟩
  | 7 => ⟨S4096x64x32x3, .f32⟩
  | 8 => ⟨S4096x64x1x3, .f32⟩
  | 9 => ⟨S4096x64x3, .f32⟩
  | 10 => ⟨S_, .i32⟩
  | 11 => ⟨S1, .i32⟩
  | 12 => ⟨S4096x64x32x3, .f32⟩
  | 13 => ⟨S4096x64x1x3, .f32⟩
  | 14 => ⟨S4096x64x3, .f32⟩
  | 15 => ⟨S_, .i32⟩
  | 16 => ⟨S1, .i32⟩
  | 17 => ⟨S4096x64x32x3, .f32⟩
  | 18 => ⟨S4096x64x1x3, .f32⟩
  | 19 => ⟨S4096x64x3, .f32⟩
  | 20 => ⟨S_, .i32⟩
  | 21 => ⟨S1, .i32⟩
  | 22 => ⟨S4096x64x32x3, .f32⟩
  | 23 => ⟨S4096x64x1x3, .f32⟩
  | 24 => ⟨S4096x64x3, .f32⟩
  | 25 => ⟨S_, .i32⟩
  | 26 => ⟨S1, .i32⟩
  | 27 => ⟨S4096x64x32x3, .f32⟩
  | 28 => ⟨S4096x64x1x3, .f32⟩
  | 29 => ⟨S4096x64x3, .f32⟩
  | 30 => ⟨S_, .i32⟩
  | 31 => ⟨S1, .i32⟩
  | 32 => ⟨S4096x64x32x3, .f32⟩
  | 33 => ⟨S4096x64x1x3, .f32⟩
  | 34 => ⟨S4096x64x3, .f32⟩
  | 35 => ⟨S_, .i32⟩
  | 36 => ⟨S1, .i32⟩
  | 37 => ⟨S4096x64x32x3, .f32⟩
  | 38 => ⟨S_, .i32⟩
  | 39 => ⟨S6, .i32⟩
  | 40 => ⟨S6, .i32⟩
  | 41 => ⟨S6, .i32⟩
  | 42 => ⟨S6x1, .i32⟩
  | 43 => ⟨S4096x64x6x3, .f32⟩
  | 44 => ⟨S_, .i32⟩
  | 45 => ⟨S6, .i32⟩
  | 46 => ⟨S6, .i32⟩
  | 47 => ⟨S6, .i32⟩
  | 48 => ⟨S6x1, .i32⟩
  | 49 => ⟨S4096x64x32x3, .f32⟩
  | 50 => ⟨S4096x64x96, .f32⟩
  | _ => ⟨S4096x16x96, .f32⟩

abbrev hbmTy (i : Nat) : BufTy := match i / 128 with
  | 0 => hbmTy0_0 i
  | 1 => hbmTy0_1 i
  | _ => ⟨S4096x16x96, .f32⟩

abbrev bufTy : (tb : Table) → Fin (tcTables nBuf tb) → BufTy
  | .hbm, ⟨i, _⟩ => hbmTy i
  | _, _ => ⟨S4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_c_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_12 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_13 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_14 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_15 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_16 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_17 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_18 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_19 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_20 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_21 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_22 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_23 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_24 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_25 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_26 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_27 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_c_28 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_c_29 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_c_30 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_c_31 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_c_32 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_c_33 : Ref sig .tc := ⟨.hbm, 163, rfl⟩
abbrev main_v126 : Ref sig .tc := ⟨.hbm, 164, rfl⟩
abbrev main_v127 : Ref sig .tc := ⟨.hbm, 165, rfl⟩
abbrev main_c_34 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_c_35 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩

abbrev nD : Nat := 1
abbrev τ : Topo := Topo.v7x

variable {F : FTy → Type} [FloatOps F]

class Facts₀ : Prop where
  shapeCasts_S4096x16x96_S4096x16x32x3 : S4096x16x96.ShapeCasts S4096x16x32x3
  shapeCasts_S4096x64x66_S4096x64x22x3 : S4096x64x66.ShapeCasts S4096x64x22x3
  slices_S4096x64x22x3_S4096x64x22x1_0_0_0_0 : S4096x64x22x3.Slices ![0, 0, 0, 0] S4096x64x22x1
  shapeCasts_S4096x64x22x1_S4096x64x22 : S4096x64x22x1.ShapeCasts S4096x64x22
  slices_S4096x64x22x3_S4096x64x22x1_0_0_0_1 : S4096x64x22x3.Slices ![0, 0, 0, 1] S4096x64x22x1
  slices_S4096x64x22x3_S4096x64x22x1_0_0_0_2 : S4096x64x22x3.Slices ![0, 0, 0, 2] S4096x64x22x1
  bcast_S4096x64x22_S4096x64x22x1_0_1_2 : S4096x64x22.BroadcastsInDim S4096x64x22x1 (![0, 1, 2] : Fin 3 → Fin S4096x64x22x1.rank)
  concatenates_S4096x64x22x1_S4096x64x22x1_S4096x64x22x1_S4096x64x22x3_d3 : Shape.Concatenates [S4096x64x22x1, S4096x64x22x1, S4096x64x22x1] S4096x64x22x3 3
  bcast_S_S4096x64x32x3 : S_.BroadcastsInDim S4096x64x32x3 (![] : Fin 0 → Fin S4096x64x32x3.rank)
  bcast_S_S4 : S_.BroadcastsInDim S4 (![] : Fin 0 → Fin S4.rank)
  bcast_S_S4x1 : S_.BroadcastsInDim S4x1 (![] : Fin 0 → Fin S4x1.rank)
  bcast_S4_S4x1_0 : S4.BroadcastsInDim S4x1 (![0] : Fin 1 → Fin S4x1.rank)
  concatenates_S4x1_S4x1_S4x2_d1 : Shape.Concatenates [S4x1, S4x1] S4x2 1
  bcast_S4096x1x4x3_S4096x64x4x3_0_1_2_3 : S4096x1x4x3.BroadcastsInDim S4096x64x4x3 (![0, 1, 2, 3] : Fin 4 → Fin S4096x64x4x3.rank)
  bcast_S_S22 : S_.BroadcastsInDim S22 (![] : Fin 0 → Fin S22.rank)
  bcast_S22_S22x1_0 : S22.BroadcastsInDim S22x1 (![0] : Fin 1 → Fin S22x1.rank)
  slices_S4096x64x32x3_S4096x64x1x3_0_0_11_0 : S4096x64x32x3.Slices ![0, 0, 11, 0] S4096x64x1x3
  shapeCasts_S4096x64x1x3_S4096x64x3 : S4096x64x1x3.ShapeCasts S4096x64x3
  bcast_S_S1 : S_.BroadcastsInDim S1 (![] : Fin 0 → Fin S1.rank)
  slices_S4096x64x32x3_S4096x64x1x3_0_0_12_0 : S4096x64x32x3.Slices ![0, 0, 12, 0] S4096x64x1x3
  slices_S4096x64x32x3_S4096x64x1x3_0_0_13_0 : S4096x64x32x3.Slices ![0, 0, 13, 0] S4096x64x1x3
  slices_S4096x64x32x3_S4096x64x1x3_0_0_14_0 : S4096x64x32x3.Slices ![0, 0, 14, 0] S4096x64x1x3
  slices_S4096x64x32x3_S4096x64x1x3_0_0_25_0 : S4096x64x32x3.Slices ![0, 0, 25, 0] S4096x64x1x3
  slices_S4096x64x32x3_S4096x64x1x3_0_0_26_0 : S4096x64x32x3.Slices ![0, 0, 26, 0] S4096x64x1x3
  slices_S4096x64x32x3_S4096x64x1x3_0_0_27_0 : S4096x64x32x3.Slices ![0, 0, 27, 0] S4096x64x1x3
  slices_S4096x64x32x3_S4096x64x1x3_0_0_29_0 : S4096x64x32x3.Slices ![0, 0, 29, 0] S4096x64x1x3
  slices_S4096x64x32x3_S4096x64x1x3_0_0_17_0 : S4096x64x32x3.Slices ![0, 0, 17, 0] S4096x64x1x3
  slices_S4096x64x32x3_S4096x64x1x3_0_0_18_0 : S4096x64x32x3.Slices ![0, 0, 18, 0] S4096x64x1x3
  slices_S4096x64x32x3_S4096x64x1x3_0_0_19_0 : S4096x64x32x3.Slices ![0, 0, 19, 0] S4096x64x1x3
  slices_S4096x64x32x3_S4096x64x1x3_0_0_21_0 : S4096x64x32x3.Slices ![0, 0, 21, 0] S4096x64x1x3
  slices_S4096x64x32x3_S4096x64x1x3_0_0_1_0 : S4096x64x32x3.Slices ![0, 0, 1, 0] S4096x64x1x3
  slices_S4096x64x32x3_S4096x64x1x3_0_0_2_0 : S4096x64x32x3.Slices ![0, 0, 2, 0] S4096x64x1x3
  slices_S4096x64x32x3_S4096x64x1x3_0_0_3_0 : S4096x64x32x3.Slices ![0, 0, 3, 0] S4096x64x1x3
  slices_S4096x64x32x3_S4096x64x1x3_0_0_4_0 : S4096x64x32x3.Slices ![0, 0, 4, 0] S4096x64x1x3
  slices_S4096x64x32x3_S4096x64x1x3_0_0_6_0 : S4096x64x32x3.Slices ![0, 0, 6, 0] S4096x64x1x3
  slices_S4096x64x32x3_S4096x64x1x3_0_0_7_0 : S4096x64x32x3.Slices ![0, 0, 7, 0] S4096x64x1x3
  slices_S4096x64x32x3_S4096x64x1x3_0_0_8_0 : S4096x64x32x3.Slices ![0, 0, 8, 0] S4096x64x1x3
  slices_S4096x64x32x3_S4096x64x1x3_0_0_9_0 : S4096x64x32x3.Slices ![0, 0, 9, 0] S4096x64x1x3
  bcast_S_S6 : S_.BroadcastsInDim S6 (![] : Fin 0 → Fin S6.rank)
  bcast_S6_S6x1_0 : S6.BroadcastsInDim S6x1 (![0] : Fin 1 → Fin S6x1.rank)
  shapeCasts_S4096x64x32x3_S4096x64x96 : S4096x64x32x3.ShapeCasts S4096x64x96
  gather_S4096x16x32x3_S4x2_S4096x1x4x3_013_2_n_n_12_1_4096113_wf : GatherDims.WF S4096x16x32x3 S4x2 S4096x1x4x3 [0, 1, 3] [2] [] [1, 2] [] 1 ![4096, 1, 1, 3]
  scatter_S4096x64x32x3_S4x1_S4096x64x4x3_013_2_2_1_wf : ScatterDims.WF S4096x64x32x3 S4x1 S4096x64x4x3 [0, 1, 3] [2] [2] 1
  scatter_S4096x64x32x3_S22x1_S4096x64x22x3_013_2_2_1_wf : ScatterDims.WF S4096x64x32x3 S22x1 S4096x64x22x3 [0, 1, 3] [2] [2] 1
  scatter_S4096x64x32x3_S1_S4096x64x3_012_2_2_0_wf : ScatterDims.WF S4096x64x32x3 S1 S4096x64x3 [0, 1, 2] [2] [2] 0
  gather_S4096x64x32x3_S6x1_S4096x64x6x3_013_2_n_n_2_1_40966413_wf : GatherDims.WF S4096x64x32x3 S6x1 S4096x64x6x3 [0, 1, 3] [2] [] [2] [] 1 ![4096, 64, 1, 3]
  scatter_S4096x64x32x3_S6x1_S4096x64x6x3_013_2_2_1_wf : ScatterDims.WF S4096x64x32x3 S6x1 S4096x64x6x3 [0, 1, 3] [2] [2] 1

variable [Facts₀]

def gather_S4096x16x32x3_S4x2_S4096x1x4x3_013_2_n_n_12_1_4096113 : GatherDims S4096x16x32x3 S4x2 S4096x1x4x3 where
  offsetDims := [0, 1, 3]
  collapsedSliceDims := [2]
  operandBatchingDims := []
  startIndicesBatchingDims := []
  startIndexMap := [1, 2]
  indexVectorDim := 1
  sliceSizes := ![4096, 1, 1, 3]
  wf := gather_S4096x16x32x3_S4x2_S4096x1x4x3_013_2_n_n_12_1_4096113_wf
def scatter_S4096x64x32x3_S4x1_S4096x64x4x3_013_2_2_1 : ScatterDims S4096x64x32x3 S4x1 S4096x64x4x3 where
  updateWindowDims := [0, 1, 3]
  insertedWindowDims := [2]
  scatterDimsToOperandDims := [2]
  indexVectorDim := 1
  wf := scatter_S4096x64x32x3_S4x1_S4096x64x4x3_013_2_2_1_wf
def scatter_S4096x64x32x3_S22x1_S4096x64x22x3_013_2_2_1 : ScatterDims S4096x64x32x3 S22x1 S4096x64x22x3 where
  updateWindowDims := [0, 1, 3]
  insertedWindowDims := [2]
  scatterDimsToOperandDims := [2]
  indexVectorDim := 1
  wf := scatter_S4096x64x32x3_S22x1_S4096x64x22x3_013_2_2_1_wf
def scatter_S4096x64x32x3_S1_S4096x64x3_012_2_2_0 : ScatterDims S4096x64x32x3 S1 S4096x64x3 where
  updateWindowDims := [0, 1, 2]
  insertedWindowDims := [2]
  scatterDimsToOperandDims := [2]
  indexVectorDim := 0
  wf := scatter_S4096x64x32x3_S1_S4096x64x3_012_2_2_0_wf
def gather_S4096x64x32x3_S6x1_S4096x64x6x3_013_2_n_n_2_1_40966413 : GatherDims S4096x64x32x3 S6x1 S4096x64x6x3 where
  offsetDims := [0, 1, 3]
  collapsedSliceDims := [2]
  operandBatchingDims := []
  startIndicesBatchingDims := []
  startIndexMap := [2]
  indexVectorDim := 1
  sliceSizes := ![4096, 64, 1, 3]
  wf := gather_S4096x64x32x3_S6x1_S4096x64x6x3_013_2_n_n_2_1_40966413_wf
def scatter_S4096x64x32x3_S6x1_S4096x64x6x3_013_2_2_1 : ScatterDims S4096x64x32x3 S6x1 S4096x64x6x3 where
  updateWindowDims := [0, 1, 3]
  insertedWindowDims := [2]
  scatterDimsToOperandDims := [2]
  indexVectorDim := 1
  wf := scatter_S4096x64x32x3_S6x1_S4096x64x6x3_013_2_2_1_wf

class Facts : Prop extends Facts₀ where

variable [Facts]
-- ==== Proof.Pose.lean ====
/-
  The skeleton's forward kinematics as pure mathematics, with no program in sight.

  A pose is thirty-two joints; for one batch row, one time step and one of the three coordinates it is a function
  `Fin 32 → α`. Four joints (0, 1, 6, 11) are roots, copied from the last observed frame. Twenty-two joints are children:
  child number `k` first receives an offset `v k` — the Cartesian form of a spherical triple (r, θ, φ) — and then, walking
  the tree's twenty-two edges in a fixed order, every child adds its parent's position to its own,
      position(child) = offset(child) + position(parent),
  the parent's position being final by the time its edge is walked. Last, six joints (16, 20, 23, 24, 28, 31) that the tree
  never touches are set equal to six others (13, 19, 22, 13, 27, 30).

  `pose` performs these steps one after the other on a state of thirty-two values that starts from an arbitrary
  background `z`; `table` is the result joint by joint, written out; `pose_eq_table` says they agree, so the result does not
  depend on the background — a state that starts from zeros and one that starts from anything end alike, because every one
  of the thirty-two joints is overwritten before it is read.

  `G` is the whole result array [4096, 64, 96] as a function of the observed poses [4096, 16, 96] and the predicted
  spherical triples [4096, 64, 66]: column `c` holds coordinate `c % 3` of joint `c / 3`. `Gblk` is the same function of one
  block of 64 batch rows: the block's triples [64, 64, 66] and its four root joints [64, 4, 3].
-/
import Idealize.ShloMosaic.PureOps.Ideal
import Idealize.ShloMosaic.Lib.ValueIdx
import Mathlib.Tactic.FinCases

noncomputable section

namespace Cert.Pose

open Idealize.ShloMosaic Idealize.ShloMosaic.ValueIdx

/-! ## The tree on thirty-two joints -/

section Tree

variable {α : Type} [Add α]

/-- Joint `dst` receives the value `a`. -/
def setStep (dst : Fin 32) (a : α) (s : Fin 32 → α) : Fin 32 → α := Function.update s dst a

/-- One edge of the tree: the child adds its parent's position to its own. -/
def addStep (p ch : Fin 32) (s : Fin 32 → α) : Fin 32 → α := Function.update s ch (s ch + s p)

/-- Joint `dst` is set equal to joint `src`. -/
def copyStep (src dst : Fin 32) (s : Fin 32 → α) : Fin 32 → α := Function.update s dst (s src)

/-- The four roots, then the twenty-two offsets, written over a background `z`. -/
def base (z : Fin 32 → α) (root : Fin 4 → α) (v : Fin 22 → α) : Fin 32 → α :=
  z |> setStep 0 (root 0) |> setStep 1 (root 1) |> setStep 6 (root 2) |> setStep 11 (root 3)
    |> setStep 12 (v 0) |> setStep 13 (v 1) |> setStep 14 (v 2) |> setStep 15 (v 3) |> setStep 25 (v 4)
    |> setStep 26 (v 5) |> setStep 27 (v 6) |> setStep 29 (v 7) |> setStep 30 (v 8) |> setStep 17 (v 9)
    |> setStep 18 (v 10) |> setStep 19 (v 11) |> setStep 21 (v 12) |> setStep 22 (v 13) |> setStep 2 (v 14)
    |> setStep 3 (v 15) |> setStep 4 (v 16) |> setStep 5 (v 17) |> setStep 7 (v 18) |> setStep 8 (v 19)
    |> setStep 9 (v 20) |> setStep 10 (v 21)

/-- The twenty-two edges, walked in the fixed order. -/
def tree (s : Fin 32 → α) : Fin 32 → α :=
  s |> addStep 11 12 |> addStep 12 13 |> addStep 13 14 |> addStep 14 15 |> addStep 13 25 |> addStep 25 26
    |> addStep 26 27 |> addStep 27 29 |> addStep 29 30 |> addStep 13 17 |> addStep 17 18 |> addStep 18 19
    |> addStep 19 21 |> addStep 21 22 |> addStep 1 2 |> addStep 2 3 |> addStep 3 4 |> addStep 4 5
    |> addStep 6 7 |> addStep 7 8 |> addStep 8 9 |> addStep 9 10

/-- The six joints outside the tree, each set equal to its partner. -/
def equalize (s : Fin 32 → α) : Fin 32 → α :=
  s |> copyStep 13 16 |> copyStep 19 20 |> copyStep 22 23 |> copyStep 13 24 |> copyStep 27 28 |> copyStep 30 31

/-- The whole computation on one state. -/
def pose (z : Fin 32 → α) (root : Fin 4 → α) (v : Fin 22 → α) : Fin 32 → α := equalize (tree (base z root v))

variable (root : Fin 4 → α) (v : Fin 22 → α)

/-! The positions along the four chains that hang from the roots 11, 1 and 6. -/
def p12 : α := v 0 + root 3
def p13 : α := v 1 + p12 root v
def p14 : α := v 2 + p13 root v
def p15 : α := v 3 + p14 root v
def p25 : α := v 4 + p13 root v
def p26 : α := v 5 + p25 root v
def p27 : α := v 6 + p26 root v
def p29 : α := v 7 + p27 root v
def p30 : α := v 8 + p29 root v
def p17 : α := v 9 + p13 root v
def p18 : α := v 10 + p17 root v
def p19 : α := v 11 + p18 root v
def p21 : α := v 12 + p19 root v
def p22 : α := v 13 + p21 root v
def p2 : α := v 14 + root 1
def p3 : α := v 15 + p2 root v
def p4 : α := v 16 + p3 root v
def p5 : α := v 17 + p4 root v
def p7 : α := v 18 + root 2
def p8 : α := v 19 + p7 root v
def p9 : α := v 20 + p8 root v
def p10 : α := v 21 + p9 root v

/-- The result joint by joint. -/
def table : Fin 32 → α :=
  ![root 0, root 1, p2 root v, p3 root v, p4 root v, p5 root v, root 2, p7 root v, p8 root v, p9 root v, p10 root v,
    root 3, p12 root v, p13 root v, p14 root v, p15 root v, p13 root v, p17 root v, p18 root v, p19 root v,
    p19 root v, p21 root v, p22 root v, p22 root v, p13 root v, p25 root v, p26 root v, p27 root v, p27 root v,
    p29 root v, p30 root v, p30 root v]

set_option maxRecDepth 16384 in
/-- Walking the steps one by one gives the table, whatever the background was: every joint is written before it is
    read. (Thirty-two joints, each followed through the fifty-four steps by computation.) -/
theorem pose_eq_table (z : Fin 32 → α) : pose z root v = table root v := by
  funext j
  fin_cases j <;> rfl

end Tree

/-! ## Spherical triples, columns, and the result arrays -/

/-- The Cartesian offset of a spherical triple (r, θ, φ), coordinate by coordinate:
    (r · sin φ) · cos θ,  r · cos φ,  (r · sin φ) · sin θ, on the extended reals. -/
def xyz (r θ φ : EReal) : Fin 3 → EReal :=
  ![r * Ideal.sin φ * Ideal.cos θ, r * Ideal.cos φ, r * Ideal.sin φ * Ideal.sin θ]

/-- Column `3·k + e` of the sixty-six: coordinate `e` of triple `k`. -/
def col66 (k : Fin 22) (e : Fin 3) : Fin 66 := ⟨3 * k.val + e.val, by omega⟩
/-- Column `3·j + e` of the ninety-six: coordinate `e` of joint `j`. -/
def col96 (j : Fin 32) (e : Fin 3) : Fin 96 := ⟨3 * j.val + e.val, by omega⟩
/-- The joint a column of the ninety-six belongs to. -/
def jointOf (c : Fin 96) : Fin 32 := ⟨c.val / 3, by omega⟩
/-- The coordinate a column of the ninety-six holds. -/
def coordOf (c : Fin 96) : Fin 3 := ⟨c.val % 3, by omega⟩
/-- The four root joints, in the order they are copied. -/
def rootJoint : Fin 4 → Fin 32 := ![0, 1, 6, 11]

/-- The offsets of one (row, step, coordinate): the twenty-two triples of a row of sixty-six columns, converted. -/
def offsets (row : Fin 66 → EReal) (e : Fin 3) : Fin 22 → EReal :=
  fun k => xyz (row (col66 k 0)) (row (col66 k 1)) (row (col66 k 2)) e

/-- THE RESULT, whole: entry (b, t, c) is coordinate `c % 3` of joint `c / 3` of the pose built from the roots of the
    LAST observed frame (time index 15) of batch row `b` and the triples of (b, t). -/
def G (obs : (⟨3, ![4096, 16, 96]⟩ : Shape).Idx → EReal) (pred : (⟨3, ![4096, 64, 66]⟩ : Shape).Idx → EReal) :
    (⟨3, ![4096, 64, 96]⟩ : Shape).Idx → EReal := fun i =>
  let b : Fin 4096 := i 0
  let t : Fin 64 := i 1
  let c : Fin 96 := i 2
  table (fun k => obs (ix3 b (15 : Fin 16) (col96 (rootJoint k) (coordOf c))))
    (offsets (fun q => pred (ix3 b t q)) (coordOf c)) (jointOf c)

/-- THE RESULT on one block of 64 batch rows, from the block's triples and its four root joints. -/
def Gblk (x0 : (⟨3, ![64, 64, 66]⟩ : Shape).Idx → EReal) (x1 : (⟨3, ![64, 4, 3]⟩ : Shape).Idx → EReal) :
    (⟨3, ![64, 64, 96]⟩ : Shape).Idx → EReal := fun y =>
  let b : Fin 64 := y 0
  let t : Fin 64 := y 1
  let c : Fin 96 := y 2
  table (fun k => x1 (ix3 b k (coordOf c))) (offsets (fun q => x0 (ix3 b t q)) (coordOf c)) (jointOf c)

end Cert.Pose
end
-- ==== Proof.KerState.lean ====
/-
  A block [64, 64, 96] filled three columns at a time. For one (row, step, coordinate) the block's contents are a state of
  thirty-two joints, joint `j` sitting in column `3·j + e`. A store through the three-column rectangle of joint `j` changes
  that joint and no other; a load through the rectangle of joint `p` reads joint `p` of the state the earlier stores left.
  So a store of "what was loaded from the child's columns plus what was loaded from the parent's" is one edge of the tree,
  a store of what was loaded from another joint's columns is a copy, and any other store sets its joint.
-/
import proofs.«155983_j18339510354491_1_alg».proof.KernelIdeal
import proofs.«155983_j18339510354491_1_alg».proof.Proof.Pose
import Idealize.ShloMosaic.Lib.WritesUnit
import Idealize.ShloMosaic.Lib.Exec.Geometry
import Idealize.ShloMosaic.Lib.ValueIdx

noncomputable section

namespace Cert.KernelIdeal.KerValue

open Idealize.ShloMosaic Idealize.ShloMosaic.ValueIdx Cert.KernelIdeal Cert.Pose

/-- For one (row, step, coordinate), the thirty-two joints of a block's contents. -/
def jointState (X : S64x64x96.Idx → EReal) (b t : Fin 64) (e : Fin 3) : Fin 32 → EReal :=
  fun j => X (ix3 b t (col96 j e))

section
variable {sg : RefSig} {κ : Kind} {sp : Space} (v : View sg κ sp S64x64x96 .f32)

/-- The block's contents after a list of stores (the newest first) over arbitrary earlier contents. -/
def after (L : List (View.Piece (Elt Ideal) S64x64x96 .f32)) : S64x64x96.Idx → EReal :=
  v.read (Elt Ideal) (v.writes (Elt Ideal) v.junk L)

/-- A store through joint `j`'s three columns sets joint `j` to the stored value at (row, step, coordinate) and leaves
    the other thirty-one joints as they were. -/
theorem state_store (L : List (View.Piece (Elt Ideal) S64x64x96 .f32)) (o : ℕ)
    (inb : ∀ a, (![0, 0, o] : Fin S64x64x96.rank → ℕ) a + (![64, 64, 3] : Fin S64x64x96.rank → ℕ) a ≤ S64x64x96.size a)
    (w : (Rect.unit (s := S64x64x96) ![0, 0, o] ![64, 64, 3] inb).shape.Idx → Elt Ideal .f32) (j : Fin 32) (ho : o = 3 * j.val)
    (b t : Fin 64) (e : Fin 3) :
    jointState (after v (⟨Rect.unit ![0, 0, o] ![64, 64, 3] inb, w⟩ :: L)) b t e
      = setStep j (w (ix3 b t e)) (jointState (after v L) b t e) := by
  subst ho
  funext j'
  unfold jointState setStep after
  by_cases h : j' = j
  · subst h
    rw [Function.update_self]
    refine View.read_writes_cons_unit_of_mem v _ inb w L _ (ix3 b t e) rfl ?_
    intro a
    match a with
    | ⟨0, _⟩ => exact (Nat.zero_add _).symm
    | ⟨1, _⟩ => exact (Nat.zero_add _).symm
    | ⟨2, _⟩ => rfl
  · rw [Function.update_of_ne h]
    refine View.read_writes_cons_unit_of_not_mem v _ inb w L _ rfl (2 : Fin 3) ?_
    show (3 * j'.val + e.val) < 3 * j.val ∨ 3 * j.val + 3 ≤ 3 * j'.val + e.val
    have hne : j'.val ≠ j.val := fun h' => h (Fin.ext h')
    have := e.isLt
    omega

/-- A load through joint `p`'s three columns reads joint `p` of the state. -/
theorem load_state (L : List (View.Piece (Elt Ideal) S64x64x96 .f32)) (o : ℕ)
    (inb : ∀ a, (![0, 0, o] : Fin S64x64x96.rank → ℕ) a + (![64, 64, 3] : Fin S64x64x96.rank → ℕ) a ≤ S64x64x96.size a)
    (p : Fin 32) (ho : o = 3 * p.val) (b t : Fin 64) (e : Fin 3) :
    v.readCov L (Rect.unit (s := S64x64x96) ![0, 0, o] ![64, 64, 3] inb).toLoadRect (ix3 b t e)
      = jointState (after v L) b t e p := by
  subst ho
  unfold jointState after
  show v.read (Elt Ideal) (v.writes (Elt Ideal) v.junk L) _ = _
  refine congrArg _ (funext fun a => Fin.ext ?_)
  match a with
  | ⟨0, _⟩ => show 0 + 1 * b.val = b.val; omega
  | ⟨1, _⟩ => show 0 + 1 * t.val = t.val; omega
  | ⟨2, _⟩ => show 3 * p.val + 1 * e.val = 3 * p.val + e.val; omega

/-- A store whose value at (row, step, coordinate) is known sets its joint to that value. -/
theorem state_set (L : List (View.Piece (Elt Ideal) S64x64x96 .f32)) (o : ℕ)
    (inb : ∀ a, (![0, 0, o] : Fin S64x64x96.rank → ℕ) a + (![64, 64, 3] : Fin S64x64x96.rank → ℕ) a ≤ S64x64x96.size a)
    (w : (Rect.unit (s := S64x64x96) ![0, 0, o] ![64, 64, 3] inb).shape.Idx → Elt Ideal .f32) (j : Fin 32) (ho : o = 3 * j.val)
    (b t : Fin 64) (e : Fin 3) (a : EReal) (ha : w (ix3 b t e) = a) :
    jointState (after v (⟨Rect.unit ![0, 0, o] ![64, 64, 3] inb, w⟩ :: L)) b t e
      = setStep j a (jointState (after v L) b t e) := by
  rw [state_store v L o inb w j ho b t e, ha]

/-- ONE EDGE OF THE TREE: a store, through the child's columns, of a value that is entry by entry what a load of the
    child's columns read plus what a load of the parent's columns read. -/
theorem state_add (L : List (View.Piece (Elt Ideal) S64x64x96 .f32)) (oc op : ℕ)
    (inbS inbC : ∀ a, (![0, 0, oc] : Fin S64x64x96.rank → ℕ) a + (![64, 64, 3] : Fin S64x64x96.rank → ℕ) a ≤ S64x64x96.size a)
    (inbP : ∀ a, (![0, 0, op] : Fin S64x64x96.rank → ℕ) a + (![64, 64, 3] : Fin S64x64x96.rank → ℕ) a ≤ S64x64x96.size a)
    (P : (S64x64x3.Idx → Elt Ideal .f32) → (S64x64x3.Idx → Elt Ideal .f32) → (S64x64x3.Idx → Elt Ideal .f32))
    (hP : ∀ A B x, P A B x = A x + B x) (ch p : Fin 32) (hc : oc = 3 * ch.val) (hp : op = 3 * p.val)
    (b t : Fin 64) (e : Fin 3) :
    jointState (after v (⟨Rect.unit (s := S64x64x96) ![0, 0, oc] ![64, 64, 3] inbS,
        P (v.readCov L (Rect.unit (s := S64x64x96) ![0, 0, oc] ![64, 64, 3] inbC).toLoadRect)
          (v.readCov L (Rect.unit (s := S64x64x96) ![0, 0, op] ![64, 64, 3] inbP).toLoadRect)⟩ :: L)) b t e
      = addStep p ch (jointState (after v L) b t e) := by
  rw [state_store v L oc inbS _ ch hc b t e, hP, load_state v L oc inbC ch hc, load_state v L op inbP p hp]
  rfl

/-- A COPY: a store, through the target's columns, of a value that is entry by entry what a load of the source's
    columns read. -/
theorem state_copy (L : List (View.Piece (Elt Ideal) S64x64x96 .f32)) (od os : ℕ)
    (inbS : ∀ a, (![0, 0, od] : Fin S64x64x96.rank → ℕ) a + (![64, 64, 3] : Fin S64x64x96.rank → ℕ) a ≤ S64x64x96.size a)
    (inbL : ∀ a, (![0, 0, os] : Fin S64x64x96.rank → ℕ) a + (![64, 64, 3] : Fin S64x64x96.rank → ℕ) a ≤ S64x64x96.size a)
    (P : (S64x64x3.Idx → Elt Ideal .f32) → (S64x64x3.Idx → Elt Ideal .f32))
    (hP : ∀ A x, P A x = A x) (src dst : Fin 32) (hd : od = 3 * dst.val) (hs : os = 3 * src.val)
    (b t : Fin 64) (e : Fin 3) :
    jointState (after v (⟨Rect.unit (s := S64x64x96) ![0, 0, od] ![64, 64, 3] inbS,
        P (v.readCov L (Rect.unit (s := S64x64x96) ![0, 0, os] ![64, 64, 3] inbL).toLoadRect)⟩ :: L)) b t e
      = copyStep src dst (jointState (after v L) b t e) := by
  rw [state_store v L od inbS _ dst hd b t e, hP, load_state v L os inbL src hs]
  rfl

end
end Cert.KernelIdeal.KerValue
end
-- ==== Proof.LibLastAxis.lean ====
/-
  Three readings along the LAST axis of a rank-3 array [a, b, c], each at an entry written by its coordinates.

  * A sum over the last axis: the array [a, b] of the sums  Σ_{l < c} x(p, q, l).
  * A trailing unit axis added by a recast [a, b] → [a, b, 1]: entry (p, q, 0) is the matrix entry (p, q).
  * Unit-width slabs [a, b, 1] set side by side along the last axis into [a, b, K]: entry (p, q, j) of the result is
    entry (p, q, 0) of the j-th slab.  The slab is named by an equation  xs[j]? = some ⟨shape, x⟩,  which for a
    literal list and a literal j is decided by walking the list; that the j slabs before it have width one each is a
    sum over the literal prefix.
  Nothing here depends on what the entries are.
-/
import Idealize.ShloMosaic.Lib.ValueIdx
import Idealize.ShloMosaic.Lib.Pipeline.Value
import Idealize.ShloMosaic.PureOps.Ideal.Laws

noncomputable section

open scoped BigOperators

namespace Cert.LibLastAxis

open Idealize.ShloMosaic Idealize.ShloMosaic.ValueIdx

/-- Over a result entry (p, q), the source index with l inserted on the last axis is (p, q, l). -/
theorem lift_last {a b c : ℕ} (h : (⟨3, ![a, b, c]⟩ : Shape).Reduces [(2 : Fin 3)] ⟨2, ![a, b]⟩)
    (p : Fin a) (q : Fin b) (l : Fin c) : h.lift (ix2 p q) l = ix3 p q l := by
  funext d
  refine Fin.ext ?_
  match d with
  | ⟨0, _⟩ => rfl
  | ⟨1, _⟩ => rfl
  | ⟨2, _⟩ => rfl

/-- A sum over the last axis, on the extended reals, read at (p, q). -/
theorem laneSum_at {a b c : ℕ} (src : FVec Ideal ⟨3, ![a, b, c]⟩ .f32) (acc : BitVec 32)
    (h : (⟨3, ![a, b, c]⟩ : Shape).Reduces [(2 : Fin 3)] ⟨2, ![a, b]⟩) (hφ : FKind.Formats .f32)
    (hacc : acc = FKind.add.neutral .f32 hφ) (p : Fin a) (q : Fin b) :
    multiReduction .add [(2 : Fin 3)] ⟨2, ![a, b]⟩ src acc h hφ hacc (ix2 p q) = ∑ l : Fin c, src (ix3 p q l) := by
  rw [Ideal.multiReduction_add_single]
  exact Finset.sum_congr rfl fun l _ => congrArg src (lift_last h p q l)

variable {α : Type}

/-- A trailing unit axis added: entry (p, q, 0) of the recast is entry (p, q) of the matrix. -/
theorem addLast_at {a b : ℕ} (x : (⟨2, ![a, b]⟩ : Shape).Idx → α)
    (h : (⟨2, ![a, b]⟩ : Shape).ShapeCasts ⟨3, ![a, b, 1]⟩) (p : Fin a) (q : Fin b) :
    shapeCast ⟨3, ![a, b, 1]⟩ x h (ix3 p q (0 : Fin 1)) = x (ix2 p q) := by
  refine shapeCast_apply x h _ _ ?_
  rw [Shape.rowMajor_val_three, Shape.rowMajor_val_two]
  show p.val * b + q.val = (p.val * b + q.val) * 1 + 0
  omega

/-- The extents of the pieces along axis `ax` of the result, as the library's lemma sums them. -/
abbrev extents {t : Shape} (ax : Fin t.rank) (ss : List Shape) : List Nat :=
  ss.map fun s => if h : s.rank = t.rank then s.size (ax.cast h.symm) else 0

/-- Unit-width slabs side by side along the last axis: entry (p, q, j) is entry (p, q, 0) of the j-th slab. -/
theorem unitSlabs_at {a b K : ℕ} (xs : List ((s : Shape) × (s.Idx → α)))
    (h : Shape.Concatenates (xs.map (·.1)) ⟨3, ![a, b, K]⟩ (2 : Fin 3)) (p : Fin a) (q : Fin b) (j : Fin K)
    (x₁ : (⟨3, ![a, b, 1]⟩ : Shape).Idx → α) (hxk : xs[j.val]? = some ⟨⟨3, ![a, b, 1]⟩, x₁⟩)
    (hpre : (extents (t := ⟨3, ![a, b, K]⟩) (2 : Fin 3) ((xs.take j.val).map (·.1))).sum = j.val) :
    concatenate ⟨3, ![a, b, K]⟩ (2 : Fin 3) xs h (ix3 p q j) = x₁ (ix3 p q (0 : Fin 1)) := by
  obtain ⟨hk, hxk'⟩ := List.getElem?_eq_some_iff.mp hxk
  exact concatenate_apply_piece (t := ⟨3, ![a, b, K]⟩) (2 : Fin 3) xs h (ix3 p q j) j.val hk ⟨3, ![a, b, 1]⟩ x₁ hxk' rfl
    j.val hpre (ix3 p q (0 : Fin 1))
    (fun d hd => by
      match d with
      | ⟨0, _⟩ => rfl
      | ⟨1, _⟩ => rfl
      | ⟨2, _⟩ => exact absurd rfl hd) rfl

end Cert.LibLastAxis

end
-- ==== Proof.KerPay.lean ====
/-
  What the body stores, entry by entry. A root joint's three columns receive row `b` of the root block, the same at every
  time step. A child joint's three columns receive the Cartesian form of the triple (r, θ, φ) found in three columns of
  the block of triples: ((r · sin φ) · cos θ, r · cos φ, (r · sin φ) · sin θ). The twenty-two conversions are the same
  arithmetic on different columns; the text cuts them differently, and each is the one function of its triple.
-/
import proofs.«155983_j18339510354491_1_alg».proof.Proof.Gen.KernelIdeal.Skeleton
import proofs.«155983_j18339510354491_1_alg».proof.Proof.Pose
import proofs.«155983_j18339510354491_1_alg».proof.Proof.LibLastAxis
import Idealize.ShloMosaic.Lib.Pipeline.Value
import Idealize.ShloMosaic.Lib.Pipeline.Frame
import Idealize.ShloMosaic.Lib.ValueIdx

set_option maxRecDepth 16384

noncomputable section

namespace Cert.KernelIdeal.KerValue

open Idealize.ShloMosaic Idealize.ShloMosaic.ValueIdx Cert.KernelIdeal Cert.KernelIdeal.Gen Cert.Pose

/-! ## The two input blocks read through their rectangles -/

/-- Three columns of the block of triples, loaded whole: entry (b, t, e') is column 3·k + e' of row (b, t). -/
theorem triple_load {arg1 : Memref sig .tc .vmem S64x64x66 .f32} (harg1 : arg1.IsWhole) (x0 : Vec Ideal S64x64x66 .f32) (o : ℕ)
    (inb : ∀ a, (![0, 0, o] : Fin S64x64x66.rank → ℕ) a + (![64, 64, 3] : Fin S64x64x66.rank → ℕ) a ≤ S64x64x66.size a)
    (k : Fin 22) (ho : o = 3 * k.val) (b t : Fin 64) (e' : Fin 3) :
    View.readAt (Elt Ideal) arg1.view (Rect.unit (s := S64x64x66) ![0, 0, o] ![64, 64, 3] inb).toLoadRect (harg1.unread x0) (ix3 b t e')
      = x0 (ix3 b t (col66 k e')) := by
  subst ho
  show arg1.view.read (Elt Ideal) (harg1.unread x0) _ = _
  rw [harg1.read_unread]
  refine congrArg x0 (funext fun a => Fin.ext ?_)
  match a with
  | ⟨0, _⟩ => show 0 + 1 * b.val = b.val; omega
  | ⟨1, _⟩ => show 0 + 1 * t.val = t.val; omega
  | ⟨2, _⟩ => show 3 * k.val + 1 * e'.val = 3 * k.val + e'.val; omega

/-- One root joint of the root block, loaded as a [64, 1, 3] slab: entry (b, 0, e) is entry (b, k, e) of the block. -/
theorem root_load {arg2 : Memref sig .tc .vmem S64x4x3 .f32} (harg2 : arg2.IsWhole) (x1 : Vec Ideal S64x4x3 .f32) (o : ℕ)
    (inb : ∀ a, (![0, o, 0] : Fin S64x4x3.rank → ℕ) a + (![64, 1, 3] : Fin S64x4x3.rank → ℕ) a ≤ S64x4x3.size a)
    (k : Fin 4) (ho : o = k.val) (b : Fin 64) (e : Fin 3) :
    View.readAt (Elt Ideal) arg2.view (Rect.unit (s := S64x4x3) ![0, o, 0] ![64, 1, 3] inb).toLoadRect (harg2.unread x1) (ix3 b (0 : Fin 1) e)
      = x1 (ix3 b k e) := by
  subst ho
  show arg2.view.read (Elt Ideal) (harg2.unread x1) _ = _
  rw [harg2.read_unread]
  refine congrArg x1 (funext fun a => Fin.ext ?_)
  match a with
  | ⟨0, _⟩ => show 0 + 1 * b.val = b.val; omega
  | ⟨1, _⟩ => show k.val + 1 * 0 = k.val; omega
  | ⟨2, _⟩ => show 0 + 1 * e.val = e.val; omega

/-! ## A root joint's store -/

/-- A [64, 1, 3] slab spread over the 64 time steps: entry (b, t, e) is entry (b, 0, e) of the slab. -/
theorem spread_at {α : Type} (A : S64x1x3.Idx → α) (h1 h2 : S64x1x3.ShapeCasts S64x1x3) (hb : S64x1x3.Broadcasts S64x64x3)
    (b t : Fin 64) (e : Fin 3) :
    broadcastTo S64x64x3 (shapeCast S64x1x3 (shapeCast S64x1x3 A h1) h2) hb (ix3 b t e) = A (ix3 b (0 : Fin 1) e) := by
  rw [shapeCast_self, shapeCast_self]
  refine broadcastTo_apply A hb _ (ix3 b (0 : Fin 1) e) fun a => ?_
  match a with
  | ⟨0, _⟩ => rfl
  | ⟨1, _⟩ => rfl
  | ⟨2, _⟩ => rfl

theorem root0_at (A : Vec Ideal S64x1x3 .f32) (b t : Fin 64) (e : Fin 3) : k0_pay2 (F := Ideal) A (ix3 b t e) = A (ix3 b (0 : Fin 1) e) := by
  unfold k0_pay2; exact spread_at A _ _ _ b t e
theorem root1_at (A : Vec Ideal S64x1x3 .f32) (b t : Fin 64) (e : Fin 3) : k0_pay3 (F := Ideal) A (ix3 b t e) = A (ix3 b (0 : Fin 1) e) := by
  unfold k0_pay3; exact spread_at A _ _ _ b t e
theorem root2_at (A : Vec Ideal S64x1x3 .f32) (b t : Fin 64) (e : Fin 3) : k0_pay4 (F := Ideal) A (ix3 b t e) = A (ix3 b (0 : Fin 1) e) := by
  unfold k0_pay4; exact spread_at A _ _ _ b t e
theorem root3_at (A : Vec Ideal S64x1x3 .f32) (b t : Fin 64) (e : Fin 3) : k0_pay5 (F := Ideal) A (ix3 b t e) = A (ix3 b (0 : Fin 1) e) := by
  unfold k0_pay5; exact spread_at A _ _ _ b t e

/-! ## A child joint's store -/

/-- Column `c` cut out of a triple array and flattened to a matrix: entry (b, t) is entry (b, t, c). -/
theorem column_at {α : Type} (X : S64x64x3.Idx → α) (c : ℕ) (hc3 : c < 3) (hs : S64x64x3.Slices ![0, 0, c] S64x64x1)
    (hc : S64x64x1.ShapeCasts S64x64) (b t : Fin 64) :
    shapeCast S64x64 (extractStridedSlice S64x64x1 ![0, 0, c] X hs) hc (ix2 b t) = X (ix3 b t ⟨c, hc3⟩) := by
  rw [shapeCast_apply _ hc (ix2 b t) (ix3 b t (0 : Fin 1)) (by
    rw [Shape.rowMajor_val_three, Shape.rowMajor_val_two]
    show (b.val * 64 + t.val) * 1 + 0 = b.val * 64 + t.val
    omega)]
  refine extractStridedSlice_apply _ X hs _ (ix3 b t ⟨c, hc3⟩) fun a => ?_
  match a with
  | ⟨0, _⟩ => show b.val = 0 + b.val; omega
  | ⟨1, _⟩ => show t.val = 0 + t.val; omega
  | ⟨2, _⟩ => show c = c + 0; omega

/-- THE CONVERSION at an entry: the Cartesian offset of the triple found at (b, t). -/
theorem sph_at (X : Vec Ideal S64x64x3 .f32) (b t : Fin 64) (e : Fin 3) :
    k0_pay11 (F := Ideal) X (ix3 b t e) = xyz (X (ix3 b t 0)) (X (ix3 b t 1)) (X (ix3 b t 2)) e := by
  have hr := column_at X 0 (by decide) slices_S64x64x3_o0_0_0_S64x64x1 shapeCasts_S64x64x1_S64x64 b t
  have hθ := column_at X 1 (by decide) slices_S64x64x3_o0_0_1_S64x64x1 shapeCasts_S64x64x1_S64x64 b t
  have hφ := column_at X 2 (by decide) slices_S64x64x3_o0_0_2_S64x64x1 shapeCasts_S64x64x1_S64x64 b t
  unfold k0_pay11
  fin_cases e
  · refine (Cert.LibLastAxis.unitSlabs_at _ _ b t (0 : Fin 3) _ rfl rfl).trans ?_
    refine (Cert.LibLastAxis.addLast_at _ _ b t).trans ?_
    show (_ * Ideal.sin _) * Ideal.cos _ = _
    rw [hr, hθ, hφ]; rfl
  · refine (Cert.LibLastAxis.unitSlabs_at _ _ b t (1 : Fin 3) _ rfl rfl).trans ?_
    refine (Cert.LibLastAxis.addLast_at _ _ b t).trans ?_
    show _ * Ideal.cos _ = _
    rw [hr, hφ]; rfl
  · refine (Cert.LibLastAxis.unitSlabs_at _ _ b t (2 : Fin 3) _ rfl rfl).trans ?_
    refine (Cert.LibLastAxis.addLast_at _ _ b t).trans ?_
    show (_ * Ideal.sin _) * Ideal.sin _ = _
    rw [hr, hθ, hφ]; rfl

/-! The twenty-one other conversions are this one, cut differently by the text. -/
theorem child0_eq (X : Vec Ideal S64x64x3 .f32) : (k0_pay10 (F := Ideal) (k0_pay6 (F := Ideal) X) (k0_pay7 (F := Ideal) X) (k0_pay8 (F := Ideal) X) (k0_pay9 (F := Ideal) X)) = k0_pay11 (F := Ideal) X := rfl
theorem child2_eq (X : Vec Ideal S64x64x3 .f32) : (k0_pay18 (F := Ideal) (k0_pay12 (F := Ideal) X) (k0_pay13 (F := Ideal) X) (k0_pay15 (F := Ideal) X) (k0_pay16 (F := Ideal) X) (k0_pay17 (F := Ideal) X)) = k0_pay11 (F := Ideal) X := rfl
theorem child3_eq (X : Vec Ideal S64x64x3 .f32) : (k0_pay19 (F := Ideal) X) = k0_pay11 (F := Ideal) X := rfl
theorem child4_eq (X : Vec Ideal S64x64x3 .f32) : (k0_pay27 (F := Ideal) (k0_pay24 (F := Ideal) X) (k0_pay25 (F := Ideal) X) (k0_pay26 (F := Ideal) X)) = k0_pay11 (F := Ideal) X := rfl
theorem child5_eq (X : Vec Ideal S64x64x3 .f32) : (k0_pay28 (F := Ideal) X) = k0_pay11 (F := Ideal) X := rfl
theorem child6_eq (X : Vec Ideal S64x64x3 .f32) : (k0_pay29 (F := Ideal) X) = k0_pay11 (F := Ideal) X := rfl
theorem child7_eq (X : Vec Ideal S64x64x3 .f32) : (k0_pay30 (F := Ideal) X) = k0_pay11 (F := Ideal) X := rfl
theorem child8_eq (X : Vec Ideal S64x64x3 .f32) : (k0_pay31 (F := Ideal) X) = k0_pay11 (F := Ideal) X := rfl
theorem child9_eq (X : Vec Ideal S64x64x3 .f32) : (k0_pay32 (F := Ideal) X) = k0_pay11 (F := Ideal) X := rfl
theorem child10_eq (X : Vec Ideal S64x64x3 .f32) : (k0_pay33 (F := Ideal) X) = k0_pay11 (F := Ideal) X := rfl
theorem child11_eq (X : Vec Ideal S64x64x3 .f32) : (k0_pay34 (F := Ideal) X) = k0_pay11 (F := Ideal) X := rfl
theorem child12_eq (X : Vec Ideal S64x64x3 .f32) : (k0_pay35 (F := Ideal) X) = k0_pay11 (F := Ideal) X := rfl
theorem child13_eq (X : Vec Ideal S64x64x3 .f32) : (k0_pay38 (F := Ideal) X (k0_pay36 (F := Ideal) X) (k0_pay37 (F := Ideal) X)) = k0_pay11 (F := Ideal) X := rfl
theorem child14_eq (X : Vec Ideal S64x64x3 .f32) : (k0_pay39 (F := Ideal) X) = k0_pay11 (F := Ideal) X := rfl
theorem child15_eq (X : Vec Ideal S64x64x3 .f32) : (k0_pay44 (F := Ideal) (k0_pay40 (F := Ideal) X) (k0_pay41 (F := Ideal) X) (k0_pay42 (F := Ideal) X) (k0_pay43 (F := Ideal) X)) = k0_pay11 (F := Ideal) X := rfl
theorem child16_eq (X : Vec Ideal S64x64x3 .f32) : (k0_pay45 (F := Ideal) X) = k0_pay11 (F := Ideal) X := rfl
theorem child17_eq (X : Vec Ideal S64x64x3 .f32) : (k0_pay52 (F := Ideal) (k0_pay46 (F := Ideal) X) (k0_pay47 (F := Ideal) X) (k0_pay49 (F := Ideal) X) (k0_pay50 (F := Ideal) X) (k0_pay51 (F := Ideal) X)) = k0_pay11 (F := Ideal) X := rfl
theorem child18_eq (X : Vec Ideal S64x64x3 .f32) : (k0_pay53 (F := Ideal) X) = k0_pay11 (F := Ideal) X := rfl
theorem child19_eq (X : Vec Ideal S64x64x3 .f32) : (k0_pay61 (F := Ideal) (k0_pay58 (F := Ideal) X) (k0_pay59 (F := Ideal) X) (k0_pay60 (F := Ideal) X)) = k0_pay11 (F := Ideal) X := rfl
theorem child20_eq (X : Vec Ideal S64x64x3 .f32) : (k0_pay62 (F := Ideal) X) = k0_pay11 (F := Ideal) X := rfl
theorem child21_eq (X : Vec Ideal S64x64x3 .f32) : (k0_pay63 (F := Ideal) X) = k0_pay11 (F := Ideal) X := rfl

/-! ## An edge's store and a copy's store, entry by entry -/

theorem edge0_at (A B : Vec Ideal S64x64x3 .f32) (x : S64x64x3.Idx) : (k0_pay64 (F := Ideal) A B) x = A x + B x := by
  unfold k0_pay64; simp only [shapeCast_self]; rfl
theorem edge1_at (A B : Vec Ideal S64x64x3 .f32) (x : S64x64x3.Idx) : (k0_pay65 (F := Ideal) A B) x = A x + B x := by
  unfold k0_pay65; simp only [shapeCast_self]; rfl
theorem edge2_at (A B : Vec Ideal S64x64x3 .f32) (x : S64x64x3.Idx) : (k0_pay66 (F := Ideal) A B) x = A x + B x := by
  unfold k0_pay66; simp only [shapeCast_self]; rfl
theorem edge3_at (A B : Vec Ideal S64x64x3 .f32) (x : S64x64x3.Idx) : (k0_pay68 (F := Ideal) (k0_pay67 (F := Ideal) A) B) x = A x + B x := by
  unfold k0_pay68 k0_pay67; simp only [shapeCast_self]; rfl
theorem edge4_at (A B : Vec Ideal S64x64x3 .f32) (x : S64x64x3.Idx) : (k0_pay69 (F := Ideal) A B) x = A x + B x := by
  unfold k0_pay69; simp only [shapeCast_self]; rfl
theorem edge5_at (A B : Vec Ideal S64x64x3 .f32) (x : S64x64x3.Idx) : (k0_pay70 (F := Ideal) A B) x = A x + B x := by
  unfold k0_pay70; simp only [shapeCast_self]; rfl
theorem edge6_at (A B : Vec Ideal S64x64x3 .f32) (x : S64x64x3.Idx) : (k0_pay71 (F := Ideal) A B) x = A x + B x := by
  unfold k0_pay71; simp only [shapeCast_self]; rfl
theorem edge7_at (A B : Vec Ideal S64x64x3 .f32) (x : S64x64x3.Idx) : (k0_pay72 (F := Ideal) A B) x = A x + B x := by
  unfold k0_pay72; simp only [shapeCast_self]; rfl
theorem edge8_at (A B : Vec Ideal S64x64x3 .f32) (x : S64x64x3.Idx) : (k0_pay73 (F := Ideal) A B) x = A x + B x := by
  unfold k0_pay73; simp only [shapeCast_self]; rfl
theorem edge9_at (A B : Vec Ideal S64x64x3 .f32) (x : S64x64x3.Idx) : (k0_pay74 (F := Ideal) A B) x = A x + B x := by
  unfold k0_pay74; simp only [shapeCast_self]; rfl
theorem edge10_at (A B : Vec Ideal S64x64x3 .f32) (x : S64x64x3.Idx) : (k0_pay75 (F := Ideal) A B) x = A x + B x := by
  unfold k0_pay75; simp only [shapeCast_self]; rfl
theorem edge11_at (A B : Vec Ideal S64x64x3 .f32) (x : S64x64x3.Idx) : (k0_pay76 (F := Ideal) A B) x = A x + B x := by
  unfold k0_pay76; simp only [shapeCast_self]; rfl
theorem edge12_at (A B : Vec Ideal S64x64x3 .f32) (x : S64x64x3.Idx) : (k0_pay77 (F := Ideal) A B) x = A x + B x := by
  unfold k0_pay77; simp only [shapeCast_self]; rfl
theorem edge13_at (A B : Vec Ideal S64x64x3 .f32) (x : S64x64x3.Idx) : (k0_pay78 (F := Ideal) A B) x = A x + B x := by
  unfold k0_pay78; simp only [shapeCast_self]; rfl
theorem edge14_at (A B : Vec Ideal S64x64x3 .f32) (x : S64x64x3.Idx) : (k0_pay79 (F := Ideal) A B) x = A x + B x := by
  unfold k0_pay79; simp only [shapeCast_self]; rfl
theorem edge15_at (A B : Vec Ideal S64x64x3 .f32) (x : S64x64x3.Idx) : (k0_pay80 (F := Ideal) A B) x = A x + B x := by
  unfold k0_pay80; simp only [shapeCast_self]; rfl
theorem edge16_at (A B : Vec Ideal S64x64x3 .f32) (x : S64x64x3.Idx) : (k0_pay81 (F := Ideal) A B) x = A x + B x := by
  unfold k0_pay81; simp only [shapeCast_self]; rfl
theorem edge17_at (A B : Vec Ideal S64x64x3 .f32) (x : S64x64x3.Idx) : (k0_pay82 (F := Ideal) A B) x = A x + B x := by
  unfold k0_pay82; simp only [shapeCast_self]; rfl
theorem edge18_at (A B : Vec Ideal S64x64x3 .f32) (x : S64x64x3.Idx) : (k0_pay84 (F := Ideal) (k0_pay83 (F := Ideal) A) B) x = A x + B x := by
  unfold k0_pay84 k0_pay83; simp only [shapeCast_self]; rfl
theorem edge19_at (A B : Vec Ideal S64x64x3 .f32) (x : S64x64x3.Idx) : (k0_pay85 (F := Ideal) A B) x = A x + B x := by
  unfold k0_pay85; simp only [shapeCast_self]; rfl
theorem edge20_at (A B : Vec Ideal S64x64x3 .f32) (x : S64x64x3.Idx) : (k0_pay86 (F := Ideal) A B) x = A x + B x := by
  unfold k0_pay86; simp only [shapeCast_self]; rfl
theorem edge21_at (A B : Vec Ideal S64x64x3 .f32) (x : S64x64x3.Idx) : (k0_pay87 (F := Ideal) A B) x = A x + B x := by
  unfold k0_pay87; simp only [shapeCast_self]; rfl
theorem copy0_at (A : Vec Ideal S64x64x3 .f32) (x : S64x64x3.Idx) : (k0_pay88 (F := Ideal) A) x = A x := by
  unfold k0_pay88; simp only [shapeCast_self]
theorem copy1_at (A : Vec Ideal S64x64x3 .f32) (x : S64x64x3.Idx) : (k0_pay89 (F := Ideal) A) x = A x := by
  unfold k0_pay89; simp only [shapeCast_self]
theorem copy2_at (A : Vec Ideal S64x64x3 .f32) (x : S64x64x3.Idx) : (k0_pay90 (F := Ideal) A) x = A x := by
  unfold k0_pay90; simp only [shapeCast_self]
theorem copy3_at (A : Vec Ideal S64x64x3 .f32) (x : S64x64x3.Idx) : (k0_pay91 (F := Ideal) A) x = A x := by
  unfold k0_pay91; simp only [shapeCast_self]
theorem copy4_at (A : Vec Ideal S64x64x3 .f32) (x : S64x64x3.Idx) : (k0_pay92 (F := Ideal) A) x = A x := by
  unfold k0_pay92; simp only [shapeCast_self]
theorem copy5_at (A : Vec Ideal S64x64x3 .f32) (x : S64x64x3.Idx) : (k0_pay1 (F := Ideal) A) x = A x := by
  unfold k0_pay1; simp only [shapeCast_self]

/-! ## The value a root's store and a child's store leave at an entry -/

/-- A root joint's store at (b, t, e): entry (b, k, e) of the root block, whatever the step. -/
theorem root_val {arg2 : Memref sig .tc .vmem S64x4x3 .f32} (harg2 : arg2.IsWhole) (x1 : Vec Ideal S64x4x3 .f32) (o : ℕ)
    (inb : ∀ a, (![0, o, 0] : Fin S64x4x3.rank → ℕ) a + (![64, 1, 3] : Fin S64x4x3.rank → ℕ) a ≤ S64x4x3.size a)
    (k : Fin 4) (ho : o = k.val) (b t : Fin 64) (e : Fin 3) (P : Vec Ideal S64x1x3 .f32 → Vec Ideal S64x64x3 .f32)
    (hP : ∀ (A : Vec Ideal S64x1x3 .f32) (b t : Fin 64) (e : Fin 3), P A (ix3 b t e) = A (ix3 b (0 : Fin 1) e)) :
    P (View.readAt (Elt Ideal) arg2.view (Rect.unit (s := S64x4x3) ![0, o, 0] ![64, 1, 3] inb).toLoadRect (harg2.unread x1)) (ix3 b t e)
      = x1 (ix3 b k e) := by
  rw [hP, root_load harg2 x1 o inb k ho b e]

/-- A child joint's store at (b, t, e): coordinate e of the Cartesian offset of triple k of row (b, t). -/
theorem child_val {arg1 : Memref sig .tc .vmem S64x64x66 .f32} (harg1 : arg1.IsWhole) (x0 : Vec Ideal S64x64x66 .f32) (o : ℕ)
    (inb : ∀ a, (![0, 0, o] : Fin S64x64x66.rank → ℕ) a + (![64, 64, 3] : Fin S64x64x66.rank → ℕ) a ≤ S64x64x66.size a)
    (k : Fin 22) (ho : o = 3 * k.val) (b t : Fin 64) (e : Fin 3) (P : Vec Ideal S64x64x3 .f32 → Vec Ideal S64x64x3 .f32)
    (hP : ∀ X : Vec Ideal S64x64x3 .f32, P X = k0_pay11 (F := Ideal) X) :
    P (View.readAt (Elt Ideal) arg1.view (Rect.unit (s := S64x64x66) ![0, 0, o] ![64, 64, 3] inb).toLoadRect (harg1.unread x0)) (ix3 b t e)
      = offsets (fun q => x0 (ix3 b t q)) e k := by
  rw [hP, sph_at, triple_load harg1 x0 o inb k ho b t 0, triple_load harg1 x0 o inb k ho b t 1,
    triple_load harg1 x0 o inb k ho b t 2]
  rfl

end Cert.KernelIdeal.KerValue
end
-- ==== Proof.KerBlock.lean ====
/-
  One grid point of the kernel. The body writes its output block joint by joint — four root joints spread over the
  time axis, twenty-two spherical triples converted, twenty-two tree edges each adding a parent's three columns to a child's,
  six joints copied — always through whole three-column rectangles, and reads back only columns it has already written.
  So for each (row, step, coordinate) the block evolves as a state of thirty-two joints, one step per store, and ends at
  the pose of that row's roots and that (row, step)'s triples; the fifty-four stores are followed newest first.
-/
import proofs.«155983_j18339510354491_1_alg».proof.Proof.Gen.KernelIdeal.Frame
import proofs.«155983_j18339510354491_1_alg».proof.Proof.Pose
import proofs.«155983_j18339510354491_1_alg».proof.Proof.KerState
import proofs.«155983_j18339510354491_1_alg».proof.Proof.KerPay

set_option maxRecDepth 16384

noncomputable section

namespace Cert.KernelIdeal.KerValue

open Cert.KernelIdeal Cert.KernelIdeal.Gen Idealize.ShloMosaic Idealize.ShloMosaic.TcCoe Idealize.ShloMosaic.Tactic
open Idealize.ShloMosaic.ValueIdx Idealize.SL.Sem Cert.Pose

set_option maxHeartbeats 4000000 in
/-- The state of (row b, step t, coordinate e) after the body's fifty-four stores is the pose computed step by step from
    whatever the block held before: each store is one step, in the order the pose is defined. -/
theorem state_after_body (c : Dev nD) (i : grid0.Coords) (arg1 : Memref sig .tc .vmem S64x64x66 .f32) (harg1 : arg1.IsWhole)
    (arg2 : Memref sig .tc .vmem S64x4x3 .f32) (harg2 : arg2.IsWhole) (arg3 : Memref sig .tc .vmem S64x64x96 .f32) (harg3 : arg3.IsWhole)
    (x0 : Vec Ideal S64x64x66 .f32) (x1 : Vec Ideal S64x4x3 .f32) (b t : Fin 64) (e : Fin 3) :
    jointState (after arg3.view (kernelRun0_A (F := Ideal) c i arg1 harg1 arg2 harg2 arg3 harg3 x0 x1).1) b t e
      = pose (jointState (after arg3.view []) b t e) (fun k => x1 (ix3 b k e)) (offsets (fun q => x0 (ix3 b t q)) e) := by
  unfold kernelRun0_A
  dsimp only
  sl_unfold_words
  unfold pose equalize tree base
  refine (state_copy arg3.view _ 93 90 inb_S64x64x96_S64x64x3_0_0_93 inb_S64x64x96_S64x64x3_0_0_90 (fun A => (k0_pay1 (F := Ideal) A)) copy5_at 30 31 rfl rfl b t e).trans (congrArg (copyStep 30 31) ?_)
  refine (state_copy arg3.view _ 84 81 inb_S64x64x96_S64x64x3_0_0_84 inb_S64x64x96_S64x64x3_0_0_81 (fun A => (k0_pay92 (F := Ideal) A)) copy4_at 27 28 rfl rfl b t e).trans (congrArg (copyStep 27 28) ?_)
  refine (state_copy arg3.view _ 72 39 inb_S64x64x96_S64x64x3_0_0_72 inb_S64x64x96_S64x64x3_0_0_39 (fun A => (k0_pay91 (F := Ideal) A)) copy3_at 13 24 rfl rfl b t e).trans (congrArg (copyStep 13 24) ?_)
  refine (state_copy arg3.view _ 69 66 inb_S64x64x96_S64x64x3_0_0_69 inb_S64x64x96_S64x64x3_0_0_66 (fun A => (k0_pay90 (F := Ideal) A)) copy2_at 22 23 rfl rfl b t e).trans (congrArg (copyStep 22 23) ?_)
  refine (state_copy arg3.view _ 60 57 inb_S64x64x96_S64x64x3_0_0_60 inb_S64x64x96_S64x64x3_0_0_57 (fun A => (k0_pay89 (F := Ideal) A)) copy1_at 19 20 rfl rfl b t e).trans (congrArg (copyStep 19 20) ?_)
  refine (state_copy arg3.view _ 48 39 inb_S64x64x96_S64x64x3_0_0_48 inb_S64x64x96_S64x64x3_0_0_39 (fun A => (k0_pay88 (F := Ideal) A)) copy0_at 13 16 rfl rfl b t e).trans (congrArg (copyStep 13 16) ?_)
  refine (state_add arg3.view _ 30 27 inb_S64x64x96_S64x64x3_0_0_30 inb_S64x64x96_S64x64x3_0_0_30 inb_S64x64x96_S64x64x3_0_0_27 (fun A B => (k0_pay87 (F := Ideal) A B)) edge21_at 10 9 rfl rfl b t e).trans (congrArg (addStep 9 10) ?_)
  refine (state_add arg3.view _ 27 24 inb_S64x64x96_S64x64x3_0_0_27 inb_S64x64x96_S64x64x3_0_0_27 inb_S64x64x96_S64x64x3_0_0_24 (fun A B => (k0_pay86 (F := Ideal) A B)) edge20_at 9 8 rfl rfl b t e).trans (congrArg (addStep 8 9) ?_)
  refine (state_add arg3.view _ 24 21 inb_S64x64x96_S64x64x3_0_0_24 inb_S64x64x96_S64x64x3_0_0_24 inb_S64x64x96_S64x64x3_0_0_21 (fun A B => (k0_pay85 (F := Ideal) A B)) edge19_at 8 7 rfl rfl b t e).trans (congrArg (addStep 7 8) ?_)
  refine (state_add arg3.view _ 21 18 inb_S64x64x96_S64x64x3_0_0_21 inb_S64x64x96_S64x64x3_0_0_21 inb_S64x64x96_S64x64x3_0_0_18 (fun A B => (k0_pay84 (F := Ideal) (k0_pay83 (F := Ideal) A) B)) edge18_at 7 6 rfl rfl b t e).trans (congrArg (addStep 6 7) ?_)
  refine (state_add arg3.view _ 15 12 inb_S64x64x96_S64x64x3_0_0_15 inb_S64x64x96_S64x64x3_0_0_15 inb_S64x64x96_S64x64x3_0_0_12 (fun A B => (k0_pay82 (F := Ideal) A B)) edge17_at 5 4 rfl rfl b t e).trans (congrArg (addStep 4 5) ?_)
  refine (state_add arg3.view _ 12 9 inb_S64x64x96_S64x64x3_0_0_12 inb_S64x64x96_S64x64x3_0_0_12 inb_S64x64x96_S64x64x3_0_0_9 (fun A B => (k0_pay81 (F := Ideal) A B)) edge16_at 4 3 rfl rfl b t e).trans (congrArg (addStep 3 4) ?_)
  refine (state_add arg3.view _ 9 6 inb_S64x64x96_S64x64x3_0_0_9 inb_S64x64x96_S64x64x3_0_0_9 inb_S64x64x96_S64x64x3_0_0_6 (fun A B => (k0_pay80 (F := Ideal) A B)) edge15_at 3 2 rfl rfl b t e).trans (congrArg (addStep 2 3) ?_)
  refine (state_add arg3.view _ 6 3 inb_S64x64x96_S64x64x3_0_0_6 inb_S64x64x96_S64x64x3_0_0_6 inb_S64x64x96_S64x64x3_0_0_3 (fun A B => (k0_pay79 (F := Ideal) A B)) edge14_at 2 1 rfl rfl b t e).trans (congrArg (addStep 1 2) ?_)
  refine (state_add arg3.view _ 66 63 inb_S64x64x96_S64x64x3_0_0_66 inb_S64x64x96_S64x64x3_0_0_66 inb_S64x64x96_S64x64x3_0_0_63 (fun A B => (k0_pay78 (F := Ideal) A B)) edge13_at 22 21 rfl rfl b t e).trans (congrArg (addStep 21 22) ?_)
  refine (state_add arg3.view _ 63 57 inb_S64x64x96_S64x64x3_0_0_63 inb_S64x64x96_S64x64x3_0_0_63 inb_S64x64x96_S64x64x3_0_0_57 (fun A B => (k0_pay77 (F := Ideal) A B)) edge12_at 21 19 rfl rfl b t e).trans (congrArg (addStep 19 21) ?_)
  refine (state_add arg3.view _ 57 54 inb_S64x64x96_S64x64x3_0_0_57 inb_S64x64x96_S64x64x3_0_0_57 inb_S64x64x96_S64x64x3_0_0_54 (fun A B => (k0_pay76 (F := Ideal) A B)) edge11_at 19 18 rfl rfl b t e).trans (congrArg (addStep 18 19) ?_)
  refine (state_add arg3.view _ 54 51 inb_S64x64x96_S64x64x3_0_0_54 inb_S64x64x96_S64x64x3_0_0_54 inb_S64x64x96_S64x64x3_0_0_51 (fun A B => (k0_pay75 (F := Ideal) A B)) edge10_at 18 17 rfl rfl b t e).trans (congrArg (addStep 17 18) ?_)
  refine (state_add arg3.view _ 51 39 inb_S64x64x96_S64x64x3_0_0_51 inb_S64x64x96_S64x64x3_0_0_51 inb_S64x64x96_S64x64x3_0_0_39 (fun A B => (k0_pay74 (F := Ideal) A B)) edge9_at 17 13 rfl rfl b t e).trans (congrArg (addStep 13 17) ?_)
  refine (state_add arg3.view _ 90 87 inb_S64x64x96_S64x64x3_0_0_90 inb_S64x64x96_S64x64x3_0_0_90 inb_S64x64x96_S64x64x3_0_0_87 (fun A B => (k0_pay73 (F := Ideal) A B)) edge8_at 30 29 rfl rfl b t e).trans (congrArg (addStep 29 30) ?_)
  refine (state_add arg3.view _ 87 81 inb_S64x64x96_S64x64x3_0_0_87 inb_S64x64x96_S64x64x3_0_0_87 inb_S64x64x96_S64x64x3_0_0_81 (fun A B => (k0_pay72 (F := Ideal) A B)) edge7_at 29 27 rfl rfl b t e).trans (congrArg (addStep 27 29) ?_)
  refine (state_add arg3.view _ 81 78 inb_S64x64x96_S64x64x3_0_0_81 inb_S64x64x96_S64x64x3_0_0_81 inb_S64x64x96_S64x64x3_0_0_78 (fun A B => (k0_pay71 (F := Ideal) A B)) edge6_at 27 26 rfl rfl b t e).trans (congrArg (addStep 26 27) ?_)
  refine (state_add arg3.view _ 78 75 inb_S64x64x96_S64x64x3_0_0_78 inb_S64x64x96_S64x64x3_0_0_78 inb_S64x64x96_S64x64x3_0_0_75 (fun A B => (k0_pay70 (F := Ideal) A B)) edge5_at 26 25 rfl rfl b t e).trans (congrArg (addStep 25 26) ?_)
  refine (state_add arg3.view _ 75 39 inb_S64x64x96_S64x64x3_0_0_75 inb_S64x64x96_S64x64x3_0_0_75 inb_S64x64x96_S64x64x3_0_0_39 (fun A B => (k0_pay69 (F := Ideal) A B)) edge4_at 25 13 rfl rfl b t e).trans (congrArg (addStep 13 25) ?_)
  refine (state_add arg3.view _ 45 42 inb_S64x64x96_S64x64x3_0_0_45 inb_S64x64x96_S64x64x3_0_0_45 inb_S64x64x96_S64x64x3_0_0_42 (fun A B => (k0_pay68 (F := Ideal) (k0_pay67 (F := Ideal) A) B)) edge3_at 15 14 rfl rfl b t e).trans (congrArg (addStep 14 15) ?_)
  refine (state_add arg3.view _ 42 39 inb_S64x64x96_S64x64x3_0_0_42 inb_S64x64x96_S64x64x3_0_0_42 inb_S64x64x96_S64x64x3_0_0_39 (fun A B => (k0_pay66 (F := Ideal) A B)) edge2_at 14 13 rfl rfl b t e).trans (congrArg (addStep 13 14) ?_)
  refine (state_add arg3.view _ 39 36 inb_S64x64x96_S64x64x3_0_0_39 inb_S64x64x96_S64x64x3_0_0_39 inb_S64x64x96_S64x64x3_0_0_36 (fun A B => (k0_pay65 (F := Ideal) A B)) edge1_at 13 12 rfl rfl b t e).trans (congrArg (addStep 12 13) ?_)
  refine (state_add arg3.view _ 36 33 inb_S64x64x96_S64x64x3_0_0_36 inb_S64x64x96_S64x64x3_0_0_36 inb_S64x64x96_S64x64x3_0_0_33 (fun A B => (k0_pay64 (F := Ideal) A B)) edge0_at 12 11 rfl rfl b t e).trans (congrArg (addStep 11 12) ?_)
  refine (state_set arg3.view _ 30 inb_S64x64x96_S64x64x3_0_0_30 _ 10 rfl b t e (offsets (fun q => x0 (ix3 b t q)) e 21)
      (child_val harg1 x0 63 inb_S64x64x66_S64x64x3_0_0_63 21 rfl b t e (fun X => (k0_pay63 (F := Ideal) X)) (child21_eq))).trans (congrArg (setStep 10 _) ?_)
  refine (state_set arg3.view _ 27 inb_S64x64x96_S64x64x3_0_0_27 _ 9 rfl b t e (offsets (fun q => x0 (ix3 b t q)) e 20)
      (child_val harg1 x0 60 inb_S64x64x66_S64x64x3_0_0_60 20 rfl b t e (fun X => (k0_pay62 (F := Ideal) X)) (child20_eq))).trans (congrArg (setStep 9 _) ?_)
  refine (state_set arg3.view _ 24 inb_S64x64x96_S64x64x3_0_0_24 _ 8 rfl b t e (offsets (fun q => x0 (ix3 b t q)) e 19)
      (child_val harg1 x0 57 inb_S64x64x66_S64x64x3_0_0_57 19 rfl b t e (fun X => (k0_pay61 (F := Ideal) (k0_pay58 (F := Ideal) X) (k0_pay59 (F := Ideal) X) (k0_pay60 (F := Ideal) X))) (child19_eq))).trans (congrArg (setStep 8 _) ?_)
  refine (state_set arg3.view _ 21 inb_S64x64x96_S64x64x3_0_0_21 _ 7 rfl b t e (offsets (fun q => x0 (ix3 b t q)) e 18)
      (child_val harg1 x0 54 inb_S64x64x66_S64x64x3_0_0_54 18 rfl b t e (fun X => (k0_pay53 (F := Ideal) X)) (child18_eq))).trans (congrArg (setStep 7 _) ?_)
  refine (state_set arg3.view _ 15 inb_S64x64x96_S64x64x3_0_0_15 _ 5 rfl b t e (offsets (fun q => x0 (ix3 b t q)) e 17)
      (child_val harg1 x0 51 inb_S64x64x66_S64x64x3_0_0_51 17 rfl b t e (fun X => (k0_pay52 (F := Ideal) (k0_pay46 (F := Ideal) X) (k0_pay47 (F := Ideal) X) (k0_pay49 (F := Ideal) X) (k0_pay50 (F := Ideal) X) (k0_pay51 (F := Ideal) X))) (child17_eq))).trans (congrArg (setStep 5 _) ?_)
  refine (state_set arg3.view _ 12 inb_S64x64x96_S64x64x3_0_0_12 _ 4 rfl b t e (offsets (fun q => x0 (ix3 b t q)) e 16)
      (child_val harg1 x0 48 inb_S64x64x66_S64x64x3_0_0_48 16 rfl b t e (fun X => (k0_pay45 (F := Ideal) X)) (child16_eq))).trans (congrArg (setStep 4 _) ?_)
  refine (state_set arg3.view _ 9 inb_S64x64x96_S64x64x3_0_0_9 _ 3 rfl b t e (offsets (fun q => x0 (ix3 b t q)) e 15)
      (child_val harg1 x0 45 inb_S64x64x66_S64x64x3_0_0_45 15 rfl b t e (fun X => (k0_pay44 (F := Ideal) (k0_pay40 (F := Ideal) X) (k0_pay41 (F := Ideal) X) (k0_pay42 (F := Ideal) X) (k0_pay43 (F := Ideal) X))) (child15_eq))).trans (congrArg (setStep 3 _) ?_)
  refine (state_set arg3.view _ 6 inb_S64x64x96_S64x64x3_0_0_6 _ 2 rfl b t e (offsets (fun q => x0 (ix3 b t q)) e 14)
      (child_val harg1 x0 42 inb_S64x64x66_S64x64x3_0_0_42 14 rfl b t e (fun X => (k0_pay39 (F := Ideal) X)) (child14_eq))).trans (congrArg (setStep 2 _) ?_)
  refine (state_set arg3.view _ 66 inb_S64x64x96_S64x64x3_0_0_66 _ 22 rfl b t e (offsets (fun q => x0 (ix3 b t q)) e 13)
      (child_val harg1 x0 39 inb_S64x64x66_S64x64x3_0_0_39 13 rfl b t e (fun X => (k0_pay38 (F := Ideal) X (k0_pay36 (F := Ideal) X) (k0_pay37 (F := Ideal) X))) (child13_eq))).trans (congrArg (setStep 22 _) ?_)
  refine (state_set arg3.view _ 63 inb_S64x64x96_S64x64x3_0_0_63 _ 21 rfl b t e (offsets (fun q => x0 (ix3 b t q)) e 12)
      (child_val harg1 x0 36 inb_S64x64x66_S64x64x3_0_0_36 12 rfl b t e (fun X => (k0_pay35 (F := Ideal) X)) (child12_eq))).trans (congrArg (setStep 21 _) ?_)
  refine (state_set arg3.view _ 57 inb_S64x64x96_S64x64x3_0_0_57 _ 19 rfl b t e (offsets (fun q => x0 (ix3 b t q)) e 11)
      (child_val harg1 x0 33 inb_S64x64x66_S64x64x3_0_0_33 11 rfl b t e (fun X => (k0_pay34 (F := Ideal) X)) (child11_eq))).trans (congrArg (setStep 19 _) ?_)
  refine (state_set arg3.view _ 54 inb_S64x64x96_S64x64x3_0_0_54 _ 18 rfl b t e (offsets (fun q => x0 (ix3 b t q)) e 10)
      (child_val harg1 x0 30 inb_S64x64x66_S64x64x3_0_0_30 10 rfl b t e (fun X => (k0_pay33 (F := Ideal) X)) (child10_eq))).trans (congrArg (setStep 18 _) ?_)
  refine (state_set arg3.view _ 51 inb_S64x64x96_S64x64x3_0_0_51 _ 17 rfl b t e (offsets (fun q => x0 (ix3 b t q)) e 9)
      (child_val harg1 x0 27 inb_S64x64x66_S64x64x3_0_0_27 9 rfl b t e (fun X => (k0_pay32 (F := Ideal) X)) (child9_eq))).trans (congrArg (setStep 17 _) ?_)
  refine (state_set arg3.view _ 90 inb_S64x64x96_S64x64x3_0_0_90 _ 30 rfl b t e (offsets (fun q => x0 (ix3 b t q)) e 8)
      (child_val harg1 x0 24 inb_S64x64x66_S64x64x3_0_0_24 8 rfl b t e (fun X => (k0_pay31 (F := Ideal) X)) (child8_eq))).trans (congrArg (setStep 30 _) ?_)
  refine (state_set arg3.view _ 87 inb_S64x64x96_S64x64x3_0_0_87 _ 29 rfl b t e (offsets (fun q => x0 (ix3 b t q)) e 7)
      (child_val harg1 x0 21 inb_S64x64x66_S64x64x3_0_0_21 7 rfl b t e (fun X => (k0_pay30 (F := Ideal) X)) (child7_eq))).trans (congrArg (setStep 29 _) ?_)
  refine (state_set arg3.view _ 81 inb_S64x64x96_S64x64x3_0_0_81 _ 27 rfl b t e (offsets (fun q => x0 (ix3 b t q)) e 6)
      (child_val harg1 x0 18 inb_S64x64x66_S64x64x3_0_0_18 6 rfl b t e (fun X => (k0_pay29 (F := Ideal) X)) (child6_eq))).trans (congrArg (setStep 27 _) ?_)
  refine (state_set arg3.view _ 78 inb_S64x64x96_S64x64x3_0_0_78 _ 26 rfl b t e (offsets (fun q => x0 (ix3 b t q)) e 5)
      (child_val harg1 x0 15 inb_S64x64x66_S64x64x3_0_0_15 5 rfl b t e (fun X => (k0_pay28 (F := Ideal) X)) (child5_eq))).trans (congrArg (setStep 26 _) ?_)
  refine (state_set arg3.view _ 75 inb_S64x64x96_S64x64x3_0_0_75 _ 25 rfl b t e (offsets (fun q => x0 (ix3 b t q)) e 4)
      (child_val harg1 x0 12 inb_S64x64x66_S64x64x3_0_0_12 4 rfl b t e (fun X => (k0_pay27 (F := Ideal) (k0_pay24 (F := Ideal) X) (k0_pay25 (F := Ideal) X) (k0_pay26 (F := Ideal) X))) (child4_eq))).trans (congrArg (setStep 25 _) ?_)
  refine (state_set arg3.view _ 45 inb_S64x64x96_S64x64x3_0_0_45 _ 15 rfl b t e (offsets (fun q => x0 (ix3 b t q)) e 3)
      (child_val harg1 x0 9 inb_S64x64x66_S64x64x3_0_0_9 3 rfl b t e (fun X => (k0_pay19 (F := Ideal) X)) (child3_eq))).trans (congrArg (setStep 15 _) ?_)
  refine (state_set arg3.view _ 42 inb_S64x64x96_S64x64x3_0_0_42 _ 14 rfl b t e (offsets (fun q => x0 (ix3 b t q)) e 2)
      (child_val harg1 x0 6 inb_S64x64x66_S64x64x3_0_0_6 2 rfl b t e (fun X => (k0_pay18 (F := Ideal) (k0_pay12 (F := Ideal) X) (k0_pay13 (F := Ideal) X) (k0_pay15 (F := Ideal) X) (k0_pay16 (F := Ideal) X) (k0_pay17 (F := Ideal) X))) (child2_eq))).trans (congrArg (setStep 14 _) ?_)
  refine (state_set arg3.view _ 39 inb_S64x64x96_S64x64x3_0_0_39 _ 13 rfl b t e (offsets (fun q => x0 (ix3 b t q)) e 1)
      (child_val harg1 x0 3 inb_S64x64x66_S64x64x3_0_0_3 1 rfl b t e (fun X => (k0_pay11 (F := Ideal) X)) (fun _ => rfl))).trans (congrArg (setStep 13 _) ?_)
  refine (state_set arg3.view _ 36 inb_S64x64x96_S64x64x3_0_0_36 _ 12 rfl b t e (offsets (fun q => x0 (ix3 b t q)) e 0)
      (child_val harg1 x0 0 inb_S64x64x66_S64x64x3_0_0_0 0 rfl b t e (fun X => (k0_pay10 (F := Ideal) (k0_pay6 (F := Ideal) X) (k0_pay7 (F := Ideal) X) (k0_pay8 (F := Ideal) X) (k0_pay9 (F := Ideal) X))) (child0_eq))).trans (congrArg (setStep 12 _) ?_)
  refine (state_set arg3.view _ 33 inb_S64x64x96_S64x64x3_0_0_33 _ 11 rfl b t e (x1 (ix3 b (3 : Fin 4) e))
      (root_val harg2 x1 3 inb_S64x4x3_S64x1x3_0_3_0 3 rfl b t e (fun A => k0_pay5 (F := Ideal) A) root3_at)).trans (congrArg (setStep 11 _) ?_)
  refine (state_set arg3.view _ 18 inb_S64x64x96_S64x64x3_0_0_18 _ 6 rfl b t e (x1 (ix3 b (2 : Fin 4) e))
      (root_val harg2 x1 2 inb_S64x4x3_S64x1x3_0_2_0 2 rfl b t e (fun A => k0_pay4 (F := Ideal) A) root2_at)).trans (congrArg (setStep 6 _) ?_)
  refine (state_set arg3.view _ 3 inb_S64x64x96_S64x64x3_0_0_3 _ 1 rfl b t e (x1 (ix3 b (1 : Fin 4) e))
      (root_val harg2 x1 1 inb_S64x4x3_S64x1x3_0_1_0 1 rfl b t e (fun A => k0_pay3 (F := Ideal) A) root1_at)).trans (congrArg (setStep 1 _) ?_)
  refine (state_set arg3.view _ 0 inb_S64x64x96_S64x64x3_0_0_0 _ 0 rfl b t e (x1 (ix3 b (0 : Fin 4) e))
      (root_val harg2 x1 0 inb_S64x4x3_S64x1x3_0_0_0 0 rfl b t e (fun A => k0_pay2 (F := Ideal) A) root0_at)).trans (congrArg (setStep 0 _) ?_)
  rfl

/-- What the body leaves in the output block at any grid point, on any staging memrefs: the pose, entry by entry, of the
    point's block of triples `x0` and block of root joints `x1`. -/
theorem block_eq (c : Dev nD) (i : grid0.Coords) (arg1 : Memref sig .tc .vmem S64x64x66 .f32) (harg1 : arg1.IsWhole)
    (arg2 : Memref sig .tc .vmem S64x4x3 .f32) (harg2 : arg2.IsWhole) (arg3 : Memref sig .tc .vmem S64x64x96 .f32) (harg3 : arg3.IsWhole)
    (x0 : Vec Ideal S64x64x66 .f32) (x1 : Vec Ideal S64x4x3 .f32) :
    out0_A_2 (F := Ideal) c i arg1 harg1 arg2 harg2 arg3 harg3 x0 x1 = Cert.Pose.Gblk x0 x1 := by
  unfold out0_A_2
  rw [View.read_writes_of_cover VO0_2 VO0_2.junk arg3.view arg3.view.junk _
    (cover0_A_2 (F := Ideal) c i arg1 harg1 arg2 harg2 arg3 harg3 x0 x1)]
  funext y
  obtain ⟨b, t, cc, rfl⟩ : ∃ (b t : Fin 64) (cc : Fin 96), y = ix3 b t cc := ⟨y 0, y 1, y 2, eq_ix3 y⟩
  have hcol : col96 (jointOf cc) (coordOf cc) = cc := Fin.ext (by
    show 3 * (cc.val / 3) + cc.val % 3 = cc.val
    omega)
  have hstate := congrFun (state_after_body c i arg1 harg1 arg2 harg2 arg3 harg3 x0 x1 b t (coordOf cc)) (jointOf cc)
  rw [pose_eq_table] at hstate
  unfold jointState after at hstate
  rw [hcol] at hstate
  exact hstate

end Cert.KernelIdeal.KerValue
end
-- ==== Proof.LibGatherMiddle.lean ====
/-
  Slabs along the middle axis of a rank-3 array selected by a column of integer words, read at an index.

  `x[:, idx, :]` of an array `x : [A, N, B]` at an index column `idx : [E, 1]` is a gather whose result at
  `(a, e, k)` is the operand at `(a, r, k)`, where `r` is the position on the middle axis that the word `idx[e, 0]`
  names: the word read as a signed integer and clamped into `[0, N − 1]`. The outer and the inner axes are taken
  whole; only the middle one is indexed. The library states a gather through lists of axes and list lookups; here
  the dimension numbers are fixed, the lookups are carried out once, and the operation is stated as a plain equation
  between elements.
-/
import Idealize.ShloMosaic.PureOps.Ideal
import Idealize.ShloMosaic.Lib.ValueIdx

noncomputable section

namespace Idealize.ShloMosaic.ValueIdx

open Idealize.ShloMosaic

section GatherMiddle
variable {α : Type}

/-- The dimension numbers of `x[:, idx, :]` for an operand `[A, N, B]`, an index column `[E, 1]` and the result
    `[A, E, B]`: axis 1 of the operand is indexed and collapsed, axes 0 and 2 are taken whole as the result's axes 0
    and 2. Their conditions `wf` are decided on a program's literal shapes. -/
abbrev midGatherDims (A N E B : Nat)
    (wf : GatherDims.WF ⟨3, ![A, N, B]⟩ ⟨2, ![E, 1]⟩ ⟨3, ![A, E, B]⟩ [0, 2] [1] [] [1] [] 1 ![A, 1, B]) :
    GatherDims ⟨3, ![A, N, B]⟩ ⟨2, ![E, 1]⟩ ⟨3, ![A, E, B]⟩ where
  offsetDims := [0, 2]
  collapsedSliceDims := [1]
  operandBatchingDims := []
  startIndicesBatchingDims := []
  startIndexMap := [1]
  indexVectorDim := 1
  sliceSizes := ![A, 1, B]
  wf := wf

/-- Result index `(a, e, k)` reads its one start-index component at `[e, 0]` of the index column. -/
theorem midGather_siIdx {A N E B : Nat}
    (wf : GatherDims.WF ⟨3, ![A, N, B]⟩ ⟨2, ![E, 1]⟩ ⟨3, ![A, E, B]⟩ [0, 2] [1] [] [1] [] 1 ![A, 1, B])
    (a : Fin A) (e : Fin E) (k : Fin B) (c : Fin (midGatherDims A N E B wf).startIndexMap.length) :
    (midGatherDims A N E B wf).siIdx (ix3 a e k) c = ix2 e (0 : Fin 1) := by
  funext b; refine Fin.ext ?_
  match b with
  | ⟨0, _⟩ => rfl
  | ⟨1, _⟩ =>
    have := c.isLt
    show c.val = 0
    simp only [List.length_singleton] at this
    omega

/-- The operand's kept axes are the ones that are not the indexed axis. -/
theorem midGather_mem_sKept {A N E B : Nat}
    (wf : GatherDims.WF ⟨3, ![A, N, B]⟩ ⟨2, ![E, 1]⟩ ⟨3, ![A, E, B]⟩ [0, 2] [1] [] [1] [] 1 ![A, 1, B]) (a : Fin 3) :
    a ∈ (midGatherDims A N E B wf).sKept ↔ a ∉ [(1 : Fin 3)] := by
  rw [GatherDims.mem_sKept]
  exact ⟨fun h => h.1, fun h => ⟨h, List.not_mem_nil⟩⟩

/-- THE MIDDLE-AXIS GATHER READ AT `(a, e, k)`: the operand at `(a, r, k)` for the position `r` that the word
    `idx[e, 0]` names, read signed and clamped into `[0, N − 1]`. -/
theorem gather_mid_apply {A N E B w : Nat} (hN : 0 < N)
    (wf : GatherDims.WF ⟨3, ![A, N, B]⟩ ⟨2, ![E, 1]⟩ ⟨3, ![A, E, B]⟩ [0, 2] [1] [] [1] [] 1 ![A, 1, B])
    (x : (⟨3, ![A, N, B]⟩ : Shape).Idx → α) (idx : IVec ⟨2, ![E, 1]⟩ w) (a : Fin A) (e : Fin E) (k : Fin B) :
    Host.gather (midGatherDims A N E B wf) x idx (ix3 a e k)
      = x (ix3 a (⟨min (idx (ix2 e (0 : Fin 1))).toInt.toNat (N - 1), by omega⟩ : Fin N) k) := by
  unfold Host.gather
  congr 1
  funext ax
  refine Fin.ext ?_
  show (midGatherDims A N E B wf).start (ix3 a e k) idx ax + (midGatherDims A N E B wf).batchCoord (ix3 a e k) ax
    + (midGatherDims A N E B wf).offCoord (ix3 a e k) ax = _
  rw [GatherDims.batchCoord_eq_zero _ _ _ List.not_mem_nil]
  match ax with
  | ⟨0, _⟩ =>
    show (midGatherDims A N E B wf).start (ix3 a e k) idx 0 + 0 + (midGatherDims A N E B wf).offCoord (ix3 a e k) 0 = _
    unfold GatherDims.start GatherDims.offCoord
    rw [dif_neg (show (0 : Fin 3) ∉ (midGatherDims A N E B wf).startIndexMap from
      (by decide : (0 : Fin 3) ∉ [(1 : Fin 3)]))]
    rw [dif_pos ((midGather_mem_sKept wf 0).mpr (by decide : (0 : Fin 3) ∉ [(1 : Fin 3)]))]
    simp only [Nat.zero_add]
    rfl
  | ⟨1, _⟩ =>
    show (midGatherDims A N E B wf).start (ix3 a e k) idx 1 + 0 + (midGatherDims A N E B wf).offCoord (ix3 a e k) 1 = _
    rw [GatherDims.offCoord_eq_zero _ _ _ (fun hh => (midGather_mem_sKept wf 1).mp hh (List.mem_singleton.mpr rfl))]
    unfold GatherDims.start
    rw [dif_pos (show (1 : Fin 3) ∈ (midGatherDims A N E B wf).startIndexMap from List.mem_singleton.mpr rfl)]
    rw [midGather_siIdx]
    rfl
  | ⟨2, _⟩ =>
    show (midGatherDims A N E B wf).start (ix3 a e k) idx 2 + 0 + (midGatherDims A N E B wf).offCoord (ix3 a e k) 2 = _
    unfold GatherDims.start GatherDims.offCoord
    rw [dif_neg (show (2 : Fin 3) ∉ (midGatherDims A N E B wf).startIndexMap from
      (by decide : (2 : Fin 3) ∉ [(1 : Fin 3)]))]
    rw [dif_pos ((midGather_mem_sKept wf 2).mpr (by decide : (2 : Fin 3) ∉ [(1 : Fin 3)]))]
    simp only [Nat.zero_add]
    rfl

end GatherMiddle

end Idealize.ShloMosaic.ValueIdx

end
-- ==== Proof.KerRoots.lean ====
/-
  The four root joints as the region finds them.

  Before the region the host takes the LAST observed frame (time index 15) of every batch row, regroups its ninety-six
  columns as thirty-two joints of three coordinates each — column `3·j + e` is coordinate `e` of joint `j` — and picks
  the joints 0, 1, 6, 11 out of the thirty-two. The picking is a gather along the joint axis whose index column is the
  table [0, 1, 6, 11] itself: the host first prepares `table + 32` for negative entries and selects it under an all-false
  mask, which keeps the table. So the array the second input window stages holds, at (b, k, e), the observed pose at
  (b, 15, 3·rootJoint k + e).
-/
import proofs.«155983_j18339510354491_1_alg».proof.Proof.Gen.KernelIdeal.Frame.Runs
import proofs.«155983_j18339510354491_1_alg».proof.Proof.Pose
import proofs.«155983_j18339510354491_1_alg».proof.Proof.LibGatherMiddle
import Idealize.ShloMosaic.Lib.StableHlo.Run
import Idealize.ShloMosaic.Lib.Pipeline.Value

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx

/-- The index column of the gather: the table of root joints, after the host's index plumbing (the table shifted by
    thirty-two, selected under a mask that is false everywhere, so the table itself; then laid out as a column). -/
abbrev rootColumn : IVec S4x1 32 :=
  broadcastInDim S4x1 ![0] bcast_S4_S4x1_0
    (select (constantI S4 1 0#1)
      (addi (fun i => lit0 (S4.rowMajor i)) (broadcastInDim S4 ![] bcast_S_S4 (constantI S_ 32 32#32)))
      (fun i => lit0 (S4.rowMajor i)))

/-- Entry `k` of the index column is entry `k` of the table. -/
theorem rootColumn_apply (k : Fin 4) : rootColumn (ix2 k (0 : Fin 1)) = lit0 k := by
  unfold rootColumn
  rw [broadcastInDim_apply (![0]) bcast_S4_S4x1_0 _ (ix2 k (0 : Fin 1)) (ix1 k)
    (fun a => by match a with | ⟨0, _⟩ => rfl)]
  rw [select_apply, show constantI S4 1 0#1 (ix1 k) = 0#1 from rfl, select_zero]
  refine congrArg lit0 (Fin.ext ?_)
  rw [Shape.rowMajor_val_one]

/-- Read as a signed integer and clamped into the thirty-two joints, entry `k` of the table is root joint `k`. -/
theorem rootColumn_clamp (k : Fin 4) :
    min (rootColumn (ix2 k (0 : Fin 1))).toInt.toNat (32 - 1) = (Cert.Pose.rootJoint k).val := by
  rw [rootColumn_apply]
  revert k
  decide

/-- The last observed frame regrouped as joints: entry (b, j, e) of the regrouped array is the observed pose at
    (b, 15, 3·j + e). The two regroupings keep the row-major position; the slice shifts the time index by fifteen. -/
theorem lastFrame_apply (x : S4096x16x96.Idx → EReal) (b : Fin 4096) (j : Fin 32) (e : Fin 3) :
    shapeCast S4096x32x3
        (shapeCast S4096x96 (extractStridedSlice S4096x1x96 ![0, 15, 0] x slices_S4096x16x96_S4096x1x96_0_15_0)
          shapeCasts_S4096x1x96_S4096x96)
        shapeCasts_S4096x96_S4096x32x3 (ix3 b j e)
      = x (ix3 b (15 : Fin 16) (Cert.Pose.col96 j e)) := by
  refine (shapeCast_apply _ _ (ix3 b j e) (ix2 b (Cert.Pose.col96 j e)) ?_).trans ?_
  · rw [Shape.rowMajor_val_two, Shape.rowMajor_val_three]
    show b.val * 96 + (3 * j.val + e.val) = (b.val * 32 + j.val) * 3 + e.val
    omega
  refine (shapeCast_apply _ _ (ix2 b (Cert.Pose.col96 j e)) (ix3 b (0 : Fin 1) (Cert.Pose.col96 j e)) ?_).trans ?_
  · rw [Shape.rowMajor_val_three, Shape.rowMajor_val_two]
    show (b.val * 1 + 0) * 96 + (3 * j.val + e.val) = b.val * 96 + (3 * j.val + e.val)
    omega
  refine extractStridedSlice_apply _ _ _ _ _ fun a => ?_
  match a with
  | ⟨0, _⟩ => show b.val = 0 + b.val; omega
  | ⟨1, _⟩ => show 15 = 15 + 0; omega
  | ⟨2, _⟩ => show 3 * j.val + e.val = 0 + (3 * j.val + e.val); omega

variable (m : (ℓ : Loc nD τ sig) → Buf (Elt Ideal) ℓ)

/-- THE ROOT-JOINT ARRAY the region finds: at (b, k, e), the last observed frame of batch row `b` at coordinate `e` of
    root joint `k`. -/
theorem roots_eq (c : Dev nD) :
    (V m c main_v7 : S4096x4x3.Idx → EReal)
      = fun i => m ((c : Thread nD τ).loc main_arg0)
          (ix3 (i 0) (15 : Fin 16) (Cert.Pose.col96 (Cert.Pose.rootJoint (i 1)) (i 2))) := by
  have e : (V m c main_v7 : S4096x4x3.Idx → EReal)
      = Host.gather gather_S4096x32x3_S4x1_S4096x4x3_02_1_n_n_1_1_409613
          (shapeCast S4096x32x3
            (shapeCast S4096x96
              (extractStridedSlice S4096x1x96 ![0, 15, 0] (m ((c : Thread nD τ).loc main_arg0))
                slices_S4096x16x96_S4096x1x96_0_15_0)
              shapeCasts_S4096x1x96_S4096x96)
            shapeCasts_S4096x96_S4096x32x3)
          rootColumn := by
    dsimp only [Gen.V, Gen.hostOps0]; after_results; rfl
  rw [e]
  funext i
  obtain ⟨b, k, q, rfl⟩ : ∃ (b : Fin 4096) (k : Fin 4) (q : Fin 3), i = ix3 b k q := ⟨i 0, i 1, i 2, eq_ix3 i⟩
  show Host.gather (midGatherDims 4096 32 4 3 gather_S4096x32x3_S4x1_S4096x4x3_02_1_n_n_1_1_409613_wf) _ rootColumn
      (ix3 b k q)
    = m ((c : Thread nD τ).loc main_arg0) (ix3 b (15 : Fin 16) (Cert.Pose.col96 (Cert.Pose.rootJoint k) q))
  rw [gather_mid_apply (by decide), lastFrame_apply]
  exact congrArg (fun r => m ((c : Thread nD τ).loc main_arg0) (ix3 b (15 : Fin 16) (Cert.Pose.col96 r q)))
    (Fin.ext (rootColumn_clamp k))

end Cert.KernelIdeal.KerValue

end
-- ==== Proof.KerInputs.lean ====
/-
  The two input blocks at a grid point, and the result of one block inside the whole result.

  The grid walks the batch axis: at point `t` every window is on block `t` of that axis (64 rows) and on the whole of the
  other two axes. So entry (r, s, q) of the block of triples at point `t` is the array of triples at (64·t + r, s, q), and
  entry (r, k, e) of the block of root joints is the root-joint array at (64·t + r, k, e) — the last observed frame of that
  batch row at coordinate `e` of root joint `k`. The pose of a (row, step, column) depends on nothing else, so the result
  computed from the two blocks is the whole result read at the same place.
-/
import proofs.«155983_j18339510354491_1_alg».proof.Proof.Gen.KernelIdeal.Frame
import proofs.«155983_j18339510354491_1_alg».proof.Proof.Pose
import proofs.«155983_j18339510354491_1_alg».proof.Proof.KerRoots

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx

/-- The three windows move together: at grid point `t` each is on block `t` of the batch axis and on block 0 of the
    other two axes (decided over the sixty-four points). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- THE RESULT OF ONE BLOCK IS THE WHOLE RESULT READ THERE: if the block of triples holds, on row `y 0` and step `y 1`,
    the triples of (i 0, i 1), and the block of root joints holds, on row `y 0`, the roots of the last observed frame of
    batch row `i 0`, then the pose computed from the blocks at `y` is the pose computed from the arrays at `i`, the
    column being the same. -/
theorem Gblk_eq_G (obs : S4096x16x96.Idx → EReal) (pred : S4096x64x66.Idx → EReal)
    (x0 : S64x64x66.Idx → EReal) (x1 : S64x4x3.Idx → EReal) (y : S64x64x96.Idx) (i : S4096x64x96.Idx)
    (hcol : i 2 = y 2)
    (h0 : ∀ q : Fin 66, x0 (ix3 (y 0) (y 1) q) = pred (ix3 (i 0) (i 1) q))
    (h1 : ∀ (k : Fin 4) (e : Fin 3),
      x1 (ix3 (y 0) k e) = obs (ix3 (i 0) (15 : Fin 16) (Cert.Pose.col96 (Cert.Pose.rootJoint k) e))) :
    Cert.Pose.Gblk x0 x1 y = Cert.Pose.G obs pred i := by
  show Cert.Pose.table (fun k => x1 (ix3 (y 0) k (Cert.Pose.coordOf (y 2))))
      (Cert.Pose.offsets (fun q => x0 (ix3 (y 0) (y 1) q)) (Cert.Pose.coordOf (y 2))) (Cert.Pose.jointOf (y 2))
    = Cert.Pose.table
      (fun k => obs (ix3 (i 0) (15 : Fin 16) (Cert.Pose.col96 (Cert.Pose.rootJoint k) (Cert.Pose.coordOf (i 2)))))
      (Cert.Pose.offsets (fun q => pred (ix3 (i 0) (i 1) q)) (Cert.Pose.coordOf (i 2))) (Cert.Pose.jointOf (i 2))
  rw [hcol, show (fun q => x0 (ix3 (y 0) (y 1) q)) = fun q => pred (ix3 (i 0) (i 1) q) from funext h0,
    show (fun k => x1 (ix3 (y 0) k (Cert.Pose.coordOf (y 2))))
      = fun k => obs (ix3 (i 0) (15 : Fin 16) (Cert.Pose.col96 (Cert.Pose.rootJoint k) (Cert.Pose.coordOf (y 2))))
      from funext fun k => h1 k _]

variable (m : (ℓ : Loc nD τ sig) → Buf (Elt Ideal) ℓ)

/-- The block of triples at point `t`: its entry `z` is the array of triples at the index `k` that sits 64·t rows
    further down the batch axis. -/
theorem triples_block_apply (c : Dev nD) (t : Fin cfg0.N) (z : S64x64x66.Idx) (k : S4096x64x66.Idx)
    (hk0 : (k 0).val = t.val * 64 + (z 0).val) (hk1 : (k 1).val = (z 1).val) (hk2 : (k 2).val = (z 2).val) :
    (iblk m c 0 t : Vec Ideal S64x64x66 .f32) z = m ((c : Thread nD τ).loc main_arg1) k := by
  obtain ⟨e0, e1, e2, -⟩ := block_index t
  show V m c main_arg1 (((cfg0.win 0).blk t).view.emb z) = m ((c : Thread nD τ).loc main_arg1) k
  rw [V_main_arg1]
  congr 1
  funext a
  apply Fin.ext
  match a with
  | ⟨0, _⟩ => show win0_0.index t (0 : Fin 3) * 64 + 1 * (z 0).val = (k 0).val; rw [e0, hk0]; omega
  | ⟨1, _⟩ => show win0_0.index t (1 : Fin 3) * 64 + 1 * (z 1).val = (k 1).val; rw [e1, hk1]; omega
  | ⟨2, _⟩ => show win0_0.index t (2 : Fin 3) * 66 + 1 * (z 2).val = (k 2).val; rw [e2, hk2]; omega

/-- The block of root joints at point `t`: its entry (r, k, e) is the last observed frame of batch row `b = 64·t + r` at
    coordinate `e` of root joint `k`. -/
theorem roots_block_apply (c : Dev nD) (t : Fin cfg0.N) (z : S64x4x3.Idx) (b : Fin 4096)
    (hb : b.val = t.val * 64 + (z 0).val) :
    (iblk m c 1 t : Vec Ideal S64x4x3 .f32) z
      = m ((c : Thread nD τ).loc main_arg0)
          (ix3 b (15 : Fin 16) (Cert.Pose.col96 (Cert.Pose.rootJoint (z 1)) (z 2))) := by
  obtain ⟨-, -, -, e0, e1, e2, -⟩ := block_index t
  have hE : ((cfg0.win 1).blk t).view.emb z = (ix3 b (z 1) (z 2) : S4096x4x3.Idx) := by
    funext a
    apply Fin.ext
    match a with
    | ⟨0, _⟩ => show win0_1.index t (0 : Fin 3) * 64 + 1 * (z 0).val = b.val; rw [e0, hb]; omega
    | ⟨1, _⟩ => show win0_1.index t (1 : Fin 3) * 4 + 1 * (z 1).val = (z 1).val; rw [e1]; omega
    | ⟨2, _⟩ => show win0_1.index t (2 : Fin 3) * 3 + 1 * (z 2).val = (z 2).val; rw [e2]; omega
  show (V m c main_v7 : S4096x4x3.Idx → EReal) (((cfg0.win 1).blk t).view.emb z) = _
  rw [hE, roots_eq]
  rfl

end Cert.KernelIdeal.KerValue

end
-- ==== Proof.KerArray.lean ====
/-
  From blocks to the whole result array.

  At grid point `t` the body leaves, in the output block, the pose of the point's two input blocks; those blocks are the
  argument arrays read 64·t rows down the batch axis, so what the point writes back is block `t` of the whole result — the
  pose of every (batch row, time step, column) computed from the last observed frame of that row and the triples of that
  (row, step). The sixty-four blocks of 64 rows tile the 4096 rows (row `r` lies in block `r / 64`), every point writes
  its block back, and so the array ends holding the whole result.
-/
import proofs.«155983_j18339510354491_1_alg».proof.Proof.Gen.KernelIdeal.Value
import proofs.«155983_j18339510354491_1_alg».proof.Proof.KerBlock
import proofs.«155983_j18339510354491_1_alg».proof.Proof.KerInputs
import Idealize.ShloMosaic.Lib.Pipeline.Value

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The pose of the two input blocks at point `t`, at entry `y` of the block, is the whole result at the place of the
    array where the output block's entry `y` sits: 64·t rows down the batch axis, the same step and column. -/
theorem block_result_apply (c : Dev nD) (t : Fin cfg0.N) (y : S64x64x96.Idx) :
    Cert.Pose.Gblk (iblk m c 0 t) (iblk m c 1 t) y
      = Cert.Pose.G (m ((c : Thread nD τ).loc main_arg0)) (m ((c : Thread nD τ).loc main_arg1))
          (((cfg0.win 2).blk t).view.emb y) := by
  obtain ⟨-, -, -, -, -, -, e0, e1, e2⟩ := block_index t
  have hr : ((((cfg0.win 2).blk t).view.emb y : S4096x64x96.Idx) 0).val = t.val * 64 + (y 0).val := by
    show win0_2.index t (0 : Fin 3) * 64 + 1 * (y 0).val = t.val * 64 + (y 0).val
    rw [e0]; omega
  have hs : ((((cfg0.win 2).blk t).view.emb y : S4096x64x96.Idx) 1).val = (y 1).val := by
    show win0_2.index t (1 : Fin 3) * 64 + 1 * (y 1).val = (y 1).val
    rw [e1]; omega
  have hc : ((((cfg0.win 2).blk t).view.emb y : S4096x64x96.Idx) 2).val = (y 2).val := by
    show win0_2.index t (2 : Fin 3) * 96 + 1 * (y 2).val = (y 2).val
    rw [e2]; omega
  refine Gblk_eq_G (m ((c : Thread nD τ).loc main_arg0)) (m ((c : Thread nD τ).loc main_arg1))
    (iblk m c 0 t) (iblk m c 1 t) y (((cfg0.win 2).blk t).view.emb y) (Fin.ext hc) (fun q => ?_) (fun k e => ?_)
  · exact triples_block_apply m c t (ix3 (y 0) (y 1) q) _ hr hs rfl
  · exact roots_block_apply m c t (ix3 (y 0) k e) _ hr

/-- WHAT POINT `t` WRITES BACK is block `t` of the whole result of the argument arrays. -/
theorem flushed_eq (c : Dev nD) (t : Fin cfg0.N) :
    (dats m 0 c).flushed 2 t = ((cfg0.win 2).blk t).view.read (Elt Ideal)
      (Cert.Pose.G (m ((c : Thread nD τ).loc main_arg0)) (m ((c : Thread nD τ).loc main_arg1))) := by
  rw [Cert.KernelIdeal.Value.flushed2_A, block_eq]
  funext y
  exact block_result_apply m c t y

/-- An index of the result array is in point `t`'s block iff each coordinate is in the block's range on its axis. -/
theorem mem_block (t : Fin cfg0.N) (i : S4096x64x96.Idx) :
    i ∈ ((cfg0.win 2).blk t).view.set ↔ ∀ a : Fin 3, win0_2.index t a * S64x64x96.size a ≤ (i a).val
      ∧ (i a).val < win0_2.index t a * S64x64x96.size a + S64x64x96.size a := by
  show i ∈ ((View.whole main_v8).slice (win0_2.rect t)).set ↔ _
  rw [View.set_slice_whole, Rect.mem_set_unit]
  exact Iff.rfl

/-- THE BLOCKS TILE THE ARRAY: batch row `r` lies in the block of point `r / 64`, whatever the step and the column. -/
theorem cover (i : S4096x64x96.Idx) :
    ∃ t : Fin cfg0.N, (cfg0.win 2).flush t = true ∧ i ∈ ((cfg0.win 2).blk t).view.set := by
  have h0 : (i 0).val < 4096 := (i 0).isLt
  have h1 : (i 1).val < 64 := (i 1).isLt
  have h2 : (i 2).val < 96 := (i 2).isLt
  have hN : cfg0.N = 64 := N_0
  obtain ⟨t, ht⟩ : ∃ t : Fin cfg0.N, t.val = (i 0).val / 64 :=
    ⟨⟨(i 0).val / 64, (by omega : (i 0).val / 64 < 64).trans_eq hN.symm⟩, rfl⟩
  obtain ⟨-, -, -, -, -, -, e0, e1, e2⟩ := block_index t
  refine ⟨t, flush0_2 t, ?_⟩
  rw [mem_block]
  intro a
  match a with
  | ⟨0, _⟩ =>
    show win0_2.index t (0 : Fin 3) * 64 ≤ (i 0).val ∧ (i 0).val < win0_2.index t (0 : Fin 3) * 64 + 64
    rw [e0, ht]; omega
  | ⟨1, _⟩ =>
    show win0_2.index t (1 : Fin 3) * 64 ≤ (i 1).val ∧ (i 1).val < win0_2.index t (1 : Fin 3) * 64 + 64
    rw [e1]; omega
  | ⟨2, _⟩ =>
    show win0_2.index t (2 : Fin 3) * 96 ≤ (i 2).val ∧ (i 2).val < win0_2.index t (2 : Fin 3) * 96 + 96
    rw [e2]; omega

/-- THE ARRAY after the run: the whole result of the argument arrays. -/
theorem final (c : Dev nD) :
    (dats m 0 c).arrAt 2 cfg0.N
      = Cert.Pose.G (m ((c : Thread nD τ).loc main_arg0)) (m ((c : Thread nD τ).loc main_arg1)) :=
  (dats m 0 c).arrAt_eq_of_cover 2
    (Cert.Pose.G (m ((c : Thread nD τ).loc main_arg0)) (m ((c : Thread nD τ).loc main_arg1)))
    (fun t _ => flushed_eq m c t) cover

/-- THE RUN, READ: every fair execution of the program terminates with the result array holding the pose of every
    (batch row, time step, column), and the two argument arrays unchanged. -/
theorem run : θ_run Cert.KernelIdeal.defs (onTc (τ := τ) (main (F := Ideal))) ⟨m, fun _ => 0, ρ⟩ (fun r => ∀ c : Dev nD,
      r.2.mem ((c : Thread nD τ).loc main_v8)
        = Cert.Pose.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run Cert.KernelIdeal.defs _ _).mono (fun r h c => ⟨(h c).1.trans (final m c), (h c).2⟩)
    (Cert.KernelIdeal.Value.run_blocks m ρ)

end Cert.KernelIdeal.KerValue

end
-- ==== Proof.RefOps.lean ====
/-
  The reference program's host operations as a list, and its run.

  The program is a straight line of host operations, each writing a buffer of its own. Written as a list, the
  program is the sequence of that list, and every weakly fair execution ends with each buffer at the fold of
  the operations over the launch contents.
-/
import proofs.«155983_j18339510354491_1_alg».proof.Proof.Gen.ReferenceIdeal
import Idealize.ShloMosaic.Lib.StableHlo.Run

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the window number 0, in order. -/
abbrev ops_part0 : List (HloOp τ sig (Elt F)) :=
  [ StableHlo.nullary main_c (fun i => lit0 (S4.rowMajor i)),
    StableHlo.nullary main_c_0 (constantI S4 1 0#1),
    StableHlo.nullary main_c_1 (constantI S4 1 0#1),
    StableHlo.nullary main_c_2 (fun i => lit1 (S22.rowMajor i)),
    StableHlo.nullary main_c_3 (constantI S22 1 0#1),
    StableHlo.nullary main_c_4 (fun i => lit2 (S6.rowMajor i)),
    StableHlo.nullary main_c_5 (constantI S6 1 0#1),
    StableHlo.nullary main_c_6 (fun i => lit3 (S6.rowMajor i)),
    StableHlo.nullary main_c_7 (constantI S6 1 0#1),
    StableHlo.reshape main_arg0 main_v0 rfl shapeCasts_S4096x16x96_S4096x16x32x3,
    StableHlo.reshape main_arg1 main_v1 rfl shapeCasts_S4096x64x66_S4096x64x22x3,
    StableHlo.unary main_v1 main_v2 ((extractStridedSlice S4096x64x22x1 ![0, 0, 0, 0] · slices_S4096x64x22x3_S4096x64x22x1_0_0_0_0) : (⟨S4096x64x22x3, .f32⟩ : BufTy).Contents (Elt F) → (⟨S4096x64x22x1, .f32⟩ : BufTy).Contents (Elt F)),
    StableHlo.reshape main_v2 main_v3 rfl shapeCasts_S4096x64x22x1_S4096x64x22,
    StableHlo.unary main_v1 main_v4 ((extractStridedSlice S4096x64x22x1 ![0, 0, 0, 1] · slices_S4096x64x22x3_S4096x64x22x1_0_0_0_1) : (⟨S4096x64x22x3, .f32⟩ : BufTy).Contents (Elt F) → (⟨S4096x64x22x1, .f32⟩ : BufTy).Contents (Elt F)),
    StableHlo.reshape main_v4 main_v5 rfl shapeCasts_S4096x64x22x1_S4096x64x22,
    StableHlo.unary main_v1 main_v6 ((extractStridedSlice S4096x64x22x1 ![0, 0, 0, 2] · slices_S4096x64x22x3_S4096x64x22x1_0_0_0_2) : (⟨S4096x64x22x3, .f32⟩ : BufTy).Contents (Elt F) → (⟨S4096x64x22x1, .f32⟩ : BufTy).Contents (Elt F)),
    StableHlo.reshape main_v6 main_v7 rfl shapeCasts_S4096x64x22x1_S4096x64x22,
    StableHlo.unary main_v7 main_v8 (Host.sin : (⟨S4096x64x22, .f32⟩ : BufTy).Contents (Elt F) → (⟨S4096x64x22, .f32⟩ : BufTy).Contents (Elt F)),
    StableHlo.binary main_v3 main_v8 main_v9 (mulf : (⟨S4096x64x22, .f32⟩ : BufTy).Contents (Elt F) → (⟨S4096x64x22, .f32⟩ : BufTy).Contents (Elt F) → (⟨S4096x64x22, .f32⟩ : BufTy).Contents (Elt F)),
    StableHlo.unary main_v5 main_v10 (Host.cos : (⟨S4096x64x22, .f32⟩ : BufTy).Contents (Elt F) → (⟨S4096x64x22, .f32⟩ : BufTy).Contents (Elt F)),
    StableHlo.binary main_v9 main_v10 main_v11 (mulf : (⟨S4096x64x22, .f32⟩ : BufTy).Contents (Elt F) → (⟨S4096x64x22, .f32⟩ : BufTy).Contents (Elt F) → (⟨S4096x64x22, .f32⟩ : BufTy).Contents (Elt F)),
    StableHlo.unary main_v7 main_v12 (Host.cos : (⟨S4096x64x22, .f32⟩ : BufTy).Contents (Elt F) → (⟨S4096x64x22, .f32⟩ : BufTy).Contents (Elt F)),
    StableHlo.binary main_v3 main_v12 main_v13 (mulf : (⟨S4096x64x22, .f32⟩ : BufTy).Contents (Elt F) → (⟨S4096x64x22, .f32⟩ : BufTy).Contents (Elt F) → (⟨S4096x64x22, .f32⟩ : BufTy).Contents (Elt F)),
    StableHlo.binary main_v3 main_v8 main_v14 (mulf : (⟨S4096x64x22, .f32⟩ : BufTy).Contents (Elt F) → (⟨S4096x64x22, .f32⟩ : BufTy).Contents (Elt F) → (⟨S4096x64x22, .f32⟩ : BufTy).Contents (Elt F)),
    StableHlo.unary main_v5 main_v15 (Host.sin : (⟨S4096x64x22, .f32⟩ : BufTy).Contents (Elt F) → (⟨S4096x64x22, .f32⟩ : BufTy).Contents (Elt F)),
    StableHlo.binary main_v14 main_v15 main_v16 (mulf : (⟨S4096x64x22, .f32⟩ : BufTy).Contents (Elt F) → (⟨S4096x64x22, .f32⟩ : BufTy).Contents (Elt F) → (⟨S4096x64x22, .f32⟩ : BufTy).Contents (Elt F)),
    StableHlo.unary main_v11 main_v17 (broadcastInDim S4096x64x22x1 ![0, 1, 2] bcast_S4096x64x22_S4096x64x22x1_0_1_2 : (⟨S4096x64x22, .f32⟩ : BufTy).Contents (Elt F) → (⟨S4096x64x22x1, .f32⟩ : BufTy).Contents (Elt F)),
    StableHlo.unary main_v13 main_v18 (broadcastInDim S4096x64x22x1 ![0, 1, 2] bcast_S4096x64x22_S4096x64x22x1_0_1_2 : (⟨S4096x64x22, .f32⟩ : BufTy).Contents (Elt F) → (⟨S4096x64x22x1, .f32⟩ : BufTy).Contents (Elt F)),
    StableHlo.unary main_v16 main_v19 (broadcastInDim S4096x64x22x1 ![0, 1, 2] bcast_S4096x64x22_S4096x64x22x1_0_1_2 : (⟨S4096x64x22, .f32⟩ : BufTy).Contents (Elt F) → (⟨S4096x64x22x1, .f32⟩ : BufTy).Contents (Elt F)),
    StableHlo.nary ![main_v17, main_v18, main_v19] main_v20 (fun u => concatenate S4096x64x22x3 3 [⟨S4096x64x22x1, u 0⟩, ⟨S4096x64x22x1, u 1⟩, ⟨S4096x64x22x1, u 2⟩] concatenates_S4096x64x22x1_S4096x64x22x1_S4096x64x22x1_S4096x64x22x3_d3),
    StableHlo.nullary main_cst (constant S_ .f32 0x00000000#32),
    StableHlo.unary main_cst main_v21 (broadcastInDim S4096x64x32x3 ![] bcast_S_S4096x64x32x3 : (⟨S_, .f32⟩ : BufTy).Contents (Elt F) → (⟨S4096x64x32x3, .f32⟩ : BufTy).Contents (Elt F)),
    StableHlo.nullary main_c_8 (constantI S_ 32 32#32),
    StableHlo.unary main_c_8 main_v22 (broadcastInDim S4 ![] bcast_S_S4 : (⟨S_, .i32⟩ : BufTy).Contents (Elt F) → (⟨S4, .i32⟩ : BufTy).Contents (Elt F)),
    StableHlo.binary main_c main_v22 main_v23 (addi : (⟨S4, .i32⟩ : BufTy).Contents (Elt F) → (⟨S4, .i32⟩ : BufTy).Contents (Elt F) → (⟨S4, .i32⟩ : BufTy).Contents (Elt F)),
    StableHlo.ternary main_c_0 main_v23 main_c main_v24 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.nullary main_c_9 (constantI S_ 32 15#32),
    StableHlo.unary main_c_9 main_v25 (broadcastInDim S4x1 ![] bcast_S_S4x1 : (⟨S_, .i32⟩ : BufTy).Contents (Elt F) → (⟨S4x1, .i32⟩ : BufTy).Contents (Elt F)),
    StableHlo.unary main_v24 main_v26 (broadcastInDim S4x1 ![0] bcast_S4_S4x1_0 : (⟨S4, .i32⟩ : BufTy).Contents (Elt F) → (⟨S4x1, .i32⟩ : BufTy).Contents (Elt F)),
    StableHlo.binary main_v25 main_v26 main_v27 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    StableHlo.binary main_v0 main_v27 main_v28 ((fun x i => Host.gather gather_S4096x16x32x3_S4x2_S4096x1x4x3_013_2_n_n_12_1_4096113 x i) : (⟨S4096x16x32x3, .f32⟩ : BufTy).Contents (Elt F) → (⟨S4x2, .i32⟩ : BufTy).Contents (Elt F) → (⟨S4096x1x4x3, .f32⟩ : BufTy).Contents (Elt F)),
    StableHlo.unary main_v28 main_v29 (broadcastInDim S4096x64x4x3 ![0, 1, 2, 3] bcast_S4096x1x4x3_S4096x64x4x3_0_1_2_3 : (⟨S4096x1x4x3, .f32⟩ : BufTy).Contents (Elt F) → (⟨S4096x64x4x3, .f32⟩ : BufTy).Contents (Elt F)),
    StableHlo.nullary main_c_10 (constantI S_ 32 32#32),
    StableHlo.unary main_c_10 main_v30 (broadcastInDim S4 ![] bcast_S_S4 : (⟨S_, .i32⟩ : BufTy).Contents (Elt F) → (⟨S4, .i32⟩ : BufTy).Contents (Elt F)),
    StableHlo.binary main_c main_v30 main_v31 (addi : (⟨S4, .i32⟩ : BufTy).Contents (Elt F) → (⟨S4, .i32⟩ : BufTy).Contents (Elt F) → (⟨S4, .i32⟩ : BufTy).Contents (Elt F)),
    StableHlo.ternary main_c_1 main_v31 main_c main_v32 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v32 main_v33 (broadcastInDim S4x1 ![0] bcast_S4_S4x1_0 : (⟨S4, .i32⟩ : BufTy).Contents (Elt F) → (⟨S4x1, .i32⟩ : BufTy).Contents (Elt F)),
    StableHlo.ternary main_v21 main_v33 main_v29 main_v34 ((fun x i u => Host.scatter scatter_S4096x64x32x3_S4x1_S4096x64x4x3_013_2_2_1 (fun _ b => b) x i u) : (⟨S4096x64x32x3, .f32⟩ : BufTy).Contents (Elt F) → (⟨S4x1, .i32⟩ : BufTy).Contents (Elt F) → (⟨S4096x64x4x3, .f32⟩ : BufTy).Contents (Elt F) → (⟨S4096x64x32x3, .f32⟩ : BufTy).Contents (Elt F)),
    StableHlo.nullary main_c_11 (constantI S_ 32 32#32),
    StableHlo.unary main_c_11 main_v35 (broadcastInDim S22 ![] bcast_S_S22 : (⟨S_, .i32⟩ : BufTy).Contents (Elt F) → (⟨S22, .i32⟩ : BufTy).Contents (Elt F)),
    StableHlo.binary main_c_2 main_v35 main_v36 (addi : (⟨S22, .i32⟩ : BufTy).Contents (Elt F) → (⟨S22, .i32⟩ : BufTy).Contents (Elt F) → (⟨S22, .i32⟩ : BufTy).Contents (Elt F)),
    StableHlo.ternary main_c_3 main_v36 main_c_2 main_v37 (select : (⟨S22, .i1⟩ : BufTy).Contents (Elt F) → (⟨S22, .i32⟩ : BufTy).Contents (Elt F) → (⟨S22, .i32⟩ : BufTy).Contents (Elt F) → (⟨S22, .i32⟩ : BufTy).Contents (Elt F)),
    StableHlo.unary main_v37 main_v38 (broadcastInDim S22x1 ![0] bcast_S22_S22x1_0 : (⟨S22, .i32⟩ : BufTy).Contents (Elt F) → (⟨S22x1, .i32⟩ : BufTy).Contents (Elt F)),
    StableHlo.ternary main_v34 main_v38 main_v20 main_v39 ((fun x i u => Host.scatter scatter_S4096x64x32x3_S22x1_S4096x64x22x3_013_2_2_1 (fun _ b => b) x i u) : (⟨S4096x64x32x3, .f32⟩ : BufTy).Contents (Elt F) → (⟨S22x1, .i32⟩ : BufTy).Contents (Elt F) → (⟨S4096x64x22x3, .f32⟩ : BufTy).Contents (Elt F) → (⟨S4096x64x32x3, .f32⟩ : BufTy).Contents (Elt F)),
    StableHlo.unary main_v39 main_v40 ((extractStridedSlice S4096x64x1x3 ![0, 0, 11, 0] · slices_S4096x64x32x3_S4096x64x1x3_0_0_11_0) : (⟨S4096x64x32x3, .f32⟩ : BufTy).Contents (Elt F) → (⟨S4096x64x1x3, .f32⟩ : BufTy).Contents (Elt F)),
    StableHlo.reshape main_v40 main_v41 rfl shapeCasts_S4096x64x1x3_S4096x64x3,
    StableHlo.nullary main_c_12 (constantI S_ 32 12#32),
    StableHlo.unary main_c_12 main_v42 (broadcastInDim S1 ![] bcast_S_S1 : (⟨S_, .i32⟩ : BufTy).Contents (Elt F) → (⟨S1, .i32⟩ : BufTy).Contents (Elt F)),
    StableHlo.ternary main_v39 main_v42 main_v41 main_v43 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v43 main_v44 ((extractStridedSlice S4096x64x1x3 ![0, 0, 12, 0] · slices_S4096x64x32x3_S4096x64x1x3_0_0_12_0) : (⟨S4096x64x32x3, .f32⟩ : BufTy).Contents (Elt F) → (⟨S4096x64x1x3, .f32⟩ : BufTy).Contents (Elt F)) ]

/-- The operations of the window number 1, in order. -/
abbrev ops_part1 : List (HloOp τ sig (Elt F)) :=
  [ StableHlo.reshape main_v44 main_v45 rfl shapeCasts_S4096x64x1x3_S4096x64x3,
    StableHlo.nullary main_c_13 (constantI S_ 32 13#32),
    StableHlo.unary main_c_13 main_v46 (broadcastInDim S1 ![] bcast_S_S1 : (⟨S_, .i32⟩ : BufTy).Contents (Elt F) → (⟨S1, .i32⟩ : BufTy).Contents (Elt F)),
    StableHlo.ternary main_v43 main_v46 main_v45 main_v47 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v47 main_v48 ((extractStridedSlice S4096x64x1x3 ![0, 0, 13, 0] · slices_S4096x64x32x3_S4096x64x1x3_0_0_13_0) : (⟨S4096x64x32x3, .f32⟩ : BufTy).Contents (Elt F) → (⟨S4096x64x1x3, .f32⟩ : BufTy).Contents (Elt F)),
    StableHlo.reshape main_v48 main_v49 rfl shapeCasts_S4096x64x1x3_S4096x64x3,
    StableHlo.nullary main_c_14 (constantI S_ 32 14#32),
    StableHlo.unary main_c_14 main_v50 (broadcastInDim S1 ![] bcast_S_S1 : (⟨S_, .i32⟩ : BufTy).Contents (Elt F) → (⟨S1, .i32⟩ : BufTy).Contents (Elt F)),
    StableHlo.ternary main_v47 main_v50 main_v49 main_v51 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v51 main_v52 ((extractStridedSlice S4096x64x1x3 ![0, 0, 14, 0] · slices_S4096x64x32x3_S4096x64x1x3_0_0_14_0) : (⟨S4096x64x32x3, .f32⟩ : BufTy).Contents (Elt F) → (⟨S4096x64x1x3, .f32⟩ : BufTy).Contents (Elt F)),
    StableHlo.reshape main_v52 main_v53 rfl shapeCasts_S4096x64x1x3_S4096x64x3,
    StableHlo.nullary main_c_15 (constantI S_ 32 15#32),
    StableHlo.unary main_c_15 main_v54 (broadcastInDim S1 ![] bcast_S_S1 : (⟨S_, .i32⟩ : BufTy).Contents (Elt F) → (⟨S1, .i32⟩ : BufTy).Contents (Elt F)),
    StableHlo.ternary main_v51 main_v54 main_v53 main_v55 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v55 main_v56 ((extractStridedSlice S4096x64x1x3 ![0, 0, 13, 0] · slices_S4096x64x32x3_S4096x64x1x3_0_0_13_0) : (⟨S4096x64x32x3, .f32⟩ : BufTy).Contents (Elt F) → (⟨S4096x64x1x3, .f32⟩ : BufTy).Contents (Elt F)),
    StableHlo.reshape main_v56 main_v57 rfl shapeCasts_S4096x64x1x3_S4096x64x3,
    StableHlo.nullary main_c_16 (constantI S_ 32 25#32),
    StableHlo.unary main_c_16 main_v58 (broadcastInDim S1 ![] bcast_S_S1 : (⟨S_, .i32⟩ : BufTy).Contents (Elt F) → (⟨S1, .i32⟩ : BufTy).Contents (Elt F)),
    StableHlo.ternary main_v55 main_v58 main_v57 main_v59 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v59 main_v60 ((extractStridedSlice S4096x64x1x3 ![0, 0, 25, 0] · slices_S4096x64x32x3_S4096x64x1x3_0_0_25_0) : (⟨S4096x64x32x3, .f32⟩ : BufTy).Contents (Elt F) → (⟨S4096x64x1x3, .f32⟩ : BufTy).Contents (Elt F)),
    StableHlo.reshape main_v60 main_v61 rfl shapeCasts_S4096x64x1x3_S4096x64x3,
    StableHlo.nullary main_c_17 (constantI S_ 32 26#32),
    StableHlo.unary main_c_17 main_v62 (broadcastInDim S1 ![] bcast_S_S1 : (⟨S_, .i32⟩ : BufTy).Contents (Elt F) → (⟨S1, .i32⟩ : BufTy).Contents (Elt F)),
    StableHlo.ternary main_v59 main_v62 main_v61 main_v63 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v63 main_v64 ((extractStridedSlice S4096x64x1x3 ![0, 0, 26, 0] · slices_S4096x64x32x3_S4096x64x1x3_0_0_26_0) : (⟨S4096x64x32x3, .f32⟩ : BufTy).Contents (Elt F) → (⟨S4096x64x1x3, .f32⟩ : BufTy).Contents (Elt F)),
    StableHlo.reshape main_v64 main_v65 rfl shapeCasts_S4096x64x1x3_S4096x64x3,
    StableHlo.nullary main_c_18 (constantI S_ 32 27#32),
    StableHlo.unary main_c_18 main_v66 (broadcastInDim S1 ![] bcast_S_S1 : (⟨S_, .i32⟩ : BufTy).Contents (Elt F) → (⟨S1, .i32⟩ : BufTy).Contents (Elt F)),
    StableHlo.ternary main_v63 main_v66 main_v65 main_v67 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v67 main_v68 ((extractStridedSlice S4096x64x1x3 ![0, 0, 27, 0] · slices_S4096x64x32x3_S4096x64x1x3_0_0_27_0) : (⟨S4096x64x32x3, .f32⟩ : BufTy).Contents (Elt F) → (⟨S4096x64x1x3, .f32⟩ : BufTy).Contents (Elt F)),
    StableHlo.reshape main_v68 main_v69 rfl shapeCasts_S4096x64x1x3_S4096x64x3,
    StableHlo.nullary main_c_19 (constantI S_ 32 29#32),
    StableHlo.unary main_c_19 main_v70 (broadcastInDim S1 ![] bcast_S_S1 : (⟨S_, .i32⟩ : BufTy).Contents (Elt F) → (⟨S1, .i32⟩ : BufTy).Contents (Elt F)),
    StableHlo.ternary main_v67 main_v70 main_v69 main_v71 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v71 main_v72 ((extractStridedSlice S4096x64x1x3 ![0, 0, 29, 0] · slices_S4096x64x32x3_S4096x64x1x3_0_0_29_0) : (⟨S4096x64x32x3, .f32⟩ : BufTy).Contents (Elt F) → (⟨S4096x64x1x3, .f32⟩ : BufTy).Contents (Elt F)),
    StableHlo.reshape main_v72 main_v73 rfl shapeCasts_S4096x64x1x3_S4096x64x3,
    StableHlo.nullary main_c_20 (constantI S_ 32 30#32),
    StableHlo.unary main_c_20 main_v74 (broadcastInDim S1 ![] bcast_S_S1 : (⟨S_, .i32⟩ : BufTy).Contents (Elt F) → (⟨S1, .i32⟩ : BufTy).Contents (Elt F)),
    StableHlo.ternary main_v71 main_v74 main_v73 main_v75 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v75 main_v76 ((extractStridedSlice S4096x64x1x3 ![0, 0, 13, 0] · slices_S4096x64x32x3_S4096x64x1x3_0_0_13_0) : (⟨S4096x64x32x3, .f32⟩ : BufTy).Contents (Elt F) → (⟨S4096x64x1x3, .f32⟩ : BufTy).Contents (Elt F)),
    StableHlo.reshape main_v76 main_v77 rfl shapeCasts_S4096x64x1x3_S4096x64x3,
    StableHlo.nullary main_c_21 (constantI S_ 32 17#32),
    StableHlo.unary main_c_21 main_v78 (broadcastInDim S1 ![] bcast_S_S1 : (⟨S_, .i32⟩ : BufTy).Contents (Elt F) → (⟨S1, .i32⟩ : BufTy).Contents (Elt F)),
    StableHlo.ternary main_v75 main_v78 main_v77 main_v79 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v79 main_v80 ((extractStridedSlice S4096x64x1x3 ![0, 0, 17, 0] · slices_S4096x64x32x3_S4096x64x1x3_0_0_17_0) : (⟨S4096x64x32x3, .f32⟩ : BufTy).Contents (Elt F) → (⟨S4096x64x1x3, .f32⟩ : BufTy).Contents (Elt F)),
    StableHlo.reshape main_v80 main_v81 rfl shapeCasts_S4096x64x1x3_S4096x64x3,
    StableHlo.nullary main_c_22 (constantI S_ 32 18#32),
    StableHlo.unary main_c_22 main_v82 (broadcastInDim S1 ![] bcast_S_S1 : (⟨S_, .i32⟩ : BufTy).Contents (Elt F) → (⟨S1, .i32⟩ : BufTy).Contents (Elt F)),
    StableHlo.ternary main_v79 main_v82 main_v81 main_v83 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v83 main_v84 ((extractStridedSlice S4096x64x1x3 ![0, 0, 18, 0] · slices_S4096x64x32x3_S4096x64x1x3_0_0_18_0) : (⟨S4096x64x32x3, .f32⟩ : BufTy).Contents (Elt F) → (⟨S4096x64x1x3, .f32⟩ : BufTy).Contents (Elt F)),
    StableHlo.reshape main_v84 main_v85 rfl shapeCasts_S4096x64x1x3_S4096x64x3,
    StableHlo.nullary main_c_23 (constantI S_ 32 19#32),
    StableHlo.unary main_c_23 main_v86 (broadcastInDim S1 ![] bcast_S_S1 : (⟨S_, .i32⟩ : BufTy).Contents (Elt F) → (⟨S1, .i32⟩ : BufTy).Contents (Elt F)),
    StableHlo.ternary main_v83 main_v86 main_v85 main_v87 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v87 main_v88 ((extractStridedSlice S4096x64x1x3 ![0, 0, 19, 0] · slices_S4096x64x32x3_S4096x64x1x3_0_0_19_0) : (⟨S4096x64x32x3, .f32⟩ : BufTy).Contents (Elt F) → (⟨S4096x64x1x3, .f32⟩ : BufTy).Contents (Elt F)),
    StableHlo.reshape main_v88 main_v89 rfl shapeCasts_S4096x64x1x3_S4096x64x3,
    StableHlo.nullary main_c_24 (constantI S_ 32 21#32),
    StableHlo.unary main_c_24 main_v90 (broadcastInDim S1 ![] bcast_S_S1 : (⟨S_, .i32⟩ : BufTy).Contents (Elt F) → (⟨S1, .i32⟩ : BufTy).Contents (Elt F)),
    StableHlo.ternary main_v87 main_v90 main_v89 main_v91 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v91 main_v92 ((extractStridedSlice S4096x64x1x3 ![0, 0, 21, 0] · slices_S4096x64x32x3_S4096x64x1x3_0_0_21_0) : (⟨S4096x64x32x3, .f32⟩ : BufTy).Contents (Elt F) → (⟨S4096x64x1x3, .f32⟩ : BufTy).Contents (Elt F)) ]

/-- The operations of the window number 2, in order. -/
abbrev ops_part2 : List (HloOp τ sig (Elt F)) :=
  [ StableHlo.reshape main_v92 main_v93 rfl shapeCasts_S4096x64x1x3_S4096x64x3,
    StableHlo.nullary main_c_25 (constantI S_ 32 22#32),
    StableHlo.unary main_c_25 main_v94 (broadcastInDim S1 ![] bcast_S_S1 : (⟨S_, .i32⟩ : BufTy).Contents (Elt F) → (⟨S1, .i32⟩ : BufTy).Contents (Elt F)),
    StableHlo.ternary main_v91 main_v94 main_v93 main_v95 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v95 main_v96 ((extractStridedSlice S4096x64x1x3 ![0, 0, 1, 0] · slices_S4096x64x32x3_S4096x64x1x3_0_0_1_0) : (⟨S4096x64x32x3, .f32⟩ : BufTy).Contents (Elt F) → (⟨S4096x64x1x3, .f32⟩ : BufTy).Contents (Elt F)),
    StableHlo.reshape main_v96 main_v97 rfl shapeCasts_S4096x64x1x3_S4096x64x3,
    StableHlo.nullary main_c_26 (constantI S_ 32 2#32),
    StableHlo.unary main_c_26 main_v98 (broadcastInDim S1 ![] bcast_S_S1 : (⟨S_, .i32⟩ : BufTy).Contents (Elt F) → (⟨S1, .i32⟩ : BufTy).Contents (Elt F)),
    StableHlo.ternary main_v95 main_v98 main_v97 main_v99 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v99 main_v100 ((extractStridedSlice S4096x64x1x3 ![0, 0, 2, 0] · slices_S4096x64x32x3_S4096x64x1x3_0_0_2_0) : (⟨S4096x64x32x3, .f32⟩ : BufTy).Contents (Elt F) → (⟨S4096x64x1x3, .f32⟩ : BufTy).Contents (Elt F)),
    StableHlo.reshape main_v100 main_v101 rfl shapeCasts_S4096x64x1x3_S4096x64x3,
    StableHlo.nullary main_c_27 (constantI S_ 32 3#32),
    StableHlo.unary main_c_27 main_v102 (broadcastInDim S1 ![] bcast_S_S1 : (⟨S_, .i32⟩ : BufTy).Contents (Elt F) → (⟨S1, .i32⟩ : BufTy).Contents (Elt F)),
    StableHlo.ternary main_v99 main_v102 main_v101 main_v103 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v103 main_v104 ((extractStridedSlice S4096x64x1x3 ![0, 0, 3, 0] · slices_S4096x64x32x3_S4096x64x1x3_0_0_3_0) : (⟨S4096x64x32x3, .f32⟩ : BufTy).Contents (Elt F) → (⟨S4096x64x1x3, .f32⟩ : BufTy).Contents (Elt F)),
    StableHlo.reshape main_v104 main_v105 rfl shapeCasts_S4096x64x1x3_S4096x64x3,
    StableHlo.nullary main_c_28 (constantI S_ 32 4#32),
    StableHlo.unary main_c_28 main_v106 (broadcastInDim S1 ![] bcast_S_S1 : (⟨S_, .i32⟩ : BufTy).Contents (Elt F) → (⟨S1, .i32⟩ : BufTy).Contents (Elt F)),
    StableHlo.ternary main_v103 main_v106 main_v105 main_v107 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v107 main_v108 ((extractStridedSlice S4096x64x1x3 ![0, 0, 4, 0] · slices_S4096x64x32x3_S4096x64x1x3_0_0_4_0) : (⟨S4096x64x32x3, .f32⟩ : BufTy).Contents (Elt F) → (⟨S4096x64x1x3, .f32⟩ : BufTy).Contents (Elt F)),
    StableHlo.reshape main_v108 main_v109 rfl shapeCasts_S4096x64x1x3_S4096x64x3,
    StableHlo.nullary main_c_29 (constantI S_ 32 5#32),
    StableHlo.unary main_c_29 main_v110 (broadcastInDim S1 ![] bcast_S_S1 : (⟨S_, .i32⟩ : BufTy).Contents (Elt F) → (⟨S1, .i32⟩ : BufTy).Contents (Elt F)),
    StableHlo.ternary main_v107 main_v110 main_v109 main_v111 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v111 main_v112 ((extractStridedSlice S4096x64x1x3 ![0, 0, 6, 0] · slices_S4096x64x32x3_S4096x64x1x3_0_0_6_0) : (⟨S4096x64x32x3, .f32⟩ : BufTy).Contents (Elt F) → (⟨S4096x64x1x3, .f32⟩ : BufTy).Contents (Elt F)),
    StableHlo.reshape main_v112 main_v113 rfl shapeCasts_S4096x64x1x3_S4096x64x3,
    StableHlo.nullary main_c_30 (constantI S_ 32 7#32),
    StableHlo.unary main_c_30 main_v114 (broadcastInDim S1 ![] bcast_S_S1 : (⟨S_, .i32⟩ : BufTy).Contents (Elt F) → (⟨S1, .i32⟩ : BufTy).Contents (Elt F)),
    StableHlo.ternary main_v111 main_v114 main_v113 main_v115 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v115 main_v116 ((extractStridedSlice S4096x64x1x3 ![0, 0, 7, 0] · slices_S4096x64x32x3_S4096x64x1x3_0_0_7_0) : (⟨S4096x64x32x3, .f32⟩ : BufTy).Contents (Elt F) → (⟨S4096x64x1x3, .f32⟩ : BufTy).Contents (Elt F)),
    StableHlo.reshape main_v116 main_v117 rfl shapeCasts_S4096x64x1x3_S4096x64x3,
    StableHlo.nullary main_c_31 (constantI S_ 32 8#32),
    StableHlo.unary main_c_31 main_v118 (broadcastInDim S1 ![] bcast_S_S1 : (⟨S_, .i32⟩ : BufTy).Contents (Elt F) → (⟨S1, .i32⟩ : BufTy).Contents (Elt F)),
    StableHlo.ternary main_v115 main_v118 main_v117 main_v119 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v119 main_v120 ((extractStridedSlice S4096x64x1x3 ![0, 0, 8, 0] · slices_S4096x64x32x3_S4096x64x1x3_0_0_8_0) : (⟨S4096x64x32x3, .f32⟩ : BufTy).Contents (Elt F) → (⟨S4096x64x1x3, .f32⟩ : BufTy).Contents (Elt F)),
    StableHlo.reshape main_v120 main_v121 rfl shapeCasts_S4096x64x1x3_S4096x64x3,
    StableHlo.nullary main_c_32 (constantI S_ 32 9#32),
    StableHlo.unary main_c_32 main_v122 (broadcastInDim S1 ![] bcast_S_S1 : (⟨S_, .i32⟩ : BufTy).Contents (Elt F) → (⟨S1, .i32⟩ : BufTy).Contents (Elt F)),
    StableHlo.ternary main_v119 main_v122 main_v121 main_v123 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.unary main_v123 main_v124 ((extractStridedSlice S4096x64x1x3 ![0, 0, 9, 0] · slices_S4096x64x32x3_S4096x64x1x3_0_0_9_0) : (⟨S4096x64x32x3, .f32⟩ : BufTy).Contents (Elt F) → (⟨S4096x64x1x3, .f32⟩ : BufTy).Contents (Elt F)),
    StableHlo.reshape main_v124 main_v125 rfl shapeCasts_S4096x64x1x3_S4096x64x3,
    StableHlo.nullary main_c_33 (constantI S_ 32 10#32),
    StableHlo.unary main_c_33 main_v126 (broadcastInDim S1 ![] bcast_S_S1 : (⟨S_, .i32⟩ : BufTy).Contents (Elt F) → (⟨S1, .i32⟩ : BufTy).Contents (Elt F)),
    StableHlo.ternary main_v123 main_v126 main_v125 main_v127 ((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F)),
    StableHlo.nullary main_c_34 (constantI S_ 32 32#32),
    StableHlo.unary main_c_34 main_v128 (broadcastInDim S6 ![] bcast_S_S6 : (⟨S_, .i32⟩ : BufTy).Contents (Elt F) → (⟨S6, .i32⟩ : BufTy).Contents (Elt F)),
    StableHlo.binary main_c_4 main_v128 main_v129 (addi : (⟨S6, .i32⟩ : BufTy).Contents (Elt F) → (⟨S6, .i32⟩ : BufTy).Contents (Elt F) → (⟨S6, .i32⟩ : BufTy).Contents (Elt F)),
    StableHlo.ternary main_c_5 main_v129 main_c_4 main_v130 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.unary main_v130 main_v131 (broadcastInDim S6x1 ![0] bcast_S6_S6x1_0 : (⟨S6, .i32⟩ : BufTy).Contents (Elt F) → (⟨S6x1, .i32⟩ : BufTy).Contents (Elt F)),
    StableHlo.binary main_v127 main_v131 main_v132 ((fun x i => Host.gather gather_S4096x64x32x3_S6x1_S4096x64x6x3_013_2_n_n_2_1_40966413 x i) : (⟨S4096x64x32x3, .f32⟩ : BufTy).Contents (Elt F) → (⟨S6x1, .i32⟩ : BufTy).Contents (Elt F) → (⟨S4096x64x6x3, .f32⟩ : BufTy).Contents (Elt F)),
    StableHlo.nullary main_c_35 (constantI S_ 32 32#32),
    StableHlo.unary main_c_35 main_v133 (broadcastInDim S6 ![] bcast_S_S6 : (⟨S_, .i32⟩ : BufTy).Contents (Elt F) → (⟨S6, .i32⟩ : BufTy).Contents (Elt F)),
    StableHlo.binary main_c_6 main_v133 main_v134 (addi : (⟨S6, .i32⟩ : BufTy).Contents (Elt F) → (⟨S6, .i32⟩ : BufTy).Contents (Elt F) → (⟨S6, .i32⟩ : BufTy).Contents (Elt F)),
    StableHlo.ternary main_c_7 main_v134 main_c_6 main_v135 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.unary main_v135 main_v136 (broadcastInDim S6x1 ![0] bcast_S6_S6x1_0 : (⟨S6, .i32⟩ : BufTy).Contents (Elt F) → (⟨S6x1, .i32⟩ : BufTy).Contents (Elt F)),
    StableHlo.ternary main_v127 main_v136 main_v132 main_v137 ((fun x i u => Host.scatter scatter_S4096x64x32x3_S6x1_S4096x64x6x3_013_2_2_1 (fun _ b => b) x i u) : (⟨S4096x64x32x3, .f32⟩ : BufTy).Contents (Elt F) → (⟨S6x1, .i32⟩ : BufTy).Contents (Elt F) → (⟨S4096x64x6x3, .f32⟩ : BufTy).Contents (Elt F) → (⟨S4096x64x32x3, .f32⟩ : BufTy).Contents (Elt F)),
    StableHlo.reshape main_v137 main_v138 rfl shapeCasts_S4096x64x32x3_S4096x64x96 ]

/-- All the operations, in order. -/
abbrev ops : List (HloOp τ sig (Elt F)) := ops_part0 ++ (ops_part1 ++ ops_part2)

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., reshape_bufs_sub .., reshape_bufs_sub .., unary_bufs_sub .., reshape_bufs_sub .., unary_bufs_sub .., reshape_bufs_sub .., unary_bufs_sub .., reshape_bufs_sub .., unary_bufs_sub .., binary_bufs_sub .., unary_bufs_sub .., binary_bufs_sub .., unary_bufs_sub .., binary_bufs_sub .., binary_bufs_sub .., unary_bufs_sub .., binary_bufs_sub .., unary_bufs_sub .., unary_bufs_sub .., unary_bufs_sub .., nary_bufs_sub .., nullary_bufs_sub .., unary_bufs_sub .., nullary_bufs_sub .., unary_bufs_sub .., binary_bufs_sub .., ternary_bufs_sub .., nullary_bufs_sub .., unary_bufs_sub .., unary_bufs_sub .., binary_bufs_sub .., binary_bufs_sub .., unary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., ternary_bufs_sub .., unary_bufs_sub .., reshape_bufs_sub .., nullary_bufs_sub .., unary_bufs_sub .., ternary_bufs_sub .., unary_bufs_sub ..⟩
set_option maxRecDepth 8192 in
theorem ops_part1_sub : (ops_part1 : List (HloOp τ sig (Elt F))).Forall fun op => op.bufs ⊆ tcRefs τ sig :=
  ⟨reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub ..⟩
set_option maxRecDepth 8192 in
theorem ops_part2_sub : (ops_part2 : List (HloOp τ sig (Elt F))).Forall fun op => op.bufs ⊆ tcRefs τ sig :=
  ⟨reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., reshape_bufs_sub .., nullary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., ternary_bufs_sub .., reshape_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

theorem ops_fresh : ∀ op ∈ (ops : List (HloOp τ sig (Elt F))), op.fresh = ∅ := by
  intro op h
  simp only [ops, List.mem_append] at h
  rcases h with h | h | h
  all_goals ((repeat (cases h with | head => rfl | tail _ h => ?_)); exact nomatch h)

/-- Every weakly fair execution of the program terminates, each buffer ending at the fold of the operations over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefValue

end
-- ==== Proof.LibStraightLine.lean ====
/-
  A straight line of operations in single-assignment form, read one operation at a time.

  A line of operations rewrites a valuation of the buffers, operation by operation. When every buffer is written by at most
  one operation of the line, and an operation's operands are written before it, the valuation after the WHOLE line already
  satisfies each operation's equation: the buffer the k-th operation writes holds that operation's function of what its
  operand buffers hold — all read after the whole line, because nothing later touches either. So the value of the last
  buffer follows from the operations' equations one by one, sharing every intermediate buffer, and the composed term of the
  whole line is never formed.

  The buffers the operations write are listed once, in order (`WritesAre`); "no operation from position k on writes r" is
  then the absence of r from the list's tail, a question about references alone.
  General: nothing here depends on a particular program.
-/
import Idealize.ShloMosaic.Lib.StableHlo.Run

namespace Cert.LibStraightLine

open Idealize.ShloMosaic Idealize.ShloMosaic.StableHlo

variable {τ : Topo} {sig : RefSig} {Val : EltTy → Type}

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position k on writes holds, after the line, what it held after the first k operations. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- A buffer that no operation past position k writes holds, after the line, what operation k left in it. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append, after_cons, after_nil]

/-- The buffers the operations write are, in order, the references W: each operation writes exactly one. -/
def WritesAre (ops : List (HloOp τ sig Val)) (W : List (Ref sig .tc)) : Prop :=
  ops.map (fun op => op.writes) = W.map fun r => ({(Proc.devRef .tc r : DevRef τ sig)} : Finset (DevRef τ sig))

/-- A reference absent from the list's tail is written by no operation from that position on. -/
theorem not_written {ops : List (HloOp τ sig Val)} {W : List (Ref sig .tc)} (hW : WritesAre ops W) (k : Nat)
    {y : Ref sig .tc} (hy : y ∉ W.drop k) : ∀ op ∈ ops.drop k, (Proc.devRef .tc y : DevRef τ sig) ∉ op.writes := by
  intro op hop hmem
  have h1 : op.writes ∈ (ops.drop k).map (fun op => op.writes) := List.mem_map.mpr ⟨op, hop, rfl⟩
  unfold WritesAre at hW
  rw [List.map_drop, hW, ← List.map_drop] at h1
  obtain ⟨r, hr, he⟩ := List.mem_map.mp h1
  rw [← he, Finset.mem_singleton] at hmem
  exact hy (Proc.devRef_injective _ hmem ▸ hr)

variable {ops : List (HloOp τ sig Val)} {V : Valuation τ sig Val}

/-- Operation k defines its result buffer. -/
theorem nullary_at (k : Nat) (hk : k < ops.length) {y : Ref sig .tc} {v : y.ty.Contents Val} {hy}
    (hop : ops[k] = nullary y v hy)
    (hy' : ∀ op ∈ ops.drop (k + 1), (Proc.devRef .tc y : DevRef τ sig) ∉ op.writes) :
    after ops V (Proc.devRef .tc y) = v := by
  rw [after_eq_result ops V k hk _ hy', hop, nullary_result]

/-- Operation k applies its function to its operand buffer as the whole line leaves it. -/
theorem unary_at (k : Nat) (hk : k < ops.length) {x y : Ref sig .tc} {f : x.ty.Contents Val → y.ty.Contents Val} {hx hy}
    (hop : ops[k] = unary x y f hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = f (after ops V (Proc.devRef .tc x)) := by
  rw [after_eq_result ops V k hk _ hy', hop, unary_result, ← after_eq_take ops V k _ hx']

theorem binary_at (k : Nat) (hk : k < ops.length) {a b y : Ref sig .tc}
    {f : a.ty.Contents Val → b.ty.Contents Val → y.ty.Contents Val} {ha hb hy}
    (hop : ops[k] = binary a b y f ha hb hy)
    (hy' : ∀ op ∈ ops.drop (k + 1), (Proc.devRef .tc y : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y) = f (after ops V (Proc.devRef .tc a)) (after ops V (Proc.devRef .tc b)) := by
  rw [after_eq_result ops V k hk _ hy', hop, binary_result, ← after_eq_take ops V k _ ha', ← after_eq_take ops V k _ hb']

theorem ternary_at (k : Nat) (hk : k < ops.length) {c a b y : Ref sig .tc}
    {f : c.ty.Contents Val → a.ty.Contents Val → b.ty.Contents Val → y.ty.Contents Val} {hc ha hb hy}
    (hop : ops[k] = ternary c a b y f hc ha hb hy)
    (hy' : ∀ op ∈ ops.drop (k + 1), (Proc.devRef .tc y : DevRef τ sig) ∉ op.writes)
    (hc' : ∀ op ∈ ops.drop k, (Proc.devRef .tc c : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y)
      = f (after ops V (Proc.devRef .tc c)) (after ops V (Proc.devRef .tc a)) (after ops V (Proc.devRef .tc b)) := by
  rw [after_eq_result ops V k hk _ hy', hop, ternary_result, ← after_eq_take ops V k _ hc', ← after_eq_take ops V k _ ha',
    ← after_eq_take ops V k _ hb']

theorem reshape_at (k : Nat) (hk : k < ops.length) {x y : Ref sig .tc} {he : x.ty.elt = y.ty.elt}
    {hn : x.ty.shape.ShapeCasts y.ty.shape} {hx hy}
    (hop : ops[k] = reshape x y he hn hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = fun i => he ▸ shapeCast y.ty.shape (after ops V (Proc.devRef .tc x)) hn i := by
  rw [after_eq_result ops V k hk _ hy', hop, reshape_result, ← after_eq_take ops V k _ hx']

/-- A buffer no operation writes holds its launch contents. -/
theorem untouched_at {W : List (Ref sig .tc)} (hW : WritesAre ops W) {r : Ref sig .tc} (hr : r ∉ W) :
    after ops V (Proc.devRef .tc r) = V (Proc.devRef .tc r) :=
  after_of_forall_not_mem ops V (by simpa using not_written hW 0 (by simpa using hr))

end Cert.LibStraightLine
-- ==== Proof.RefStages0.lean ====
/-
  The reference program read one operation at a time.

  Every buffer is written by exactly one operation and read only by later ones, so the valuation the whole line ends
  in satisfies each operation's equation: what the operation's result buffer holds is the operation's function of what
  its operand buffers hold, all read at the end.
-/
import proofs.«155983_j18339510354491_1_alg».proof.Proof.RefOps
import proofs.«155983_j18339510354491_1_alg».proof.Proof.LibStraightLine

set_option Elab.async false
set_option maxRecDepth 8192

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibStraightLine

variable {F : FTy → Type} [FloatOps F]

/-- The buffers the operations write, in order: each operation writes one of its own. -/
abbrev W : List (Ref sig .tc) :=
  [main_c, main_c_0, main_c_1, main_c_2, main_c_3, main_c_4, main_c_5, main_c_6, main_c_7, main_v0, main_v1, main_v2, main_v3, main_v4, main_v5, main_v6, main_v7, main_v8, main_v9, main_v10, main_v11, main_v12, main_v13, main_v14, main_v15, main_v16, main_v17, main_v18, main_v19, main_v20, main_cst, main_v21, main_c_8, main_v22, main_v23, main_v24, main_c_9, main_v25, main_v26, main_v27, main_v28, main_v29, main_c_10, main_v30, main_v31, main_v32, main_v33, main_v34, main_c_11, main_v35, main_v36, main_v37, main_v38, main_v39, main_v40, main_v41, main_c_12, main_v42, main_v43, main_v44, main_v45, main_c_13, main_v46, main_v47, main_v48, main_v49, main_c_14, main_v50, main_v51, main_v52, main_v53, main_c_15, main_v54, main_v55, main_v56, main_v57, main_c_16, main_v58, main_v59, main_v60, main_v61, main_c_17, main_v62, main_v63, main_v64, main_v65, main_c_18, main_v66, main_v67, main_v68, main_v69, main_c_19, main_v70, main_v71, main_v72, main_v73, main_c_20, main_v74, main_v75, main_v76, main_v77, main_c_21, main_v78, main_v79, main_v80, main_v81, main_c_22, main_v82, main_v83, main_v84, main_v85, main_c_23, main_v86, main_v87, main_v88, main_v89, main_c_24, main_v90, main_v91, main_v92, main_v93, main_c_25, main_v94, main_v95, main_v96, main_v97, main_c_26, main_v98, main_v99, main_v100, main_v101, main_c_27, main_v102, main_v103, main_v104, main_v105, main_c_28, main_v106, main_v107, main_v108, main_v109, main_c_29, main_v110, main_v111, main_v112, main_v113, main_c_30, main_v114, main_v115, main_v116, main_v117, main_c_31, main_v118, main_v119, main_v120, main_v121, main_c_32, main_v122, main_v123, main_v124, main_v125, main_c_33, main_v126, main_v127, main_c_34, main_v128, main_v129, main_v130, main_v131, main_v132, main_c_35, main_v133, main_v134, main_v135, main_v136, main_v137, main_v138]

theorem ops_length : (ops : List (HloOp τ sig (Elt F))).length = 177 := rfl

theorem writesAre : WritesAre (ops : List (HloOp τ sig (Elt F))) W := rfl

/-- A buffer no operation writes holds its launch contents at the end. -/
theorem st_main_arg0 (V0 : Valuation τ sig (Elt F)) :
    after ops V0 (Proc.devRef .tc main_arg0) = V0 (Proc.devRef .tc main_arg0) :=
  untouched_at (writesAre (F := F)) (r := main_arg0) (by decide)
theorem st_main_arg1 (V0 : Valuation τ sig (Elt F)) :
    after ops V0 (Proc.devRef .tc main_arg1) = V0 (Proc.devRef .tc main_arg1) :=
  untouched_at (writesAre (F := F)) (r := main_arg1) (by decide)

end Cert.ReferenceIdeal.RefValue

end
-- ==== Proof.RefStages1.lean ====
/-
  The reference program read one operation at a time.

  Every buffer is written by exactly one operation and read only by later ones, so the valuation the whole line ends
  in satisfies each operation's equation: what the operation's result buffer holds is the operation's function of what
  its operand buffers hold, all read at the end.
-/
import proofs.«155983_j18339510354491_1_alg».proof.Proof.RefStages0
import Mathlib.Tactic.FinCases

set_option Elab.async false
set_option maxRecDepth 8192

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibStraightLine

variable {F : FTy → Type} [FloatOps F]

theorem st_main_c (V0 : Valuation τ sig (Elt F)) :
    (after ops V0 (Proc.devRef .tc main_c)) = ((fun i => lit0 (S4.rowMajor i))) := by
  have hop : (ops (F := F))[0]'(Nat.lt_of_lt_of_eq (by decide : 0 < 177) ops_length.symm) = nullary main_c ((fun i => lit0 (S4.rowMajor i))) ⟨by decide, rfl⟩ := rfl
  have hy := not_written (writesAre (F := F)) 1 (y := main_c) (by decide)
  exact nullary_at 0 _ hop hy

theorem st_main_c_0 (V0 : Valuation τ sig (Elt F)) :
    (after ops V0 (Proc.devRef .tc main_c_0)) = ((constantI S4 1 0#1)) := by
  have hop : (ops (F := F))[1]'(Nat.lt_of_lt_of_eq (by decide : 1 < 177) ops_length.symm) = nullary main_c_0 ((constantI S4 1 0#1)) ⟨by decide, rfl⟩ := rfl
  have hy := not_written (writesAre (F := F)) 2 (y := main_c_0) (by decide)
  exact nullary_at 1 _ hop hy

theorem st_main_c_1 (V0 : Valuation τ sig (Elt F)) :
    (after ops V0 (Proc.devRef .tc main_c_1)) = ((constantI S4 1 0#1)) := by
  have hop : (ops (F := F))[2]'(Nat.lt_of_lt_of_eq (by decide : 2 < 177) ops_length.symm) = nullary main_c_1 ((constantI S4 1 0#1)) ⟨by decide, rfl⟩ := rfl
  have hy := not_written (writesAre (F := F)) 3 (y := main_c_1) (by decide)
  exact nullary_at 2 _ hop hy

theorem st_main_c_2 (V0 : Valuation τ sig (Elt F)) :
    (after ops V0 (Proc.devRef .tc main_c_2)) = ((fun i => lit1 (S22.rowMajor i))) := by
  have hop : (ops (F := F))[3]'(Nat.lt_of_lt_of_eq (by decide : 3 < 177) ops_length.symm) = nullary main_c_2 ((fun i => lit1 (S22.rowMajor i))) ⟨by decide, rfl⟩ := rfl
  have hy := not_written (writesAre (F := F)) 4 (y := main_c_2) (by decide)
  exact nullary_at 3 _ hop hy

theorem st_main_c_3 (V0 : Valuation τ sig (Elt F)) :
    (after ops V0 (Proc.devRef .tc main_c_3)) = ((constantI S22 1 0#1)) := by
  have hop : (ops (F := F))[4]'(Nat.lt_of_lt_of_eq (by decide : 4 < 177) ops_length.symm) = nullary main_c_3 ((constantI S22 1 0#1)) ⟨by decide, rfl⟩ := rfl
  have hy := not_written (writesAre (F := F)) 5 (y := main_c_3) (by decide)
  exact nullary_at 4 _ hop hy

theorem st_main_c_4 (V0 : Valuation τ sig (Elt F)) :
    (after ops V0 (Proc.devRef .tc main_c_4)) = ((fun i => lit2 (S6.rowMajor i))) := by
  have hop : (ops (F := F))[5]'(Nat.lt_of_lt_of_eq (by decide : 5 < 177) ops_length.symm) = nullary main_c_4 ((fun i => lit2 (S6.rowMajor i))) ⟨by decide, rfl⟩ := rfl
  have hy := not_written (writesAre (F := F)) 6 (y := main_c_4) (by decide)
  exact nullary_at 5 _ hop hy

theorem st_main_c_5 (V0 : Valuation τ sig (Elt F)) :
    (after ops V0 (Proc.devRef .tc main_c_5)) = ((constantI S6 1 0#1)) := by
  have hop : (ops (F := F))[6]'(Nat.lt_of_lt_of_eq (by decide : 6 < 177) ops_length.symm) = nullary main_c_5 ((constantI S6 1 0#1)) ⟨by decide, rfl⟩ := rfl
  have hy := not_written (writesAre (F := F)) 7 (y := main_c_5) (by decide)
  exact nullary_at 6 _ hop hy

theorem st_main_c_6 (V0 : Valuation τ sig (Elt F)) :
    (after ops V0 (Proc.devRef .tc main_c_6)) = ((fun i => lit3 (S6.rowMajor i))) := by
  have hop : (ops (F := F))[7]'(Nat.lt_of_lt_of_eq (by decide : 7 < 177) ops_length.symm) = nullary main_c_6 ((fun i => lit3 (S6.rowMajor i))) ⟨by decide, rfl⟩ := rfl
  have hy := not_written (writesAre (F := F)) 8 (y := main_c_6) (by decide)
  exact nullary_at 7 _ hop hy

theorem st_main_c_7 (V0 : Valuation τ sig (Elt F)) :
    (after ops V0 (Proc.devRef .tc main_c_7)) = ((constantI S6 1 0#1)) := by
  have hop : (ops (F := F))[8]'(Nat.lt_of_lt_of_eq (by decide : 8 < 177) ops_length.symm) = nullary main_c_7 ((constantI S6 1 0#1)) ⟨by decide, rfl⟩ := rfl
  have hy := not_written (writesAre (F := F)) 9 (y := main_c_7) (by decide)
  exact nullary_at 8 _ hop hy

theorem st_main_v0 (V0 : Valuation τ sig (Elt F)) :
    (after ops V0 (Proc.devRef .tc main_v0)) = shapeCast (main_v0 : Ref sig .tc).ty.shape (after ops V0 (Proc.devRef .tc main_arg0)) shapeCasts_S4096x16x96_S4096x16x32x3 := by
  have hop : (ops (F := F))[9]'(Nat.lt_of_lt_of_eq (by decide : 9 < 177) ops_length.symm) = reshape main_arg0 main_v0 rfl shapeCasts_S4096x16x96_S4096x16x32x3 ⟨by decide, rfl⟩ ⟨by decide, rfl⟩ := rfl
  have hy := not_written (writesAre (F := F)) 10 (y := main_v0) (by decide)
  have hx0 := not_written (writesAre (F := F)) 9 (y := main_arg0) (by decide)
  exact (reshape_at 9 _ hop hy hx0).trans rfl

theorem st_main_v1 (V0 : Valuation τ sig (Elt F)) :
    (after ops V0 (Proc.devRef .tc main_v1)) = shapeCast (main_v1 : Ref sig .tc).ty.shape (after ops V0 (Proc.devRef .tc main_arg1)) shapeCasts_S4096x64x66_S4096x64x22x3 := by
  have hop : (ops (F := F))[10]'(Nat.lt_of_lt_of_eq (by decide : 10 < 177) ops_length.symm) = reshape main_arg1 main_v1 rfl shapeCasts_S4096x64x66_S4096x64x22x3 ⟨by decide, rfl⟩ ⟨by decide, rfl⟩ := rfl
  have hy := not_written (writesAre (F := F)) 11 (y := main_v1) (by decide)
  have hx0 := not_written (writesAre (F := F)) 10 (y := main_arg1) (by decide)
  exact (reshape_at 10 _ hop hy hx0).trans rfl

theorem st_main_v2 (V0 : Valuation τ sig (Elt F)) :
    (after ops V0 (Proc.devRef .tc main_v2)) = extractStridedSlice S4096x64x22x1 ![0, 0, 0, 0] (after ops V0 (Proc.devRef .tc main_v1)) slices_S4096x64x22x3_S4096x64x22x1_0_0_0_0 := by
  have hop : (ops (F := F))[11]'(Nat.lt_of_lt_of_eq (by decide : 11 < 177) ops_length.symm) = unary main_v1 main_v2 (((extractStridedSlice S4096x64x22x1 ![0, 0, 0, 0] · slices_S4096x64x22x3_S4096x64x22x1_0_0_0_0) : (⟨S4096x64x22x3, .f32⟩ : BufTy).Contents (Elt F) → (⟨S4096x64x22x1, .f32⟩ : BufTy).Contents (Elt F))) ⟨by decide, rfl⟩ ⟨by decide, rfl⟩ := rfl
  have hy := not_written (writesAre (F := F)) 12 (y := main_v2) (by decide)
  have hx0 := not_written (writesAre (F := F)) 11 (y := main_v1) (by decide)
  exact unary_at 11 _ hop hy hx0

theorem st_main_v3 (V0 : Valuation τ sig (Elt F)) :
    (after ops V0 (Proc.devRef .tc main_v3)) = shapeCast (main_v3 : Ref sig .tc).ty.shape (after ops V0 (Proc.devRef .tc main_v2)) shapeCasts_S4096x64x22x1_S4096x64x22 := by
  have hop : (ops (F := F))[12]'(Nat.lt_of_lt_of_eq (by decide : 12 < 177) ops_length.symm) = reshape main_v2 main_v3 rfl shapeCasts_S4096x64x22x1_S4096x64x22 ⟨by decide, rfl⟩ ⟨by decide, rfl⟩ := rfl
  have hy := not_written (writesAre (F := F)) 13 (y := main_v3) (by decide)
  have hx0 := not_written (writesAre (F := F)) 12 (y := main_v2) (by decide)
  exact (reshape_at 12 _ hop hy hx0).trans rfl

theorem st_main_v4 (V0 : Valuation τ sig (Elt F)) :
    (after ops V0 (Proc.devRef .tc main_v4)) = extractStridedSlice S4096x64x22x1 ![0, 0, 0, 1] (after ops V0 (Proc.devRef .tc main_v1)) slices_S4096x64x22x3_S4096x64x22x1_0_0_0_1 := by
  have hop : (ops (F := F))[13]'(Nat.lt_of_lt_of_eq (by decide : 13 < 177) ops_length.symm) = unary main_v1 main_v4 (((extractStridedSlice S4096x64x22x1 ![0, 0, 0, 1] · slices_S4096x64x22x3_S4096x64x22x1_0_0_0_1) : (⟨S4096x64x22x3, .f32⟩ : BufTy).Contents (Elt F) → (⟨S4096x64x22x1, .f32⟩ : BufTy).Contents (Elt F))) ⟨by decide, rfl⟩ ⟨by decide, rfl⟩ := rfl
  have hy := not_written (writesAre (F := F)) 14 (y := main_v4) (by decide)
  have hx0 := not_written (writesAre (F := F)) 13 (y := main_v1) (by decide)
  exact unary_at 13 _ hop hy hx0

theorem st_main_v5 (V0 : Valuation τ sig (Elt F)) :
    (after ops V0 (Proc.devRef .tc main_v5)) = shapeCast (main_v5 : Ref sig .tc).ty.shape (after ops V0 (Proc.devRef .tc main_v4)) shapeCasts_S4096x64x22x1_S4096x64x22 := by
  have hop : (ops (F := F))[14]'(Nat.lt_of_lt_of_eq (by decide : 14 < 177) ops_length.symm) = reshape main_v4 main_v5 rfl shapeCasts_S4096x64x22x1_S4096x64x22 ⟨by decide, rfl⟩ ⟨by decide, rfl⟩ := rfl
  have hy := not_written (writesAre (F := F)) 15 (y := main_v5) (by decide)
  have hx0 := not_written (writesAre (F := F)) 14 (y := main_v4) (by decide)
  exact (reshape_at 14 _ hop hy hx0).trans rfl

theorem st_main_v6 (V0 : Valuation τ sig (Elt F)) :
    (after ops V0 (Proc.devRef .tc main_v6)) = extractStridedSlice S4096x64x22x1 ![0, 0, 0, 2] (after ops V0 (Proc.devRef .tc main_v1)) slices_S4096x64x22x3_S4096x64x22x1_0_0_0_2 := by
  have hop : (ops (F := F))[15]'(Nat.lt_of_lt_of_eq (by decide : 15 < 177) ops_length.symm) = unary main_v1 main_v6 (((extractStridedSlice S4096x64x22x1 ![0, 0, 0, 2] · slices_S4096x64x22x3_S4096x64x22x1_0_0_0_2) : (⟨S4096x64x22x3, .f32⟩ : BufTy).Contents (Elt F) → (⟨S4096x64x22x1, .f32⟩ : BufTy).Contents (Elt F))) ⟨by decide, rfl⟩ ⟨by decide, rfl⟩ := rfl
  have hy := not_written (writesAre (F := F)) 16 (y := main_v6) (by decide)
  have hx0 := not_written (writesAre (F := F)) 15 (y := main_v1) (by decide)
  exact unary_at 15 _ hop hy hx0

theorem st_main_v7 (V0 : Valuation τ sig (Elt F)) :
    (after ops V0 (Proc.devRef .tc main_v7)) = shapeCast (main_v7 : Ref sig .tc).ty.shape (after ops V0 (Proc.devRef .tc main_v6)) shapeCasts_S4096x64x22x1_S4096x64x22 := by
  have hop : (ops (F := F))[16]'(Nat.lt_of_lt_of_eq (by decide : 16 < 177) ops_length.symm) = reshape main_v6 main_v7 rfl shapeCasts_S4096x64x22x1_S4096x64x22 ⟨by decide, rfl⟩ ⟨by decide, rfl⟩ := rfl
  have hy := not_written (writesAre (F := F)) 17 (y := main_v7) (by decide)
  have hx0 := not_written (writesAre (F := F)) 16 (y := main_v6) (by decide)
  exact (reshape_at 16 _ hop hy hx0).trans rfl

theorem st_main_v8 (V0 : Valuation τ sig (Elt F)) :
    (after ops V0 (Proc.devRef .tc main_v8)) = ((Host.sin : (⟨S4096x64x22, .f32⟩ : BufTy).Contents (Elt F) → (⟨S4096x64x22, .f32⟩ : BufTy).Contents (Elt F))) (after ops V0 (Proc.devRef .tc main_v7)) := by
  have hop : (ops (F := F))[17]'(Nat.lt_of_lt_of_eq (by decide : 17 < 177) ops_length.symm) = unary main_v7 main_v8 ((Host.sin : (⟨S4096x64x22, .f32⟩ : BufTy).Contents (Elt F) → (⟨S4096x64x22, .f32⟩ : BufTy).Contents (Elt F))) ⟨by decide, rfl⟩ ⟨by decide, rfl⟩ := rfl
  have hy := not_written (writesAre (F := F)) 18 (y := main_v8) (by decide)
  have hx0 := not_written (writesAre (F := F)) 17 (y := main_v7) (by decide)
  exact unary_at 17 _ hop hy hx0

theorem st_main_v9 (V0 : Valuation τ sig (Elt F)) :
    (after ops V0 (Proc.devRef .tc main_v9)) = ((mulf : (⟨S4096x64x22, .f32⟩ : BufTy).Contents (Elt F) → (⟨S4096x64x22, .f32⟩ : BufTy).Contents (Elt F) → (⟨S4096x64x22, .f32⟩ : BufTy).Contents (Elt F))) (after ops V0 (Proc.devRef .tc main_v3)) (after ops V0 (Proc.devRef .tc main_v8)) := by
  have hop : (ops (F := F))[18]'(Nat.lt_of_lt_of_eq (by decide : 18 < 177) ops_length.symm) = binary main_v3 main_v8 main_v9 ((mulf : (⟨S4096x64x22, .f32⟩ : BufTy).Contents (Elt F) → (⟨S4096x64x22, .f32⟩ : BufTy).Contents (Elt F) → (⟨S4096x64x22, .f32⟩ : BufTy).Contents (Elt F))) ⟨by decide, rfl⟩ ⟨by decide, rfl⟩ ⟨by decide, rfl⟩ := rfl
  have hy := not_written (writesAre (F := F)) 19 (y := main_v9) (by decide)
  have hx0 := not_written (writesAre (F := F)) 18 (y := main_v3) (by decide)
  have hx1 := not_written (writesAre (F := F)) 18 (y := main_v8) (by decide)
  exact binary_at 18 _ hop hy hx0 hx1

theorem st_main_v10 (V0 : Valuation τ sig (Elt F)) :
    (after ops V0 (Proc.devRef .tc main_v10)) = ((Host.cos : (⟨S4096x64x22, .f32⟩ : BufTy).Contents (Elt F) → (⟨S4096x64x22, .f32⟩ : BufTy).Contents (Elt F))) (after ops V0 (Proc.devRef .tc main_v5)) := by
  have hop : (ops (F := F))[19]'(Nat.lt_of_lt_of_eq (by decide : 19 < 177) ops_length.symm) = unary main_v5 main_v10 ((Host.cos : (⟨S4096x64x22, .f32⟩ : BufTy).Contents (Elt F) → (⟨S4096x64x22, .f32⟩ : BufTy).Contents (Elt F))) ⟨by decide, rfl⟩ ⟨by decide, rfl⟩ := rfl
  have hy := not_written (writesAre (F := F)) 20 (y := main_v10) (by decide)
  have hx0 := not_written (writesAre (F := F)) 19 (y := main_v5) (by decide)
  exact unary_at 19 _ hop hy hx0

theorem st_main_v11 (V0 : Valuation τ sig (Elt F)) :
    (after ops V0 (Proc.devRef .tc main_v11)) = ((mulf : (⟨S4096x64x22, .f32⟩ : BufTy).Contents (Elt F) → (⟨S4096x64x22, .f32⟩ : BufTy).Contents (Elt F) → (⟨S4096x64x22, .f32⟩ : BufTy).Contents (Elt F))) (after ops V0 (Proc.devRef .tc main_v9)) (after ops V0 (Proc.devRef .tc main_v10)) := by
  have hop : (ops (F := F))[20]'(Nat.lt_of_lt_of_eq (by decide : 20 < 177) ops_length.symm) = binary main_v9 main_v10 main_v11 ((mulf : (⟨S4096x64x22, .f32⟩ : BufTy).Contents (Elt F) → (⟨S4096x64x22, .f32⟩ : BufTy).Contents (Elt F) → (⟨S4096x64x22, .f32⟩ : BufTy).Contents (Elt F))) ⟨by decide, rfl⟩ ⟨by decide, rfl⟩ ⟨by decide, rfl⟩ := rfl
  have hy := not_written (writesAre (F := F)) 21 (y := main_v11) (by decide)
  have hx0 := not_written (writesAre (F := F)) 20 (y := main_v9) (by decide)
  have hx1 := not_written (writesAre (F := F)) 20 (y := main_v10) (by decide)
  exact binary_at 20 _ hop hy hx0 hx1

theorem st_main_v12 (V0 : Valuation τ sig (Elt F)) :
    (after ops V0 (Proc.devRef .tc main_v12)) = ((Host.cos : (⟨S4096x64x22, .f32⟩ : BufTy).Contents (Elt F) → (⟨S4096x64x22, .f32⟩ : BufTy).Contents (Elt F))) (after ops V0 (Proc.devRef .tc main_v7)) := by
  have hop : (ops (F := F))[21]'(Nat.lt_of_lt_of_eq (by decide : 21 < 177) ops_length.symm) = unary main_v7 main_v12 ((Host.cos : (⟨S4096x64x22, .f32⟩ : BufTy).Contents (Elt F) → (⟨S4096x64x22, .f32⟩ : BufTy).Contents (Elt F))) ⟨by decide, rfl⟩ ⟨by decide, rfl⟩ := rfl
  have hy := not_written (writesAre (F := F)) 22 (y := main_v12) (by decide)
  have hx0 := not_written (writesAre (F := F)) 21 (y := main_v7) (by decide)
  exact unary_at 21 _ hop hy hx0

theorem st_main_v13 (V0 : Valuation τ sig (Elt F)) :
    (after ops V0 (Proc.devRef .tc main_v13)) = ((mulf : (⟨S4096x64x22, .f32⟩ : BufTy).Contents (Elt F) → (⟨S4096x64x22, .f32⟩ : BufTy).Contents (Elt F) → (⟨S4096x64x22, .f32⟩ : BufTy).Contents (Elt F))) (after ops V0 (Proc.devRef .tc main_v3)) (after ops V0 (Proc.devRef .tc main_v12)) := by
  have hop : (ops (F := F))[22]'(Nat.lt_of_lt_of_eq (by decide : 22 < 177) ops_length.symm) = binary main_v3 main_v12 main_v13 ((mulf : (⟨S4096x64x22, .f32⟩ : BufTy).Contents (Elt F) → (⟨S4096x64x22, .f32⟩ : BufTy).Contents (Elt F) → (⟨S4096x64x22, .f32⟩ : BufTy).Contents (Elt F))) ⟨by decide, rfl⟩ ⟨by decide, rfl⟩ ⟨by decide, rfl⟩ := rfl
  have hy := not_written (writesAre (F := F)) 23 (y := main_v13) (by decide)
  have hx0 := not_written (writesAre (F := F)) 22 (y := main_v3) (by decide)
  have hx1 := not_written (writesAre (F := F)) 22 (y := main_v12) (by decide)
  exact binary_at 22 _ hop hy hx0 hx1

theorem st_main_v14 (V0 : Valuation τ sig (Elt F)) :
    (after ops V0 (Proc.devRef .tc main_v14)) = ((mulf : (⟨S4096x64x22, .f32⟩ : BufTy).Contents (Elt F) → (⟨S4096x64x22, .f32⟩ : BufTy).Contents (Elt F) → (⟨S4096x64x22, .f32⟩ : BufTy).Contents (Elt F))) (after ops V0 (Proc.devRef .tc main_v3)) (after ops V0 (Proc.devRef .tc main_v8)) := by
  have hop : (ops (F := F))[23]'(Nat.lt_of_lt_of_eq (by decide : 23 < 177) ops_length.symm) = binary main_v3 main_v8 main_v14 ((mulf : (⟨S4096x64x22, .f32⟩ : BufTy).Contents (Elt F) → (⟨S4096x64x22, .f32⟩ : BufTy).Contents (Elt F) → (⟨S4096x64x22, .f32⟩ : BufTy).Contents (Elt F))) ⟨by decide, rfl⟩ ⟨by decide, rfl⟩ ⟨by decide, rfl⟩ := rfl
  have hy := not_written (writesAre (F := F)) 24 (y := main_v14) (by decide)
  have hx0 := not_written (writesAre (F := F)) 23 (y := main_v3) (by decide)
  have hx1 := not_written (writesAre (F := F)) 23 (y := main_v8) (by decide)
  exact binary_at 23 _ hop hy hx0 hx1

theorem st_main_v15 (V0 : Valuation τ sig (Elt F)) :
    (after ops V0 (Proc.devRef .tc main_v15)) = ((Host.sin : (⟨S4096x64x22, .f32⟩ : BufTy).Contents (Elt F) → (⟨S4096x64x22, .f32⟩ : BufTy).Contents (Elt F))) (after ops V0 (Proc.devRef .tc main_v5)) := by
  have hop : (ops (F := F))[24]'(Nat.lt_of_lt_of_eq (by decide : 24 < 177) ops_length.symm) = unary main_v5 main_v15 ((Host.sin : (⟨S4096x64x22, .f32⟩ : BufTy).Contents (Elt F) → (⟨S4096x64x22, .f32⟩ : BufTy).Contents (Elt F))) ⟨by decide, rfl⟩ ⟨by decide, rfl⟩ := rfl
  have hy := not_written (writesAre (F := F)) 25 (y := main_v15) (by decide)
  have hx0 := not_written (writesAre (F := F)) 24 (y := main_v5) (by decide)
  exact unary_at 24 _ hop hy hx0

theorem st_main_v16 (V0 : Valuation τ sig (Elt F)) :
    (after ops V0 (Proc.devRef .tc main_v16)) = ((mulf : (⟨S4096x64x22, .f32⟩ : BufTy).Contents (Elt F) → (⟨S4096x64x22, .f32⟩ : BufTy).Contents (Elt F) → (⟨S4096x64x22, .f32⟩ : BufTy).Contents (Elt F))) (after ops V0 (Proc.devRef .tc main_v14)) (after ops V0 (Proc.devRef .tc main_v15)) := by
  have hop : (ops (F := F))[25]'(Nat.lt_of_lt_of_eq (by decide : 25 < 177) ops_length.symm) = binary main_v14 main_v15 main_v16 ((mulf : (⟨S4096x64x22, .f32⟩ : BufTy).Contents (Elt F) → (⟨S4096x64x22, .f32⟩ : BufTy).Contents (Elt F) → (⟨S4096x64x22, .f32⟩ : BufTy).Contents (Elt F))) ⟨by decide, rfl⟩ ⟨by decide, rfl⟩ ⟨by decide, rfl⟩ := rfl
  have hy := not_written (writesAre (F := F)) 26 (y := main_v16) (by decide)
  have hx0 := not_written (writesAre (F := F)) 25 (y := main_v14) (by decide)
  have hx1 := not_written (writesAre (F := F)) 25 (y := main_v15) (by decide)
  exact binary_at 25 _ hop hy hx0 hx1

theorem st_main_v17 (V0 : Valuation τ sig (Elt F)) :
    (after ops V0 (Proc.devRef .tc main_v17)) = ((broadcastInDim S4096x64x22x1 ![0, 1, 2] bcast_S4096x64x22_S4096x64x22x1_0_1_2 : (⟨S4096x64x22, .f32⟩ : BufTy).Contents (Elt F) → (⟨S4096x64x22x1, .f32⟩ : BufTy).Contents (Elt F))) (after ops V0 (Proc.devRef .tc main_v11)) := by
  have hop : (ops (F := F))[26]'(Nat.lt_of_lt_of_eq (by decide : 26 < 177) ops_length.symm) = unary main_v11 main_v17 ((broadcastInDim S4096x64x22x1 ![0, 1, 2] bcast_S4096x64x22_S4096x64x22x1_0_1_2 : (⟨S4096x64x22, .f32⟩ : BufTy).Contents (Elt F) → (⟨S4096x64x22x1, .f32⟩ : BufTy).Contents (Elt F))) ⟨by decide, rfl⟩ ⟨by decide, rfl⟩ := rfl
  have hy := not_written (writesAre (F := F)) 27 (y := main_v17) (by decide)
  have hx0 := not_written (writesAre (F := F)) 26 (y := main_v11) (by decide)
  exact unary_at 26 _ hop hy hx0

theorem st_main_v18 (V0 : Valuation τ sig (Elt F)) :
    (after ops V0 (Proc.devRef .tc main_v18)) = ((broadcastInDim S4096x64x22x1 ![0, 1, 2] bcast_S4096x64x22_S4096x64x22x1_0_1_2 : (⟨S4096x64x22, .f32⟩ : BufTy).Contents (Elt F) → (⟨S4096x64x22x1, .f32⟩ : BufTy).Contents (Elt F))) (after ops V0 (Proc.devRef .tc main_v13)) := by
  have hop : (ops (F := F))[27]'(Nat.lt_of_lt_of_eq (by decide : 27 < 177) ops_length.symm) = unary main_v13 main_v18 ((broadcastInDim S4096x64x22x1 ![0, 1, 2] bcast_S4096x64x22_S4096x64x22x1_0_1_2 : (⟨S4096x64x22, .f32⟩ : BufTy).Contents (Elt F) → (⟨S4096x64x22x1, .f32⟩ : BufTy).Contents (Elt F))) ⟨by decide, rfl⟩ ⟨by decide, rfl⟩ := rfl
  have hy := not_written (writesAre (F := F)) 28 (y := main_v18) (by decide)
  have hx0 := not_written (writesAre (F := F)) 27 (y := main_v13) (by decide)
  exact unary_at 27 _ hop hy hx0

theorem st_main_v19 (V0 : Valuation τ sig (Elt F)) :
    (after ops V0 (Proc.devRef .tc main_v19)) = ((broadcastInDim S4096x64x22x1 ![0, 1, 2] bcast_S4096x64x22_S4096x64x22x1_0_1_2 : (⟨S4096x64x22, .f32⟩ : BufTy).Contents (Elt F) → (⟨S4096x64x22x1, .f32⟩ : BufTy).Contents (Elt F))) (after ops V0 (Proc.devRef .tc main_v16)) := by
  have hop : (ops (F := F))[28]'(Nat.lt_of_lt_of_eq (by decide : 28 < 177) ops_length.symm) = unary main_v16 main_v19 ((broadcastInDim S4096x64x22x1 ![0, 1, 2] bcast_S4096x64x22_S4096x64x22x1_0_1_2 : (⟨S4096x64x22, .f32⟩ : BufTy).Contents (Elt F) → (⟨S4096x64x22x1, .f32⟩ : BufTy).Contents (Elt F))) ⟨by decide, rfl⟩ ⟨by decide, rfl⟩ := rfl
  have hy := not_written (writesAre (F := F)) 29 (y := main_v19) (by decide)
  have hx0 := not_written (writesAre (F := F)) 28 (y := main_v16) (by decide)
  exact unary_at 28 _ hop hy hx0

theorem st_main_v20 (V0 : Valuation τ sig (Elt F)) :
    (after ops V0 (Proc.devRef .tc main_v20)) = concatenate S4096x64x22x3 3 [⟨S4096x64x22x1, (after ops V0 (Proc.devRef .tc main_v17))⟩, ⟨S4096x64x22x1, (after ops V0 (Proc.devRef .tc main_v18))⟩, ⟨S4096x64x22x1, (after ops V0 (Proc.devRef .tc main_v19))⟩] concatenates_S4096x64x22x1_S4096x64x22x1_S4096x64x22x1_S4096x64x22x3_d3 := by
  have hop : (ops (F := F))[29]'(Nat.lt_of_lt_of_eq (by decide : 29 < 177) ops_length.symm) = nary ![main_v17, main_v18, main_v19] main_v20 ((fun u => concatenate S4096x64x22x3 3 [⟨S4096x64x22x1, u 0⟩, ⟨S4096x64x22x1, u 1⟩, ⟨S4096x64x22x1, u 2⟩] concatenates_S4096x64x22x1_S4096x64x22x1_S4096x64x22x1_S4096x64x22x3_d3)) := rfl
  have hy := not_written (writesAre (F := F)) 30 (y := main_v20) (by decide)
  have hx0 := not_written (writesAre (F := F)) 29 (y := main_v17) (by decide)
  have hx1 := not_written (writesAre (F := F)) 29 (y := main_v18) (by decide)
  have hx2 := not_written (writesAre (F := F)) 29 (y := main_v19) (by decide)
  rw [after_eq_result ops V0 29 (Nat.lt_of_lt_of_eq (by decide : 29 < 177) ops_length.symm) _ hy, hop, nary_result]
  congr 1
  all_goals (funext k; fin_cases k)
  all_goals (first | exact (after_eq_take ops V0 29 _ hx0).symm | skip)
  all_goals (first | exact (after_eq_take ops V0 29 _ hx1).symm | skip)
  all_goals (first | exact (after_eq_take ops V0 29 _ hx2).symm | skip)

theorem st_main_cst (V0 : Valuation τ sig (Elt F)) :
    (after ops V0 (Proc.devRef .tc main_cst)) = ((constant S_ .f32 0x00000000#32)) := by
  have hop : (ops (F := F))[30]'(Nat.lt_of_lt_of_eq (by decide : 30 < 177) ops_length.symm) = nullary main_cst ((constant S_ .f32 0x00000000#32)) ⟨by decide, rfl⟩ := rfl
  have hy := not_written (writesAre (F := F)) 31 (y := main_cst) (by decide)
  exact nullary_at 30 _ hop hy

theorem st_main_v21 (V0 : Valuation τ sig (Elt F)) :
    (after ops V0 (Proc.devRef .tc main_v21)) = ((broadcastInDim S4096x64x32x3 ![] bcast_S_S4096x64x32x3 : (⟨S_, .f32⟩ : BufTy).Contents (Elt F) → (⟨S4096x64x32x3, .f32⟩ : BufTy).Contents (Elt F))) (after ops V0 (Proc.devRef .tc main_cst)) := by
  have hop : (ops (F := F))[31]'(Nat.lt_of_lt_of_eq (by decide : 31 < 177) ops_length.symm) = unary main_cst main_v21 ((broadcastInDim S4096x64x32x3 ![] bcast_S_S4096x64x32x3 : (⟨S_, .f32⟩ : BufTy).Contents (Elt F) → (⟨S4096x64x32x3, .f32⟩ : BufTy).Contents (Elt F))) ⟨by decide, rfl⟩ ⟨by decide, rfl⟩ := rfl
  have hy := not_written (writesAre (F := F)) 32 (y := main_v21) (by decide)
  have hx0 := not_written (writesAre (F := F)) 31 (y := main_cst) (by decide)
  exact unary_at 31 _ hop hy hx0

theorem st_main_c_8 (V0 : Valuation τ sig (Elt F)) :
    (after ops V0 (Proc.devRef .tc main_c_8)) = ((constantI S_ 32 32#32)) := by
  have hop : (ops (F := F))[32]'(Nat.lt_of_lt_of_eq (by decide : 32 < 177) ops_length.symm) = nullary main_c_8 ((constantI S_ 32 32#32)) ⟨by decide, rfl⟩ := rfl
  have hy := not_written (writesAre (F := F)) 33 (y := main_c_8) (by decide)
  exact nullary_at 32 _ hop hy

theorem st_main_v22 (V0 : Valuation τ sig (Elt F)) :
    (after ops V0 (Proc.devRef .tc main_v22)) = ((broadcastInDim S4 ![] bcast_S_S4 : (⟨S_, .i32⟩ : BufTy).Contents (Elt F) → (⟨S4, .i32⟩ : BufTy).Contents (Elt F))) (after ops V0 (Proc.devRef .tc main_c_8)) := by
  have hop : (ops (F := F))[33]'(Nat.lt_of_lt_of_eq (by decide : 33 < 177) ops_length.symm) = unary main_c_8 main_v22 ((broadcastInDim S4 ![] bcast_S_S4 : (⟨S_, .i32⟩ : BufTy).Contents (Elt F) → (⟨S4, .i32⟩ : BufTy).Contents (Elt F))) ⟨by decide, rfl⟩ ⟨by decide, rfl⟩ := rfl
  have hy := not_written (writesAre (F := F)) 34 (y := main_v22) (by decide)
  have hx0 := not_written (writesAre (F := F)) 33 (y := main_c_8) (by decide)
  exact unary_at 33 _ hop hy hx0

theorem st_main_v23 (V0 : Valuation τ sig (Elt F)) :
    (after ops V0 (Proc.devRef .tc main_v23)) = ((addi : (⟨S4, .i32⟩ : BufTy).Contents (Elt F) → (⟨S4, .i32⟩ : BufTy).Contents (Elt F) → (⟨S4, .i32⟩ : BufTy).Contents (Elt F))) (after ops V0 (Proc.devRef .tc main_c)) (after ops V0 (Proc.devRef .tc main_v22)) := by
  have hop : (ops (F := F))[34]'(Nat.lt_of_lt_of_eq (by decide : 34 < 177) ops_length.symm) = binary main_c main_v22 main_v23 ((addi : (⟨S4, .i32⟩ : BufTy).Contents (Elt F) → (⟨S4, .i32⟩ : BufTy).Contents (Elt F) → (⟨S4, .i32⟩ : BufTy).Contents (Elt F))) ⟨by decide, rfl⟩ ⟨by decide, rfl⟩ ⟨by decide, rfl⟩ := rfl
  have hy := not_written (writesAre (F := F)) 35 (y := main_v23) (by decide)
  have hx0 := not_written (writesAre (F := F)) 34 (y := main_c) (by decide)
  have hx1 := not_written (writesAre (F := F)) 34 (y := main_v22) (by decide)
  exact binary_at 34 _ hop hy hx0 hx1

theorem st_main_v24 (V0 : Valuation τ sig (Elt F)) :
    (after ops V0 (Proc.devRef .tc main_v24)) = ((select : (⟨S4, .i1⟩ : BufTy).Contents (Elt F) → (⟨S4, .i32⟩ : BufTy).Contents (Elt F) → (⟨S4, .i32⟩ : BufTy).Contents (Elt F) → (⟨S4, .i32⟩ : BufTy).Contents (Elt F))) (after ops V0 (Proc.devRef .tc main_c_0)) (after ops V0 (Proc.devRef .tc main_v23)) (after ops V0 (Proc.devRef .tc main_c)) := by
  have hop : (ops (F := F))[35]'(Nat.lt_of_lt_of_eq (by decide : 35 < 177) ops_length.symm) = ternary main_c_0 main_v23 main_c main_v24 ((select : (⟨S4, .i1⟩ : BufTy).Contents (Elt F) → (⟨S4, .i32⟩ : BufTy).Contents (Elt F) → (⟨S4, .i32⟩ : BufTy).Contents (Elt F) → (⟨S4, .i32⟩ : BufTy).Contents (Elt F))) ⟨by decide, rfl⟩ ⟨by decide, rfl⟩ ⟨by decide, rfl⟩ ⟨by decide, rfl⟩ := rfl
  have hy := not_written (writesAre (F := F)) 36 (y := main_v24) (by decide)
  have hx0 := not_written (writesAre (F := F)) 35 (y := main_c_0) (by decide)
  have hx1 := not_written (writesAre (F := F)) 35 (y := main_v23) (by decide)
  have hx2 := not_written (writesAre (F := F)) 35 (y := main_c) (by decide)
  exact ternary_at 35 _ hop hy hx0 hx1 hx2

theorem st_main_c_9 (V0 : Valuation τ sig (Elt F)) :
    (after ops V0 (Proc.devRef .tc main_c_9)) = ((constantI S_ 32 15#32)) := by
  have hop : (ops (F := F))[36]'(Nat.lt_of_lt_of_eq (by decide : 36 < 177) ops_length.symm) = nullary main_c_9 ((constantI S_ 32 15#32)) ⟨by decide, rfl⟩ := rfl
  have hy := not_written (writesAre (F := F)) 37 (y := main_c_9) (by decide)
  exact nullary_at 36 _ hop hy

theorem st_main_v25 (V0 : Valuation τ sig (Elt F)) :
    (after ops V0 (Proc.devRef .tc main_v25)) = ((broadcastInDim S4x1 ![] bcast_S_S4x1 : (⟨S_, .i32⟩ : BufTy).Contents (Elt F) → (⟨S4x1, .i32⟩ : BufTy).Contents (Elt F))) (after ops V0 (Proc.devRef .tc main_c_9)) := by
  have hop : (ops (F := F))[37]'(Nat.lt_of_lt_of_eq (by decide : 37 < 177) ops_length.symm) = unary main_c_9 main_v25 ((broadcastInDim S4x1 ![] bcast_S_S4x1 : (⟨S_, .i32⟩ : BufTy).Contents (Elt F) → (⟨S4x1, .i32⟩ : BufTy).Contents (Elt F))) ⟨by decide, rfl⟩ ⟨by decide, rfl⟩ := rfl
  have hy := not_written (writesAre (F := F)) 38 (y := main_v25) (by decide)
  have hx0 := not_written (writesAre (F := F)) 37 (y := main_c_9) (by decide)
  exact unary_at 37 _ hop hy hx0

theorem st_main_v26 (V0 : Valuation τ sig (Elt F)) :
    (after ops V0 (Proc.devRef .tc main_v26)) = ((broadcastInDim S4x1 ![0] bcast_S4_S4x1_0 : (⟨S4, .i32⟩ : BufTy).Contents (Elt F) → (⟨S4x1, .i32⟩ : BufTy).Contents (Elt F))) (after ops V0 (Proc.devRef .tc main_v24)) := by
  have hop : (ops (F := F))[38]'(Nat.lt_of_lt_of_eq (by decide : 38 < 177) ops_length.symm) = unary main_v24 main_v26 ((broadcastInDim S4x1 ![0] bcast_S4_S4x1_0 : (⟨S4, .i32⟩ : BufTy).Contents (Elt F) → (⟨S4x1, .i32⟩ : BufTy).Contents (Elt F))) ⟨by decide, rfl⟩ ⟨by decide, rfl⟩ := rfl
  have hy := not_written (writesAre (F := F)) 39 (y := main_v26) (by decide)
  have hx0 := not_written (writesAre (F := F)) 38 (y := main_v24) (by decide)
  exact unary_at 38 _ hop hy hx0

theorem st_main_v27 (V0 : Valuation τ sig (Elt F)) :
    (after ops V0 (Proc.devRef .tc main_v27)) = concatenate S4x2 1 [⟨S4x1, (after ops V0 (Proc.devRef .tc main_v25))⟩, ⟨S4x1, (after ops V0 (Proc.devRef .tc main_v26))⟩] concatenates_S4x1_S4x1_S4x2_d1 := by
  have hop : (ops (F := F))[39]'(Nat.lt_of_lt_of_eq (by decide : 39 < 177) ops_length.symm) = binary main_v25 main_v26 main_v27 (((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F))) ⟨by decide, rfl⟩ ⟨by decide, rfl⟩ ⟨by decide, rfl⟩ := rfl
  have hy := not_written (writesAre (F := F)) 40 (y := main_v27) (by decide)
  have hx0 := not_written (writesAre (F := F)) 39 (y := main_v25) (by decide)
  have hx1 := not_written (writesAre (F := F)) 39 (y := main_v26) (by decide)
  exact binary_at 39 _ hop hy hx0 hx1

theorem st_main_v28 (V0 : Valuation τ sig (Elt F)) :
    (after ops V0 (Proc.devRef .tc main_v28)) = Host.gather gather_S4096x16x32x3_S4x2_S4096x1x4x3_013_2_n_n_12_1_4096113 (after ops V0 (Proc.devRef .tc main_v0)) (after ops V0 (Proc.devRef .tc main_v27)) := by
  have hop : (ops (F := F))[40]'(Nat.lt_of_lt_of_eq (by decide : 40 < 177) ops_length.symm) = binary main_v0 main_v27 main_v28 (((fun x i => Host.gather gather_S4096x16x32x3_S4x2_S4096x1x4x3_013_2_n_n_12_1_4096113 x i) : (⟨S4096x16x32x3, .f32⟩ : BufTy).Contents (Elt F) → (⟨S4x2, .i32⟩ : BufTy).Contents (Elt F) → (⟨S4096x1x4x3, .f32⟩ : BufTy).Contents (Elt F))) ⟨by decide, rfl⟩ ⟨by decide, rfl⟩ ⟨by decide, rfl⟩ := rfl
  have hy := not_written (writesAre (F := F)) 41 (y := main_v28) (by decide)
  have hx0 := not_written (writesAre (F := F)) 40 (y := main_v0) (by decide)
  have hx1 := not_written (writesAre (F := F)) 40 (y := main_v27) (by decide)
  exact binary_at 40 _ hop hy hx0 hx1

theorem st_main_v29 (V0 : Valuation τ sig (Elt F)) :
    (after ops V0 (Proc.devRef .tc main_v29)) = ((broadcastInDim S4096x64x4x3 ![0, 1, 2, 3] bcast_S4096x1x4x3_S4096x64x4x3_0_1_2_3 : (⟨S4096x1x4x3, .f32⟩ : BufTy).Contents (Elt F) → (⟨S4096x64x4x3, .f32⟩ : BufTy).Contents (Elt F))) (after ops V0 (Proc.devRef .tc main_v28)) := by
  have hop : (ops (F := F))[41]'(Nat.lt_of_lt_of_eq (by decide : 41 < 177) ops_length.symm) = unary main_v28 main_v29 ((broadcastInDim S4096x64x4x3 ![0, 1, 2, 3] bcast_S4096x1x4x3_S4096x64x4x3_0_1_2_3 : (⟨S4096x1x4x3, .f32⟩ : BufTy).Contents (Elt F) → (⟨S4096x64x4x3, .f32⟩ : BufTy).Contents (Elt F))) ⟨by decide, rfl⟩ ⟨by decide, rfl⟩ := rfl
  have hy := not_written (writesAre (F := F)) 42 (y := main_v29) (by decide)
  have hx0 := not_written (writesAre (F := F)) 41 (y := main_v28) (by decide)
  exact unary_at 41 _ hop hy hx0

theorem st_main_c_10 (V0 : Valuation τ sig (Elt F)) :
    (after ops V0 (Proc.devRef .tc main_c_10)) = ((constantI S_ 32 32#32)) := by
  have hop : (ops (F := F))[42]'(Nat.lt_of_lt_of_eq (by decide : 42 < 177) ops_length.symm) = nullary main_c_10 ((constantI S_ 32 32#32)) ⟨by decide, rfl⟩ := rfl
  have hy := not_written (writesAre (F := F)) 43 (y := main_c_10) (by decide)
  exact nullary_at 42 _ hop hy

theorem st_main_v30 (V0 : Valuation τ sig (Elt F)) :
    (after ops V0 (Proc.devRef .tc main_v30)) = ((broadcastInDim S4 ![] bcast_S_S4 : (⟨S_, .i32⟩ : BufTy).Contents (Elt F) → (⟨S4, .i32⟩ : BufTy).Contents (Elt F))) (after ops V0 (Proc.devRef .tc main_c_10)) := by
  have hop : (ops (F := F))[43]'(Nat.lt_of_lt_of_eq (by decide : 43 < 177) ops_length.symm) = unary main_c_10 main_v30 ((broadcastInDim S4 ![] bcast_S_S4 : (⟨S_, .i32⟩ : BufTy).Contents (Elt F) → (⟨S4, .i32⟩ : BufTy).Contents (Elt F))) ⟨by decide, rfl⟩ ⟨by decide, rfl⟩ := rfl
  have hy := not_written (writesAre (F := F)) 44 (y := main_v30) (by decide)
  have hx0 := not_written (writesAre (F := F)) 43 (y := main_c_10) (by decide)
  exact unary_at 43 _ hop hy hx0

theorem st_main_v31 (V0 : Valuation τ sig (Elt F)) :
    (after ops V0 (Proc.devRef .tc main_v31)) = ((addi : (⟨S4, .i32⟩ : BufTy).Contents (Elt F) → (⟨S4, .i32⟩ : BufTy).Contents (Elt F) → (⟨S4, .i32⟩ : BufTy).Contents (Elt F))) (after ops V0 (Proc.devRef .tc main_c)) (after ops V0 (Proc.devRef .tc main_v30)) := by
  have hop : (ops (F := F))[44]'(Nat.lt_of_lt_of_eq (by decide : 44 < 177) ops_length.symm) = binary main_c main_v30 main_v31 ((addi : (⟨S4, .i32⟩ : BufTy).Contents (Elt F) → (⟨S4, .i32⟩ : BufTy).Contents (Elt F) → (⟨S4, .i32⟩ : BufTy).Contents (Elt F))) ⟨by decide, rfl⟩ ⟨by decide, rfl⟩ ⟨by decide, rfl⟩ := rfl
  have hy := not_written (writesAre (F := F)) 45 (y := main_v31) (by decide)
  have hx0 := not_written (writesAre (F := F)) 44 (y := main_c) (by decide)
  have hx1 := not_written (writesAre (F := F)) 44 (y := main_v30) (by decide)
  exact binary_at 44 _ hop hy hx0 hx1

theorem st_main_v32 (V0 : Valuation τ sig (Elt F)) :
    (after ops V0 (Proc.devRef .tc main_v32)) = ((select : (⟨S4, .i1⟩ : BufTy).Contents (Elt F) → (⟨S4, .i32⟩ : BufTy).Contents (Elt F) → (⟨S4, .i32⟩ : BufTy).Contents (Elt F) → (⟨S4, .i32⟩ : BufTy).Contents (Elt F))) (after ops V0 (Proc.devRef .tc main_c_1)) (after ops V0 (Proc.devRef .tc main_v31)) (after ops V0 (Proc.devRef .tc main_c)) := by
  have hop : (ops (F := F))[45]'(Nat.lt_of_lt_of_eq (by decide : 45 < 177) ops_length.symm) = ternary main_c_1 main_v31 main_c main_v32 ((select : (⟨S4, .i1⟩ : BufTy).Contents (Elt F) → (⟨S4, .i32⟩ : BufTy).Contents (Elt F) → (⟨S4, .i32⟩ : BufTy).Contents (Elt F) → (⟨S4, .i32⟩ : BufTy).Contents (Elt F))) ⟨by decide, rfl⟩ ⟨by decide, rfl⟩ ⟨by decide, rfl⟩ ⟨by decide, rfl⟩ := rfl
  have hy := not_written (writesAre (F := F)) 46 (y := main_v32) (by decide)
  have hx0 := not_written (writesAre (F := F)) 45 (y := main_c_1) (by decide)
  have hx1 := not_written (writesAre (F := F)) 45 (y := main_v31) (by decide)
  have hx2 := not_written (writesAre (F := F)) 45 (y := main_c) (by decide)
  exact ternary_at 45 _ hop hy hx0 hx1 hx2

theorem st_main_v33 (V0 : Valuation τ sig (Elt F)) :
    (after ops V0 (Proc.devRef .tc main_v33)) = ((broadcastInDim S4x1 ![0] bcast_S4_S4x1_0 : (⟨S4, .i32⟩ : BufTy).Contents (Elt F) → (⟨S4x1, .i32⟩ : BufTy).Contents (Elt F))) (after ops V0 (Proc.devRef .tc main_v32)) := by
  have hop : (ops (F := F))[46]'(Nat.lt_of_lt_of_eq (by decide : 46 < 177) ops_length.symm) = unary main_v32 main_v33 ((broadcastInDim S4x1 ![0] bcast_S4_S4x1_0 : (⟨S4, .i32⟩ : BufTy).Contents (Elt F) → (⟨S4x1, .i32⟩ : BufTy).Contents (Elt F))) ⟨by decide, rfl⟩ ⟨by decide, rfl⟩ := rfl
  have hy := not_written (writesAre (F := F)) 47 (y := main_v33) (by decide)
  have hx0 := not_written (writesAre (F := F)) 46 (y := main_v32) (by decide)
  exact unary_at 46 _ hop hy hx0

theorem st_main_v34 (V0 : Valuation τ sig (Elt F)) :
    (after ops V0 (Proc.devRef .tc main_v34)) = Host.scatter scatter_S4096x64x32x3_S4x1_S4096x64x4x3_013_2_2_1 (fun _ b => b) (after ops V0 (Proc.devRef .tc main_v21)) (after ops V0 (Proc.devRef .tc main_v33)) (after ops V0 (Proc.devRef .tc main_v29)) := by
  have hop : (ops (F := F))[47]'(Nat.lt_of_lt_of_eq (by decide : 47 < 177) ops_length.symm) = ternary main_v21 main_v33 main_v29 main_v34 (((fun x i u => Host.scatter scatter_S4096x64x32x3_S4x1_S4096x64x4x3_013_2_2_1 (fun _ b => b) x i u) : (⟨S4096x64x32x3, .f32⟩ : BufTy).Contents (Elt F) → (⟨S4x1, .i32⟩ : BufTy).Contents (Elt F) → (⟨S4096x64x4x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 48 (y := main_v34) (by decide)
  have hx0 := not_written (writesAre (F := F)) 47 (y := main_v21) (by decide)
  have hx1 := not_written (writesAre (F := F)) 47 (y := main_v33) (by decide)
  have hx2 := not_written (writesAre (F := F)) 47 (y := main_v29) (by decide)
  exact ternary_at 47 _ hop hy hx0 hx1 hx2

theorem st_main_c_11 (V0 : Valuation τ sig (Elt F)) :
    (after ops V0 (Proc.devRef .tc main_c_11)) = ((constantI S_ 32 32#32)) := by
  have hop : (ops (F := F))[48]'(Nat.lt_of_lt_of_eq (by decide : 48 < 177) ops_length.symm) = nullary main_c_11 ((constantI S_ 32 32#32)) ⟨by decide, rfl⟩ := rfl
  have hy := not_written (writesAre (F := F)) 49 (y := main_c_11) (by decide)
  exact nullary_at 48 _ hop hy

theorem st_main_v35 (V0 : Valuation τ sig (Elt F)) :
    (after ops V0 (Proc.devRef .tc main_v35)) = ((broadcastInDim S22 ![] bcast_S_S22 : (⟨S_, .i32⟩ : BufTy).Contents (Elt F) → (⟨S22, .i32⟩ : BufTy).Contents (Elt F))) (after ops V0 (Proc.devRef .tc main_c_11)) := by
  have hop : (ops (F := F))[49]'(Nat.lt_of_lt_of_eq (by decide : 49 < 177) ops_length.symm) = unary main_c_11 main_v35 ((broadcastInDim S22 ![] bcast_S_S22 : (⟨S_, .i32⟩ : BufTy).Contents (Elt F) → (⟨S22, .i32⟩ : BufTy).Contents (Elt F))) ⟨by decide, rfl⟩ ⟨by decide, rfl⟩ := rfl
  have hy := not_written (writesAre (F := F)) 50 (y := main_v35) (by decide)
  have hx0 := not_written (writesAre (F := F)) 49 (y := main_c_11) (by decide)
  exact unary_at 49 _ hop hy hx0

theorem st_main_v36 (V0 : Valuation τ sig (Elt F)) :
    (after ops V0 (Proc.devRef .tc main_v36)) = ((addi : (⟨S22, .i32⟩ : BufTy).Contents (Elt F) → (⟨S22, .i32⟩ : BufTy).Contents (Elt F) → (⟨S22, .i32⟩ : BufTy).Contents (Elt F))) (after ops V0 (Proc.devRef .tc main_c_2)) (after ops V0 (Proc.devRef .tc main_v35)) := by
  have hop : (ops (F := F))[50]'(Nat.lt_of_lt_of_eq (by decide : 50 < 177) ops_length.symm) = binary main_c_2 main_v35 main_v36 ((addi : (⟨S22, .i32⟩ : BufTy).Contents (Elt F) → (⟨S22, .i32⟩ : BufTy).Contents (Elt F) → (⟨S22, .i32⟩ : BufTy).Contents (Elt F))) ⟨by decide, rfl⟩ ⟨by decide, rfl⟩ ⟨by decide, rfl⟩ := rfl
  have hy := not_written (writesAre (F := F)) 51 (y := main_v36) (by decide)
  have hx0 := not_written (writesAre (F := F)) 50 (y := main_c_2) (by decide)
  have hx1 := not_written (writesAre (F := F)) 50 (y := main_v35) (by decide)
  exact binary_at 50 _ hop hy hx0 hx1

theorem st_main_v37 (V0 : Valuation τ sig (Elt F)) :
    (after ops V0 (Proc.devRef .tc main_v37)) = ((select : (⟨S22, .i1⟩ : BufTy).Contents (Elt F) → (⟨S22, .i32⟩ : BufTy).Contents (Elt F) → (⟨S22, .i32⟩ : BufTy).Contents (Elt F) → (⟨S22, .i32⟩ : BufTy).Contents (Elt F))) (after ops V0 (Proc.devRef .tc main_c_3)) (after ops V0 (Proc.devRef .tc main_v36)) (after ops V0 (Proc.devRef .tc main_c_2)) := by
  have hop : (ops (F := F))[51]'(Nat.lt_of_lt_of_eq (by decide : 51 < 177) ops_length.symm) = ternary main_c_3 main_v36 main_c_2 main_v37 ((select : (⟨S22, .i1⟩ : BufTy).Contents (Elt F) → (⟨S22, .i32⟩ : BufTy).Contents (Elt F) → (⟨S22, .i32⟩ : BufTy).Contents (Elt F) → (⟨S22, .i32⟩ : BufTy).Contents (Elt F))) ⟨by decide, rfl⟩ ⟨by decide, rfl⟩ ⟨by decide, rfl⟩ ⟨by decide, rfl⟩ := rfl
  have hy := not_written (writesAre (F := F)) 52 (y := main_v37) (by decide)
  have hx0 := not_written (writesAre (F := F)) 51 (y := main_c_3) (by decide)
  have hx1 := not_written (writesAre (F := F)) 51 (y := main_v36) (by decide)
  have hx2 := not_written (writesAre (F := F)) 51 (y := main_c_2) (by decide)
  exact ternary_at 51 _ hop hy hx0 hx1 hx2

theorem st_main_v38 (V0 : Valuation τ sig (Elt F)) :
    (after ops V0 (Proc.devRef .tc main_v38)) = ((broadcastInDim S22x1 ![0] bcast_S22_S22x1_0 : (⟨S22, .i32⟩ : BufTy).Contents (Elt F) → (⟨S22x1, .i32⟩ : BufTy).Contents (Elt F))) (after ops V0 (Proc.devRef .tc main_v37)) := by
  have hop : (ops (F := F))[52]'(Nat.lt_of_lt_of_eq (by decide : 52 < 177) ops_length.symm) = unary main_v37 main_v38 ((broadcastInDim S22x1 ![0] bcast_S22_S22x1_0 : (⟨S22, .i32⟩ : BufTy).Contents (Elt F) → (⟨S22x1, .i32⟩ : BufTy).Contents (Elt F))) ⟨by decide, rfl⟩ ⟨by decide, rfl⟩ := rfl
  have hy := not_written (writesAre (F := F)) 53 (y := main_v38) (by decide)
  have hx0 := not_written (writesAre (F := F)) 52 (y := main_v37) (by decide)
  exact unary_at 52 _ hop hy hx0

theorem st_main_v39 (V0 : Valuation τ sig (Elt F)) :
    (after ops V0 (Proc.devRef .tc main_v39)) = Host.scatter scatter_S4096x64x32x3_S22x1_S4096x64x22x3_013_2_2_1 (fun _ b => b) (after ops V0 (Proc.devRef .tc main_v34)) (after ops V0 (Proc.devRef .tc main_v38)) (after ops V0 (Proc.devRef .tc main_v20)) := by
  have hop : (ops (F := F))[53]'(Nat.lt_of_lt_of_eq (by decide : 53 < 177) ops_length.symm) = ternary main_v34 main_v38 main_v20 main_v39 (((fun x i u => Host.scatter scatter_S4096x64x32x3_S22x1_S4096x64x22x3_013_2_2_1 (fun _ b => b) x i u) : (⟨S4096x64x32x3, .f32⟩ : BufTy).Contents (Elt F) → (⟨S22x1, .i32⟩ : BufTy).Contents (Elt F) → (⟨S4096x64x22x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 54 (y := main_v39) (by decide)
  have hx0 := not_written (writesAre (F := F)) 53 (y := main_v34) (by decide)
  have hx1 := not_written (writesAre (F := F)) 53 (y := main_v38) (by decide)
  have hx2 := not_written (writesAre (F := F)) 53 (y := main_v20) (by decide)
  exact ternary_at 53 _ hop hy hx0 hx1 hx2

theorem st_main_v40 (V0 : Valuation τ sig (Elt F)) :
    (after ops V0 (Proc.devRef .tc main_v40)) = extractStridedSlice S4096x64x1x3 ![0, 0, 11, 0] (after ops V0 (Proc.devRef .tc main_v39)) slices_S4096x64x32x3_S4096x64x1x3_0_0_11_0 := by
  have hop : (ops (F := F))[54]'(Nat.lt_of_lt_of_eq (by decide : 54 < 177) ops_length.symm) = unary main_v39 main_v40 (((extractStridedSlice S4096x64x1x3 ![0, 0, 11, 0] · slices_S4096x64x32x3_S4096x64x1x3_0_0_11_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 55 (y := main_v40) (by decide)
  have hx0 := not_written (writesAre (F := F)) 54 (y := main_v39) (by decide)
  exact unary_at 54 _ hop hy hx0

theorem st_main_v41 (V0 : Valuation τ sig (Elt F)) :
    (after ops V0 (Proc.devRef .tc main_v41)) = shapeCast (main_v41 : Ref sig .tc).ty.shape (after ops V0 (Proc.devRef .tc main_v40)) shapeCasts_S4096x64x1x3_S4096x64x3 := by
  have hop : (ops (F := F))[55]'(Nat.lt_of_lt_of_eq (by decide : 55 < 177) ops_length.symm) = reshape main_v40 main_v41 rfl shapeCasts_S4096x64x1x3_S4096x64x3 ⟨by decide, rfl⟩ ⟨by decide, rfl⟩ := rfl
  have hy := not_written (writesAre (F := F)) 56 (y := main_v41) (by decide)
  have hx0 := not_written (writesAre (F := F)) 55 (y := main_v40) (by decide)
  exact (reshape_at 55 _ hop hy hx0).trans rfl

theorem st_main_c_12 (V0 : Valuation τ sig (Elt F)) :
    (after ops V0 (Proc.devRef .tc main_c_12)) = ((constantI S_ 32 12#32)) := by
  have hop : (ops (F := F))[56]'(Nat.lt_of_lt_of_eq (by decide : 56 < 177) ops_length.symm) = nullary main_c_12 ((constantI S_ 32 12#32)) ⟨by decide, rfl⟩ := rfl
  have hy := not_written (writesAre (F := F)) 57 (y := main_c_12) (by decide)
  exact nullary_at 56 _ hop hy

theorem st_main_v42 (V0 : Valuation τ sig (Elt F)) :
    (after ops V0 (Proc.devRef .tc main_v42)) = ((broadcastInDim S1 ![] bcast_S_S1 : (⟨S_, .i32⟩ : BufTy).Contents (Elt F) → (⟨S1, .i32⟩ : BufTy).Contents (Elt F))) (after ops V0 (Proc.devRef .tc main_c_12)) := by
  have hop : (ops (F := F))[57]'(Nat.lt_of_lt_of_eq (by decide : 57 < 177) ops_length.symm) = unary main_c_12 main_v42 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 58 (y := main_v42) (by decide)
  have hx0 := not_written (writesAre (F := F)) 57 (y := main_c_12) (by decide)
  exact unary_at 57 _ hop hy hx0

theorem st_main_v43 (V0 : Valuation τ sig (Elt F)) :
    (after ops V0 (Proc.devRef .tc main_v43)) = Host.scatter scatter_S4096x64x32x3_S1_S4096x64x3_012_2_2_0 FloatOps.addf (after ops V0 (Proc.devRef .tc main_v39)) (after ops V0 (Proc.devRef .tc main_v42)) (after ops V0 (Proc.devRef .tc main_v41)) := by
  have hop : (ops (F := F))[58]'(Nat.lt_of_lt_of_eq (by decide : 58 < 177) ops_length.symm) = ternary main_v39 main_v42 main_v41 main_v43 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 59 (y := main_v43) (by decide)
  have hx0 := not_written (writesAre (F := F)) 58 (y := main_v39) (by decide)
  have hx1 := not_written (writesAre (F := F)) 58 (y := main_v42) (by decide)
  have hx2 := not_written (writesAre (F := F)) 58 (y := main_v41) (by decide)
  exact ternary_at 58 _ hop hy hx0 hx1 hx2

theorem st_main_v44 (V0 : Valuation τ sig (Elt F)) :
    (after ops V0 (Proc.devRef .tc main_v44)) = extractStridedSlice S4096x64x1x3 ![0, 0, 12, 0] (after ops V0 (Proc.devRef .tc main_v43)) slices_S4096x64x32x3_S4096x64x1x3_0_0_12_0 := by
  have hop : (ops (F := F))[59]'(Nat.lt_of_lt_of_eq (by decide : 59 < 177) ops_length.symm) = unary main_v43 main_v44 (((extractStridedSlice S4096x64x1x3 ![0, 0, 12, 0] · slices_S4096x64x32x3_S4096x64x1x3_0_0_12_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 60 (y := main_v44) (by decide)
  have hx0 := not_written (writesAre (F := F)) 59 (y := main_v43) (by decide)
  exact unary_at 59 _ hop hy hx0

end Cert.ReferenceIdeal.RefValue

end
-- ==== Proof.RefStages2.lean ====
/-
  The reference program read one operation at a time.

  Every buffer is written by exactly one operation and read only by later ones, so the valuation the whole line ends
  in satisfies each operation's equation: what the operation's result buffer holds is the operation's function of what
  its operand buffers hold, all read at the end.
-/
import proofs.«155983_j18339510354491_1_alg».proof.Proof.RefStages0
import Mathlib.Tactic.FinCases

set_option Elab.async false
set_option maxRecDepth 8192

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibStraightLine

variable {F : FTy → Type} [FloatOps F]

theorem st_main_v45 (V0 : Valuation τ sig (Elt F)) :
    (after ops V0 (Proc.devRef .tc main_v45)) = shapeCast (main_v45 : Ref sig .tc).ty.shape (after ops V0 (Proc.devRef .tc main_v44)) shapeCasts_S4096x64x1x3_S4096x64x3 := by
  have hop : (ops (F := F))[60]'(Nat.lt_of_lt_of_eq (by decide : 60 < 177) ops_length.symm) = reshape main_v44 main_v45 rfl shapeCasts_S4096x64x1x3_S4096x64x3 ⟨by decide, rfl⟩ ⟨by decide, rfl⟩ := rfl
  have hy := not_written (writesAre (F := F)) 61 (y := main_v45) (by decide)
  have hx0 := not_written (writesAre (F := F)) 60 (y := main_v44) (by decide)
  exact (reshape_at 60 _ hop hy hx0).trans rfl

theorem st_main_c_13 (V0 : Valuation τ sig (Elt F)) :
    (after ops V0 (Proc.devRef .tc main_c_13)) = ((constantI S_ 32 13#32)) := by
  have hop : (ops (F := F))[61]'(Nat.lt_of_lt_of_eq (by decide : 61 < 177) ops_length.symm) = nullary main_c_13 ((constantI S_ 32 13#32)) ⟨by decide, rfl⟩ := rfl
  have hy := not_written (writesAre (F := F)) 62 (y := main_c_13) (by decide)
  exact nullary_at 61 _ hop hy

theorem st_main_v46 (V0 : Valuation τ sig (Elt F)) :
    (after ops V0 (Proc.devRef .tc main_v46)) = ((broadcastInDim S1 ![] bcast_S_S1 : (⟨S_, .i32⟩ : BufTy).Contents (Elt F) → (⟨S1, .i32⟩ : BufTy).Contents (Elt F))) (after ops V0 (Proc.devRef .tc main_c_13)) := by
  have hop : (ops (F := F))[62]'(Nat.lt_of_lt_of_eq (by decide : 62 < 177) ops_length.symm) = unary main_c_13 main_v46 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 63 (y := main_v46) (by decide)
  have hx0 := not_written (writesAre (F := F)) 62 (y := main_c_13) (by decide)
  exact unary_at 62 _ hop hy hx0

theorem st_main_v47 (V0 : Valuation τ sig (Elt F)) :
    (after ops V0 (Proc.devRef .tc main_v47)) = Host.scatter scatter_S4096x64x32x3_S1_S4096x64x3_012_2_2_0 FloatOps.addf (after ops V0 (Proc.devRef .tc main_v43)) (after ops V0 (Proc.devRef .tc main_v46)) (after ops V0 (Proc.devRef .tc main_v45)) := by
  have hop : (ops (F := F))[63]'(Nat.lt_of_lt_of_eq (by decide : 63 < 177) ops_length.symm) = ternary main_v43 main_v46 main_v45 main_v47 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 64 (y := main_v47) (by decide)
  have hx0 := not_written (writesAre (F := F)) 63 (y := main_v43) (by decide)
  have hx1 := not_written (writesAre (F := F)) 63 (y := main_v46) (by decide)
  have hx2 := not_written (writesAre (F := F)) 63 (y := main_v45) (by decide)
  exact ternary_at 63 _ hop hy hx0 hx1 hx2

theorem st_main_v48 (V0 : Valuation τ sig (Elt F)) :
    (after ops V0 (Proc.devRef .tc main_v48)) = extractStridedSlice S4096x64x1x3 ![0, 0, 13, 0] (after ops V0 (Proc.devRef .tc main_v47)) slices_S4096x64x32x3_S4096x64x1x3_0_0_13_0 := by
  have hop : (ops (F := F))[64]'(Nat.lt_of_lt_of_eq (by decide : 64 < 177) ops_length.symm) = unary main_v47 main_v48 (((extractStridedSlice S4096x64x1x3 ![0, 0, 13, 0] · slices_S4096x64x32x3_S4096x64x1x3_0_0_13_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 65 (y := main_v48) (by decide)
  have hx0 := not_written (writesAre (F := F)) 64 (y := main_v47) (by decide)
  exact unary_at 64 _ hop hy hx0

theorem st_main_v49 (V0 : Valuation τ sig (Elt F)) :
    (after ops V0 (Proc.devRef .tc main_v49)) = shapeCast (main_v49 : Ref sig .tc).ty.shape (after ops V0 (Proc.devRef .tc main_v48)) shapeCasts_S4096x64x1x3_S4096x64x3 := by
  have hop : (ops (F := F))[65]'(Nat.lt_of_lt_of_eq (by decide : 65 < 177) ops_length.symm) = reshape main_v48 main_v49 rfl shapeCasts_S4096x64x1x3_S4096x64x3 ⟨by decide, rfl⟩ ⟨by decide, rfl⟩ := rfl
  have hy := not_written (writesAre (F := F)) 66 (y := main_v49) (by decide)
  have hx0 := not_written (writesAre (F := F)) 65 (y := main_v48) (by decide)
  exact (reshape_at 65 _ hop hy hx0).trans rfl

theorem st_main_c_14 (V0 : Valuation τ sig (Elt F)) :
    (after ops V0 (Proc.devRef .tc main_c_14)) = ((constantI S_ 32 14#32)) := by
  have hop : (ops (F := F))[66]'(Nat.lt_of_lt_of_eq (by decide : 66 < 177) ops_length.symm) = nullary main_c_14 ((constantI S_ 32 14#32)) ⟨by decide, rfl⟩ := rfl
  have hy := not_written (writesAre (F := F)) 67 (y := main_c_14) (by decide)
  exact nullary_at 66 _ hop hy

theorem st_main_v50 (V0 : Valuation τ sig (Elt F)) :
    (after ops V0 (Proc.devRef .tc main_v50)) = ((broadcastInDim S1 ![] bcast_S_S1 : (⟨S_, .i32⟩ : BufTy).Contents (Elt F) → (⟨S1, .i32⟩ : BufTy).Contents (Elt F))) (after ops V0 (Proc.devRef .tc main_c_14)) := by
  have hop : (ops (F := F))[67]'(Nat.lt_of_lt_of_eq (by decide : 67 < 177) ops_length.symm) = unary main_c_14 main_v50 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 68 (y := main_v50) (by decide)
  have hx0 := not_written (writesAre (F := F)) 67 (y := main_c_14) (by decide)
  exact unary_at 67 _ hop hy hx0

theorem st_main_v51 (V0 : Valuation τ sig (Elt F)) :
    (after ops V0 (Proc.devRef .tc main_v51)) = Host.scatter scatter_S4096x64x32x3_S1_S4096x64x3_012_2_2_0 FloatOps.addf (after ops V0 (Proc.devRef .tc main_v47)) (after ops V0 (Proc.devRef .tc main_v50)) (after ops V0 (Proc.devRef .tc main_v49)) := by
  have hop : (ops (F := F))[68]'(Nat.lt_of_lt_of_eq (by decide : 68 < 177) ops_length.symm) = ternary main_v47 main_v50 main_v49 main_v51 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 69 (y := main_v51) (by decide)
  have hx0 := not_written (writesAre (F := F)) 68 (y := main_v47) (by decide)
  have hx1 := not_written (writesAre (F := F)) 68 (y := main_v50) (by decide)
  have hx2 := not_written (writesAre (F := F)) 68 (y := main_v49) (by decide)
  exact ternary_at 68 _ hop hy hx0 hx1 hx2

theorem st_main_v52 (V0 : Valuation τ sig (Elt F)) :
    (after ops V0 (Proc.devRef .tc main_v52)) = extractStridedSlice S4096x64x1x3 ![0, 0, 14, 0] (after ops V0 (Proc.devRef .tc main_v51)) slices_S4096x64x32x3_S4096x64x1x3_0_0_14_0 := by
  have hop : (ops (F := F))[69]'(Nat.lt_of_lt_of_eq (by decide : 69 < 177) ops_length.symm) = unary main_v51 main_v52 (((extractStridedSlice S4096x64x1x3 ![0, 0, 14, 0] · slices_S4096x64x32x3_S4096x64x1x3_0_0_14_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 70 (y := main_v52) (by decide)
  have hx0 := not_written (writesAre (F := F)) 69 (y := main_v51) (by decide)
  exact unary_at 69 _ hop hy hx0

theorem st_main_v53 (V0 : Valuation τ sig (Elt F)) :
    (after ops V0 (Proc.devRef .tc main_v53)) = shapeCast (main_v53 : Ref sig .tc).ty.shape (after ops V0 (Proc.devRef .tc main_v52)) shapeCasts_S4096x64x1x3_S4096x64x3 := by
  have hop : (ops (F := F))[70]'(Nat.lt_of_lt_of_eq (by decide : 70 < 177) ops_length.symm) = reshape main_v52 main_v53 rfl shapeCasts_S4096x64x1x3_S4096x64x3 ⟨by decide, rfl⟩ ⟨by decide, rfl⟩ := rfl
  have hy := not_written (writesAre (F := F)) 71 (y := main_v53) (by decide)
  have hx0 := not_written (writesAre (F := F)) 70 (y := main_v52) (by decide)
  exact (reshape_at 70 _ hop hy hx0).trans rfl

theorem st_main_c_15 (V0 : Valuation τ sig (Elt F)) :
    (after ops V0 (Proc.devRef .tc main_c_15)) = ((constantI S_ 32 15#32)) := by
  have hop : (ops (F := F))[71]'(Nat.lt_of_lt_of_eq (by decide : 71 < 177) ops_length.symm) = nullary main_c_15 ((constantI S_ 32 15#32)) ⟨by decide, rfl⟩ := rfl
  have hy := not_written (writesAre (F := F)) 72 (y := main_c_15) (by decide)
  exact nullary_at 71 _ hop hy

theorem st_main_v54 (V0 : Valuation τ sig (Elt F)) :
    (after ops V0 (Proc.devRef .tc main_v54)) = ((broadcastInDim S1 ![] bcast_S_S1 : (⟨S_, .i32⟩ : BufTy).Contents (Elt F) → (⟨S1, .i32⟩ : BufTy).Contents (Elt F))) (after ops V0 (Proc.devRef .tc main_c_15)) := by
  have hop : (ops (F := F))[72]'(Nat.lt_of_lt_of_eq (by decide : 72 < 177) ops_length.symm) = unary main_c_15 main_v54 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 73 (y := main_v54) (by decide)
  have hx0 := not_written (writesAre (F := F)) 72 (y := main_c_15) (by decide)
  exact unary_at 72 _ hop hy hx0

theorem st_main_v55 (V0 : Valuation τ sig (Elt F)) :
    (after ops V0 (Proc.devRef .tc main_v55)) = Host.scatter scatter_S4096x64x32x3_S1_S4096x64x3_012_2_2_0 FloatOps.addf (after ops V0 (Proc.devRef .tc main_v51)) (after ops V0 (Proc.devRef .tc main_v54)) (after ops V0 (Proc.devRef .tc main_v53)) := by
  have hop : (ops (F := F))[73]'(Nat.lt_of_lt_of_eq (by decide : 73 < 177) ops_length.symm) = ternary main_v51 main_v54 main_v53 main_v55 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 74 (y := main_v55) (by decide)
  have hx0 := not_written (writesAre (F := F)) 73 (y := main_v51) (by decide)
  have hx1 := not_written (writesAre (F := F)) 73 (y := main_v54) (by decide)
  have hx2 := not_written (writesAre (F := F)) 73 (y := main_v53) (by decide)
  exact ternary_at 73 _ hop hy hx0 hx1 hx2

theorem st_main_v56 (V0 : Valuation τ sig (Elt F)) :
    (after ops V0 (Proc.devRef .tc main_v56)) = extractStridedSlice S4096x64x1x3 ![0, 0, 13, 0] (after ops V0 (Proc.devRef .tc main_v55)) slices_S4096x64x32x3_S4096x64x1x3_0_0_13_0 := by
  have hop : (ops (F := F))[74]'(Nat.lt_of_lt_of_eq (by decide : 74 < 177) ops_length.symm) = unary main_v55 main_v56 (((extractStridedSlice S4096x64x1x3 ![0, 0, 13, 0] · slices_S4096x64x32x3_S4096x64x1x3_0_0_13_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 75 (y := main_v56) (by decide)
  have hx0 := not_written (writesAre (F := F)) 74 (y := main_v55) (by decide)
  exact unary_at 74 _ hop hy hx0

theorem st_main_v57 (V0 : Valuation τ sig (Elt F)) :
    (after ops V0 (Proc.devRef .tc main_v57)) = shapeCast (main_v57 : Ref sig .tc).ty.shape (after ops V0 (Proc.devRef .tc main_v56)) shapeCasts_S4096x64x1x3_S4096x64x3 := by
  have hop : (ops (F := F))[75]'(Nat.lt_of_lt_of_eq (by decide : 75 < 177) ops_length.symm) = reshape main_v56 main_v57 rfl shapeCasts_S4096x64x1x3_S4096x64x3 ⟨by decide, rfl⟩ ⟨by decide, rfl⟩ := rfl
  have hy := not_written (writesAre (F := F)) 76 (y := main_v57) (by decide)
  have hx0 := not_written (writesAre (F := F)) 75 (y := main_v56) (by decide)
  exact (reshape_at 75 _ hop hy hx0).trans rfl

theorem st_main_c_16 (V0 : Valuation τ sig (Elt F)) :
    (after ops V0 (Proc.devRef .tc main_c_16)) = ((constantI S_ 32 25#32)) := by
  have hop : (ops (F := F))[76]'(Nat.lt_of_lt_of_eq (by decide : 76 < 177) ops_length.symm) = nullary main_c_16 ((constantI S_ 32 25#32)) ⟨by decide, rfl⟩ := rfl
  have hy := not_written (writesAre (F := F)) 77 (y := main_c_16) (by decide)
  exact nullary_at 76 _ hop hy

theorem st_main_v58 (V0 : Valuation τ sig (Elt F)) :
    (after ops V0 (Proc.devRef .tc main_v58)) = ((broadcastInDim S1 ![] bcast_S_S1 : (⟨S_, .i32⟩ : BufTy).Contents (Elt F) → (⟨S1, .i32⟩ : BufTy).Contents (Elt F))) (after ops V0 (Proc.devRef .tc main_c_16)) := by
  have hop : (ops (F := F))[77]'(Nat.lt_of_lt_of_eq (by decide : 77 < 177) ops_length.symm) = unary main_c_16 main_v58 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 78 (y := main_v58) (by decide)
  have hx0 := not_written (writesAre (F := F)) 77 (y := main_c_16) (by decide)
  exact unary_at 77 _ hop hy hx0

theorem st_main_v59 (V0 : Valuation τ sig (Elt F)) :
    (after ops V0 (Proc.devRef .tc main_v59)) = Host.scatter scatter_S4096x64x32x3_S1_S4096x64x3_012_2_2_0 FloatOps.addf (after ops V0 (Proc.devRef .tc main_v55)) (after ops V0 (Proc.devRef .tc main_v58)) (after ops V0 (Proc.devRef .tc main_v57)) := by
  have hop : (ops (F := F))[78]'(Nat.lt_of_lt_of_eq (by decide : 78 < 177) ops_length.symm) = ternary main_v55 main_v58 main_v57 main_v59 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 79 (y := main_v59) (by decide)
  have hx0 := not_written (writesAre (F := F)) 78 (y := main_v55) (by decide)
  have hx1 := not_written (writesAre (F := F)) 78 (y := main_v58) (by decide)
  have hx2 := not_written (writesAre (F := F)) 78 (y := main_v57) (by decide)
  exact ternary_at 78 _ hop hy hx0 hx1 hx2

theorem st_main_v60 (V0 : Valuation τ sig (Elt F)) :
    (after ops V0 (Proc.devRef .tc main_v60)) = extractStridedSlice S4096x64x1x3 ![0, 0, 25, 0] (after ops V0 (Proc.devRef .tc main_v59)) slices_S4096x64x32x3_S4096x64x1x3_0_0_25_0 := by
  have hop : (ops (F := F))[79]'(Nat.lt_of_lt_of_eq (by decide : 79 < 177) ops_length.symm) = unary main_v59 main_v60 (((extractStridedSlice S4096x64x1x3 ![0, 0, 25, 0] · slices_S4096x64x32x3_S4096x64x1x3_0_0_25_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 80 (y := main_v60) (by decide)
  have hx0 := not_written (writesAre (F := F)) 79 (y := main_v59) (by decide)
  exact unary_at 79 _ hop hy hx0

theorem st_main_v61 (V0 : Valuation τ sig (Elt F)) :
    (after ops V0 (Proc.devRef .tc main_v61)) = shapeCast (main_v61 : Ref sig .tc).ty.shape (after ops V0 (Proc.devRef .tc main_v60)) shapeCasts_S4096x64x1x3_S4096x64x3 := by
  have hop : (ops (F := F))[80]'(Nat.lt_of_lt_of_eq (by decide : 80 < 177) ops_length.symm) = reshape main_v60 main_v61 rfl shapeCasts_S4096x64x1x3_S4096x64x3 ⟨by decide, rfl⟩ ⟨by decide, rfl⟩ := rfl
  have hy := not_written (writesAre (F := F)) 81 (y := main_v61) (by decide)
  have hx0 := not_written (writesAre (F := F)) 80 (y := main_v60) (by decide)
  exact (reshape_at 80 _ hop hy hx0).trans rfl

theorem st_main_c_17 (V0 : Valuation τ sig (Elt F)) :
    (after ops V0 (Proc.devRef .tc main_c_17)) = ((constantI S_ 32 26#32)) := by
  have hop : (ops (F := F))[81]'(Nat.lt_of_lt_of_eq (by decide : 81 < 177) ops_length.symm) = nullary main_c_17 ((constantI S_ 32 26#32)) ⟨by decide, rfl⟩ := rfl
  have hy := not_written (writesAre (F := F)) 82 (y := main_c_17) (by decide)
  exact nullary_at 81 _ hop hy

theorem st_main_v62 (V0 : Valuation τ sig (Elt F)) :
    (after ops V0 (Proc.devRef .tc main_v62)) = ((broadcastInDim S1 ![] bcast_S_S1 : (⟨S_, .i32⟩ : BufTy).Contents (Elt F) → (⟨S1, .i32⟩ : BufTy).Contents (Elt F))) (after ops V0 (Proc.devRef .tc main_c_17)) := by
  have hop : (ops (F := F))[82]'(Nat.lt_of_lt_of_eq (by decide : 82 < 177) ops_length.symm) = unary main_c_17 main_v62 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 83 (y := main_v62) (by decide)
  have hx0 := not_written (writesAre (F := F)) 82 (y := main_c_17) (by decide)
  exact unary_at 82 _ hop hy hx0

theorem st_main_v63 (V0 : Valuation τ sig (Elt F)) :
    (after ops V0 (Proc.devRef .tc main_v63)) = Host.scatter scatter_S4096x64x32x3_S1_S4096x64x3_012_2_2_0 FloatOps.addf (after ops V0 (Proc.devRef .tc main_v59)) (after ops V0 (Proc.devRef .tc main_v62)) (after ops V0 (Proc.devRef .tc main_v61)) := by
  have hop : (ops (F := F))[83]'(Nat.lt_of_lt_of_eq (by decide : 83 < 177) ops_length.symm) = ternary main_v59 main_v62 main_v61 main_v63 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 84 (y := main_v63) (by decide)
  have hx0 := not_written (writesAre (F := F)) 83 (y := main_v59) (by decide)
  have hx1 := not_written (writesAre (F := F)) 83 (y := main_v62) (by decide)
  have hx2 := not_written (writesAre (F := F)) 83 (y := main_v61) (by decide)
  exact ternary_at 83 _ hop hy hx0 hx1 hx2

theorem st_main_v64 (V0 : Valuation τ sig (Elt F)) :
    (after ops V0 (Proc.devRef .tc main_v64)) = extractStridedSlice S4096x64x1x3 ![0, 0, 26, 0] (after ops V0 (Proc.devRef .tc main_v63)) slices_S4096x64x32x3_S4096x64x1x3_0_0_26_0 := by
  have hop : (ops (F := F))[84]'(Nat.lt_of_lt_of_eq (by decide : 84 < 177) ops_length.symm) = unary main_v63 main_v64 (((extractStridedSlice S4096x64x1x3 ![0, 0, 26, 0] · slices_S4096x64x32x3_S4096x64x1x3_0_0_26_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 85 (y := main_v64) (by decide)
  have hx0 := not_written (writesAre (F := F)) 84 (y := main_v63) (by decide)
  exact unary_at 84 _ hop hy hx0

theorem st_main_v65 (V0 : Valuation τ sig (Elt F)) :
    (after ops V0 (Proc.devRef .tc main_v65)) = shapeCast (main_v65 : Ref sig .tc).ty.shape (after ops V0 (Proc.devRef .tc main_v64)) shapeCasts_S4096x64x1x3_S4096x64x3 := by
  have hop : (ops (F := F))[85]'(Nat.lt_of_lt_of_eq (by decide : 85 < 177) ops_length.symm) = reshape main_v64 main_v65 rfl shapeCasts_S4096x64x1x3_S4096x64x3 ⟨by decide, rfl⟩ ⟨by decide, rfl⟩ := rfl
  have hy := not_written (writesAre (F := F)) 86 (y := main_v65) (by decide)
  have hx0 := not_written (writesAre (F := F)) 85 (y := main_v64) (by decide)
  exact (reshape_at 85 _ hop hy hx0).trans rfl

theorem st_main_c_18 (V0 : Valuation τ sig (Elt F)) :
    (after ops V0 (Proc.devRef .tc main_c_18)) = ((constantI S_ 32 27#32)) := by
  have hop : (ops (F := F))[86]'(Nat.lt_of_lt_of_eq (by decide : 86 < 177) ops_length.symm) = nullary main_c_18 ((constantI S_ 32 27#32)) ⟨by decide, rfl⟩ := rfl
  have hy := not_written (writesAre (F := F)) 87 (y := main_c_18) (by decide)
  exact nullary_at 86 _ hop hy

theorem st_main_v66 (V0 : Valuation τ sig (Elt F)) :
    (after ops V0 (Proc.devRef .tc main_v66)) = ((broadcastInDim S1 ![] bcast_S_S1 : (⟨S_, .i32⟩ : BufTy).Contents (Elt F) → (⟨S1, .i32⟩ : BufTy).Contents (Elt F))) (after ops V0 (Proc.devRef .tc main_c_18)) := by
  have hop : (ops (F := F))[87]'(Nat.lt_of_lt_of_eq (by decide : 87 < 177) ops_length.symm) = unary main_c_18 main_v66 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 88 (y := main_v66) (by decide)
  have hx0 := not_written (writesAre (F := F)) 87 (y := main_c_18) (by decide)
  exact unary_at 87 _ hop hy hx0

theorem st_main_v67 (V0 : Valuation τ sig (Elt F)) :
    (after ops V0 (Proc.devRef .tc main_v67)) = Host.scatter scatter_S4096x64x32x3_S1_S4096x64x3_012_2_2_0 FloatOps.addf (after ops V0 (Proc.devRef .tc main_v63)) (after ops V0 (Proc.devRef .tc main_v66)) (after ops V0 (Proc.devRef .tc main_v65)) := by
  have hop : (ops (F := F))[88]'(Nat.lt_of_lt_of_eq (by decide : 88 < 177) ops_length.symm) = ternary main_v63 main_v66 main_v65 main_v67 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 89 (y := main_v67) (by decide)
  have hx0 := not_written (writesAre (F := F)) 88 (y := main_v63) (by decide)
  have hx1 := not_written (writesAre (F := F)) 88 (y := main_v66) (by decide)
  have hx2 := not_written (writesAre (F := F)) 88 (y := main_v65) (by decide)
  exact ternary_at 88 _ hop hy hx0 hx1 hx2

theorem st_main_v68 (V0 : Valuation τ sig (Elt F)) :
    (after ops V0 (Proc.devRef .tc main_v68)) = extractStridedSlice S4096x64x1x3 ![0, 0, 27, 0] (after ops V0 (Proc.devRef .tc main_v67)) slices_S4096x64x32x3_S4096x64x1x3_0_0_27_0 := by
  have hop : (ops (F := F))[89]'(Nat.lt_of_lt_of_eq (by decide : 89 < 177) ops_length.symm) = unary main_v67 main_v68 (((extractStridedSlice S4096x64x1x3 ![0, 0, 27, 0] · slices_S4096x64x32x3_S4096x64x1x3_0_0_27_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 90 (y := main_v68) (by decide)
  have hx0 := not_written (writesAre (F := F)) 89 (y := main_v67) (by decide)
  exact unary_at 89 _ hop hy hx0

theorem st_main_v69 (V0 : Valuation τ sig (Elt F)) :
    (after ops V0 (Proc.devRef .tc main_v69)) = shapeCast (main_v69 : Ref sig .tc).ty.shape (after ops V0 (Proc.devRef .tc main_v68)) shapeCasts_S4096x64x1x3_S4096x64x3 := by
  have hop : (ops (F := F))[90]'(Nat.lt_of_lt_of_eq (by decide : 90 < 177) ops_length.symm) = reshape main_v68 main_v69 rfl shapeCasts_S4096x64x1x3_S4096x64x3 ⟨by decide, rfl⟩ ⟨by decide, rfl⟩ := rfl
  have hy := not_written (writesAre (F := F)) 91 (y := main_v69) (by decide)
  have hx0 := not_written (writesAre (F := F)) 90 (y := main_v68) (by decide)
  exact (reshape_at 90 _ hop hy hx0).trans rfl

theorem st_main_c_19 (V0 : Valuation τ sig (Elt F)) :
    (after ops V0 (Proc.devRef .tc main_c_19)) = ((constantI S_ 32 29#32)) := by
  have hop : (ops (F := F))[91]'(Nat.lt_of_lt_of_eq (by decide : 91 < 177) ops_length.symm) = nullary main_c_19 ((constantI S_ 32 29#32)) ⟨by decide, rfl⟩ := rfl
  have hy := not_written (writesAre (F := F)) 92 (y := main_c_19) (by decide)
  exact nullary_at 91 _ hop hy

theorem st_main_v70 (V0 : Valuation τ sig (Elt F)) :
    (after ops V0 (Proc.devRef .tc main_v70)) = ((broadcastInDim S1 ![] bcast_S_S1 : (⟨S_, .i32⟩ : BufTy).Contents (Elt F) → (⟨S1, .i32⟩ : BufTy).Contents (Elt F))) (after ops V0 (Proc.devRef .tc main_c_19)) := by
  have hop : (ops (F := F))[92]'(Nat.lt_of_lt_of_eq (by decide : 92 < 177) ops_length.symm) = unary main_c_19 main_v70 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 93 (y := main_v70) (by decide)
  have hx0 := not_written (writesAre (F := F)) 92 (y := main_c_19) (by decide)
  exact unary_at 92 _ hop hy hx0

theorem st_main_v71 (V0 : Valuation τ sig (Elt F)) :
    (after ops V0 (Proc.devRef .tc main_v71)) = Host.scatter scatter_S4096x64x32x3_S1_S4096x64x3_012_2_2_0 FloatOps.addf (after ops V0 (Proc.devRef .tc main_v67)) (after ops V0 (Proc.devRef .tc main_v70)) (after ops V0 (Proc.devRef .tc main_v69)) := by
  have hop : (ops (F := F))[93]'(Nat.lt_of_lt_of_eq (by decide : 93 < 177) ops_length.symm) = ternary main_v67 main_v70 main_v69 main_v71 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 94 (y := main_v71) (by decide)
  have hx0 := not_written (writesAre (F := F)) 93 (y := main_v67) (by decide)
  have hx1 := not_written (writesAre (F := F)) 93 (y := main_v70) (by decide)
  have hx2 := not_written (writesAre (F := F)) 93 (y := main_v69) (by decide)
  exact ternary_at 93 _ hop hy hx0 hx1 hx2

theorem st_main_v72 (V0 : Valuation τ sig (Elt F)) :
    (after ops V0 (Proc.devRef .tc main_v72)) = extractStridedSlice S4096x64x1x3 ![0, 0, 29, 0] (after ops V0 (Proc.devRef .tc main_v71)) slices_S4096x64x32x3_S4096x64x1x3_0_0_29_0 := by
  have hop : (ops (F := F))[94]'(Nat.lt_of_lt_of_eq (by decide : 94 < 177) ops_length.symm) = unary main_v71 main_v72 (((extractStridedSlice S4096x64x1x3 ![0, 0, 29, 0] · slices_S4096x64x32x3_S4096x64x1x3_0_0_29_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 95 (y := main_v72) (by decide)
  have hx0 := not_written (writesAre (F := F)) 94 (y := main_v71) (by decide)
  exact unary_at 94 _ hop hy hx0

theorem st_main_v73 (V0 : Valuation τ sig (Elt F)) :
    (after ops V0 (Proc.devRef .tc main_v73)) = shapeCast (main_v73 : Ref sig .tc).ty.shape (after ops V0 (Proc.devRef .tc main_v72)) shapeCasts_S4096x64x1x3_S4096x64x3 := by
  have hop : (ops (F := F))[95]'(Nat.lt_of_lt_of_eq (by decide : 95 < 177) ops_length.symm) = reshape main_v72 main_v73 rfl shapeCasts_S4096x64x1x3_S4096x64x3 ⟨by decide, rfl⟩ ⟨by decide, rfl⟩ := rfl
  have hy := not_written (writesAre (F := F)) 96 (y := main_v73) (by decide)
  have hx0 := not_written (writesAre (F := F)) 95 (y := main_v72) (by decide)
  exact (reshape_at 95 _ hop hy hx0).trans rfl

theorem st_main_c_20 (V0 : Valuation τ sig (Elt F)) :
    (after ops V0 (Proc.devRef .tc main_c_20)) = ((constantI S_ 32 30#32)) := by
  have hop : (ops (F := F))[96]'(Nat.lt_of_lt_of_eq (by decide : 96 < 177) ops_length.symm) = nullary main_c_20 ((constantI S_ 32 30#32)) ⟨by decide, rfl⟩ := rfl
  have hy := not_written (writesAre (F := F)) 97 (y := main_c_20) (by decide)
  exact nullary_at 96 _ hop hy

theorem st_main_v74 (V0 : Valuation τ sig (Elt F)) :
    (after ops V0 (Proc.devRef .tc main_v74)) = ((broadcastInDim S1 ![] bcast_S_S1 : (⟨S_, .i32⟩ : BufTy).Contents (Elt F) → (⟨S1, .i32⟩ : BufTy).Contents (Elt F))) (after ops V0 (Proc.devRef .tc main_c_20)) := by
  have hop : (ops (F := F))[97]'(Nat.lt_of_lt_of_eq (by decide : 97 < 177) ops_length.symm) = unary main_c_20 main_v74 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 98 (y := main_v74) (by decide)
  have hx0 := not_written (writesAre (F := F)) 97 (y := main_c_20) (by decide)
  exact unary_at 97 _ hop hy hx0

theorem st_main_v75 (V0 : Valuation τ sig (Elt F)) :
    (after ops V0 (Proc.devRef .tc main_v75)) = Host.scatter scatter_S4096x64x32x3_S1_S4096x64x3_012_2_2_0 FloatOps.addf (after ops V0 (Proc.devRef .tc main_v71)) (after ops V0 (Proc.devRef .tc main_v74)) (after ops V0 (Proc.devRef .tc main_v73)) := by
  have hop : (ops (F := F))[98]'(Nat.lt_of_lt_of_eq (by decide : 98 < 177) ops_length.symm) = ternary main_v71 main_v74 main_v73 main_v75 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 99 (y := main_v75) (by decide)
  have hx0 := not_written (writesAre (F := F)) 98 (y := main_v71) (by decide)
  have hx1 := not_written (writesAre (F := F)) 98 (y := main_v74) (by decide)
  have hx2 := not_written (writesAre (F := F)) 98 (y := main_v73) (by decide)
  exact ternary_at 98 _ hop hy hx0 hx1 hx2

theorem st_main_v76 (V0 : Valuation τ sig (Elt F)) :
    (after ops V0 (Proc.devRef .tc main_v76)) = extractStridedSlice S4096x64x1x3 ![0, 0, 13, 0] (after ops V0 (Proc.devRef .tc main_v75)) slices_S4096x64x32x3_S4096x64x1x3_0_0_13_0 := by
  have hop : (ops (F := F))[99]'(Nat.lt_of_lt_of_eq (by decide : 99 < 177) ops_length.symm) = unary main_v75 main_v76 (((extractStridedSlice S4096x64x1x3 ![0, 0, 13, 0] · slices_S4096x64x32x3_S4096x64x1x3_0_0_13_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 100 (y := main_v76) (by decide)
  have hx0 := not_written (writesAre (F := F)) 99 (y := main_v75) (by decide)
  exact unary_at 99 _ hop hy hx0

theorem st_main_v77 (V0 : Valuation τ sig (Elt F)) :
    (after ops V0 (Proc.devRef .tc main_v77)) = shapeCast (main_v77 : Ref sig .tc).ty.shape (after ops V0 (Proc.devRef .tc main_v76)) shapeCasts_S4096x64x1x3_S4096x64x3 := by
  have hop : (ops (F := F))[100]'(Nat.lt_of_lt_of_eq (by decide : 100 < 177) ops_length.symm) = reshape main_v76 main_v77 rfl shapeCasts_S4096x64x1x3_S4096x64x3 ⟨by decide, rfl⟩ ⟨by decide, rfl⟩ := rfl
  have hy := not_written (writesAre (F := F)) 101 (y := main_v77) (by decide)
  have hx0 := not_written (writesAre (F := F)) 100 (y := main_v76) (by decide)
  exact (reshape_at 100 _ hop hy hx0).trans rfl

theorem st_main_c_21 (V0 : Valuation τ sig (Elt F)) :
    (after ops V0 (Proc.devRef .tc main_c_21)) = ((constantI S_ 32 17#32)) := by
  have hop : (ops (F := F))[101]'(Nat.lt_of_lt_of_eq (by decide : 101 < 177) ops_length.symm) = nullary main_c_21 ((constantI S_ 32 17#32)) ⟨by decide, rfl⟩ := rfl
  have hy := not_written (writesAre (F := F)) 102 (y := main_c_21) (by decide)
  exact nullary_at 101 _ hop hy

theorem st_main_v78 (V0 : Valuation τ sig (Elt F)) :
    (after ops V0 (Proc.devRef .tc main_v78)) = ((broadcastInDim S1 ![] bcast_S_S1 : (⟨S_, .i32⟩ : BufTy).Contents (Elt F) → (⟨S1, .i32⟩ : BufTy).Contents (Elt F))) (after ops V0 (Proc.devRef .tc main_c_21)) := by
  have hop : (ops (F := F))[102]'(Nat.lt_of_lt_of_eq (by decide : 102 < 177) ops_length.symm) = unary main_c_21 main_v78 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 103 (y := main_v78) (by decide)
  have hx0 := not_written (writesAre (F := F)) 102 (y := main_c_21) (by decide)
  exact unary_at 102 _ hop hy hx0

theorem st_main_v79 (V0 : Valuation τ sig (Elt F)) :
    (after ops V0 (Proc.devRef .tc main_v79)) = Host.scatter scatter_S4096x64x32x3_S1_S4096x64x3_012_2_2_0 FloatOps.addf (after ops V0 (Proc.devRef .tc main_v75)) (after ops V0 (Proc.devRef .tc main_v78)) (after ops V0 (Proc.devRef .tc main_v77)) := by
  have hop : (ops (F := F))[103]'(Nat.lt_of_lt_of_eq (by decide : 103 < 177) ops_length.symm) = ternary main_v75 main_v78 main_v77 main_v79 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 104 (y := main_v79) (by decide)
  have hx0 := not_written (writesAre (F := F)) 103 (y := main_v75) (by decide)
  have hx1 := not_written (writesAre (F := F)) 103 (y := main_v78) (by decide)
  have hx2 := not_written (writesAre (F := F)) 103 (y := main_v77) (by decide)
  exact ternary_at 103 _ hop hy hx0 hx1 hx2

theorem st_main_v80 (V0 : Valuation τ sig (Elt F)) :
    (after ops V0 (Proc.devRef .tc main_v80)) = extractStridedSlice S4096x64x1x3 ![0, 0, 17, 0] (after ops V0 (Proc.devRef .tc main_v79)) slices_S4096x64x32x3_S4096x64x1x3_0_0_17_0 := by
  have hop : (ops (F := F))[104]'(Nat.lt_of_lt_of_eq (by decide : 104 < 177) ops_length.symm) = unary main_v79 main_v80 (((extractStridedSlice S4096x64x1x3 ![0, 0, 17, 0] · slices_S4096x64x32x3_S4096x64x1x3_0_0_17_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 105 (y := main_v80) (by decide)
  have hx0 := not_written (writesAre (F := F)) 104 (y := main_v79) (by decide)
  exact unary_at 104 _ hop hy hx0

theorem st_main_v81 (V0 : Valuation τ sig (Elt F)) :
    (after ops V0 (Proc.devRef .tc main_v81)) = shapeCast (main_v81 : Ref sig .tc).ty.shape (after ops V0 (Proc.devRef .tc main_v80)) shapeCasts_S4096x64x1x3_S4096x64x3 := by
  have hop : (ops (F := F))[105]'(Nat.lt_of_lt_of_eq (by decide : 105 < 177) ops_length.symm) = reshape main_v80 main_v81 rfl shapeCasts_S4096x64x1x3_S4096x64x3 ⟨by decide, rfl⟩ ⟨by decide, rfl⟩ := rfl
  have hy := not_written (writesAre (F := F)) 106 (y := main_v81) (by decide)
  have hx0 := not_written (writesAre (F := F)) 105 (y := main_v80) (by decide)
  exact (reshape_at 105 _ hop hy hx0).trans rfl

theorem st_main_c_22 (V0 : Valuation τ sig (Elt F)) :
    (after ops V0 (Proc.devRef .tc main_c_22)) = ((constantI S_ 32 18#32)) := by
  have hop : (ops (F := F))[106]'(Nat.lt_of_lt_of_eq (by decide : 106 < 177) ops_length.symm) = nullary main_c_22 ((constantI S_ 32 18#32)) ⟨by decide, rfl⟩ := rfl
  have hy := not_written (writesAre (F := F)) 107 (y := main_c_22) (by decide)
  exact nullary_at 106 _ hop hy

theorem st_main_v82 (V0 : Valuation τ sig (Elt F)) :
    (after ops V0 (Proc.devRef .tc main_v82)) = ((broadcastInDim S1 ![] bcast_S_S1 : (⟨S_, .i32⟩ : BufTy).Contents (Elt F) → (⟨S1, .i32⟩ : BufTy).Contents (Elt F))) (after ops V0 (Proc.devRef .tc main_c_22)) := by
  have hop : (ops (F := F))[107]'(Nat.lt_of_lt_of_eq (by decide : 107 < 177) ops_length.symm) = unary main_c_22 main_v82 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 108 (y := main_v82) (by decide)
  have hx0 := not_written (writesAre (F := F)) 107 (y := main_c_22) (by decide)
  exact unary_at 107 _ hop hy hx0

theorem st_main_v83 (V0 : Valuation τ sig (Elt F)) :
    (after ops V0 (Proc.devRef .tc main_v83)) = Host.scatter scatter_S4096x64x32x3_S1_S4096x64x3_012_2_2_0 FloatOps.addf (after ops V0 (Proc.devRef .tc main_v79)) (after ops V0 (Proc.devRef .tc main_v82)) (after ops V0 (Proc.devRef .tc main_v81)) := by
  have hop : (ops (F := F))[108]'(Nat.lt_of_lt_of_eq (by decide : 108 < 177) ops_length.symm) = ternary main_v79 main_v82 main_v81 main_v83 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 109 (y := main_v83) (by decide)
  have hx0 := not_written (writesAre (F := F)) 108 (y := main_v79) (by decide)
  have hx1 := not_written (writesAre (F := F)) 108 (y := main_v82) (by decide)
  have hx2 := not_written (writesAre (F := F)) 108 (y := main_v81) (by decide)
  exact ternary_at 108 _ hop hy hx0 hx1 hx2

theorem st_main_v84 (V0 : Valuation τ sig (Elt F)) :
    (after ops V0 (Proc.devRef .tc main_v84)) = extractStridedSlice S4096x64x1x3 ![0, 0, 18, 0] (after ops V0 (Proc.devRef .tc main_v83)) slices_S4096x64x32x3_S4096x64x1x3_0_0_18_0 := by
  have hop : (ops (F := F))[109]'(Nat.lt_of_lt_of_eq (by decide : 109 < 177) ops_length.symm) = unary main_v83 main_v84 (((extractStridedSlice S4096x64x1x3 ![0, 0, 18, 0] · slices_S4096x64x32x3_S4096x64x1x3_0_0_18_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 110 (y := main_v84) (by decide)
  have hx0 := not_written (writesAre (F := F)) 109 (y := main_v83) (by decide)
  exact unary_at 109 _ hop hy hx0

theorem st_main_v85 (V0 : Valuation τ sig (Elt F)) :
    (after ops V0 (Proc.devRef .tc main_v85)) = shapeCast (main_v85 : Ref sig .tc).ty.shape (after ops V0 (Proc.devRef .tc main_v84)) shapeCasts_S4096x64x1x3_S4096x64x3 := by
  have hop : (ops (F := F))[110]'(Nat.lt_of_lt_of_eq (by decide : 110 < 177) ops_length.symm) = reshape main_v84 main_v85 rfl shapeCasts_S4096x64x1x3_S4096x64x3 ⟨by decide, rfl⟩ ⟨by decide, rfl⟩ := rfl
  have hy := not_written (writesAre (F := F)) 111 (y := main_v85) (by decide)
  have hx0 := not_written (writesAre (F := F)) 110 (y := main_v84) (by decide)
  exact (reshape_at 110 _ hop hy hx0).trans rfl

theorem st_main_c_23 (V0 : Valuation τ sig (Elt F)) :
    (after ops V0 (Proc.devRef .tc main_c_23)) = ((constantI S_ 32 19#32)) := by
  have hop : (ops (F := F))[111]'(Nat.lt_of_lt_of_eq (by decide : 111 < 177) ops_length.symm) = nullary main_c_23 ((constantI S_ 32 19#32)) ⟨by decide, rfl⟩ := rfl
  have hy := not_written (writesAre (F := F)) 112 (y := main_c_23) (by decide)
  exact nullary_at 111 _ hop hy

theorem st_main_v86 (V0 : Valuation τ sig (Elt F)) :
    (after ops V0 (Proc.devRef .tc main_v86)) = ((broadcastInDim S1 ![] bcast_S_S1 : (⟨S_, .i32⟩ : BufTy).Contents (Elt F) → (⟨S1, .i32⟩ : BufTy).Contents (Elt F))) (after ops V0 (Proc.devRef .tc main_c_23)) := by
  have hop : (ops (F := F))[112]'(Nat.lt_of_lt_of_eq (by decide : 112 < 177) ops_length.symm) = unary main_c_23 main_v86 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 113 (y := main_v86) (by decide)
  have hx0 := not_written (writesAre (F := F)) 112 (y := main_c_23) (by decide)
  exact unary_at 112 _ hop hy hx0

theorem st_main_v87 (V0 : Valuation τ sig (Elt F)) :
    (after ops V0 (Proc.devRef .tc main_v87)) = Host.scatter scatter_S4096x64x32x3_S1_S4096x64x3_012_2_2_0 FloatOps.addf (after ops V0 (Proc.devRef .tc main_v83)) (after ops V0 (Proc.devRef .tc main_v86)) (after ops V0 (Proc.devRef .tc main_v85)) := by
  have hop : (ops (F := F))[113]'(Nat.lt_of_lt_of_eq (by decide : 113 < 177) ops_length.symm) = ternary main_v83 main_v86 main_v85 main_v87 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 114 (y := main_v87) (by decide)
  have hx0 := not_written (writesAre (F := F)) 113 (y := main_v83) (by decide)
  have hx1 := not_written (writesAre (F := F)) 113 (y := main_v86) (by decide)
  have hx2 := not_written (writesAre (F := F)) 113 (y := main_v85) (by decide)
  exact ternary_at 113 _ hop hy hx0 hx1 hx2

theorem st_main_v88 (V0 : Valuation τ sig (Elt F)) :
    (after ops V0 (Proc.devRef .tc main_v88)) = extractStridedSlice S4096x64x1x3 ![0, 0, 19, 0] (after ops V0 (Proc.devRef .tc main_v87)) slices_S4096x64x32x3_S4096x64x1x3_0_0_19_0 := by
  have hop : (ops (F := F))[114]'(Nat.lt_of_lt_of_eq (by decide : 114 < 177) ops_length.symm) = unary main_v87 main_v88 (((extractStridedSlice S4096x64x1x3 ![0, 0, 19, 0] · slices_S4096x64x32x3_S4096x64x1x3_0_0_19_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 115 (y := main_v88) (by decide)
  have hx0 := not_written (writesAre (F := F)) 114 (y := main_v87) (by decide)
  exact unary_at 114 _ hop hy hx0

theorem st_main_v89 (V0 : Valuation τ sig (Elt F)) :
    (after ops V0 (Proc.devRef .tc main_v89)) = shapeCast (main_v89 : Ref sig .tc).ty.shape (after ops V0 (Proc.devRef .tc main_v88)) shapeCasts_S4096x64x1x3_S4096x64x3 := by
  have hop : (ops (F := F))[115]'(Nat.lt_of_lt_of_eq (by decide : 115 < 177) ops_length.symm) = reshape main_v88 main_v89 rfl shapeCasts_S4096x64x1x3_S4096x64x3 ⟨by decide, rfl⟩ ⟨by decide, rfl⟩ := rfl
  have hy := not_written (writesAre (F := F)) 116 (y := main_v89) (by decide)
  have hx0 := not_written (writesAre (F := F)) 115 (y := main_v88) (by decide)
  exact (reshape_at 115 _ hop hy hx0).trans rfl

theorem st_main_c_24 (V0 : Valuation τ sig (Elt F)) :
    (after ops V0 (Proc.devRef .tc main_c_24)) = ((constantI S_ 32 21#32)) := by
  have hop : (ops (F := F))[116]'(Nat.lt_of_lt_of_eq (by decide : 116 < 177) ops_length.symm) = nullary main_c_24 ((constantI S_ 32 21#32)) ⟨by decide, rfl⟩ := rfl
  have hy := not_written (writesAre (F := F)) 117 (y := main_c_24) (by decide)
  exact nullary_at 116 _ hop hy

theorem st_main_v90 (V0 : Valuation τ sig (Elt F)) :
    (after ops V0 (Proc.devRef .tc main_v90)) = ((broadcastInDim S1 ![] bcast_S_S1 : (⟨S_, .i32⟩ : BufTy).Contents (Elt F) → (⟨S1, .i32⟩ : BufTy).Contents (Elt F))) (after ops V0 (Proc.devRef .tc main_c_24)) := by
  have hop : (ops (F := F))[117]'(Nat.lt_of_lt_of_eq (by decide : 117 < 177) ops_length.symm) = unary main_c_24 main_v90 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 118 (y := main_v90) (by decide)
  have hx0 := not_written (writesAre (F := F)) 117 (y := main_c_24) (by decide)
  exact unary_at 117 _ hop hy hx0

theorem st_main_v91 (V0 : Valuation τ sig (Elt F)) :
    (after ops V0 (Proc.devRef .tc main_v91)) = Host.scatter scatter_S4096x64x32x3_S1_S4096x64x3_012_2_2_0 FloatOps.addf (after ops V0 (Proc.devRef .tc main_v87)) (after ops V0 (Proc.devRef .tc main_v90)) (after ops V0 (Proc.devRef .tc main_v89)) := by
  have hop : (ops (F := F))[118]'(Nat.lt_of_lt_of_eq (by decide : 118 < 177) ops_length.symm) = ternary main_v87 main_v90 main_v89 main_v91 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 119 (y := main_v91) (by decide)
  have hx0 := not_written (writesAre (F := F)) 118 (y := main_v87) (by decide)
  have hx1 := not_written (writesAre (F := F)) 118 (y := main_v90) (by decide)
  have hx2 := not_written (writesAre (F := F)) 118 (y := main_v89) (by decide)
  exact ternary_at 118 _ hop hy hx0 hx1 hx2

theorem st_main_v92 (V0 : Valuation τ sig (Elt F)) :
    (after ops V0 (Proc.devRef .tc main_v92)) = extractStridedSlice S4096x64x1x3 ![0, 0, 21, 0] (after ops V0 (Proc.devRef .tc main_v91)) slices_S4096x64x32x3_S4096x64x1x3_0_0_21_0 := by
  have hop : (ops (F := F))[119]'(Nat.lt_of_lt_of_eq (by decide : 119 < 177) ops_length.symm) = unary main_v91 main_v92 (((extractStridedSlice S4096x64x1x3 ![0, 0, 21, 0] · slices_S4096x64x32x3_S4096x64x1x3_0_0_21_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 120 (y := main_v92) (by decide)
  have hx0 := not_written (writesAre (F := F)) 119 (y := main_v91) (by decide)
  exact unary_at 119 _ hop hy hx0

end Cert.ReferenceIdeal.RefValue

end
-- ==== Proof.RefStages3.lean ====
/-
  The reference program read one operation at a time.

  Every buffer is written by exactly one operation and read only by later ones, so the valuation the whole line ends
  in satisfies each operation's equation: what the operation's result buffer holds is the operation's function of what
  its operand buffers hold, all read at the end.
-/
import proofs.«155983_j18339510354491_1_alg».proof.Proof.RefStages0
import Mathlib.Tactic.FinCases

set_option Elab.async false
set_option maxRecDepth 8192

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibStraightLine

variable {F : FTy → Type} [FloatOps F]

theorem st_main_v93 (V0 : Valuation τ sig (Elt F)) :
    (after ops V0 (Proc.devRef .tc main_v93)) = shapeCast (main_v93 : Ref sig .tc).ty.shape (after ops V0 (Proc.devRef .tc main_v92)) shapeCasts_S4096x64x1x3_S4096x64x3 := by
  have hop : (ops (F := F))[120]'(Nat.lt_of_lt_of_eq (by decide : 120 < 177) ops_length.symm) = reshape main_v92 main_v93 rfl shapeCasts_S4096x64x1x3_S4096x64x3 ⟨by decide, rfl⟩ ⟨by decide, rfl⟩ := rfl
  have hy := not_written (writesAre (F := F)) 121 (y := main_v93) (by decide)
  have hx0 := not_written (writesAre (F := F)) 120 (y := main_v92) (by decide)
  exact (reshape_at 120 _ hop hy hx0).trans rfl

theorem st_main_c_25 (V0 : Valuation τ sig (Elt F)) :
    (after ops V0 (Proc.devRef .tc main_c_25)) = ((constantI S_ 32 22#32)) := by
  have hop : (ops (F := F))[121]'(Nat.lt_of_lt_of_eq (by decide : 121 < 177) ops_length.symm) = nullary main_c_25 ((constantI S_ 32 22#32)) ⟨by decide, rfl⟩ := rfl
  have hy := not_written (writesAre (F := F)) 122 (y := main_c_25) (by decide)
  exact nullary_at 121 _ hop hy

theorem st_main_v94 (V0 : Valuation τ sig (Elt F)) :
    (after ops V0 (Proc.devRef .tc main_v94)) = ((broadcastInDim S1 ![] bcast_S_S1 : (⟨S_, .i32⟩ : BufTy).Contents (Elt F) → (⟨S1, .i32⟩ : BufTy).Contents (Elt F))) (after ops V0 (Proc.devRef .tc main_c_25)) := by
  have hop : (ops (F := F))[122]'(Nat.lt_of_lt_of_eq (by decide : 122 < 177) ops_length.symm) = unary main_c_25 main_v94 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 123 (y := main_v94) (by decide)
  have hx0 := not_written (writesAre (F := F)) 122 (y := main_c_25) (by decide)
  exact unary_at 122 _ hop hy hx0

theorem st_main_v95 (V0 : Valuation τ sig (Elt F)) :
    (after ops V0 (Proc.devRef .tc main_v95)) = Host.scatter scatter_S4096x64x32x3_S1_S4096x64x3_012_2_2_0 FloatOps.addf (after ops V0 (Proc.devRef .tc main_v91)) (after ops V0 (Proc.devRef .tc main_v94)) (after ops V0 (Proc.devRef .tc main_v93)) := by
  have hop : (ops (F := F))[123]'(Nat.lt_of_lt_of_eq (by decide : 123 < 177) ops_length.symm) = ternary main_v91 main_v94 main_v93 main_v95 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 124 (y := main_v95) (by decide)
  have hx0 := not_written (writesAre (F := F)) 123 (y := main_v91) (by decide)
  have hx1 := not_written (writesAre (F := F)) 123 (y := main_v94) (by decide)
  have hx2 := not_written (writesAre (F := F)) 123 (y := main_v93) (by decide)
  exact ternary_at 123 _ hop hy hx0 hx1 hx2

theorem st_main_v96 (V0 : Valuation τ sig (Elt F)) :
    (after ops V0 (Proc.devRef .tc main_v96)) = extractStridedSlice S4096x64x1x3 ![0, 0, 1, 0] (after ops V0 (Proc.devRef .tc main_v95)) slices_S4096x64x32x3_S4096x64x1x3_0_0_1_0 := by
  have hop : (ops (F := F))[124]'(Nat.lt_of_lt_of_eq (by decide : 124 < 177) ops_length.symm) = unary main_v95 main_v96 (((extractStridedSlice S4096x64x1x3 ![0, 0, 1, 0] · slices_S4096x64x32x3_S4096x64x1x3_0_0_1_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 125 (y := main_v96) (by decide)
  have hx0 := not_written (writesAre (F := F)) 124 (y := main_v95) (by decide)
  exact unary_at 124 _ hop hy hx0

theorem st_main_v97 (V0 : Valuation τ sig (Elt F)) :
    (after ops V0 (Proc.devRef .tc main_v97)) = shapeCast (main_v97 : Ref sig .tc).ty.shape (after ops V0 (Proc.devRef .tc main_v96)) shapeCasts_S4096x64x1x3_S4096x64x3 := by
  have hop : (ops (F := F))[125]'(Nat.lt_of_lt_of_eq (by decide : 125 < 177) ops_length.symm) = reshape main_v96 main_v97 rfl shapeCasts_S4096x64x1x3_S4096x64x3 ⟨by decide, rfl⟩ ⟨by decide, rfl⟩ := rfl
  have hy := not_written (writesAre (F := F)) 126 (y := main_v97) (by decide)
  have hx0 := not_written (writesAre (F := F)) 125 (y := main_v96) (by decide)
  exact (reshape_at 125 _ hop hy hx0).trans rfl

theorem st_main_c_26 (V0 : Valuation τ sig (Elt F)) :
    (after ops V0 (Proc.devRef .tc main_c_26)) = ((constantI S_ 32 2#32)) := by
  have hop : (ops (F := F))[126]'(Nat.lt_of_lt_of_eq (by decide : 126 < 177) ops_length.symm) = nullary main_c_26 ((constantI S_ 32 2#32)) ⟨by decide, rfl⟩ := rfl
  have hy := not_written (writesAre (F := F)) 127 (y := main_c_26) (by decide)
  exact nullary_at 126 _ hop hy

theorem st_main_v98 (V0 : Valuation τ sig (Elt F)) :
    (after ops V0 (Proc.devRef .tc main_v98)) = ((broadcastInDim S1 ![] bcast_S_S1 : (⟨S_, .i32⟩ : BufTy).Contents (Elt F) → (⟨S1, .i32⟩ : BufTy).Contents (Elt F))) (after ops V0 (Proc.devRef .tc main_c_26)) := by
  have hop : (ops (F := F))[127]'(Nat.lt_of_lt_of_eq (by decide : 127 < 177) ops_length.symm) = unary main_c_26 main_v98 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 128 (y := main_v98) (by decide)
  have hx0 := not_written (writesAre (F := F)) 127 (y := main_c_26) (by decide)
  exact unary_at 127 _ hop hy hx0

theorem st_main_v99 (V0 : Valuation τ sig (Elt F)) :
    (after ops V0 (Proc.devRef .tc main_v99)) = Host.scatter scatter_S4096x64x32x3_S1_S4096x64x3_012_2_2_0 FloatOps.addf (after ops V0 (Proc.devRef .tc main_v95)) (after ops V0 (Proc.devRef .tc main_v98)) (after ops V0 (Proc.devRef .tc main_v97)) := by
  have hop : (ops (F := F))[128]'(Nat.lt_of_lt_of_eq (by decide : 128 < 177) ops_length.symm) = ternary main_v95 main_v98 main_v97 main_v99 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 129 (y := main_v99) (by decide)
  have hx0 := not_written (writesAre (F := F)) 128 (y := main_v95) (by decide)
  have hx1 := not_written (writesAre (F := F)) 128 (y := main_v98) (by decide)
  have hx2 := not_written (writesAre (F := F)) 128 (y := main_v97) (by decide)
  exact ternary_at 128 _ hop hy hx0 hx1 hx2

theorem st_main_v100 (V0 : Valuation τ sig (Elt F)) :
    (after ops V0 (Proc.devRef .tc main_v100)) = extractStridedSlice S4096x64x1x3 ![0, 0, 2, 0] (after ops V0 (Proc.devRef .tc main_v99)) slices_S4096x64x32x3_S4096x64x1x3_0_0_2_0 := by
  have hop : (ops (F := F))[129]'(Nat.lt_of_lt_of_eq (by decide : 129 < 177) ops_length.symm) = unary main_v99 main_v100 (((extractStridedSlice S4096x64x1x3 ![0, 0, 2, 0] · slices_S4096x64x32x3_S4096x64x1x3_0_0_2_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 130 (y := main_v100) (by decide)
  have hx0 := not_written (writesAre (F := F)) 129 (y := main_v99) (by decide)
  exact unary_at 129 _ hop hy hx0

theorem st_main_v101 (V0 : Valuation τ sig (Elt F)) :
    (after ops V0 (Proc.devRef .tc main_v101)) = shapeCast (main_v101 : Ref sig .tc).ty.shape (after ops V0 (Proc.devRef .tc main_v100)) shapeCasts_S4096x64x1x3_S4096x64x3 := by
  have hop : (ops (F := F))[130]'(Nat.lt_of_lt_of_eq (by decide : 130 < 177) ops_length.symm) = reshape main_v100 main_v101 rfl shapeCasts_S4096x64x1x3_S4096x64x3 ⟨by decide, rfl⟩ ⟨by decide, rfl⟩ := rfl
  have hy := not_written (writesAre (F := F)) 131 (y := main_v101) (by decide)
  have hx0 := not_written (writesAre (F := F)) 130 (y := main_v100) (by decide)
  exact (reshape_at 130 _ hop hy hx0).trans rfl

theorem st_main_c_27 (V0 : Valuation τ sig (Elt F)) :
    (after ops V0 (Proc.devRef .tc main_c_27)) = ((constantI S_ 32 3#32)) := by
  have hop : (ops (F := F))[131]'(Nat.lt_of_lt_of_eq (by decide : 131 < 177) ops_length.symm) = nullary main_c_27 ((constantI S_ 32 3#32)) ⟨by decide, rfl⟩ := rfl
  have hy := not_written (writesAre (F := F)) 132 (y := main_c_27) (by decide)
  exact nullary_at 131 _ hop hy

theorem st_main_v102 (V0 : Valuation τ sig (Elt F)) :
    (after ops V0 (Proc.devRef .tc main_v102)) = ((broadcastInDim S1 ![] bcast_S_S1 : (⟨S_, .i32⟩ : BufTy).Contents (Elt F) → (⟨S1, .i32⟩ : BufTy).Contents (Elt F))) (after ops V0 (Proc.devRef .tc main_c_27)) := by
  have hop : (ops (F := F))[132]'(Nat.lt_of_lt_of_eq (by decide : 132 < 177) ops_length.symm) = unary main_c_27 main_v102 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 133 (y := main_v102) (by decide)
  have hx0 := not_written (writesAre (F := F)) 132 (y := main_c_27) (by decide)
  exact unary_at 132 _ hop hy hx0

theorem st_main_v103 (V0 : Valuation τ sig (Elt F)) :
    (after ops V0 (Proc.devRef .tc main_v103)) = Host.scatter scatter_S4096x64x32x3_S1_S4096x64x3_012_2_2_0 FloatOps.addf (after ops V0 (Proc.devRef .tc main_v99)) (after ops V0 (Proc.devRef .tc main_v102)) (after ops V0 (Proc.devRef .tc main_v101)) := by
  have hop : (ops (F := F))[133]'(Nat.lt_of_lt_of_eq (by decide : 133 < 177) ops_length.symm) = ternary main_v99 main_v102 main_v101 main_v103 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 134 (y := main_v103) (by decide)
  have hx0 := not_written (writesAre (F := F)) 133 (y := main_v99) (by decide)
  have hx1 := not_written (writesAre (F := F)) 133 (y := main_v102) (by decide)
  have hx2 := not_written (writesAre (F := F)) 133 (y := main_v101) (by decide)
  exact ternary_at 133 _ hop hy hx0 hx1 hx2

theorem st_main_v104 (V0 : Valuation τ sig (Elt F)) :
    (after ops V0 (Proc.devRef .tc main_v104)) = extractStridedSlice S4096x64x1x3 ![0, 0, 3, 0] (after ops V0 (Proc.devRef .tc main_v103)) slices_S4096x64x32x3_S4096x64x1x3_0_0_3_0 := by
  have hop : (ops (F := F))[134]'(Nat.lt_of_lt_of_eq (by decide : 134 < 177) ops_length.symm) = unary main_v103 main_v104 (((extractStridedSlice S4096x64x1x3 ![0, 0, 3, 0] · slices_S4096x64x32x3_S4096x64x1x3_0_0_3_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 135 (y := main_v104) (by decide)
  have hx0 := not_written (writesAre (F := F)) 134 (y := main_v103) (by decide)
  exact unary_at 134 _ hop hy hx0

theorem st_main_v105 (V0 : Valuation τ sig (Elt F)) :
    (after ops V0 (Proc.devRef .tc main_v105)) = shapeCast (main_v105 : Ref sig .tc).ty.shape (after ops V0 (Proc.devRef .tc main_v104)) shapeCasts_S4096x64x1x3_S4096x64x3 := by
  have hop : (ops (F := F))[135]'(Nat.lt_of_lt_of_eq (by decide : 135 < 177) ops_length.symm) = reshape main_v104 main_v105 rfl shapeCasts_S4096x64x1x3_S4096x64x3 ⟨by decide, rfl⟩ ⟨by decide, rfl⟩ := rfl
  have hy := not_written (writesAre (F := F)) 136 (y := main_v105) (by decide)
  have hx0 := not_written (writesAre (F := F)) 135 (y := main_v104) (by decide)
  exact (reshape_at 135 _ hop hy hx0).trans rfl

theorem st_main_c_28 (V0 : Valuation τ sig (Elt F)) :
    (after ops V0 (Proc.devRef .tc main_c_28)) = ((constantI S_ 32 4#32)) := by
  have hop : (ops (F := F))[136]'(Nat.lt_of_lt_of_eq (by decide : 136 < 177) ops_length.symm) = nullary main_c_28 ((constantI S_ 32 4#32)) ⟨by decide, rfl⟩ := rfl
  have hy := not_written (writesAre (F := F)) 137 (y := main_c_28) (by decide)
  exact nullary_at 136 _ hop hy

theorem st_main_v106 (V0 : Valuation τ sig (Elt F)) :
    (after ops V0 (Proc.devRef .tc main_v106)) = ((broadcastInDim S1 ![] bcast_S_S1 : (⟨S_, .i32⟩ : BufTy).Contents (Elt F) → (⟨S1, .i32⟩ : BufTy).Contents (Elt F))) (after ops V0 (Proc.devRef .tc main_c_28)) := by
  have hop : (ops (F := F))[137]'(Nat.lt_of_lt_of_eq (by decide : 137 < 177) ops_length.symm) = unary main_c_28 main_v106 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 138 (y := main_v106) (by decide)
  have hx0 := not_written (writesAre (F := F)) 137 (y := main_c_28) (by decide)
  exact unary_at 137 _ hop hy hx0

theorem st_main_v107 (V0 : Valuation τ sig (Elt F)) :
    (after ops V0 (Proc.devRef .tc main_v107)) = Host.scatter scatter_S4096x64x32x3_S1_S4096x64x3_012_2_2_0 FloatOps.addf (after ops V0 (Proc.devRef .tc main_v103)) (after ops V0 (Proc.devRef .tc main_v106)) (after ops V0 (Proc.devRef .tc main_v105)) := by
  have hop : (ops (F := F))[138]'(Nat.lt_of_lt_of_eq (by decide : 138 < 177) ops_length.symm) = ternary main_v103 main_v106 main_v105 main_v107 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 139 (y := main_v107) (by decide)
  have hx0 := not_written (writesAre (F := F)) 138 (y := main_v103) (by decide)
  have hx1 := not_written (writesAre (F := F)) 138 (y := main_v106) (by decide)
  have hx2 := not_written (writesAre (F := F)) 138 (y := main_v105) (by decide)
  exact ternary_at 138 _ hop hy hx0 hx1 hx2

theorem st_main_v108 (V0 : Valuation τ sig (Elt F)) :
    (after ops V0 (Proc.devRef .tc main_v108)) = extractStridedSlice S4096x64x1x3 ![0, 0, 4, 0] (after ops V0 (Proc.devRef .tc main_v107)) slices_S4096x64x32x3_S4096x64x1x3_0_0_4_0 := by
  have hop : (ops (F := F))[139]'(Nat.lt_of_lt_of_eq (by decide : 139 < 177) ops_length.symm) = unary main_v107 main_v108 (((extractStridedSlice S4096x64x1x3 ![0, 0, 4, 0] · slices_S4096x64x32x3_S4096x64x1x3_0_0_4_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 140 (y := main_v108) (by decide)
  have hx0 := not_written (writesAre (F := F)) 139 (y := main_v107) (by decide)
  exact unary_at 139 _ hop hy hx0

theorem st_main_v109 (V0 : Valuation τ sig (Elt F)) :
    (after ops V0 (Proc.devRef .tc main_v109)) = shapeCast (main_v109 : Ref sig .tc).ty.shape (after ops V0 (Proc.devRef .tc main_v108)) shapeCasts_S4096x64x1x3_S4096x64x3 := by
  have hop : (ops (F := F))[140]'(Nat.lt_of_lt_of_eq (by decide : 140 < 177) ops_length.symm) = reshape main_v108 main_v109 rfl shapeCasts_S4096x64x1x3_S4096x64x3 ⟨by decide, rfl⟩ ⟨by decide, rfl⟩ := rfl
  have hy := not_written (writesAre (F := F)) 141 (y := main_v109) (by decide)
  have hx0 := not_written (writesAre (F := F)) 140 (y := main_v108) (by decide)
  exact (reshape_at 140 _ hop hy hx0).trans rfl

theorem st_main_c_29 (V0 : Valuation τ sig (Elt F)) :
    (after ops V0 (Proc.devRef .tc main_c_29)) = ((constantI S_ 32 5#32)) := by
  have hop : (ops (F := F))[141]'(Nat.lt_of_lt_of_eq (by decide : 141 < 177) ops_length.symm) = nullary main_c_29 ((constantI S_ 32 5#32)) ⟨by decide, rfl⟩ := rfl
  have hy := not_written (writesAre (F := F)) 142 (y := main_c_29) (by decide)
  exact nullary_at 141 _ hop hy

theorem st_main_v110 (V0 : Valuation τ sig (Elt F)) :
    (after ops V0 (Proc.devRef .tc main_v110)) = ((broadcastInDim S1 ![] bcast_S_S1 : (⟨S_, .i32⟩ : BufTy).Contents (Elt F) → (⟨S1, .i32⟩ : BufTy).Contents (Elt F))) (after ops V0 (Proc.devRef .tc main_c_29)) := by
  have hop : (ops (F := F))[142]'(Nat.lt_of_lt_of_eq (by decide : 142 < 177) ops_length.symm) = unary main_c_29 main_v110 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 143 (y := main_v110) (by decide)
  have hx0 := not_written (writesAre (F := F)) 142 (y := main_c_29) (by decide)
  exact unary_at 142 _ hop hy hx0

theorem st_main_v111 (V0 : Valuation τ sig (Elt F)) :
    (after ops V0 (Proc.devRef .tc main_v111)) = Host.scatter scatter_S4096x64x32x3_S1_S4096x64x3_012_2_2_0 FloatOps.addf (after ops V0 (Proc.devRef .tc main_v107)) (after ops V0 (Proc.devRef .tc main_v110)) (after ops V0 (Proc.devRef .tc main_v109)) := by
  have hop : (ops (F := F))[143]'(Nat.lt_of_lt_of_eq (by decide : 143 < 177) ops_length.symm) = ternary main_v107 main_v110 main_v109 main_v111 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 144 (y := main_v111) (by decide)
  have hx0 := not_written (writesAre (F := F)) 143 (y := main_v107) (by decide)
  have hx1 := not_written (writesAre (F := F)) 143 (y := main_v110) (by decide)
  have hx2 := not_written (writesAre (F := F)) 143 (y := main_v109) (by decide)
  exact ternary_at 143 _ hop hy hx0 hx1 hx2

theorem st_main_v112 (V0 : Valuation τ sig (Elt F)) :
    (after ops V0 (Proc.devRef .tc main_v112)) = extractStridedSlice S4096x64x1x3 ![0, 0, 6, 0] (after ops V0 (Proc.devRef .tc main_v111)) slices_S4096x64x32x3_S4096x64x1x3_0_0_6_0 := by
  have hop : (ops (F := F))[144]'(Nat.lt_of_lt_of_eq (by decide : 144 < 177) ops_length.symm) = unary main_v111 main_v112 (((extractStridedSlice S4096x64x1x3 ![0, 0, 6, 0] · slices_S4096x64x32x3_S4096x64x1x3_0_0_6_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 145 (y := main_v112) (by decide)
  have hx0 := not_written (writesAre (F := F)) 144 (y := main_v111) (by decide)
  exact unary_at 144 _ hop hy hx0

theorem st_main_v113 (V0 : Valuation τ sig (Elt F)) :
    (after ops V0 (Proc.devRef .tc main_v113)) = shapeCast (main_v113 : Ref sig .tc).ty.shape (after ops V0 (Proc.devRef .tc main_v112)) shapeCasts_S4096x64x1x3_S4096x64x3 := by
  have hop : (ops (F := F))[145]'(Nat.lt_of_lt_of_eq (by decide : 145 < 177) ops_length.symm) = reshape main_v112 main_v113 rfl shapeCasts_S4096x64x1x3_S4096x64x3 ⟨by decide, rfl⟩ ⟨by decide, rfl⟩ := rfl
  have hy := not_written (writesAre (F := F)) 146 (y := main_v113) (by decide)
  have hx0 := not_written (writesAre (F := F)) 145 (y := main_v112) (by decide)
  exact (reshape_at 145 _ hop hy hx0).trans rfl

theorem st_main_c_30 (V0 : Valuation τ sig (Elt F)) :
    (after ops V0 (Proc.devRef .tc main_c_30)) = ((constantI S_ 32 7#32)) := by
  have hop : (ops (F := F))[146]'(Nat.lt_of_lt_of_eq (by decide : 146 < 177) ops_length.symm) = nullary main_c_30 ((constantI S_ 32 7#32)) ⟨by decide, rfl⟩ := rfl
  have hy := not_written (writesAre (F := F)) 147 (y := main_c_30) (by decide)
  exact nullary_at 146 _ hop hy

theorem st_main_v114 (V0 : Valuation τ sig (Elt F)) :
    (after ops V0 (Proc.devRef .tc main_v114)) = ((broadcastInDim S1 ![] bcast_S_S1 : (⟨S_, .i32⟩ : BufTy).Contents (Elt F) → (⟨S1, .i32⟩ : BufTy).Contents (Elt F))) (after ops V0 (Proc.devRef .tc main_c_30)) := by
  have hop : (ops (F := F))[147]'(Nat.lt_of_lt_of_eq (by decide : 147 < 177) ops_length.symm) = unary main_c_30 main_v114 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 148 (y := main_v114) (by decide)
  have hx0 := not_written (writesAre (F := F)) 147 (y := main_c_30) (by decide)
  exact unary_at 147 _ hop hy hx0

theorem st_main_v115 (V0 : Valuation τ sig (Elt F)) :
    (after ops V0 (Proc.devRef .tc main_v115)) = Host.scatter scatter_S4096x64x32x3_S1_S4096x64x3_012_2_2_0 FloatOps.addf (after ops V0 (Proc.devRef .tc main_v111)) (after ops V0 (Proc.devRef .tc main_v114)) (after ops V0 (Proc.devRef .tc main_v113)) := by
  have hop : (ops (F := F))[148]'(Nat.lt_of_lt_of_eq (by decide : 148 < 177) ops_length.symm) = ternary main_v111 main_v114 main_v113 main_v115 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 149 (y := main_v115) (by decide)
  have hx0 := not_written (writesAre (F := F)) 148 (y := main_v111) (by decide)
  have hx1 := not_written (writesAre (F := F)) 148 (y := main_v114) (by decide)
  have hx2 := not_written (writesAre (F := F)) 148 (y := main_v113) (by decide)
  exact ternary_at 148 _ hop hy hx0 hx1 hx2

theorem st_main_v116 (V0 : Valuation τ sig (Elt F)) :
    (after ops V0 (Proc.devRef .tc main_v116)) = extractStridedSlice S4096x64x1x3 ![0, 0, 7, 0] (after ops V0 (Proc.devRef .tc main_v115)) slices_S4096x64x32x3_S4096x64x1x3_0_0_7_0 := by
  have hop : (ops (F := F))[149]'(Nat.lt_of_lt_of_eq (by decide : 149 < 177) ops_length.symm) = unary main_v115 main_v116 (((extractStridedSlice S4096x64x1x3 ![0, 0, 7, 0] · slices_S4096x64x32x3_S4096x64x1x3_0_0_7_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 150 (y := main_v116) (by decide)
  have hx0 := not_written (writesAre (F := F)) 149 (y := main_v115) (by decide)
  exact unary_at 149 _ hop hy hx0

theorem st_main_v117 (V0 : Valuation τ sig (Elt F)) :
    (after ops V0 (Proc.devRef .tc main_v117)) = shapeCast (main_v117 : Ref sig .tc).ty.shape (after ops V0 (Proc.devRef .tc main_v116)) shapeCasts_S4096x64x1x3_S4096x64x3 := by
  have hop : (ops (F := F))[150]'(Nat.lt_of_lt_of_eq (by decide : 150 < 177) ops_length.symm) = reshape main_v116 main_v117 rfl shapeCasts_S4096x64x1x3_S4096x64x3 ⟨by decide, rfl⟩ ⟨by decide, rfl⟩ := rfl
  have hy := not_written (writesAre (F := F)) 151 (y := main_v117) (by decide)
  have hx0 := not_written (writesAre (F := F)) 150 (y := main_v116) (by decide)
  exact (reshape_at 150 _ hop hy hx0).trans rfl

theorem st_main_c_31 (V0 : Valuation τ sig (Elt F)) :
    (after ops V0 (Proc.devRef .tc main_c_31)) = ((constantI S_ 32 8#32)) := by
  have hop : (ops (F := F))[151]'(Nat.lt_of_lt_of_eq (by decide : 151 < 177) ops_length.symm) = nullary main_c_31 ((constantI S_ 32 8#32)) ⟨by decide, rfl⟩ := rfl
  have hy := not_written (writesAre (F := F)) 152 (y := main_c_31) (by decide)
  exact nullary_at 151 _ hop hy

theorem st_main_v118 (V0 : Valuation τ sig (Elt F)) :
    (after ops V0 (Proc.devRef .tc main_v118)) = ((broadcastInDim S1 ![] bcast_S_S1 : (⟨S_, .i32⟩ : BufTy).Contents (Elt F) → (⟨S1, .i32⟩ : BufTy).Contents (Elt F))) (after ops V0 (Proc.devRef .tc main_c_31)) := by
  have hop : (ops (F := F))[152]'(Nat.lt_of_lt_of_eq (by decide : 152 < 177) ops_length.symm) = unary main_c_31 main_v118 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 153 (y := main_v118) (by decide)
  have hx0 := not_written (writesAre (F := F)) 152 (y := main_c_31) (by decide)
  exact unary_at 152 _ hop hy hx0

theorem st_main_v119 (V0 : Valuation τ sig (Elt F)) :
    (after ops V0 (Proc.devRef .tc main_v119)) = Host.scatter scatter_S4096x64x32x3_S1_S4096x64x3_012_2_2_0 FloatOps.addf (after ops V0 (Proc.devRef .tc main_v115)) (after ops V0 (Proc.devRef .tc main_v118)) (after ops V0 (Proc.devRef .tc main_v117)) := by
  have hop : (ops (F := F))[153]'(Nat.lt_of_lt_of_eq (by decide : 153 < 177) ops_length.symm) = ternary main_v115 main_v118 main_v117 main_v119 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 154 (y := main_v119) (by decide)
  have hx0 := not_written (writesAre (F := F)) 153 (y := main_v115) (by decide)
  have hx1 := not_written (writesAre (F := F)) 153 (y := main_v118) (by decide)
  have hx2 := not_written (writesAre (F := F)) 153 (y := main_v117) (by decide)
  exact ternary_at 153 _ hop hy hx0 hx1 hx2

theorem st_main_v120 (V0 : Valuation τ sig (Elt F)) :
    (after ops V0 (Proc.devRef .tc main_v120)) = extractStridedSlice S4096x64x1x3 ![0, 0, 8, 0] (after ops V0 (Proc.devRef .tc main_v119)) slices_S4096x64x32x3_S4096x64x1x3_0_0_8_0 := by
  have hop : (ops (F := F))[154]'(Nat.lt_of_lt_of_eq (by decide : 154 < 177) ops_length.symm) = unary main_v119 main_v120 (((extractStridedSlice S4096x64x1x3 ![0, 0, 8, 0] · slices_S4096x64x32x3_S4096x64x1x3_0_0_8_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 155 (y := main_v120) (by decide)
  have hx0 := not_written (writesAre (F := F)) 154 (y := main_v119) (by decide)
  exact unary_at 154 _ hop hy hx0

theorem st_main_v121 (V0 : Valuation τ sig (Elt F)) :
    (after ops V0 (Proc.devRef .tc main_v121)) = shapeCast (main_v121 : Ref sig .tc).ty.shape (after ops V0 (Proc.devRef .tc main_v120)) shapeCasts_S4096x64x1x3_S4096x64x3 := by
  have hop : (ops (F := F))[155]'(Nat.lt_of_lt_of_eq (by decide : 155 < 177) ops_length.symm) = reshape main_v120 main_v121 rfl shapeCasts_S4096x64x1x3_S4096x64x3 ⟨by decide, rfl⟩ ⟨by decide, rfl⟩ := rfl
  have hy := not_written (writesAre (F := F)) 156 (y := main_v121) (by decide)
  have hx0 := not_written (writesAre (F := F)) 155 (y := main_v120) (by decide)
  exact (reshape_at 155 _ hop hy hx0).trans rfl

theorem st_main_c_32 (V0 : Valuation τ sig (Elt F)) :
    (after ops V0 (Proc.devRef .tc main_c_32)) = ((constantI S_ 32 9#32)) := by
  have hop : (ops (F := F))[156]'(Nat.lt_of_lt_of_eq (by decide : 156 < 177) ops_length.symm) = nullary main_c_32 ((constantI S_ 32 9#32)) ⟨by decide, rfl⟩ := rfl
  have hy := not_written (writesAre (F := F)) 157 (y := main_c_32) (by decide)
  exact nullary_at 156 _ hop hy

theorem st_main_v122 (V0 : Valuation τ sig (Elt F)) :
    (after ops V0 (Proc.devRef .tc main_v122)) = ((broadcastInDim S1 ![] bcast_S_S1 : (⟨S_, .i32⟩ : BufTy).Contents (Elt F) → (⟨S1, .i32⟩ : BufTy).Contents (Elt F))) (after ops V0 (Proc.devRef .tc main_c_32)) := by
  have hop : (ops (F := F))[157]'(Nat.lt_of_lt_of_eq (by decide : 157 < 177) ops_length.symm) = unary main_c_32 main_v122 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 158 (y := main_v122) (by decide)
  have hx0 := not_written (writesAre (F := F)) 157 (y := main_c_32) (by decide)
  exact unary_at 157 _ hop hy hx0

theorem st_main_v123 (V0 : Valuation τ sig (Elt F)) :
    (after ops V0 (Proc.devRef .tc main_v123)) = Host.scatter scatter_S4096x64x32x3_S1_S4096x64x3_012_2_2_0 FloatOps.addf (after ops V0 (Proc.devRef .tc main_v119)) (after ops V0 (Proc.devRef .tc main_v122)) (after ops V0 (Proc.devRef .tc main_v121)) := by
  have hop : (ops (F := F))[158]'(Nat.lt_of_lt_of_eq (by decide : 158 < 177) ops_length.symm) = ternary main_v119 main_v122 main_v121 main_v123 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 159 (y := main_v123) (by decide)
  have hx0 := not_written (writesAre (F := F)) 158 (y := main_v119) (by decide)
  have hx1 := not_written (writesAre (F := F)) 158 (y := main_v122) (by decide)
  have hx2 := not_written (writesAre (F := F)) 158 (y := main_v121) (by decide)
  exact ternary_at 158 _ hop hy hx0 hx1 hx2

theorem st_main_v124 (V0 : Valuation τ sig (Elt F)) :
    (after ops V0 (Proc.devRef .tc main_v124)) = extractStridedSlice S4096x64x1x3 ![0, 0, 9, 0] (after ops V0 (Proc.devRef .tc main_v123)) slices_S4096x64x32x3_S4096x64x1x3_0_0_9_0 := by
  have hop : (ops (F := F))[159]'(Nat.lt_of_lt_of_eq (by decide : 159 < 177) ops_length.symm) = unary main_v123 main_v124 (((extractStridedSlice S4096x64x1x3 ![0, 0, 9, 0] · slices_S4096x64x32x3_S4096x64x1x3_0_0_9_0) : (⟨S4096x64x32x3, .f32⟩ : BufTy).Contents (Elt F) → (⟨S4096x64x1x3, .f32⟩ : BufTy).Contents (Elt F))) ⟨by decide, rfl⟩ ⟨by decide, rfl⟩ := rfl
  have hy := not_written (writesAre (F := F)) 160 (y := main_v124) (by decide)
  have hx0 := not_written (writesAre (F := F)) 159 (y := main_v123) (by decide)
  exact unary_at 159 _ hop hy hx0

theorem st_main_v125 (V0 : Valuation τ sig (Elt F)) :
    (after ops V0 (Proc.devRef .tc main_v125)) = shapeCast (main_v125 : Ref sig .tc).ty.shape (after ops V0 (Proc.devRef .tc main_v124)) shapeCasts_S4096x64x1x3_S4096x64x3 := by
  have hop : (ops (F := F))[160]'(Nat.lt_of_lt_of_eq (by decide : 160 < 177) ops_length.symm) = reshape main_v124 main_v125 rfl shapeCasts_S4096x64x1x3_S4096x64x3 ⟨by decide, rfl⟩ ⟨by decide, rfl⟩ := rfl
  have hy := not_written (writesAre (F := F)) 161 (y := main_v125) (by decide)
  have hx0 := not_written (writesAre (F := F)) 160 (y := main_v124) (by decide)
  exact (reshape_at 160 _ hop hy hx0).trans rfl

theorem st_main_c_33 (V0 : Valuation τ sig (Elt F)) :
    (after ops V0 (Proc.devRef .tc main_c_33)) = ((constantI S_ 32 10#32)) := by
  have hop : (ops (F := F))[161]'(Nat.lt_of_lt_of_eq (by decide : 161 < 177) ops_length.symm) = nullary main_c_33 ((constantI S_ 32 10#32)) ⟨by decide, rfl⟩ := rfl
  have hy := not_written (writesAre (F := F)) 162 (y := main_c_33) (by decide)
  exact nullary_at 161 _ hop hy

theorem st_main_v126 (V0 : Valuation τ sig (Elt F)) :
    (after ops V0 (Proc.devRef .tc main_v126)) = ((broadcastInDim S1 ![] bcast_S_S1 : (⟨S_, .i32⟩ : BufTy).Contents (Elt F) → (⟨S1, .i32⟩ : BufTy).Contents (Elt F))) (after ops V0 (Proc.devRef .tc main_c_33)) := by
  have hop : (ops (F := F))[162]'(Nat.lt_of_lt_of_eq (by decide : 162 < 177) ops_length.symm) = unary main_c_33 main_v126 ((broadcastInDim S1 ![] bcast_S_S1 : (⟨S_, .i32⟩ : BufTy).Contents (Elt F) → (⟨S1, .i32⟩ : BufTy).Contents (Elt F))) ⟨by decide, rfl⟩ ⟨by decide, rfl⟩ := rfl
  have hy := not_written (writesAre (F := F)) 163 (y := main_v126) (by decide)
  have hx0 := not_written (writesAre (F := F)) 162 (y := main_c_33) (by decide)
  exact unary_at 162 _ hop hy hx0

theorem st_main_v127 (V0 : Valuation τ sig (Elt F)) :
    (after ops V0 (Proc.devRef .tc main_v127)) = Host.scatter scatter_S4096x64x32x3_S1_S4096x64x3_012_2_2_0 FloatOps.addf (after ops V0 (Proc.devRef .tc main_v123)) (after ops V0 (Proc.devRef .tc main_v126)) (after ops V0 (Proc.devRef .tc main_v125)) := by
  have hop : (ops (F := F))[163]'(Nat.lt_of_lt_of_eq (by decide : 163 < 177) ops_length.symm) = ternary main_v123 main_v126 main_v125 main_v127 (((fun x i u => Host.scatter scatter_S4096x64x32x3_S1_S4096x64x3_012_2_2_0 FloatOps.addf x i u) : (⟨S4096x64x32x3, .f32⟩ : BufTy).Contents (Elt F) → (⟨S1, .i32⟩ : BufTy).Contents (Elt F) → (⟨S4096x64x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 164 (y := main_v127) (by decide)
  have hx0 := not_written (writesAre (F := F)) 163 (y := main_v123) (by decide)
  have hx1 := not_written (writesAre (F := F)) 163 (y := main_v126) (by decide)
  have hx2 := not_written (writesAre (F := F)) 163 (y := main_v125) (by decide)
  exact ternary_at 163 _ hop hy hx0 hx1 hx2

theorem st_main_c_34 (V0 : Valuation τ sig (Elt F)) :
    (after ops V0 (Proc.devRef .tc main_c_34)) = ((constantI S_ 32 32#32)) := by
  have hop : (ops (F := F))[164]'(Nat.lt_of_lt_of_eq (by decide : 164 < 177) ops_length.symm) = nullary main_c_34 ((constantI S_ 32 32#32)) ⟨by decide, rfl⟩ := rfl
  have hy := not_written (writesAre (F := F)) 165 (y := main_c_34) (by decide)
  exact nullary_at 164 _ hop hy

theorem st_main_v128 (V0 : Valuation τ sig (Elt F)) :
    (after ops V0 (Proc.devRef .tc main_v128)) = ((broadcastInDim S6 ![] bcast_S_S6 : (⟨S_, .i32⟩ : BufTy).Contents (Elt F) → (⟨S6, .i32⟩ : BufTy).Contents (Elt F))) (after ops V0 (Proc.devRef .tc main_c_34)) := by
  have hop : (ops (F := F))[165]'(Nat.lt_of_lt_of_eq (by decide : 165 < 177) ops_length.symm) = unary main_c_34 main_v128 ((broadcastInDim S6 ![] bcast_S_S6 : (⟨S_, .i32⟩ : BufTy).Contents (Elt F) → (⟨S6, .i32⟩ : BufTy).Contents (Elt F))) ⟨by decide, rfl⟩ ⟨by decide, rfl⟩ := rfl
  have hy := not_written (writesAre (F := F)) 166 (y := main_v128) (by decide)
  have hx0 := not_written (writesAre (F := F)) 165 (y := main_c_34) (by decide)
  exact unary_at 165 _ hop hy hx0

theorem st_main_v129 (V0 : Valuation τ sig (Elt F)) :
    (after ops V0 (Proc.devRef .tc main_v129)) = ((addi : (⟨S6, .i32⟩ : BufTy).Contents (Elt F) → (⟨S6, .i32⟩ : BufTy).Contents (Elt F) → (⟨S6, .i32⟩ : BufTy).Contents (Elt F))) (after ops V0 (Proc.devRef .tc main_c_4)) (after ops V0 (Proc.devRef .tc main_v128)) := by
  have hop : (ops (F := F))[166]'(Nat.lt_of_lt_of_eq (by decide : 166 < 177) ops_length.symm) = binary main_c_4 main_v128 main_v129 ((addi : (⟨S6, .i32⟩ : BufTy).Contents (Elt F) → (⟨S6, .i32⟩ : BufTy).Contents (Elt F) → (⟨S6, .i32⟩ : BufTy).Contents (Elt F))) ⟨by decide, rfl⟩ ⟨by decide, rfl⟩ ⟨by decide, rfl⟩ := rfl
  have hy := not_written (writesAre (F := F)) 167 (y := main_v129) (by decide)
  have hx0 := not_written (writesAre (F := F)) 166 (y := main_c_4) (by decide)
  have hx1 := not_written (writesAre (F := F)) 166 (y := main_v128) (by decide)
  exact binary_at 166 _ hop hy hx0 hx1

theorem st_main_v130 (V0 : Valuation τ sig (Elt F)) :
    (after ops V0 (Proc.devRef .tc main_v130)) = ((select : (⟨S6, .i1⟩ : BufTy).Contents (Elt F) → (⟨S6, .i32⟩ : BufTy).Contents (Elt F) → (⟨S6, .i32⟩ : BufTy).Contents (Elt F) → (⟨S6, .i32⟩ : BufTy).Contents (Elt F))) (after ops V0 (Proc.devRef .tc main_c_5)) (after ops V0 (Proc.devRef .tc main_v129)) (after ops V0 (Proc.devRef .tc main_c_4)) := by
  have hop : (ops (F := F))[167]'(Nat.lt_of_lt_of_eq (by decide : 167 < 177) ops_length.symm) = ternary main_c_5 main_v129 main_c_4 main_v130 ((select : (⟨S6, .i1⟩ : BufTy).Contents (Elt F) → (⟨S6, .i32⟩ : BufTy).Contents (Elt F) → (⟨S6, .i32⟩ : BufTy).Contents (Elt F) → (⟨S6, .i32⟩ : BufTy).Contents (Elt F))) ⟨by decide, rfl⟩ ⟨by decide, rfl⟩ ⟨by decide, rfl⟩ ⟨by decide, rfl⟩ := rfl
  have hy := not_written (writesAre (F := F)) 168 (y := main_v130) (by decide)
  have hx0 := not_written (writesAre (F := F)) 167 (y := main_c_5) (by decide)
  have hx1 := not_written (writesAre (F := F)) 167 (y := main_v129) (by decide)
  have hx2 := not_written (writesAre (F := F)) 167 (y := main_c_4) (by decide)
  exact ternary_at 167 _ hop hy hx0 hx1 hx2

theorem st_main_v131 (V0 : Valuation τ sig (Elt F)) :
    (after ops V0 (Proc.devRef .tc main_v131)) = ((broadcastInDim S6x1 ![0] bcast_S6_S6x1_0 : (⟨S6, .i32⟩ : BufTy).Contents (Elt F) → (⟨S6x1, .i32⟩ : BufTy).Contents (Elt F))) (after ops V0 (Proc.devRef .tc main_v130)) := by
  have hop : (ops (F := F))[168]'(Nat.lt_of_lt_of_eq (by decide : 168 < 177) ops_length.symm) = unary main_v130 main_v131 ((broadcastInDim S6x1 ![0] bcast_S6_S6x1_0 : (⟨S6, .i32⟩ : BufTy).Contents (Elt F) → (⟨S6x1, .i32⟩ : BufTy).Contents (Elt F))) ⟨by decide, rfl⟩ ⟨by decide, rfl⟩ := rfl
  have hy := not_written (writesAre (F := F)) 169 (y := main_v131) (by decide)
  have hx0 := not_written (writesAre (F := F)) 168 (y := main_v130) (by decide)
  exact unary_at 168 _ hop hy hx0

theorem st_main_v132 (V0 : Valuation τ sig (Elt F)) :
    (after ops V0 (Proc.devRef .tc main_v132)) = Host.gather gather_S4096x64x32x3_S6x1_S4096x64x6x3_013_2_n_n_2_1_40966413 (after ops V0 (Proc.devRef .tc main_v127)) (after ops V0 (Proc.devRef .tc main_v131)) := by
  have hop : (ops (F := F))[169]'(Nat.lt_of_lt_of_eq (by decide : 169 < 177) ops_length.symm) = binary main_v127 main_v131 main_v132 (((fun x i => Host.gather gather_S4096x64x32x3_S6x1_S4096x64x6x3_013_2_n_n_2_1_40966413 x i) : (⟨S4096x64x32x3, .f32⟩ : BufTy).Contents (Elt F) → (⟨S6x1, .i32⟩ : BufTy).Contents (Elt F) → (⟨S4096x64x6x3, .f32⟩ : BufTy).Contents (Elt F))) ⟨by decide, rfl⟩ ⟨by decide, rfl⟩ ⟨by decide, rfl⟩ := rfl
  have hy := not_written (writesAre (F := F)) 170 (y := main_v132) (by decide)
  have hx0 := not_written (writesAre (F := F)) 169 (y := main_v127) (by decide)
  have hx1 := not_written (writesAre (F := F)) 169 (y := main_v131) (by decide)
  exact binary_at 169 _ hop hy hx0 hx1

theorem st_main_c_35 (V0 : Valuation τ sig (Elt F)) :
    (after ops V0 (Proc.devRef .tc main_c_35)) = ((constantI S_ 32 32#32)) := by
  have hop : (ops (F := F))[170]'(Nat.lt_of_lt_of_eq (by decide : 170 < 177) ops_length.symm) = nullary main_c_35 ((constantI S_ 32 32#32)) ⟨by decide, rfl⟩ := rfl
  have hy := not_written (writesAre (F := F)) 171 (y := main_c_35) (by decide)
  exact nullary_at 170 _ hop hy

theorem st_main_v133 (V0 : Valuation τ sig (Elt F)) :
    (after ops V0 (Proc.devRef .tc main_v133)) = ((broadcastInDim S6 ![] bcast_S_S6 : (⟨S_, .i32⟩ : BufTy).Contents (Elt F) → (⟨S6, .i32⟩ : BufTy).Contents (Elt F))) (after ops V0 (Proc.devRef .tc main_c_35)) := by
  have hop : (ops (F := F))[171]'(Nat.lt_of_lt_of_eq (by decide : 171 < 177) ops_length.symm) = unary main_c_35 main_v133 ((broadcastInDim S6 ![] bcast_S_S6 : (⟨S_, .i32⟩ : BufTy).Contents (Elt F) → (⟨S6, .i32⟩ : BufTy).Contents (Elt F))) ⟨by decide, rfl⟩ ⟨by decide, rfl⟩ := rfl
  have hy := not_written (writesAre (F := F)) 172 (y := main_v133) (by decide)
  have hx0 := not_written (writesAre (F := F)) 171 (y := main_c_35) (by decide)
  exact unary_at 171 _ hop hy hx0

theorem st_main_v134 (V0 : Valuation τ sig (Elt F)) :
    (after ops V0 (Proc.devRef .tc main_v134)) = ((addi : (⟨S6, .i32⟩ : BufTy).Contents (Elt F) → (⟨S6, .i32⟩ : BufTy).Contents (Elt F) → (⟨S6, .i32⟩ : BufTy).Contents (Elt F))) (after ops V0 (Proc.devRef .tc main_c_6)) (after ops V0 (Proc.devRef .tc main_v133)) := by
  have hop : (ops (F := F))[172]'(Nat.lt_of_lt_of_eq (by decide : 172 < 177) ops_length.symm) = binary main_c_6 main_v133 main_v134 ((addi : (⟨S6, .i32⟩ : BufTy).Contents (Elt F) → (⟨S6, .i32⟩ : BufTy).Contents (Elt F) → (⟨S6, .i32⟩ : BufTy).Contents (Elt F))) ⟨by decide, rfl⟩ ⟨by decide, rfl⟩ ⟨by decide, rfl⟩ := rfl
  have hy := not_written (writesAre (F := F)) 173 (y := main_v134) (by decide)
  have hx0 := not_written (writesAre (F := F)) 172 (y := main_c_6) (by decide)
  have hx1 := not_written (writesAre (F := F)) 172 (y := main_v133) (by decide)
  exact binary_at 172 _ hop hy hx0 hx1

theorem st_main_v135 (V0 : Valuation τ sig (Elt F)) :
    (after ops V0 (Proc.devRef .tc main_v135)) = ((select : (⟨S6, .i1⟩ : BufTy).Contents (Elt F) → (⟨S6, .i32⟩ : BufTy).Contents (Elt F) → (⟨S6, .i32⟩ : BufTy).Contents (Elt F) → (⟨S6, .i32⟩ : BufTy).Contents (Elt F))) (after ops V0 (Proc.devRef .tc main_c_7)) (after ops V0 (Proc.devRef .tc main_v134)) (after ops V0 (Proc.devRef .tc main_c_6)) := by
  have hop : (ops (F := F))[173]'(Nat.lt_of_lt_of_eq (by decide : 173 < 177) ops_length.symm) = ternary main_c_7 main_v134 main_c_6 main_v135 ((select : (⟨S6, .i1⟩ : BufTy).Contents (Elt F) → (⟨S6, .i32⟩ : BufTy).Contents (Elt F) → (⟨S6, .i32⟩ : BufTy).Contents (Elt F) → (⟨S6, .i32⟩ : BufTy).Contents (Elt F))) ⟨by decide, rfl⟩ ⟨by decide, rfl⟩ ⟨by decide, rfl⟩ ⟨by decide, rfl⟩ := rfl
  have hy := not_written (writesAre (F := F)) 174 (y := main_v135) (by decide)
  have hx0 := not_written (writesAre (F := F)) 173 (y := main_c_7) (by decide)
  have hx1 := not_written (writesAre (F := F)) 173 (y := main_v134) (by decide)
  have hx2 := not_written (writesAre (F := F)) 173 (y := main_c_6) (by decide)
  exact ternary_at 173 _ hop hy hx0 hx1 hx2

theorem st_main_v136 (V0 : Valuation τ sig (Elt F)) :
    (after ops V0 (Proc.devRef .tc main_v136)) = ((broadcastInDim S6x1 ![0] bcast_S6_S6x1_0 : (⟨S6, .i32⟩ : BufTy).Contents (Elt F) → (⟨S6x1, .i32⟩ : BufTy).Contents (Elt F))) (after ops V0 (Proc.devRef .tc main_v135)) := by
  have hop : (ops (F := F))[174]'(Nat.lt_of_lt_of_eq (by decide : 174 < 177) ops_length.symm) = unary main_v135 main_v136 ((broadcastInDim S6x1 ![0] bcast_S6_S6x1_0 : (⟨S6, .i32⟩ : BufTy).Contents (Elt F) → (⟨S6x1, .i32⟩ : BufTy).Contents (Elt F))) ⟨by decide, rfl⟩ ⟨by decide, rfl⟩ := rfl
  have hy := not_written (writesAre (F := F)) 175 (y := main_v136) (by decide)
  have hx0 := not_written (writesAre (F := F)) 174 (y := main_v135) (by decide)
  exact unary_at 174 _ hop hy hx0

theorem st_main_v137 (V0 : Valuation τ sig (Elt F)) :
    (after ops V0 (Proc.devRef .tc main_v137)) = Host.scatter scatter_S4096x64x32x3_S6x1_S4096x64x6x3_013_2_2_1 (fun _ b => b) (after ops V0 (Proc.devRef .tc main_v127)) (after ops V0 (Proc.devRef .tc main_v136)) (after ops V0 (Proc.devRef .tc main_v132)) := by
  have hop : (ops (F := F))[175]'(Nat.lt_of_lt_of_eq (by decide : 175 < 177) ops_length.symm) = ternary main_v127 main_v136 main_v132 main_v137 (((fun x i u => Host.scatter scatter_S4096x64x32x3_S6x1_S4096x64x6x3_013_2_2_1 (fun _ b => b) x i u) : (⟨S4096x64x32x3, .f32⟩ : BufTy).Contents (Elt F) → (⟨S6x1, .i32⟩ : BufTy).Contents (Elt F) → (⟨S4096x64x6x3, .f32⟩ : BufTy).Contents (Elt F) → (⟨S4096x64x32x3, .f32⟩ : BufTy).Contents (Elt F))) ⟨by decide, rfl⟩ ⟨by decide, rfl⟩ ⟨by decide, rfl⟩ ⟨by decide, rfl⟩ := rfl
  have hy := not_written (writesAre (F := F)) 176 (y := main_v137) (by decide)
  have hx0 := not_written (writesAre (F := F)) 175 (y := main_v127) (by decide)
  have hx1 := not_written (writesAre (F := F)) 175 (y := main_v136) (by decide)
  have hx2 := not_written (writesAre (F := F)) 175 (y := main_v132) (by decide)
  exact ternary_at 175 _ hop hy hx0 hx1 hx2

theorem st_main_v138 (V0 : Valuation τ sig (Elt F)) :
    (after ops V0 (Proc.devRef .tc main_v138)) = shapeCast (main_v138 : Ref sig .tc).ty.shape (after ops V0 (Proc.devRef .tc main_v137)) shapeCasts_S4096x64x32x3_S4096x64x96 := by
  have hop : (ops (F := F))[176]'(Nat.lt_of_lt_of_eq (by decide : 176 < 177) ops_length.symm) = reshape main_v137 main_v138 rfl shapeCasts_S4096x64x32x3_S4096x64x96 ⟨by decide, rfl⟩ ⟨by decide, rfl⟩ := rfl
  have hy := not_written (writesAre (F := F)) 177 (y := main_v138) (by decide)
  have hx0 := not_written (writesAre (F := F)) 176 (y := main_v137) (by decide)
  exact (reshape_at 176 _ hop hy hx0).trans rfl

end Cert.ReferenceIdeal.RefValue

end
-- ==== Proof.LibScatterOne.lean ====
/-
  A scatter read at a position that at most one update lands on.

  A scatter applies its updates one after another: the update numbered n replaces the element at the position its start
  index names by the body's value of that element and the update (or does nothing, when the position falls outside the
  operand). Read at one position of the result: where no update lands it is the operand's element; where exactly one
  update lands it is the body's value of the operand's element and that update, whatever the order of application —
  the other updates never touch that position. With the body that returns the update this is a set, with addition it
  is the sum of the operand's element and the update. General: nothing here depends on a particular program.
-/
import Idealize.ShloMosaic.Lib.ValueIdx
import Idealize.ShloMosaic.PureOps.Ideal.Laws

noncomputable section

namespace Cert.LibScatterOne

open Idealize.ShloMosaic

variable {α : Type} {s si u : Shape} {w : Nat}

/-- Updates that all land elsewhere leave the element at the position as it was. -/
theorem fold_not_hit (d : ScatterDims s si u) (f : α → α → α) (idx : IVec si w) (upd : u.Idx → α) (i' : s.Idx) :
    ∀ (L : List (Fin u.numel)) (x : s.Idx → α), (∀ n ∈ L, d.resultIdx? (u.rowMajor.symm n) idx ≠ some i') →
      (L.foldl (fun r n =>
        match d.resultIdx? (u.rowMajor.symm n) idx with
        | some i => fun i' => if i' = i then f (r i) (upd (u.rowMajor.symm n)) else r i'
        | none => r) x) i' = x i' := by
  intro L
  induction L with
  | nil => intro x _; rfl
  | cons n L ih =>
    intro x h
    rw [List.foldl_cons, ih _ (fun m hm => h m (List.mem_cons_of_mem _ hm))]
    have hn := h n (List.mem_cons_self ..)
    cases hr : d.resultIdx? (u.rowMajor.symm n) idx with
    | none => rfl
    | some i =>
      have hne : i' ≠ i := fun e => hn (by rw [hr, e])
      show (if i' = i then _ else x i') = x i'
      rw [if_neg hne]

/-- Among updates of which exactly one lands on the position, the element there ends as the body's value of what it was
    and that update. -/
theorem fold_hit (d : ScatterDims s si u) (f : α → α → α) (idx : IVec si w) (upd : u.Idx → α) (i' : s.Idx)
    (n₀ : Fin u.numel) (h0 : d.resultIdx? (u.rowMajor.symm n₀) idx = some i') :
    ∀ (L : List (Fin u.numel)) (x : s.Idx → α), L.Nodup → n₀ ∈ L →
      (∀ n ∈ L, d.resultIdx? (u.rowMajor.symm n) idx = some i' → n = n₀) →
      (L.foldl (fun r n =>
        match d.resultIdx? (u.rowMajor.symm n) idx with
        | some i => fun i' => if i' = i then f (r i) (upd (u.rowMajor.symm n)) else r i'
        | none => r) x) i' = f (x i') (upd (u.rowMajor.symm n₀)) := by
  intro L
  induction L with
  | nil => intro x _ hm; exact absurd hm (List.not_mem_nil)
  | cons n L ih =>
    intro x hnd hm huniq
    rw [List.foldl_cons]
    by_cases hn : n = n₀
    · subst hn
      have hnot : ∀ m ∈ L, d.resultIdx? (u.rowMajor.symm m) idx ≠ some i' := fun m hmL e => by
        have := huniq m (List.mem_cons_of_mem _ hmL) e
        subst this
        exact (List.nodup_cons.1 hnd).1 hmL
      rw [fold_not_hit d f idx upd i' L _ hnot]
      rw [h0]
      show (if i' = i' then _ else x i') = _
      rw [if_pos rfl]
    · have hmL : n₀ ∈ L := by
        rcases List.mem_cons.1 hm with h | h
        · exact absurd h.symm hn
        · exact h
      have hne : d.resultIdx? (u.rowMajor.symm n) idx ≠ some i' := fun e => hn (huniq n (List.mem_cons_self ..) e)
      rw [ih _ (List.nodup_cons.1 hnd).2 hmL (fun m hmm => huniq m (List.mem_cons_of_mem _ hmm))]
      congr 1
      cases hr : d.resultIdx? (u.rowMajor.symm n) idx with
      | none => rfl
      | some i =>
        have hne' : i' ≠ i := fun e => hne (by rw [hr, e])
        show (if i' = i then _ else x i') = x i'
        rw [if_neg hne']

/-- A scatter read at a position no update lands on: the operand there. -/
theorem scatter_of_not_hit (d : ScatterDims s si u) (f : α → α → α) (x : s.Idx → α) (idx : IVec si w) (upd : u.Idx → α)
    (i' : s.Idx) (h : ∀ j : u.Idx, d.resultIdx? j idx ≠ some i') : Host.scatter d f x idx upd i' = x i' := by
  unfold Host.scatter
  exact fold_not_hit d f idx upd i' _ x (fun n _ => h _)

/-- A scatter read at a position exactly one update lands on: the body's value of the operand's element and that
    update. -/
theorem scatter_of_hit (d : ScatterDims s si u) (f : α → α → α) (x : s.Idx → α) (idx : IVec si w) (upd : u.Idx → α)
    (i' : s.Idx) (j₀ : u.Idx) (h0 : d.resultIdx? j₀ idx = some i')
    (huniq : ∀ j : u.Idx, d.resultIdx? j idx = some i' → j = j₀) :
    Host.scatter d f x idx upd i' = f (x i') (upd j₀) := by
  unfold Host.scatter
  have e : u.rowMajor.symm (u.rowMajor j₀) = j₀ := u.rowMajor.symm_apply_apply j₀
  rw [← e]
  refine fold_hit d f idx upd i' (u.rowMajor j₀) (by rw [e]; exact h0) _ x (List.nodup_finRange _) (List.mem_finRange _) ?_
  intro n _ hn
  have := huniq _ hn
  rw [← this]
  exact (u.rowMajor.apply_symm_apply n).symm

end Cert.LibScatterOne

end
-- ==== Proof.LibJointOps.lean ====
/-
  Scatters and gathers along ONE axis of a rank-4 array, read at an entry.

  The array is [B, T, J, E]; think of J as a row of joints, each with E coordinates, for every (b, t). Four operations
  address a joint by an integer word and take the other three axes whole:
    · a scatter of ONE slab [B, T, E] at the joint a single word names (`x.at[:, :, c].add(u)`, or any body);
    · a scatter of N slabs [B, T, N, E] at the joints a column [N, 1] of words names (`x.at[:, :, idx].set(u)`);
    · a gather of N joints [B, T, N, E] by a column [N, 1] of words (`x[:, :, idx]`);
    · a gather of N joints of ONE row of a second axis, by pairs of words [N, 2] (`x[:, s:s+1, idx]` for [B, S, J, E]).
  A scatter's word is read signed and not clamped: update k lands on joint j exactly when its word is j. A gather's
  word is read signed and clamped into the axis. The library states both through lists of axes and list lookups; here
  the dimension numbers are fixed, the lookups are carried out once, and each operation is an equation between
  entries. General: nothing here depends on a particular program.
-/
import proofs.«155983_j18339510354491_1_alg».proof.Proof.LibScatterOne
import Idealize.ShloMosaic.Lib.Pipeline.Value

noncomputable section

namespace Cert.LibJointOps

open Idealize.ShloMosaic Idealize.ShloMosaic.ValueIdx Cert.LibScatterOne

variable {α : Type} {w : Nat}

/-! ## Where an update lands -/

/-- An update lands on position i exactly when, on every axis, its start plus its window coordinate is i's coordinate. -/
theorem resultIdx?_eq_some_iff {s si u : Shape} (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hall
      have hi := congrFun (Option.some.inj h) a
      have hb := hall a
      rw [← hi]
      show _ = (((d.start j idx a + (d.window j a : ℤ)).toNat : ℕ) : ℤ)
      omega
    · exact absurd h (by simp)
  · intro h
    have hall : ∀ a, 0 ≤ d.start j idx a + (d.window j a : ℤ) ∧ d.start j idx a + (d.window j a : ℤ) < (s.size a : ℤ) := fun a => by
      rw [h a]
      exact ⟨by omega, by exact_mod_cast (i a).isLt⟩
    rw [dif_pos hall]
    congr 1
    funext a
    refine Fin.ext ?_
    show (d.start j idx a + (d.window j a : ℤ)).toNat = (i a).val
    rw [h a]
    simp

/-! ## One slab scattered at the joint one word names -/

/-- The dimension numbers of `x.at[:, :, c]` for an operand [B, T, J, E], one index word [1] and an update [B, T, E]. -/
abbrev slabDims (B T J E : ℕ) (wf : ScatterDims.WF ⟨4, ![B, T, J, E]⟩ ⟨1, ![1]⟩ ⟨3, ![B, T, E]⟩ [0, 1, 2] [2] [2] 0) :
    ScatterDims ⟨4, ![B, T, J, E]⟩ ⟨1, ![1]⟩ ⟨3, ![B, T, E]⟩ where
  updateWindowDims := [0, 1, 2]
  insertedWindowDims := [2]
  scatterDimsToOperandDims := [2]
  indexVectorDim := 0
  wf := wf

section Slab
variable {B T J E : ℕ} (wf : ScatterDims.WF ⟨4, ![B, T, J, E]⟩ ⟨1, ![1]⟩ ⟨3, ![B, T, E]⟩ [0, 1, 2] [2] [2] 0)

theorem slab_window (b : Fin B) (t : Fin T) (e : Fin E) (a : Fin 4) :
    (slabDims B T J E wf).window (ix3 b t e) a = (![b.val, t.val, 0, e.val] : Fin 4 → ℕ) a := by
  unfold ScatterDims.window
  match a with
  | ⟨0, _⟩ => rfl
  | ⟨1, _⟩ => rfl
  | ⟨2, _⟩ => rfl
  | ⟨3, _⟩ => rfl

theorem slab_start (idx : IVec ⟨1, ![1]⟩ w) (b : Fin B) (t : Fin T) (e : Fin E) (a : Fin 4) :
    (slabDims B T J E wf).start (ix3 b t e) idx a = (![0, 0, (idx (ix1 0)).toInt, 0] : Fin 4 → ℤ) a := by
  unfold ScatterDims.start
  match a with
  | ⟨0, _⟩ => rfl
  | ⟨1, _⟩ => rfl
  | ⟨2, _⟩ =>
    rw [dif_pos (show (⟨2, by decide⟩ : Fin 4) ∈ ([2] : List (Fin 4)) from by decide)]
    show (idx _).toInt = (idx (ix1 0)).toInt
    congr 2
    funext c
    match c with
    | ⟨0, _⟩ => exact Subsingleton.elim (α := Fin 1) _ _
  | ⟨3, _⟩ => rfl

/-- The slab's entry (b', t', e') lands on (b, t, j, e) exactly when b' = b, t' = t, e' = e and the word is j. -/
theorem slab_lands_iff (idx : IVec ⟨1, ![1]⟩ w) (b' : Fin B) (t' : Fin T) (e' : Fin E) (b : Fin B) (t : Fin T) (j : Fin J) (e : Fin E) :
    (slabDims B T J E wf).resultIdx? (ix3 b' t' e') idx = some (ix4 b t j e)
      ↔ b' = b ∧ t' = t ∧ (idx (ix1 0)).toInt = (j.val : ℤ) ∧ e' = e := by
  rw [resultIdx?_eq_some_iff]
  constructor
  · intro h
    have h0 := h 0; have h1 := h 1; have h2 := h 2; have h3 := h 3
    rw [slab_start, slab_window] at h0 h1 h2 h3
    refine ⟨Fin.ext ?_, Fin.ext ?_, ?_, Fin.ext ?_⟩
    · have : ((0 : ℤ) + (b'.val : ℤ)) = (b.val : ℤ) := h0
      omega
    · have : ((0 : ℤ) + (t'.val : ℤ)) = (t.val : ℤ) := h1
      omega
    · have : ((idx (ix1 0)).toInt + ((0 : ℕ) : ℤ)) = (j.val : ℤ) := h2
      omega
    · have : ((0 : ℤ) + (e'.val : ℤ)) = (e.val : ℤ) := h3
      omega
  · rintro ⟨rfl, rfl, hj, rfl⟩ a
    rw [slab_start, slab_window]
    match a with
    | ⟨0, _⟩ => show ((0 : ℤ) + (b'.val : ℤ)) = (b'.val : ℤ); omega
    | ⟨1, _⟩ => show ((0 : ℤ) + (t'.val : ℤ)) = (t'.val : ℤ); omega
    | ⟨2, _⟩ => show ((idx (ix1 0)).toInt + ((0 : ℕ) : ℤ)) = (j.val : ℤ); omega
    | ⟨3, _⟩ => show ((0 : ℤ) + (e'.val : ℤ)) = (e'.val : ℤ); omega

/-- THE SLAB SCATTER READ AT (b, t, j, e): at the joint the word names, the body's value of the operand's entry and the
    slab's entry (b, t, e); at every other joint, the operand's entry. -/
theorem slabScatter_at (f : α → α → α) (x : (⟨4, ![B, T, J, E]⟩ : Shape).Idx → α) (idx : IVec ⟨1, ![1]⟩ w)
    (upd : (⟨3, ![B, T, E]⟩ : Shape).Idx → α) (b : Fin B) (t : Fin T) (j : Fin J) (e : Fin E) :
    Host.scatter (slabDims B T J E wf) f x idx upd (ix4 b t j e)
      = if (idx (ix1 0)).toInt = (j.val : ℤ) then f (x (ix4 b t j e)) (upd (ix3 b t e)) else x (ix4 b t j e) := by
  by_cases hj : (idx (ix1 0)).toInt = (j.val : ℤ)
  · rw [if_pos hj]
    refine scatter_of_hit _ f x idx upd _ (ix3 b t e) ((slab_lands_iff wf idx b t e b t j e).mpr ⟨rfl, rfl, hj, rfl⟩) ?_
    intro q hq
    rw [eq_ix3 q] at hq ⊢
    obtain ⟨h0, h1, -, h3⟩ := (slab_lands_iff wf idx _ _ _ b t j e).mp hq
    rw [h0, h1, h3]
    rfl
  · rw [if_neg hj]
    refine scatter_of_not_hit _ f x idx upd _ ?_
    intro q hq
    rw [eq_ix3 q] at hq
    exact hj ((slab_lands_iff wf idx _ _ _ b t j e).mp hq).2.2.1

end Slab

/-! ## N slabs scattered at the joints a column of words names -/

/-- The dimension numbers of `x.at[:, :, idx]` for an operand [B, T, J, E], a column [N, 1] of words and updates
    [B, T, N, E]. -/
abbrev colDims (B T J E N : ℕ) (wf : ScatterDims.WF ⟨4, ![B, T, J, E]⟩ ⟨2, ![N, 1]⟩ ⟨4, ![B, T, N, E]⟩ [0, 1, 3] [2] [2] 1) :
    ScatterDims ⟨4, ![B, T, J, E]⟩ ⟨2, ![N, 1]⟩ ⟨4, ![B, T, N, E]⟩ where
  updateWindowDims := [0, 1, 3]
  insertedWindowDims := [2]
  scatterDimsToOperandDims := [2]
  indexVectorDim := 1
  wf := wf

section Col
variable {B T J E N : ℕ} (wf : ScatterDims.WF ⟨4, ![B, T, J, E]⟩ ⟨2, ![N, 1]⟩ ⟨4, ![B, T, N, E]⟩ [0, 1, 3] [2] [2] 1)

theorem col_window (b : Fin B) (t : Fin T) (k : Fin N) (e : Fin E) (a : Fin 4) :
    (colDims B T J E N wf).window (ix4 b t k e) a = (![b.val, t.val, 0, e.val] : Fin 4 → ℕ) a := by
  unfold ScatterDims.window
  match a with
  | ⟨0, _⟩ => rfl
  | ⟨1, _⟩ => rfl
  | ⟨2, _⟩ => rfl
  | ⟨3, _⟩ => rfl

theorem col_siIdx (b : Fin B) (t : Fin T) (k : Fin N) (e : Fin E)
    (c : Fin (colDims B T J E N wf).scatterDimsToOperandDims.length) :
    (colDims B T J E N wf).siIdx (ix4 b t k e) c = ix2 k (0 : Fin 1) := by
  funext a; refine Fin.ext ?_
  match a with
  | ⟨0, _⟩ => rfl
  | ⟨1, _⟩ =>
    have := c.isLt
    show c.val = 0
    simp only [List.length_singleton] at this
    omega

theorem col_start (idx : IVec ⟨2, ![N, 1]⟩ w) (b : Fin B) (t : Fin T) (k : Fin N) (e : Fin E) (a : Fin 4) :
    (colDims B T J E N wf).start (ix4 b t k e) idx a = (![0, 0, (idx (ix2 k (0 : Fin 1))).toInt, 0] : Fin 4 → ℤ) a := by
  unfold ScatterDims.start
  match a with
  | ⟨0, _⟩ => rfl
  | ⟨1, _⟩ => rfl
  | ⟨2, _⟩ =>
    rw [dif_pos (show (⟨2, by decide⟩ : Fin 4) ∈ ([2] : List (Fin 4)) from by decide)]
    rw [col_siIdx]
    rfl
  | ⟨3, _⟩ => rfl

/-- Update (b', t', k, e') lands on (b, t, j, e) exactly when b' = b, t' = t, e' = e and the k-th word is j. -/
theorem col_lands_iff (idx : IVec ⟨2, ![N, 1]⟩ w) (b' : Fin B) (t' : Fin T) (k : Fin N) (e' : Fin E)
    (b : Fin B) (t : Fin T) (j : Fin J) (e : Fin E) :
    (colDims B T J E N wf).resultIdx? (ix4 b' t' k e') idx = some (ix4 b t j e)
      ↔ b' = b ∧ t' = t ∧ (idx (ix2 k (0 : Fin 1))).toInt = (j.val : ℤ) ∧ e' = e := by
  rw [resultIdx?_eq_some_iff]
  constructor
  · intro h
    have h0 := h 0; have h1 := h 1; have h2 := h 2; have h3 := h 3
    rw [col_start, col_window] at h0 h1 h2 h3
    refine ⟨Fin.ext ?_, Fin.ext ?_, ?_, Fin.ext ?_⟩
    · have : ((0 : ℤ) + (b'.val : ℤ)) = (b.val : ℤ) := h0
      omega
    · have : ((0 : ℤ) + (t'.val : ℤ)) = (t.val : ℤ) := h1
      omega
    · have : ((idx (ix2 k (0 : Fin 1))).toInt + ((0 : ℕ) : ℤ)) = (j.val : ℤ) := h2
      omega
    · have : ((0 : ℤ) + (e'.val : ℤ)) = (e.val : ℤ) := h3
      omega
  · rintro ⟨rfl, rfl, hj, rfl⟩ a
    rw [col_start, col_window]
    match a with
    | ⟨0, _⟩ => show ((0 : ℤ) + (b'.val : ℤ)) = (b'.val : ℤ); omega
    | ⟨1, _⟩ => show ((0 : ℤ) + (t'.val : ℤ)) = (t'.val : ℤ); omega
    | ⟨2, _⟩ => show ((idx (ix2 k (0 : Fin 1))).toInt + ((0 : ℕ) : ℤ)) = (j.val : ℤ); omega
    | ⟨3, _⟩ => show ((0 : ℤ) + (e'.val : ℤ)) = (e'.val : ℤ); omega

/-- THE COLUMN SCATTER READ AT A JOINT ONE WORD NAMES: when the k-th word is j and no other word is, the body's value
    of the operand's entry and the k-th slab's entry. -/
theorem colScatter_at_hit (f : α → α → α) (x : (⟨4, ![B, T, J, E]⟩ : Shape).Idx → α) (idx : IVec ⟨2, ![N, 1]⟩ w)
    (upd : (⟨4, ![B, T, N, E]⟩ : Shape).Idx → α) (b : Fin B) (t : Fin T) (j : Fin J) (e : Fin E) (k : Fin N)
    (hk : (idx (ix2 k (0 : Fin 1))).toInt = (j.val : ℤ))
    (huniq : ∀ k' : Fin N, (idx (ix2 k' (0 : Fin 1))).toInt = (j.val : ℤ) → k' = k) :
    Host.scatter (colDims B T J E N wf) f x idx upd (ix4 b t j e) = f (x (ix4 b t j e)) (upd (ix4 b t k e)) := by
  refine scatter_of_hit _ f x idx upd _ (ix4 b t k e) ((col_lands_iff wf idx b t k e b t j e).mpr ⟨rfl, rfl, hk, rfl⟩) ?_
  intro q hq
  rw [eq_ix4 q] at hq ⊢
  obtain ⟨h0, h1, h2, h3⟩ := (col_lands_iff wf idx _ _ _ _ b t j e).mp hq
  rw [h0, h1, h3, huniq _ h2]
  rfl

/-- THE COLUMN SCATTER READ AT A JOINT NO WORD NAMES: the operand's entry. -/
theorem colScatter_at_miss (f : α → α → α) (x : (⟨4, ![B, T, J, E]⟩ : Shape).Idx → α) (idx : IVec ⟨2, ![N, 1]⟩ w)
    (upd : (⟨4, ![B, T, N, E]⟩ : Shape).Idx → α) (b : Fin B) (t : Fin T) (j : Fin J) (e : Fin E)
    (hmiss : ∀ k : Fin N, (idx (ix2 k (0 : Fin 1))).toInt ≠ (j.val : ℤ)) :
    Host.scatter (colDims B T J E N wf) f x idx upd (ix4 b t j e) = x (ix4 b t j e) := by
  refine scatter_of_not_hit _ f x idx upd _ ?_
  intro q hq
  rw [eq_ix4 q] at hq
  exact hmiss _ ((col_lands_iff wf idx _ _ _ _ b t j e).mp hq).2.2.1

/-- THE COLUMN SCATTER READ AT ANY JOINT, for words that name pairwise distinct joints c k: at a joint some word
    names, the body's value of the operand's entry and that slab's entry; at any other joint the operand's entry. -/
theorem colScatter_at (f : α → α → α) (x : (⟨4, ![B, T, J, E]⟩ : Shape).Idx → α) (idx : IVec ⟨2, ![N, 1]⟩ w)
    (upd : (⟨4, ![B, T, N, E]⟩ : Shape).Idx → α) (c : Fin N → Fin J)
    (hc : ∀ k, (idx (ix2 k (0 : Fin 1))).toInt = ((c k).val : ℤ)) (hinj : Function.Injective c)
    (b : Fin B) (t : Fin T) (j : Fin J) (e : Fin E) :
    Host.scatter (colDims B T J E N wf) f x idx upd (ix4 b t j e)
      = ((List.finRange N).find? (fun k => decide (c k = j))).elim (x (ix4 b t j e))
          (fun k => f (x (ix4 b t j e)) (upd (ix4 b t k e))) := by
  cases hf : (List.finRange N).find? (fun k => decide (c k = j)) with
  | none =>
    show _ = x (ix4 b t j e)
    refine colScatter_at_miss wf f x idx upd b t j e ?_
    intro k hk
    have h1 := List.find?_eq_none.mp hf k (List.mem_finRange k)
    apply h1
    rw [decide_eq_true_eq]
    refine Fin.ext ?_
    have := hc k
    omega
  | some k =>
    show _ = f (x (ix4 b t j e)) (upd (ix4 b t k e))
    have hk0 : (fun k => decide (c k = j)) k = true := List.find?_some (p := fun k => decide (c k = j)) hf
    have hkj : c k = j := of_decide_eq_true hk0
    refine colScatter_at_hit wf f x idx upd b t j e k (by rw [hc k, hkj]) ?_
    intro k' hk'
    apply hinj
    refine Fin.ext ?_
    have h1 := hc k'
    rw [← hkj] at hk'
    omega

end Col

/-! ## N joints gathered by a column of words -/

/-- The dimension numbers of `x[:, :, idx]` for an operand [B, T, J, E], a column [N, 1] of words and the result
    [B, T, N, E]. -/
abbrev colGatherDims (B T J E N : ℕ)
    (wf : GatherDims.WF ⟨4, ![B, T, J, E]⟩ ⟨2, ![N, 1]⟩ ⟨4, ![B, T, N, E]⟩ [0, 1, 3] [2] [] [2] [] 1 ![B, T, 1, E]) :
    GatherDims ⟨4, ![B, T, J, E]⟩ ⟨2, ![N, 1]⟩ ⟨4, ![B, T, N, E]⟩ where
  offsetDims := [0, 1, 3]
  collapsedSliceDims := [2]
  operandBatchingDims := []
  startIndicesBatchingDims := []
  startIndexMap := [2]
  indexVectorDim := 1
  sliceSizes := ![B, T, 1, E]
  wf := wf

section ColGather
variable {B T J E N : ℕ}
  (wf : GatherDims.WF ⟨4, ![B, T, J, E]⟩ ⟨2, ![N, 1]⟩ ⟨4, ![B, T, N, E]⟩ [0, 1, 3] [2] [] [2] [] 1 ![B, T, 1, E])

theorem colGather_siIdx (b : Fin B) (t : Fin T) (k : Fin N) (e : Fin E)
    (c : Fin (colGatherDims B T J E N wf).startIndexMap.length) :
    (colGatherDims B T J E N wf).siIdx (ix4 b t k e) c = ix2 k (0 : Fin 1) := by
  funext a; refine Fin.ext ?_
  match a with
  | ⟨0, _⟩ => rfl
  | ⟨1, _⟩ =>
    have := c.isLt
    show c.val = 0
    simp only [List.length_singleton] at this
    omega

theorem colGather_offCoord (b : Fin B) (t : Fin T) (k : Fin N) (e : Fin E) (a : Fin 4) :
    (colGatherDims B T J E N wf).offCoord (ix4 b t k e) a = (![b.val, t.val, 0, e.val] : Fin 4 → ℕ) a := by
  unfold GatherDims.offCoord
  match a with
  | ⟨0, _⟩ => rfl
  | ⟨1, _⟩ => rfl
  | ⟨2, _⟩ => rfl
  | ⟨3, _⟩ => rfl

theorem colGather_start (idx : IVec ⟨2, ![N, 1]⟩ w) (b : Fin B) (t : Fin T) (k : Fin N) (e : Fin E) (a : Fin 4) :
    (colGatherDims B T J E N wf).start (ix4 b t k e) idx a
      = (![0, 0, min (idx (ix2 k (0 : Fin 1))).toInt.toNat (J - 1), 0] : Fin 4 → ℕ) a := by
  unfold GatherDims.start
  match a with
  | ⟨0, _⟩ => rfl
  | ⟨1, _⟩ => rfl
  | ⟨2, _⟩ =>
    rw [dif_pos (show (⟨2, by decide⟩ : Fin 4) ∈ ([2] : List (Fin 4)) from by decide)]
    rw [colGather_siIdx]
    rfl
  | ⟨3, _⟩ => rfl

/-- THE COLUMN GATHER READ AT (b, t, k, e): the operand at the joint the k-th word names, read signed and clamped. -/
theorem colGather_at (hJ : 0 < J) (x : (⟨4, ![B, T, J, E]⟩ : Shape).Idx → α) (idx : IVec ⟨2, ![N, 1]⟩ w)
    (b : Fin B) (t : Fin T) (k : Fin N) (e : Fin E) :
    Host.gather (colGatherDims B T J E N wf) x idx (ix4 b t k e)
      = x (ix4 b t (⟨min (idx (ix2 k (0 : Fin 1))).toInt.toNat (J - 1), by omega⟩ : Fin J) e) := by
  unfold Host.gather
  congr 1
  funext a
  refine Fin.ext ?_
  show (colGatherDims B T J E N wf).start (ix4 b t k e) idx a + (colGatherDims B T J E N wf).batchCoord (ix4 b t k e) a
    + (colGatherDims B T J E N wf).offCoord (ix4 b t k e) a = _
  rw [GatherDims.batchCoord_eq_zero _ _ _ List.not_mem_nil, colGather_start, colGather_offCoord]
  match a with
  | ⟨0, _⟩ => show 0 + 0 + b.val = b.val; omega
  | ⟨1, _⟩ => show 0 + 0 + t.val = t.val; omega
  | ⟨2, _⟩ => show min (idx (ix2 k (0 : Fin 1))).toInt.toNat (J - 1) + 0 + 0 = min (idx (ix2 k (0 : Fin 1))).toInt.toNat (J - 1); omega
  | ⟨3, _⟩ => show 0 + 0 + e.val = e.val; omega

end ColGather

/-! ## N joints of one row gathered by pairs of words -/

/-- The dimension numbers of `x[:, s:s+1, idx]` for an operand [B, S, J, E], pairs of words [N, 2] (the row, then the
    joint) and the result [B, 1, N, E]. -/
abbrev pairGatherDims (B S J E N : ℕ)
    (wf : GatherDims.WF ⟨4, ![B, S, J, E]⟩ ⟨2, ![N, 2]⟩ ⟨4, ![B, 1, N, E]⟩ [0, 1, 3] [2] [] [1, 2] [] 1 ![B, 1, 1, E]) :
    GatherDims ⟨4, ![B, S, J, E]⟩ ⟨2, ![N, 2]⟩ ⟨4, ![B, 1, N, E]⟩ where
  offsetDims := [0, 1, 3]
  collapsedSliceDims := [2]
  operandBatchingDims := []
  startIndicesBatchingDims := []
  startIndexMap := [1, 2]
  indexVectorDim := 1
  sliceSizes := ![B, 1, 1, E]
  wf := wf

section PairGather
variable {B S J E N : ℕ}
  (wf : GatherDims.WF ⟨4, ![B, S, J, E]⟩ ⟨2, ![N, 2]⟩ ⟨4, ![B, 1, N, E]⟩ [0, 1, 3] [2] [] [1, 2] [] 1 ![B, 1, 1, E])

theorem pairGather_siIdx (b : Fin B) (z : Fin 1) (k : Fin N) (e : Fin E)
    (c : Fin (pairGatherDims B S J E N wf).startIndexMap.length) :
    (pairGatherDims B S J E N wf).siIdx (ix4 b z k e) c = ix2 k (⟨c.val, c.isLt⟩ : Fin 2) := by
  funext a; refine Fin.ext ?_
  match a with
  | ⟨0, _⟩ => rfl
  | ⟨1, _⟩ => rfl

theorem pairGather_offCoord (b : Fin B) (z : Fin 1) (k : Fin N) (e : Fin E) (a : Fin 4) :
    (pairGatherDims B S J E N wf).offCoord (ix4 b z k e) a = (![b.val, z.val, 0, e.val] : Fin 4 → ℕ) a := by
  unfold GatherDims.offCoord
  match a with
  | ⟨0, _⟩ => rfl
  | ⟨1, _⟩ => rfl
  | ⟨2, _⟩ => rfl
  | ⟨3, _⟩ => rfl

theorem pairGather_start (idx : IVec ⟨2, ![N, 2]⟩ w) (b : Fin B) (z : Fin 1) (k : Fin N) (e : Fin E) (a : Fin 4) :
    (pairGatherDims B S J E N wf).start (ix4 b z k e) idx a
      = (![0, min (idx (ix2 k (0 : Fin 2))).toInt.toNat (S - 1), min (idx (ix2 k (1 : Fin 2))).toInt.toNat (J - 1), 0] : Fin 4 → ℕ) a := by
  unfold GatherDims.start
  match a with
  | ⟨0, _⟩ => rfl
  | ⟨1, _⟩ =>
    rw [dif_pos (show (⟨1, by decide⟩ : Fin 4) ∈ ([1, 2] : List (Fin 4)) from by decide)]
    rw [pairGather_siIdx]
    rfl
  | ⟨2, _⟩ =>
    rw [dif_pos (show (⟨2, by decide⟩ : Fin 4) ∈ ([1, 2] : List (Fin 4)) from by decide)]
    rw [pairGather_siIdx]
    rfl
  | ⟨3, _⟩ => rfl

/-- THE PAIR GATHER READ AT (b, 0, k, e): the operand at the row and the joint the k-th pair of words names, each read
    signed and clamped. -/
theorem pairGather_at (hS : 0 < S) (hJ : 0 < J) (x : (⟨4, ![B, S, J, E]⟩ : Shape).Idx → α) (idx : IVec ⟨2, ![N, 2]⟩ w)
    (b : Fin B) (z : Fin 1) (k : Fin N) (e : Fin E) :
    Host.gather (pairGatherDims B S J E N wf) x idx (ix4 b z k e)
      = x (ix4 b (⟨min (idx (ix2 k (0 : Fin 2))).toInt.toNat (S - 1), by omega⟩ : Fin S)
          (⟨min (idx (ix2 k (1 : Fin 2))).toInt.toNat (J - 1), by omega⟩ : Fin J) e) := by
  unfold Host.gather
  congr 1
  funext a
  refine Fin.ext ?_
  show (pairGatherDims B S J E N wf).start (ix4 b z k e) idx a + (pairGatherDims B S J E N wf).batchCoord (ix4 b z k e) a
    + (pairGatherDims B S J E N wf).offCoord (ix4 b z k e) a = _
  rw [GatherDims.batchCoord_eq_zero _ _ _ List.not_mem_nil, pairGather_start, pairGather_offCoord]
  have hz : z.val = 0 := by have := z.isLt; omega
  match a with
  | ⟨0, _⟩ => show 0 + 0 + b.val = b.val; omega
  | ⟨1, _⟩ => show min (idx (ix2 k (0 : Fin 2))).toInt.toNat (S - 1) + 0 + z.val = min (idx (ix2 k (0 : Fin 2))).toInt.toNat (S - 1); omega
  | ⟨2, _⟩ => show min (idx (ix2 k (1 : Fin 2))).toInt.toNat (J - 1) + 0 + 0 = min (idx (ix2 k (1 : Fin 2))).toInt.toNat (J - 1); omega
  | ⟨3, _⟩ => show 0 + 0 + e.val = e.val; omega

end PairGather

end Cert.LibJointOps

end
-- ==== Proof.LibPointScatter.lean ====
/-
  A scatter that adds ONE number per update into a rank-3 array, read at an entry.

  `x.at[i0, i1, i2].add(u)` for an operand x : [N0, N1, N2], updates u : [E0, E1, E2] and an index array
  [E0, E1, E2, 3] whose last axis holds, for every update, the three words naming the entry it is added to: every
  operand axis is named by a word, no update has a window.  Update e lands on entry i exactly when its three words,
  read as signed integers, are the three coordinates of i; a word outside the operand's extent lands nowhere.  So
  entry i of the result is x(i) plus the sum of the updates whose three words are i's coordinates.
  Also: a sum over all [A, B, D] indices of a term that vanishes off the fibre (p, q, ·) is the sum over that fibre.
  The library states the scatter through lists of axes and list lookups; here the dimension numbers are fixed and the
  lookups are carried out once.  Nothing depends on a particular program.
-/
import Idealize.ShloMosaic.PureOps.Ideal
import Idealize.ShloMosaic.Lib.ValueIdx
import Idealize.ShloMosaic.Lib.Pipeline.Value

noncomputable section

open scoped BigOperators

namespace Cert.LibPointScatter

open Idealize.ShloMosaic Idealize.ShloMosaic.ValueIdx

/-! ## Sums over rank-3 indices -/

/-- A rank-3 index set is the product of its three coordinate ranges … -/
def idxEquiv3 {A B D : ℕ} : (⟨3, ![A, B, D]⟩ : Shape).Idx ≃ Fin A × Fin B × Fin D where
  toFun i := (i 0, i 1, i 2)
  invFun t := ix3 t.1 t.2.1 t.2.2
  left_inv i := (eq_ix3 i).symm
  right_inv _ := rfl

/-- … so a sum over it is the triple sum over the coordinates. -/
theorem sum_idx3 {M : Type*} [AddCommMonoid M] {A B D : ℕ} (f : (⟨3, ![A, B, D]⟩ : Shape).Idx → M) :
    ∑ i, f i = ∑ a : Fin A, ∑ b : Fin B, ∑ c : Fin D, f (ix3 a b c) := by
  rw [← Equiv.sum_comp (idxEquiv3 (A := A) (B := B) (D := D)).symm f, Fintype.sum_prod_type]
  refine Finset.sum_congr rfl fun a _ => ?_
  rw [Fintype.sum_prod_type]
  rfl

/-- A term that vanishes unless the first two coordinates are (p, q) sums to the sum over the fibre (p, q, ·). -/
theorem sum_fibre3 {M : Type*} [AddCommMonoid M] {A B D : ℕ} (p : Fin A) (q : Fin B)
    (f : (⟨3, ![A, B, D]⟩ : Shape).Idx → M) :
    ∑ e, (if (e 0).val = p.val ∧ (e 1).val = q.val then f e else 0) = ∑ d : Fin D, f (ix3 p q d) := by
  rw [sum_idx3]
  have hab : ∀ (a : Fin A) (b : Fin B),
      (∑ c : Fin D, if ((ix3 a b c : (⟨3, ![A, B, D]⟩ : Shape).Idx) 0).val = p.val
            ∧ ((ix3 a b c : (⟨3, ![A, B, D]⟩ : Shape).Idx) 1).val = q.val
          then f (ix3 a b c) else 0)
        = if a.val = p.val ∧ b.val = q.val then ∑ c : Fin D, f (ix3 a b c) else 0 := by
    intro a b
    by_cases h : a.val = p.val ∧ b.val = q.val
    · rw [if_pos h]; exact Finset.sum_congr rfl fun c _ => if_pos h
    · rw [if_neg h]; exact Finset.sum_eq_zero fun c _ => if_neg h
  simp only [hab]
  rw [Finset.sum_eq_single p (fun a _ ha => Finset.sum_eq_zero fun b _ => if_neg (fun h => ha (Fin.ext h.1)))
    (fun h => absurd (Finset.mem_univ p) h)]
  rw [Finset.sum_eq_single q (fun b _ hb => if_neg (fun h => hb (Fin.ext h.2))) (fun h => absurd (Finset.mem_univ q) h)]
  exact if_pos ⟨rfl, rfl⟩

/-! ## The index array assembled from one array of words per operand axis -/

variable {α : Type}

/-- The extents of the pieces along axis `ax` of the result, as the library's lemma sums them. -/
abbrev widths {t : Shape} (ax : Fin t.rank) (ss : List Shape) : List Nat :=
  ss.map fun s => if h : s.rank = t.rank then s.size (ax.cast h.symm) else 0

/-- Unit-width arrays [E0, E1, E2, 1] set side by side along the last axis into [E0, E1, E2, K]: entry (e0, e1, e2, j) of
    the result is entry (e0, e1, e2, 0) of the j-th piece.  The piece is named by an equation that walking the literal
    list decides; that the j pieces before it have width one each is a sum over the literal prefix. -/
theorem unitWords_at {E0 E1 E2 K : ℕ} (xs : List ((s : Shape) × (s.Idx → α)))
    (h : Shape.Concatenates (xs.map (·.1)) ⟨4, ![E0, E1, E2, K]⟩ (3 : Fin 4)) (e0 : Fin E0) (e1 : Fin E1) (e2 : Fin E2)
    (j : Fin K) (x₁ : (⟨4, ![E0, E1, E2, 1]⟩ : Shape).Idx → α)
    (hxk : xs[j.val]? = some ⟨⟨4, ![E0, E1, E2, 1]⟩, x₁⟩)
    (hpre : (widths (t := ⟨4, ![E0, E1, E2, K]⟩) (3 : Fin 4) ((xs.take j.val).map (·.1))).sum = j.val) :
    concatenate ⟨4, ![E0, E1, E2, K]⟩ (3 : Fin 4) xs h (ix4 e0 e1 e2 j) = x₁ (ix4 e0 e1 e2 (0 : Fin 1)) := by
  obtain ⟨hk, hxk'⟩ := List.getElem?_eq_some_iff.mp hxk
  exact concatenate_apply_piece (t := ⟨4, ![E0, E1, E2, K]⟩) (3 : Fin 4) xs h (ix4 e0 e1 e2 j) j.val hk
    ⟨4, ![E0, E1, E2, 1]⟩ x₁ hxk' rfl j.val hpre (ix4 e0 e1 e2 (0 : Fin 1))
    (fun d hd => by
      match d with
      | ⟨0, _⟩ => rfl
      | ⟨1, _⟩ => rfl
      | ⟨2, _⟩ => rfl
      | ⟨3, _⟩ => exact absurd rfl hd) rfl

/-! ## The scatter's dimension numbers, looked up once -/

/-- The dimension numbers of `x.at[i0, i1, i2].add(u)`: no update window axis, every operand axis inserted and named
    by the word in its position of the index vector, which lies on the index array's last axis. -/
abbrev pointDims (N0 N1 N2 E0 E1 E2 : ℕ)
    (wf : ScatterDims.WF ⟨3, ![N0, N1, N2]⟩ ⟨4, ![E0, E1, E2, 3]⟩ ⟨3, ![E0, E1, E2]⟩ [] [0, 1, 2] [0, 1, 2] 3) :
    ScatterDims ⟨3, ![N0, N1, N2]⟩ ⟨4, ![E0, E1, E2, 3]⟩ ⟨3, ![E0, E1, E2]⟩ where
  updateWindowDims := []
  insertedWindowDims := [0, 1, 2]
  scatterDimsToOperandDims := [0, 1, 2]
  indexVectorDim := 3
  wf := wf

section
variable {N0 N1 N2 E0 E1 E2 w : ℕ}
  (wf : ScatterDims.WF ⟨3, ![N0, N1, N2]⟩ ⟨4, ![E0, E1, E2, 3]⟩ ⟨3, ![E0, E1, E2]⟩ [] [0, 1, 2] [0, 1, 2] 3)

/-- Update (e0, e1, e2) reads component c of its index vector at [e0, e1, e2, c]. -/
theorem point_siIdx (e0 : Fin E0) (e1 : Fin E1) (e2 : Fin E2)
    (c : Fin (pointDims N0 N1 N2 E0 E1 E2 wf).scatterDimsToOperandDims.length) :
    (pointDims N0 N1 N2 E0 E1 E2 wf).siIdx (ix3 e0 e1 e2) c = ix4 e0 e1 e2 (⟨c.val, c.isLt⟩ : Fin 3) := by
  funext b; refine Fin.ext ?_
  match b with
  | ⟨0, _⟩ => rfl
  | ⟨1, _⟩ => rfl
  | ⟨2, _⟩ => rfl
  | ⟨3, _⟩ => rfl

/-- On operand axis a the update starts at its a-th word, read signed and not clamped. -/
theorem point_start (idx : IVec ⟨4, ![E0, E1, E2, 3]⟩ w) (e0 : Fin E0) (e1 : Fin E1) (e2 : Fin E2) (a : Fin 3) :
    (pointDims N0 N1 N2 E0 E1 E2 wf).start (ix3 e0 e1 e2) idx a = (idx (ix4 e0 e1 e2 a)).toInt := by
  unfold ScatterDims.start
  match a with
  | ⟨0, _⟩ =>
    rw [dif_pos (show (⟨0, by decide⟩ : Fin 3) ∈ ([0, 1, 2] : List (Fin 3)) from by decide)]
    rw [point_siIdx]; rfl
  | ⟨1, _⟩ =>
    rw [dif_pos (show (⟨1, by decide⟩ : Fin 3) ∈ ([0, 1, 2] : List (Fin 3)) from by decide)]
    rw [point_siIdx]; rfl
  | ⟨2, _⟩ =>
    rw [dif_pos (show (⟨2, by decide⟩ : Fin 3) ∈ ([0, 1, 2] : List (Fin 3)) from by decide)]
    rw [point_siIdx]; rfl

/-- No operand axis is kept: every one is an inserted window axis. -/
theorem point_not_mem_sKept (a : Fin 3) : a ∉ (pointDims N0 N1 N2 E0 E1 E2 wf).sKept := by
  intro h
  have h2 : a ∉ ([0, 1, 2] : List (Fin 3)) := by
    simpa [ScatterDims.sKept, Shape.kept, List.mem_filter] using h
  have v0 : a.val ≠ 0 := fun e => h2 ((Fin.ext e : a = 0) ▸ (by decide : (0 : Fin 3) ∈ ([0, 1, 2] : List (Fin 3))))
  have v1 : a.val ≠ 1 := fun e => h2 ((Fin.ext e : a = 1) ▸ (by decide : (1 : Fin 3) ∈ ([0, 1, 2] : List (Fin 3))))
  have v2 : a.val ≠ 2 := fun e => h2 ((Fin.ext e : a = 2) ▸ (by decide : (2 : Fin 3) ∈ ([0, 1, 2] : List (Fin 3))))
  have := a.isLt
  omega

/-- So the window coordinate is 0 on every axis. -/
theorem point_window (e : (⟨3, ![E0, E1, E2]⟩ : Shape).Idx) (a : Fin 3) :
    (pointDims N0 N1 N2 E0 E1 E2 wf).window e a = 0 := by
  unfold ScatterDims.window
  rw [dif_neg (point_not_mem_sKept wf a)]

/-- WHERE UPDATE (e0, e1, e2) LANDS: on entry i exactly when its three words, read signed, are i's coordinates. -/
theorem point_resultIdx_iff (idx : IVec ⟨4, ![E0, E1, E2, 3]⟩ w) (e0 : Fin E0) (e1 : Fin E1) (e2 : Fin E2)
    (i : (⟨3, ![N0, N1, N2]⟩ : Shape).Idx) :
    (pointDims N0 N1 N2 E0 E1 E2 wf).resultIdx? (ix3 e0 e1 e2) idx = some i
      ↔ ∀ a : Fin 3, (idx (ix4 e0 e1 e2 a)).toInt = ((i a).val : ℤ) := by
  have hs : ∀ a : Fin 3, (pointDims N0 N1 N2 E0 E1 E2 wf).start (ix3 e0 e1 e2) idx a
      + ((pointDims N0 N1 N2 E0 E1 E2 wf).window (ix3 e0 e1 e2) a : ℤ) = (idx (ix4 e0 e1 e2 a)).toInt := fun a => by
    rw [point_start, point_window]; simp
  unfold ScatterDims.resultIdx?
  constructor
  · intro h a
    split at h
    · rename_i hall
      have hi := congrFun (Option.some.inj h) a
      have hb := hall a
      rw [hs a] at hb
      rw [← hi]
      show (idx (ix4 e0 e1 e2 a)).toInt = (((pointDims N0 N1 N2 E0 E1 E2 wf).start (ix3 e0 e1 e2) idx a
        + ((pointDims N0 N1 N2 E0 E1 E2 wf).window (ix3 e0 e1 e2) a : ℤ)).toNat : ℤ)
      rw [hs a]
      omega
    · exact absurd h (by simp)
  · intro h
    have hall : ∀ a : Fin 3, 0 ≤ (pointDims N0 N1 N2 E0 E1 E2 wf).start (ix3 e0 e1 e2) idx a
          + ((pointDims N0 N1 N2 E0 E1 E2 wf).window (ix3 e0 e1 e2) a : ℤ)
        ∧ (pointDims N0 N1 N2 E0 E1 E2 wf).start (ix3 e0 e1 e2) idx a
          + ((pointDims N0 N1 N2 E0 E1 E2 wf).window (ix3 e0 e1 e2) a : ℤ) < ((⟨3, ![N0, N1, N2]⟩ : Shape).size a : ℤ) := fun a => by
      rw [hs a, h a]
      exact ⟨by omega, by exact_mod_cast (i a).isLt⟩
    rw [dif_pos hall]
    congr 1
    funext a
    refine Fin.ext ?_
    show ((pointDims N0 N1 N2 E0 E1 E2 wf).start (ix3 e0 e1 e2) idx a
        + ((pointDims N0 N1 N2 E0 E1 E2 wf).window (ix3 e0 e1 e2) a : ℤ)).toNat = (i a).val
    rw [hs a, h a]
    simp

/-- THE SCATTER-ADD READ AT i: the operand's entry plus the sum of the updates whose three words are i's coordinates. -/
theorem pointScatterAdd_at (x : (⟨3, ![N0, N1, N2]⟩ : Shape).Idx → EReal) (idx : IVec ⟨4, ![E0, E1, E2, 3]⟩ w)
    (upd : (⟨3, ![E0, E1, E2]⟩ : Shape).Idx → EReal) (i : (⟨3, ![N0, N1, N2]⟩ : Shape).Idx) :
    Ideal.hostScatterAdd (pointDims N0 N1 N2 E0 E1 E2 wf) x idx upd i
      = x i + ∑ e : (⟨3, ![E0, E1, E2]⟩ : Shape).Idx,
          (if ∀ a : Fin 3, (idx (ix4 (e 0) (e 1) (e 2) a)).toInt = ((i a).val : ℤ) then upd e else 0) := by
  unfold Ideal.hostScatterAdd
  congr 1
  rw [Finset.sum_filter]
  refine Finset.sum_congr rfl fun e _ => ?_
  obtain ⟨e0, e1, e2, rfl⟩ : ∃ (e0 : Fin E0) (e1 : Fin E1) (e2 : Fin E2), e = ix3 e0 e1 e2 := ⟨e 0, e 1, e 2, eq_ix3 e⟩
  exact if_congr (point_resultIdx_iff wf idx e0 e1 e2 i) rfl rfl

end

end Cert.LibPointScatter

end
-- ==== Proof.RefCore.lean ====
/-
  The reference's operations read at an entry, stage by stage.

  Each lemma takes the arrays a group of operations computes, with the operations' equations as hypotheses, and reads
  the group's last array at an entry (b, t, ·, ·): the recasts between [·, ·, 3·J] and [·, ·, J, 3] move column 3·j + e
  to (j, e); the three unit slices of the last axis are the radius, the azimuth and the polar angle; the joint numbers
  are literal words behind a select on an all-zero mask.
-/
import proofs.«155983_j18339510354491_1_alg».proof.Proof.Pose
import proofs.«155983_j18339510354491_1_alg».proof.Proof.LibJointOps
import proofs.«155983_j18339510354491_1_alg».proof.Proof.LibPointScatter
import proofs.«155983_j18339510354491_1_alg».proof.ReferenceIdeal
import Idealize.ShloMosaic.Lib.Pipeline.Value
import Idealize.ShloMosaic.PureOps.Ideal.Laws
import Mathlib.Tactic.FinCases

noncomputable section

namespace Cert.ReferenceIdeal.RefValue

open Cert.ReferenceIdeal Idealize.ShloMosaic Idealize.ShloMosaic.ValueIdx Cert.LibJointOps Cert.Pose

/-! ## Recasts and unit slices -/

/-- The observed poses recast to joints and coordinates: entry (b, s, j, e) is column 3·j + e. -/
theorem obs_at (arg0 : S4096x16x96.Idx → EReal) (h : S4096x16x96.ShapeCasts S4096x16x32x3)
    (b : Fin 4096) (s : Fin 16) (j : Fin 32) (e : Fin 3) :
    shapeCast S4096x16x32x3 arg0 h (ix4 b s j e) = arg0 (ix3 b s (col96 j e)) := by
  refine shapeCast_apply arg0 h _ _ ?_
  rw [Shape.rowMajor_val_three, Shape.rowMajor_val_four]
  show (b.val * 16 + s.val) * 96 + (3 * j.val + e.val) = ((b.val * 16 + s.val) * 32 + j.val) * 3 + e.val
  omega

/-- The predicted triples recast to triples and components: entry (b, t, k, e) is column 3·k + e. -/
theorem pred_at (arg1 : S4096x64x66.Idx → EReal) (h : S4096x64x66.ShapeCasts S4096x64x22x3)
    (b : Fin 4096) (t : Fin 64) (k : Fin 22) (e : Fin 3) :
    shapeCast S4096x64x22x3 arg1 h (ix4 b t k e) = arg1 (ix3 b t (col66 k e)) := by
  refine shapeCast_apply arg1 h _ _ ?_
  rw [Shape.rowMajor_val_three, Shape.rowMajor_val_four]
  show (b.val * 64 + t.val) * 66 + (3 * k.val + e.val) = ((b.val * 64 + t.val) * 22 + k.val) * 3 + e.val
  omega

/-- Component c of the triples, as an array [4096, 64, 22]: the unit slice at c of the last axis, its unit axis dropped. -/
theorem comp_at (c : ℕ) (hc3 : c < 3) (v1 : S4096x64x22x3.Idx → EReal)
    (hs : S4096x64x22x3.Slices ![0, 0, 0, c] S4096x64x22x1) (hc : S4096x64x22x1.ShapeCasts S4096x64x22)
    (b : Fin 4096) (t : Fin 64) (k : Fin 22) :
    shapeCast S4096x64x22 (extractStridedSlice S4096x64x22x1 ![0, 0, 0, c] v1 hs) hc (ix3 b t k)
      = v1 (ix4 b t k (⟨c, hc3⟩ : Fin 3)) := by
  refine (shapeCast_apply _ hc _ (ix4 b t k (0 : Fin 1)) ?_).trans ?_
  · rw [Shape.rowMajor_val_three, Shape.rowMajor_val_four]
    show ((b.val * 64 + t.val) * 22 + k.val) * 1 + 0 = (b.val * 64 + t.val) * 22 + k.val
    omega
  · refine extractStridedSlice_apply _ v1 hs _ (ix4 b t k (⟨c, hc3⟩ : Fin 3)) ?_
    intro a
    match a with
    | ⟨0, _⟩ => show b.val = 0 + b.val; omega
    | ⟨1, _⟩ => show t.val = 0 + t.val; omega
    | ⟨2, _⟩ => show k.val = 0 + k.val; omega
    | ⟨3, _⟩ => show c = c + 0; omega

/-- A trailing unit axis added by a broadcast: entry (b, t, k, 0) is entry (b, t, k). -/
theorem addUnit_at (x : S4096x64x22.Idx → EReal)
    (hb : S4096x64x22.BroadcastsInDim S4096x64x22x1 (![0, 1, 2] : Fin 3 → Fin S4096x64x22x1.rank))
    (b : Fin 4096) (t : Fin 64) (k : Fin 22) :
    broadcastInDim S4096x64x22x1 ![0, 1, 2] hb x (ix4 b t k (0 : Fin 1)) = x (ix3 b t k) :=
  broadcastInDim_apply _ hb x _ (ix3 b t k) (by
    intro a
    match a with
    | ⟨0, _⟩ => rfl
    | ⟨1, _⟩ => rfl
    | ⟨2, _⟩ => rfl)

/-! ## The Cartesian offsets -/

/-- THE OFFSETS: entry (b, t, k, e) of the concatenated array is coordinate e of the Cartesian form of triple k of
    row (b, t). -/
theorem xyz_stage {arg1 : S4096x64x66.Idx → EReal} {v1 : S4096x64x22x3.Idx → EReal}
    {v2 v4 v6 v17 v18 v19 : S4096x64x22x1.Idx → EReal} {v3 v5 v7 v8 v9 v10 v11 v12 v13 v14 v15 v16 : S4096x64x22.Idx → EReal}
    {v20 : S4096x64x22x3.Idx → EReal}
    {hc1 : S4096x64x66.ShapeCasts S4096x64x22x3}
    {hs0 : S4096x64x22x3.Slices ![0, 0, 0, 0] S4096x64x22x1} {hs1 : S4096x64x22x3.Slices ![0, 0, 0, 1] S4096x64x22x1}
    {hs2 : S4096x64x22x3.Slices ![0, 0, 0, 2] S4096x64x22x1} {hc : S4096x64x22x1.ShapeCasts S4096x64x22}
    {hb : S4096x64x22.BroadcastsInDim S4096x64x22x1 (![0, 1, 2] : Fin 3 → Fin S4096x64x22x1.rank)}
    {hcat : Shape.Concatenates [S4096x64x22x1, S4096x64x22x1, S4096x64x22x1] S4096x64x22x3 3}
    (e1 : v1 = shapeCast S4096x64x22x3 arg1 hc1)
    (e2 : v2 = extractStridedSlice S4096x64x22x1 ![0, 0, 0, 0] v1 hs0) (e3 : v3 = shapeCast S4096x64x22 v2 hc)
    (e4 : v4 = extractStridedSlice S4096x64x22x1 ![0, 0, 0, 1] v1 hs1) (e5 : v5 = shapeCast S4096x64x22 v4 hc)
    (e6 : v6 = extractStridedSlice S4096x64x22x1 ![0, 0, 0, 2] v1 hs2) (e7 : v7 = shapeCast S4096x64x22 v6 hc)
    (e8 : v8 = (Host.sin : FVec Ideal S4096x64x22 .f32 → FVec Ideal S4096x64x22 .f32) v7)
    (e9 : v9 = (mulf : FVec Ideal S4096x64x22 .f32 → FVec Ideal S4096x64x22 .f32 → FVec Ideal S4096x64x22 .f32) v3 v8)
    (e10 : v10 = (Host.cos : FVec Ideal S4096x64x22 .f32 → FVec Ideal S4096x64x22 .f32) v5)
    (e11 : v11 = (mulf : FVec Ideal S4096x64x22 .f32 → FVec Ideal S4096x64x22 .f32 → FVec Ideal S4096x64x22 .f32) v9 v10)
    (e12 : v12 = (Host.cos : FVec Ideal S4096x64x22 .f32 → FVec Ideal S4096x64x22 .f32) v7)
    (e13 : v13 = (mulf : FVec Ideal S4096x64x22 .f32 → FVec Ideal S4096x64x22 .f32 → FVec Ideal S4096x64x22 .f32) v3 v12)
    (e14 : v14 = (mulf : FVec Ideal S4096x64x22 .f32 → FVec Ideal S4096x64x22 .f32 → FVec Ideal S4096x64x22 .f32) v3 v8)
    (e15 : v15 = (Host.sin : FVec Ideal S4096x64x22 .f32 → FVec Ideal S4096x64x22 .f32) v5)
    (e16 : v16 = (mulf : FVec Ideal S4096x64x22 .f32 → FVec Ideal S4096x64x22 .f32 → FVec Ideal S4096x64x22 .f32) v14 v15)
    (e17 : v17 = broadcastInDim S4096x64x22x1 ![0, 1, 2] hb v11)
    (e18 : v18 = broadcastInDim S4096x64x22x1 ![0, 1, 2] hb v13)
    (e19 : v19 = broadcastInDim S4096x64x22x1 ![0, 1, 2] hb v16)
    (e20 : v20 = concatenate S4096x64x22x3 3 [⟨S4096x64x22x1, v17⟩, ⟨S4096x64x22x1, v18⟩, ⟨S4096x64x22x1, v19⟩] hcat)
    (b : Fin 4096) (t : Fin 64) (k : Fin 22) (e : Fin 3) :
    v20 (ix4 b t k e)
      = xyz (arg1 (ix3 b t (col66 k 0))) (arg1 (ix3 b t (col66 k 1))) (arg1 (ix3 b t (col66 k 2))) e := by
  have hr : v3 (ix3 b t k) = arg1 (ix3 b t (col66 k 0)) := by
    rw [e3, e2, comp_at 0 (by decide), e1, pred_at]; rfl
  have hθ : v5 (ix3 b t k) = arg1 (ix3 b t (col66 k 1)) := by
    rw [e5, e4, comp_at 1 (by decide), e1, pred_at]; rfl
  have hφ : v7 (ix3 b t k) = arg1 (ix3 b t (col66 k 2)) := by
    rw [e7, e6, comp_at 2 (by decide), e1, pred_at]; rfl
  have h11 : v11 (ix3 b t k) = arg1 (ix3 b t (col66 k 0)) * Ideal.sin (arg1 (ix3 b t (col66 k 2))) * Ideal.cos (arg1 (ix3 b t (col66 k 1))) := by
    rw [e11, e9, e8, e10]
    show v3 (ix3 b t k) * Ideal.sin (v7 (ix3 b t k)) * Ideal.cos (v5 (ix3 b t k)) = _
    rw [hr, hθ, hφ]
  have h13 : v13 (ix3 b t k) = arg1 (ix3 b t (col66 k 0)) * Ideal.cos (arg1 (ix3 b t (col66 k 2))) := by
    rw [e13, e12]
    show v3 (ix3 b t k) * Ideal.cos (v7 (ix3 b t k)) = _
    rw [hr, hφ]
  have h16 : v16 (ix3 b t k) = arg1 (ix3 b t (col66 k 0)) * Ideal.sin (arg1 (ix3 b t (col66 k 2))) * Ideal.sin (arg1 (ix3 b t (col66 k 1))) := by
    rw [e16, e14, e8, e15]
    show v3 (ix3 b t k) * Ideal.sin (v7 (ix3 b t k)) * Ideal.sin (v5 (ix3 b t k)) = _
    rw [hr, hθ, hφ]
  rw [e20]
  match e with
  | ⟨0, _⟩ =>
    rw [show (ix4 b t k (⟨0, by decide⟩ : Fin 3) : S4096x64x22x3.Idx) = ix4 b t k (0 : Fin 3) from rfl,
      Cert.LibPointScatter.unitWords_at (E0 := 4096) (E1 := 64) (E2 := 22) (K := 3) [⟨S4096x64x22x1, v17⟩, ⟨S4096x64x22x1, v18⟩, ⟨S4096x64x22x1, v19⟩] hcat b t k (0 : Fin 3) v17 rfl rfl, e17, addUnit_at, h11]
    rfl
  | ⟨1, _⟩ =>
    rw [show (ix4 b t k (⟨1, by decide⟩ : Fin 3) : S4096x64x22x3.Idx) = ix4 b t k (1 : Fin 3) from rfl,
      Cert.LibPointScatter.unitWords_at (E0 := 4096) (E1 := 64) (E2 := 22) (K := 3) [⟨S4096x64x22x1, v17⟩, ⟨S4096x64x22x1, v18⟩, ⟨S4096x64x22x1, v19⟩] hcat b t k (1 : Fin 3) v18 rfl rfl, e18, addUnit_at, h13]
    rfl
  | ⟨2, _⟩ =>
    rw [show (ix4 b t k (⟨2, by decide⟩ : Fin 3) : S4096x64x22x3.Idx) = ix4 b t k (2 : Fin 3) from rfl,
      Cert.LibPointScatter.unitWords_at (E0 := 4096) (E1 := 64) (E2 := 22) (K := 3) [⟨S4096x64x22x1, v17⟩, ⟨S4096x64x22x1, v18⟩, ⟨S4096x64x22x1, v19⟩] hcat b t k (2 : Fin 3) v19 rfl rfl, e19, addUnit_at, h16]
    rfl

/-! ## The joint numbers -/

/-- The column of joint numbers over 4 words: the select on an all-zero mask returns the literal words, and the
    recast to a column [4, 1] holds word k at (k, 0). -/
theorem idxcol4 (lit : Fin 4 → BitVec 32) (hb : S4.BroadcastsInDim S4x1 (![0] : Fin 1 → Fin S4x1.rank))
    {c ad sel : IVec S4 32} {mask : IVec S4 1} {col : IVec S4x1 32}
    (h1 : c = fun i => lit (S4.rowMajor i)) (h2 : mask = constantI S4 1 0#1)
    (h6 : sel = select mask ad c) (h7 : col = broadcastInDim S4x1 ![0] hb sel) (k : Fin 4) :
    col (ix2 k (0 : Fin 1)) = lit k := by
  subst h1 h2 h6 h7
  rw [broadcastInDim_apply _ hb _ _ (ix1 k) (by intro a; match a with | ⟨0, _⟩ => rfl)]
  show Scalar.select 0#1 _ (lit (S4.rowMajor (ix1 k))) = lit k
  rw [select_zero]
  congr 1
  exact Fin.ext (Shape.rowMajor_val_one _)

/-- The column of joint numbers over 22 words: the select on an all-zero mask returns the literal words, and the
    recast to a column [22, 1] holds word k at (k, 0). -/
theorem idxcol22 (lit : Fin 22 → BitVec 32) (hb : S22.BroadcastsInDim S22x1 (![0] : Fin 1 → Fin S22x1.rank))
    {c ad sel : IVec S22 32} {mask : IVec S22 1} {col : IVec S22x1 32}
    (h1 : c = fun i => lit (S22.rowMajor i)) (h2 : mask = constantI S22 1 0#1)
    (h6 : sel = select mask ad c) (h7 : col = broadcastInDim S22x1 ![0] hb sel) (k : Fin 22) :
    col (ix2 k (0 : Fin 1)) = lit k := by
  subst h1 h2 h6 h7
  rw [broadcastInDim_apply _ hb _ _ (ix1 k) (by intro a; match a with | ⟨0, _⟩ => rfl)]
  show Scalar.select 0#1 _ (lit (S22.rowMajor (ix1 k))) = lit k
  rw [select_zero]
  congr 1
  exact Fin.ext (Shape.rowMajor_val_one _)

/-- The column of joint numbers over 6 words: the select on an all-zero mask returns the literal words, and the
    recast to a column [6, 1] holds word k at (k, 0). -/
theorem idxcol6 (lit : Fin 6 → BitVec 32) (hb : S6.BroadcastsInDim S6x1 (![0] : Fin 1 → Fin S6x1.rank))
    {c ad sel : IVec S6 32} {mask : IVec S6 1} {col : IVec S6x1 32}
    (h1 : c = fun i => lit (S6.rowMajor i)) (h2 : mask = constantI S6 1 0#1)
    (h6 : sel = select mask ad c) (h7 : col = broadcastInDim S6x1 ![0] hb sel) (k : Fin 6) :
    col (ix2 k (0 : Fin 1)) = lit k := by
  subst h1 h2 h6 h7
  rw [broadcastInDim_apply _ hb _ _ (ix1 k) (by intro a; match a with | ⟨0, _⟩ => rfl)]
  show Scalar.select 0#1 _ (lit (S6.rowMajor (ix1 k))) = lit k
  rw [select_zero]
  congr 1
  exact Fin.ext (Shape.rowMajor_val_one _)

/-! ## The root joints of the last observed frame -/

/-- THE ROOTS: entry (b, t, k, e) of the broadcast gather is coordinate e of root joint k in the last observed frame of
    batch row b, whatever t. -/
theorem roots_stage {arg0 : S4096x16x96.Idx → EReal} {v0 : S4096x16x32x3.Idx → EReal}
    {c ad sel : IVec S4 32} {mask : IVec S4 1} {c9 : IVec S_ 32} {v25 v26 : IVec S4x1 32} {v27 : IVec S4x2 32}
    {v28 : S4096x1x4x3.Idx → EReal} {v29 : S4096x64x4x3.Idx → EReal}
    {hc0 : S4096x16x96.ShapeCasts S4096x16x32x3}
    {hbS : S_.BroadcastsInDim S4x1 (![] : Fin 0 → Fin S4x1.rank)}
    {hb1 : S4.BroadcastsInDim S4x1 (![0] : Fin 1 → Fin S4x1.rank)}
    {hcat : Shape.Concatenates [S4x1, S4x1] S4x2 1}
    {wfg : GatherDims.WF S4096x16x32x3 S4x2 S4096x1x4x3 [0, 1, 3] [2] [] [1, 2] [] 1 ![4096, 1, 1, 3]}
    {hb29 : S4096x1x4x3.BroadcastsInDim S4096x64x4x3 (![0, 1, 2, 3] : Fin 4 → Fin S4096x64x4x3.rank)}
    (e0 : v0 = shapeCast S4096x16x32x3 arg0 hc0)
    (ec : c = fun i => lit0 (S4.rowMajor i)) (em : mask = constantI S4 1 0#1) (es : sel = select mask ad c)
    (e9 : c9 = constantI S_ 32 15#32) (e25 : v25 = broadcastInDim S4x1 ![] hbS c9)
    (e26 : v26 = broadcastInDim S4x1 ![0] hb1 sel)
    (e27 : v27 = concatenate S4x2 1 [⟨S4x1, v25⟩, ⟨S4x1, v26⟩] hcat)
    (e28 : v28 = Host.gather (pairGatherDims 4096 16 32 3 4 wfg) v0 v27)
    (e29 : v29 = broadcastInDim S4096x64x4x3 ![0, 1, 2, 3] hb29 v28)
    (b : Fin 4096) (t : Fin 64) (k : Fin 4) (e : Fin 3) :
    v29 (ix4 b t k e) = arg0 (ix3 b (15 : Fin 16) (col96 (rootJoint k) e)) := by
  have h0 : v27 (ix2 k (0 : Fin 2)) = 15#32 := by
    rw [e27, concatenate_pair_apply_left 1 v25 v26 hcat _ rfl (ix2 k (0 : Fin 1))
      (by intro a; match a with | ⟨0, _⟩ => rfl | ⟨1, _⟩ => rfl), e25, e9]
    rfl
  have h1 : v27 (ix2 k (1 : Fin 2)) = lit0 k := by
    rw [e27, concatenate_pair_apply_right 1 v25 v26 hcat _ rfl rfl (ix2 k (0 : Fin 1))
      (by intro a ha; match a with | ⟨0, _⟩ => rfl | ⟨1, _⟩ => exact absurd rfl ha) rfl,
      idxcol4 lit0 hb1 ec em es e26]
  rw [e29, broadcastInDim_apply _ hb29 v28 _ (ix4 b (0 : Fin 1) k e)
    (by intro a; match a with | ⟨0, _⟩ => rfl | ⟨1, _⟩ => rfl | ⟨2, _⟩ => rfl | ⟨3, _⟩ => rfl),
    e28, pairGather_at wfg (by decide) (by decide)]
  simp only [h0, h1]
  rw [e0, obs_at]
  fin_cases k <;> rfl

/-! ## One edge of the tree -/

/-- ONE EDGE: the slab of joint p, added into joint ch. For fixed (b, t, e) the thirty-two joints go to
    `addStep p ch` of themselves. -/
theorem edge_stage (p ch : Fin 32) (w : BitVec 32) (hw : w.toInt = (ch.val : ℤ))
    {x x' : S4096x64x32x3.Idx → EReal} {sl : S4096x64x1x3.Idx → EReal} {rs : S4096x64x3.Idx → EReal}
    {cw : IVec S_ 32} {ix : IVec S1 32}
    {hs : S4096x64x32x3.Slices ![0, 0, p.val, 0] S4096x64x1x3} {hc : S4096x64x1x3.ShapeCasts S4096x64x3}
    {hb : S_.BroadcastsInDim S1 (![] : Fin 0 → Fin S1.rank)}
    {wf : ScatterDims.WF S4096x64x32x3 S1 S4096x64x3 [0, 1, 2] [2] [2] 0}
    (h1 : sl = extractStridedSlice S4096x64x1x3 ![0, 0, p.val, 0] x hs) (h2 : rs = shapeCast S4096x64x3 sl hc)
    (h3 : cw = constantI S_ 32 w) (h4 : ix = broadcastInDim S1 ![] hb cw)
    (h5 : x' = Host.scatter (slabDims 4096 64 32 3 wf) (FloatOps.addf : Ideal .f32 → Ideal .f32 → Ideal .f32) x ix rs)
    (b : Fin 4096) (t : Fin 64) (e : Fin 3) :
    (fun j => x' (ix4 b t j e)) = addStep p ch (fun j => x (ix4 b t j e)) := by
  have hidx : (ix (ix1 (0 : Fin 1))).toInt = (ch.val : ℤ) := by
    rw [h4, h3]; exact hw
  have hupd : rs (ix3 b t e) = x (ix4 b t p e) := by
    rw [h2, h1]
    refine (shapeCast_apply _ hc _ (ix4 b t (0 : Fin 1) e) ?_).trans ?_
    · rw [Shape.rowMajor_val_three, Shape.rowMajor_val_four]
      show ((b.val * 64 + t.val) * 1 + 0) * 3 + e.val = (b.val * 64 + t.val) * 3 + e.val
      omega
    · refine extractStridedSlice_apply _ x hs _ (ix4 b t p e) ?_
      intro a
      match a with
      | ⟨0, _⟩ => show b.val = 0 + b.val; omega
      | ⟨1, _⟩ => show t.val = 0 + t.val; omega
      | ⟨2, _⟩ => show p.val = p.val + 0; omega
      | ⟨3, _⟩ => show e.val = 0 + e.val; omega
  funext j
  rw [h5, slabScatter_at, hidx, hupd]
  unfold addStep
  rw [Function.update_apply]
  by_cases h : j = ch
  · subst h
    rw [if_pos rfl, if_pos rfl]
    rfl
  · have h' : ¬ ((ch.val : ℤ) = (j.val : ℤ)) := fun e' => h (Fin.ext (by omega))
    rw [if_neg h, if_neg h']

/-! ## Roots and offsets written over the zeros -/

/-- The child joints, in the order their offsets are written. -/
abbrev childJoint : Fin 22 → Fin 32 := ![12, 13, 14, 15, 25, 26, 27, 29, 30, 17, 18, 19, 21, 22, 2, 3, 4, 5, 7, 8, 9, 10]
/-- The six joints copied from, in order. -/
abbrev srcJoint : Fin 6 → Fin 32 := ![13, 19, 22, 13, 27, 30]
/-- The six joints copied to, in order. -/
abbrev dstJoint : Fin 6 → Fin 32 := ![16, 20, 23, 24, 28, 31]

set_option maxRecDepth 16384 in
/-- THE BASE: the four root slabs, then the twenty-two offset slabs, set over the background. For fixed (b, t, e) the
    thirty-two joints are `base` of the background, the roots and the offsets. -/
theorem base_stage {v21 v34 v39 : S4096x64x32x3.Idx → EReal} {v29 : S4096x64x4x3.Idx → EReal}
    {v20 : S4096x64x22x3.Idx → EReal} {i4 : IVec S4x1 32} {i22 : IVec S22x1 32}
    {wf4 : ScatterDims.WF S4096x64x32x3 S4x1 S4096x64x4x3 [0, 1, 3] [2] [2] 1}
    {wf22 : ScatterDims.WF S4096x64x32x3 S22x1 S4096x64x22x3 [0, 1, 3] [2] [2] 1}
    (hi4 : ∀ k, i4 (ix2 k (0 : Fin 1)) = lit0 k) (hi22 : ∀ k, i22 (ix2 k (0 : Fin 1)) = lit1 k)
    (e34 : v34 = Host.scatter (colDims 4096 64 32 3 4 wf4) (fun _ b => b) v21 i4 v29)
    (e39 : v39 = Host.scatter (colDims 4096 64 32 3 22 wf22) (fun _ b => b) v34 i22 v20)
    (b : Fin 4096) (t : Fin 64) (e : Fin 3) :
    (fun j => v39 (ix4 b t j e))
      = base (fun j => v21 (ix4 b t j e)) (fun k => v29 (ix4 b t k e)) (fun k => v20 (ix4 b t k e)) := by
  funext j
  rw [e39, colScatter_at wf22 _ _ _ _ childJoint (by intro k; rw [hi22]; fin_cases k <;> rfl) (by decide),
    e34, colScatter_at wf4 _ _ _ _ rootJoint (by intro k; rw [hi4]; fin_cases k <;> rfl) (by decide)]
  fin_cases j <;> rfl

set_option maxRecDepth 16384 in
/-- THE SIX COPIES: the gather of the six source joints set at the six target joints. No source is a target, so for
    fixed (b, t, e) the thirty-two joints go to `equalize` of themselves. -/
theorem equalize_stage {v127 v137 : S4096x64x32x3.Idx → EReal} {v132 : S4096x64x6x3.Idx → EReal}
    {is id : IVec S6x1 32}
    {wfg : GatherDims.WF S4096x64x32x3 S6x1 S4096x64x6x3 [0, 1, 3] [2] [] [2] [] 1 ![4096, 64, 1, 3]}
    {wfs : ScatterDims.WF S4096x64x32x3 S6x1 S4096x64x6x3 [0, 1, 3] [2] [2] 1}
    (his : ∀ k, is (ix2 k (0 : Fin 1)) = lit2 k) (hid : ∀ k, id (ix2 k (0 : Fin 1)) = lit3 k)
    (e132 : v132 = Host.gather (colGatherDims 4096 64 32 3 6 wfg) v127 is)
    (e137 : v137 = Host.scatter (colDims 4096 64 32 3 6 wfs) (fun _ b => b) v127 id v132)
    (b : Fin 4096) (t : Fin 64) (e : Fin 3) :
    (fun j => v137 (ix4 b t j e)) = equalize (fun j => v127 (ix4 b t j e)) := by
  have hg : ∀ k, v132 (ix4 b t k e) = v127 (ix4 b t (srcJoint k) e) := by
    intro k
    rw [e132, colGather_at wfg (by decide)]
    simp only [his]
    fin_cases k <;> rfl
  funext j
  rw [e137, colScatter_at wfs _ _ _ _ dstJoint (by intro k; rw [hid]; fin_cases k <;> rfl) (by decide)]
  simp only [hg]
  fin_cases j <;> rfl

/-! ## The result recast to ninety-six columns -/

/-- Column c of the result is coordinate c % 3 of joint c / 3. -/
theorem out_at (v137 : S4096x64x32x3.Idx → EReal) (h : S4096x64x32x3.ShapeCasts S4096x64x96)
    (b : Fin 4096) (t : Fin 64) (c : Fin 96) :
    shapeCast S4096x64x96 v137 h (ix3 b t c) = v137 (ix4 b t (jointOf c) (coordOf c)) := by
  refine shapeCast_apply v137 h _ _ ?_
  rw [Shape.rowMajor_val_three, Shape.rowMajor_val_four]
  show ((b.val * 64 + t.val) * 32 + c.val / 3) * 3 + c.val % 3 = (b.val * 64 + t.val) * 96 + c.val
  omega

end Cert.ReferenceIdeal.RefValue

end
-- ==== Proof.RefRun.lean ====
/-
  The reference's result.

  For one batch row b, one time step t and one coordinate e, the thirty-two joints (b, t, ·, e) of the reference's
  state start as `base` of the zeros, the roots and the offsets; each of the twenty-two edges takes them to `addStep`
  of themselves, so after the last edge they are `tree` of the base; the six copies take them to `equalize` of that,
  which is `pose`, whose value at every joint is the table's. Column c of the recast result is coordinate c % 3 of
  joint c / 3: the result is `Cert.Pose.G` of the two arguments.
-/
import proofs.«155983_j18339510354491_1_alg».proof.Proof.RefStages1
import proofs.«155983_j18339510354491_1_alg».proof.Proof.RefStages2
import proofs.«155983_j18339510354491_1_alg».proof.Proof.RefStages3
import proofs.«155983_j18339510354491_1_alg».proof.Proof.RefCore

set_option maxRecDepth 8192

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibJointOps Cert.Pose

set_option maxHeartbeats 4000000 in
/-- THE VALUE: what the result buffer holds at the end is `G` of what the two argument buffers held at the launch. -/
theorem value (V0 : Valuation τ sig (Elt Ideal)) :
    (after ops V0 (Proc.devRef .tc main_v138) : S4096x64x96.Idx → EReal)
      = Cert.Pose.G (V0 (Proc.devRef .tc main_arg0)) (V0 (Proc.devRef .tc main_arg1)) := by
  funext i
  obtain ⟨b, t, c, rfl⟩ : ∃ (b : Fin 4096) (t : Fin 64) (c : Fin 96), i = ix3 b t c := ⟨i 0, i 1, i 2, eq_ix3 i⟩
  generalize he : coordOf c = e
  have hxyz : ∀ k, (after ops V0 (Proc.devRef .tc main_v20)) (ix4 b t k e)
      = xyz ((after ops V0 (Proc.devRef .tc main_arg1)) (ix3 b t (col66 k 0))) ((after ops V0 (Proc.devRef .tc main_arg1)) (ix3 b t (col66 k 1))) ((after ops V0 (Proc.devRef .tc main_arg1)) (ix3 b t (col66 k 2))) e :=
    fun k => xyz_stage (st_main_v1 (F := Ideal) V0) (st_main_v2 (F := Ideal) V0) (st_main_v3 (F := Ideal) V0) (st_main_v4 (F := Ideal) V0) (st_main_v5 (F := Ideal) V0) (st_main_v6 (F := Ideal) V0) (st_main_v7 (F := Ideal) V0) (st_main_v8 (F := Ideal) V0) (st_main_v9 (F := Ideal) V0) (st_main_v10 (F := Ideal) V0) (st_main_v11 (F := Ideal) V0) (st_main_v12 (F := Ideal) V0) (st_main_v13 (F := Ideal) V0) (st_main_v14 (F := Ideal) V0) (st_main_v15 (F := Ideal) V0) (st_main_v16 (F := Ideal) V0) (st_main_v17 (F := Ideal) V0) (st_main_v18 (F := Ideal) V0) (st_main_v19 (F := Ideal) V0) (st_main_v20 (F := Ideal) V0) b t k e
  have hroots : ∀ k, (after ops V0 (Proc.devRef .tc main_v29)) (ix4 b t k e) = (after ops V0 (Proc.devRef .tc main_arg0)) (ix3 b (15 : Fin 16) (col96 (rootJoint k) e)) :=
    fun k => roots_stage (st_main_v0 (F := Ideal) V0) (st_main_c (F := Ideal) V0) (st_main_c_0 (F := Ideal) V0) (st_main_v24 (F := Ideal) V0) (st_main_c_9 (F := Ideal) V0) (st_main_v25 (F := Ideal) V0) (st_main_v26 (F := Ideal) V0) (st_main_v27 (F := Ideal) V0) (st_main_v28 (F := Ideal) V0) (st_main_v29 (F := Ideal) V0) b t k e
  have hbase := base_stage (idxcol4 lit0 _ (st_main_c (F := Ideal) V0) (st_main_c_1 (F := Ideal) V0) (st_main_v32 (F := Ideal) V0) (st_main_v33 (F := Ideal) V0))
    (idxcol22 lit1 _ (st_main_c_2 (F := Ideal) V0) (st_main_c_3 (F := Ideal) V0) (st_main_v37 (F := Ideal) V0) (st_main_v38 (F := Ideal) V0)) (st_main_v34 (F := Ideal) V0) (st_main_v39 (F := Ideal) V0) b t e
  have hE0 : (fun j => (after ops V0 (Proc.devRef .tc main_v43)) (ix4 b t j e)) = addStep (α := EReal) 11 12 (fun j => (after ops V0 (Proc.devRef .tc main_v39)) (ix4 b t j e)) :=
    edge_stage 11 12 12#32 (by decide) (st_main_v40 (F := Ideal) V0) (st_main_v41 (F := Ideal) V0) (st_main_c_12 (F := Ideal) V0) (st_main_v42 (F := Ideal) V0) (st_main_v43 (F := Ideal) V0) b t e
  have hE1 : (fun j => (after ops V0 (Proc.devRef .tc main_v47)) (ix4 b t j e)) = addStep (α := EReal) 12 13 (fun j => (after ops V0 (Proc.devRef .tc main_v43)) (ix4 b t j e)) :=
    edge_stage 12 13 13#32 (by decide) (st_main_v44 (F := Ideal) V0) (st_main_v45 (F := Ideal) V0) (st_main_c_13 (F := Ideal) V0) (st_main_v46 (F := Ideal) V0) (st_main_v47 (F := Ideal) V0) b t e
  have hE2 : (fun j => (after ops V0 (Proc.devRef .tc main_v51)) (ix4 b t j e)) = addStep (α := EReal) 13 14 (fun j => (after ops V0 (Proc.devRef .tc main_v47)) (ix4 b t j e)) :=
    edge_stage 13 14 14#32 (by decide) (st_main_v48 (F := Ideal) V0) (st_main_v49 (F := Ideal) V0) (st_main_c_14 (F := Ideal) V0) (st_main_v50 (F := Ideal) V0) (st_main_v51 (F := Ideal) V0) b t e
  have hE3 : (fun j => (after ops V0 (Proc.devRef .tc main_v55)) (ix4 b t j e)) = addStep (α := EReal) 14 15 (fun j => (after ops V0 (Proc.devRef .tc main_v51)) (ix4 b t j e)) :=
    edge_stage 14 15 15#32 (by decide) (st_main_v52 (F := Ideal) V0) (st_main_v53 (F := Ideal) V0) (st_main_c_15 (F := Ideal) V0) (st_main_v54 (F := Ideal) V0) (st_main_v55 (F := Ideal) V0) b t e
  have hE4 : (fun j => (after ops V0 (Proc.devRef .tc main_v59)) (ix4 b t j e)) = addStep (α := EReal) 13 25 (fun j => (after ops V0 (Proc.devRef .tc main_v55)) (ix4 b t j e)) :=
    edge_stage 13 25 25#32 (by decide) (st_main_v56 (F := Ideal) V0) (st_main_v57 (F := Ideal) V0) (st_main_c_16 (F := Ideal) V0) (st_main_v58 (F := Ideal) V0) (st_main_v59 (F := Ideal) V0) b t e
  have hE5 : (fun j => (after ops V0 (Proc.devRef .tc main_v63)) (ix4 b t j e)) = addStep (α := EReal) 25 26 (fun j => (after ops V0 (Proc.devRef .tc main_v59)) (ix4 b t j e)) :=
    edge_stage 25 26 26#32 (by decide) (st_main_v60 (F := Ideal) V0) (st_main_v61 (F := Ideal) V0) (st_main_c_17 (F := Ideal) V0) (st_main_v62 (F := Ideal) V0) (st_main_v63 (F := Ideal) V0) b t e
  have hE6 : (fun j => (after ops V0 (Proc.devRef .tc main_v67)) (ix4 b t j e)) = addStep (α := EReal) 26 27 (fun j => (after ops V0 (Proc.devRef .tc main_v63)) (ix4 b t j e)) :=
    edge_stage 26 27 27#32 (by decide) (st_main_v64 (F := Ideal) V0) (st_main_v65 (F := Ideal) V0) (st_main_c_18 (F := Ideal) V0) (st_main_v66 (F := Ideal) V0) (st_main_v67 (F := Ideal) V0) b t e
  have hE7 : (fun j => (after ops V0 (Proc.devRef .tc main_v71)) (ix4 b t j e)) = addStep (α := EReal) 27 29 (fun j => (after ops V0 (Proc.devRef .tc main_v67)) (ix4 b t j e)) :=
    edge_stage 27 29 29#32 (by decide) (st_main_v68 (F := Ideal) V0) (st_main_v69 (F := Ideal) V0) (st_main_c_19 (F := Ideal) V0) (st_main_v70 (F := Ideal) V0) (st_main_v71 (F := Ideal) V0) b t e
  have hE8 : (fun j => (after ops V0 (Proc.devRef .tc main_v75)) (ix4 b t j e)) = addStep (α := EReal) 29 30 (fun j => (after ops V0 (Proc.devRef .tc main_v71)) (ix4 b t j e)) :=
    edge_stage 29 30 30#32 (by decide) (st_main_v72 (F := Ideal) V0) (st_main_v73 (F := Ideal) V0) (st_main_c_20 (F := Ideal) V0) (st_main_v74 (F := Ideal) V0) (st_main_v75 (F := Ideal) V0) b t e
  have hE9 : (fun j => (after ops V0 (Proc.devRef .tc main_v79)) (ix4 b t j e)) = addStep (α := EReal) 13 17 (fun j => (after ops V0 (Proc.devRef .tc main_v75)) (ix4 b t j e)) :=
    edge_stage 13 17 17#32 (by decide) (st_main_v76 (F := Ideal) V0) (st_main_v77 (F := Ideal) V0) (st_main_c_21 (F := Ideal) V0) (st_main_v78 (F := Ideal) V0) (st_main_v79 (F := Ideal) V0) b t e
  have hE10 : (fun j => (after ops V0 (Proc.devRef .tc main_v83)) (ix4 b t j e)) = addStep (α := EReal) 17 18 (fun j => (after ops V0 (Proc.devRef .tc main_v79)) (ix4 b t j e)) :=
    edge_stage 17 18 18#32 (by decide) (st_main_v80 (F := Ideal) V0) (st_main_v81 (F := Ideal) V0) (st_main_c_22 (F := Ideal) V0) (st_main_v82 (F := Ideal) V0) (st_main_v83 (F := Ideal) V0) b t e
  have hE11 : (fun j => (after ops V0 (Proc.devRef .tc main_v87)) (ix4 b t j e)) = addStep (α := EReal) 18 19 (fun j => (after ops V0 (Proc.devRef .tc main_v83)) (ix4 b t j e)) :=
    edge_stage 18 19 19#32 (by decide) (st_main_v84 (F := Ideal) V0) (st_main_v85 (F := Ideal) V0) (st_main_c_23 (F := Ideal) V0) (st_main_v86 (F := Ideal) V0) (st_main_v87 (F := Ideal) V0) b t e
  have hE12 : (fun j => (after ops V0 (Proc.devRef .tc main_v91)) (ix4 b t j e)) = addStep (α := EReal) 19 21 (fun j => (after ops V0 (Proc.devRef .tc main_v87)) (ix4 b t j e)) :=
    edge_stage 19 21 21#32 (by decide) (st_main_v88 (F := Ideal) V0) (st_main_v89 (F := Ideal) V0) (st_main_c_24 (F := Ideal) V0) (st_main_v90 (F := Ideal) V0) (st_main_v91 (F := Ideal) V0) b t e
  have hE13 : (fun j => (after ops V0 (Proc.devRef .tc main_v95)) (ix4 b t j e)) = addStep (α := EReal) 21 22 (fun j => (after ops V0 (Proc.devRef .tc main_v91)) (ix4 b t j e)) :=
    edge_stage 21 22 22#32 (by decide) (st_main_v92 (F := Ideal) V0) (st_main_v93 (F := Ideal) V0) (st_main_c_25 (F := Ideal) V0) (st_main_v94 (F := Ideal) V0) (st_main_v95 (F := Ideal) V0) b t e
  have hE14 : (fun j => (after ops V0 (Proc.devRef .tc main_v99)) (ix4 b t j e)) = addStep (α := EReal) 1 2 (fun j => (after ops V0 (Proc.devRef .tc main_v95)) (ix4 b t j e)) :=
    edge_stage 1 2 2#32 (by decide) (st_main_v96 (F := Ideal) V0) (st_main_v97 (F := Ideal) V0) (st_main_c_26 (F := Ideal) V0) (st_main_v98 (F := Ideal) V0) (st_main_v99 (F := Ideal) V0) b t e
  have hE15 : (fun j => (after ops V0 (Proc.devRef .tc main_v103)) (ix4 b t j e)) = addStep (α := EReal) 2 3 (fun j => (after ops V0 (Proc.devRef .tc main_v99)) (ix4 b t j e)) :=
    edge_stage 2 3 3#32 (by decide) (st_main_v100 (F := Ideal) V0) (st_main_v101 (F := Ideal) V0) (st_main_c_27 (F := Ideal) V0) (st_main_v102 (F := Ideal) V0) (st_main_v103 (F := Ideal) V0) b t e
  have hE16 : (fun j => (after ops V0 (Proc.devRef .tc main_v107)) (ix4 b t j e)) = addStep (α := EReal) 3 4 (fun j => (after ops V0 (Proc.devRef .tc main_v103)) (ix4 b t j e)) :=
    edge_stage 3 4 4#32 (by decide) (st_main_v104 (F := Ideal) V0) (st_main_v105 (F := Ideal) V0) (st_main_c_28 (F := Ideal) V0) (st_main_v106 (F := Ideal) V0) (st_main_v107 (F := Ideal) V0) b t e
  have hE17 : (fun j => (after ops V0 (Proc.devRef .tc main_v111)) (ix4 b t j e)) = addStep (α := EReal) 4 5 (fun j => (after ops V0 (Proc.devRef .tc main_v107)) (ix4 b t j e)) :=
    edge_stage 4 5 5#32 (by decide) (st_main_v108 (F := Ideal) V0) (st_main_v109 (F := Ideal) V0) (st_main_c_29 (F := Ideal) V0) (st_main_v110 (F := Ideal) V0) (st_main_v111 (F := Ideal) V0) b t e
  have hE18 : (fun j => (after ops V0 (Proc.devRef .tc main_v115)) (ix4 b t j e)) = addStep (α := EReal) 6 7 (fun j => (after ops V0 (Proc.devRef .tc main_v111)) (ix4 b t j e)) :=
    edge_stage 6 7 7#32 (by decide) (st_main_v112 (F := Ideal) V0) (st_main_v113 (F := Ideal) V0) (st_main_c_30 (F := Ideal) V0) (st_main_v114 (F := Ideal) V0) (st_main_v115 (F := Ideal) V0) b t e
  have hE19 : (fun j => (after ops V0 (Proc.devRef .tc main_v119)) (ix4 b t j e)) = addStep (α := EReal) 7 8 (fun j => (after ops V0 (Proc.devRef .tc main_v115)) (ix4 b t j e)) :=
    edge_stage 7 8 8#32 (by decide) (st_main_v116 (F := Ideal) V0) (st_main_v117 (F := Ideal) V0) (st_main_c_31 (F := Ideal) V0) (st_main_v118 (F := Ideal) V0) (st_main_v119 (F := Ideal) V0) b t e
  have hE20 : (fun j => (after ops V0 (Proc.devRef .tc main_v123)) (ix4 b t j e)) = addStep (α := EReal) 8 9 (fun j => (after ops V0 (Proc.devRef .tc main_v119)) (ix4 b t j e)) :=
    edge_stage 8 9 9#32 (by decide) (st_main_v120 (F := Ideal) V0) (st_main_v121 (F := Ideal) V0) (st_main_c_32 (F := Ideal) V0) (st_main_v122 (F := Ideal) V0) (st_main_v123 (F := Ideal) V0) b t e
  have hE21 : (fun j => (after ops V0 (Proc.devRef .tc main_v127)) (ix4 b t j e)) = addStep (α := EReal) 9 10 (fun j => (after ops V0 (Proc.devRef .tc main_v123)) (ix4 b t j e)) :=
    edge_stage 9 10 10#32 (by decide) (st_main_v124 (F := Ideal) V0) (st_main_v125 (F := Ideal) V0) (st_main_c_33 (F := Ideal) V0) (st_main_v126 (F := Ideal) V0) (st_main_v127 (F := Ideal) V0) b t e
  have heq := equalize_stage (idxcol6 lit2 _ (st_main_c_4 (F := Ideal) V0) (st_main_c_5 (F := Ideal) V0) (st_main_v130 (F := Ideal) V0) (st_main_v131 (F := Ideal) V0))
    (idxcol6 lit3 _ (st_main_c_6 (F := Ideal) V0) (st_main_c_7 (F := Ideal) V0) (st_main_v135 (F := Ideal) V0) (st_main_v136 (F := Ideal) V0)) (st_main_v132 (F := Ideal) V0) (st_main_v137 (F := Ideal) V0) b t e
  have htree : (fun j => (after ops V0 (Proc.devRef .tc main_v127)) (ix4 b t j e)) = tree (α := EReal) (fun j => (after ops V0 (Proc.devRef .tc main_v39)) (ix4 b t j e)) := by
    unfold tree
    rw [hE21, hE20, hE19, hE18, hE17, hE16, hE15, hE14, hE13, hE12, hE11, hE10, hE9, hE8, hE7, hE6, hE5, hE4, hE3, hE2, hE1, hE0]
  have h137 : (after ops V0 (Proc.devRef .tc main_v137)) (ix4 b t (jointOf c) e)
      = table (α := EReal) (fun k => (after ops V0 (Proc.devRef .tc main_v29)) (ix4 b t k e)) (fun k => (after ops V0 (Proc.devRef .tc main_v20)) (ix4 b t k e)) (jointOf c) := by
    have h1 : (fun j => (after ops V0 (Proc.devRef .tc main_v137)) (ix4 b t j e))
        = pose (α := EReal) (fun j => (after ops V0 (Proc.devRef .tc main_v21)) (ix4 b t j e)) (fun k => (after ops V0 (Proc.devRef .tc main_v29)) (ix4 b t k e))
            (fun k => (after ops V0 (Proc.devRef .tc main_v20)) (ix4 b t k e)) := by
      rw [heq, htree, hbase] <;> rfl
    exact (congrFun h1 (jointOf c)).trans (congrFun (pose_eq_table (α := EReal) _ _ _) (jointOf c))
  have hr : (fun k => (after ops V0 (Proc.devRef .tc main_v29)) (ix4 b t k e))
      = fun k => V0 (Proc.devRef .tc main_arg0) (ix3 b (15 : Fin 16) (col96 (rootJoint k) e)) := by
    funext k; rw [hroots k, st_main_arg0]
  have hv : (fun k => (after ops V0 (Proc.devRef .tc main_v20)) (ix4 b t k e))
      = offsets (fun q => V0 (Proc.devRef .tc main_arg1) (ix3 b t q)) e := by
    funext k; rw [hxyz k, st_main_arg1]; rfl
  rw [st_main_v138 (F := Ideal) V0]
  refine (out_at _ _ b t c).trans ?_
  rw [he, h137, hr, hv]
  subst he
  rfl

/-- THE RUN: every weakly fair execution of the reference terminates with its result buffer at `G` of the two
    arguments' launch contents, the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread _ _).loc Cert.ReferenceIdeal.main_v138) = Cert.Pose.G (m ((c.tc : Thread _ _).loc Cert.ReferenceIdeal.main_arg0)) (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run (Cert.ReferenceIdeal.defs (F := Ideal)) _ _).mono
    (fun _ h c => ⟨(h c main_v138).trans (value (launchContents m c)),
      (h c main_arg0).trans (st_main_arg0 (F := Ideal) (launchContents m c)),
      (h c main_arg1).trans (st_main_arg1 (F := Ideal) (launchContents m c))⟩)
    (run_after (F := Ideal) m ρ)

end Cert.ReferenceIdeal.RefValue

end
-- ==== Proof.lean ====
/-
  The skeleton's forward kinematics: the kernel and the reference end with the same result array.

  Thirty-two joints. Four of them (0, 1, 6, 11) are roots: their positions are copied from the last observed frame and are
  the same at all sixty-four predicted time steps. Twenty-two are children: child number k first receives the Cartesian
  offset ((r · sin φ) · cos θ, r · cos φ, (r · sin φ) · sin θ) of the k-th predicted spherical triple (r, θ, φ), and then the
  tree's twenty-two edges are walked in a fixed order, each child adding its parent's position to its own. Six joints the
  tree never touches are finally set equal to six others. The result [4096, 64, 96] holds coordinate c % 3 of joint c / 3
  in column c (`Cert.Pose.G`, Proof/Pose.lean).

  The reference builds the array joint by joint on the whole batch, from zeros. The kernel walks the batch in sixty-four
  blocks of sixty-four rows, and in each block writes the same steps in the same order into a block it never clears:
  all thirty-two joints are written before they are read, so what the block held before does not matter
  (`Cert.Pose.pose_eq_table`). Both sides do the same additions and products in the same order, so the equality holds on
  all extended reals and the finiteness of the inputs is not used.

  The kernel's frames are the generated ones. Its value is Proof/KerArray.lean's `run` (one block: Proof/KerBlock.lean),
  the reference's Proof/RefRun.lean's `run`; the reference's frame is its run with the result forgotten. The ideal
  pass rewrote nothing, so `preserves` has nothing to state.
-/
import proofs.«155983_j18339510354491_1_alg».proof.Defs
import proofs.«155983_j18339510354491_1_alg».proof.Proof.Gen.Kernel
import proofs.«155983_j18339510354491_1_alg».proof.Proof.Gen.Kernel.Skeleton
import proofs.«155983_j18339510354491_1_alg».proof.Proof.Gen.Kernel.Launch
import proofs.«155983_j18339510354491_1_alg».proof.Proof.Gen.Kernel.Points
import proofs.«155983_j18339510354491_1_alg».proof.Proof.Gen.Kernel.Frame
import proofs.«155983_j18339510354491_1_alg».proof.Proof.Gen.KernelIdeal
import proofs.«155983_j18339510354491_1_alg».proof.Proof.Gen.KernelIdeal.Skeleton
import proofs.«155983_j18339510354491_1_alg».proof.Proof.Gen.KernelIdeal.Launch
import proofs.«155983_j18339510354491_1_alg».proof.Proof.Gen.KernelIdeal.Points
import proofs.«155983_j18339510354491_1_alg».proof.Proof.Gen.KernelIdeal.Frame
import proofs.«155983_j18339510354491_1_alg».proof.Proof.Gen.KernelIdeal.Value
import proofs.«155983_j18339510354491_1_alg».proof.Proof.Gen.ReferenceIdeal
import proofs.«155983_j18339510354491_1_alg».proof.Proof.Gen.Pre_finite_inputs
import proofs.«155983_j18339510354491_1_alg».proof.Proof.KerArray
import proofs.«155983_j18339510354491_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments alone: its run, read, with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- Both programs end with the pose array `Cert.Pose.G` of their arguments, and the arguments agree. -/
theorem algebraic : Cert.algebraic_KernelIdeal_ReferenceIdeal := by
  intro m ρ m' ρ' _ hagree
  refine ⟨fun c => Cert.Pose.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KerValue.run m ρ, ?_⟩
  refine (θ_run Cert.ReferenceIdeal.defs _ _).mono (fun _ h c => ⟨(h c).1.trans ?_, (h c).2⟩) (Cert.ReferenceIdeal.RefValue.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
